-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16 : Shape := ⟨2, ![8192, 16]⟩
abbrev S8192x8192 : Shape := ⟨2, ![8192, 8192]⟩
abbrev S5x16x16 : Shape := ⟨3, ![5, 16, 16]⟩
abbrev S_ : Shape := ⟨0, ![]⟩

class Facts : Prop where
  bcast_S_S8192x16 : S_.BroadcastsInDim S8192x16 (![] : Fin 0 → Fin S8192x16.rank)
  reducesTo_S8192x16_S_d0_1 : S8192x16.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S5x16x16 : S_.BroadcastsInDim S5x16x16 (![] : Fin 0 → Fin S5x16x16.rank)
  reducesTo_S5x16x16_S_d0_1_2 : S5x16x16.ReducesTo [0, 1, 2] S_

variable [Facts]

def fn {F : FTy → Type} [FloatOps F] (main_arg0 : FVec F S8192x16 .f32) (main_arg1 : FVec F S8192x8192 .f32) (main_arg2 : FVec F S5x16x16 .f32) : IVec S_ 1 :=
  let main_v0 : FVec F S8192x16 .f32 := Host.absf main_arg0
  let main_cst : FVec F S_ .f32 := constant S_ .f32 0x7F800000#32
  let main_v1 : FVec F S8192x16 .f32 := broadcastInDim S8192x16 ![] bcast_S_S8192x16 main_cst
  let main_v2 : IVec S8192x16 1 := cmpf .olt main_v0 main_v1
  let main_c : IVec S_ 1 := constantI S_ 1 1#1
  let main_v3 : IVec S_ 1 := (fun x v => Host.reduce IntOp.andi x v reducesTo_S8192x16_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S5x16x16 .f32 := Host.absf main_arg2
  let main_cst_2 : FVec F S_ .f32 := constant S_ .f32 0x7F800000#32
  let main_v10 : FVec F S5x16x16 .f32 := broadcastInDim S5x16x16 ![] bcast_S_S5x16x16 main_cst_2
  let main_v11 : IVec S5x16x16 1 := cmpf .olt main_v9 main_v10
  let main_c_3 : IVec S_ 1 := constantI S_ 1 1#1
  let main_v12 : IVec S_ 1 := (fun x v => Host.reduce IntOp.andi x v reducesTo_S5x16x16_S_d0_1_2 h_S_) main_v11 main_c_3
  let main_v13 : IVec S_ 1 := andi main_v8 main_v12
  main_v13
-- ==== Kernel.lean ====
abbrev S8192x16 : Shape := ⟨2, ![8192, 16]⟩
abbrev S8192x8192 : Shape := ⟨2, ![8192, 8192]⟩
abbrev S5x16x16 : Shape := ⟨3, ![5, 16, 16]⟩
abbrev S1x16x16 : Shape := ⟨3, ![1, 16, 16]⟩
abbrev S16x16 : Shape := ⟨2, ![16, 16]⟩
abbrev S_ : Shape := ⟨0, ![]⟩
abbrev S2048x2048 : Shape := ⟨2, ![2048, 2048]⟩
abbrev S2048x16 : Shape := ⟨2, ![2048, 16]⟩

abbrev nBuf : Space → Nat
  | .hbm => 26
  | .vmem => 48
  | .smem => 0
  | _ => 0

abbrev bufTy : (tb : Table) → Fin (tcTables nBuf tb) → BufTy
  | .hbm, ⟨0, _⟩ => ⟨S8192x16, .f32⟩
  | .hbm, ⟨1, _⟩ => ⟨S8192x8192, .f32⟩
  | .hbm, ⟨2, _⟩ => ⟨S5x16x16, .f32⟩
  | .hbm, ⟨3, _⟩ => ⟨S8192x8192, .bf16⟩
  | .hbm, ⟨4, _⟩ => ⟨S1x16x16, .f32⟩
  | .hbm, ⟨5, _⟩ => ⟨S16x16, .f32⟩
  | .hbm, ⟨6, _⟩ => ⟨S8192x16, .f32⟩
  | .hbm, ⟨7, _⟩ => ⟨S_, .f32⟩
  | .hbm, ⟨8, _⟩ => ⟨S8192x16, .f32⟩
  | .hbm, ⟨9, _⟩ => ⟨S8192x16, .f32⟩
  | .hbm, ⟨10, _⟩ => ⟨S1x16x16, .f32⟩
  | .hbm, ⟨11, _⟩ => ⟨S16x16, .f32⟩
  | .hbm, ⟨12, _⟩ => ⟨S8192x16, .f32⟩
  | .hbm, ⟨13, _⟩ => ⟨S8192x16, .f32⟩
  | .hbm, ⟨14, _⟩ => ⟨S1x16x16, .f32⟩
  | .hbm, ⟨15, _⟩ => ⟨S16x16, .f32⟩
  | .hbm, ⟨16, _⟩ => ⟨S8192x16, .f32⟩
  | .hbm, ⟨17, _⟩ => ⟨S8192x16, .f32⟩
  | .hbm, ⟨18, _⟩ => ⟨S1x16x16, .f32⟩
  | .hbm, ⟨19, _⟩ => ⟨S16x16, .f32⟩
  | .hbm, ⟨20, _⟩ => ⟨S8192x16, .f32⟩
  | .hbm, ⟨21, _⟩ => ⟨S8192x16, .f32⟩
  | .hbm, ⟨22, _⟩ => ⟨S1x16x16, .f32⟩
  | .hbm, ⟨23, _⟩ => ⟨S16x16, .f32⟩
  | .hbm, ⟨24, _⟩ => ⟨S8192x16, .f32⟩
  | .hbm, ⟨25, _⟩ => ⟨S8192x16, .f32⟩
  | .local _ .vmem, ⟨0, _⟩ => ⟨S2048x2048, .bf16⟩
  | .local _ .vmem, ⟨1, _⟩ => ⟨S2048x2048, .bf16⟩
  | .local _ .vmem, ⟨2, _⟩ => ⟨S2048x16, .f32⟩
  | .local _ .vmem, ⟨3, _⟩ => ⟨S2048x16, .f32⟩
  | .local _ .vmem, ⟨4, _⟩ => ⟨S16x16, .f32⟩
  | .local _ .vmem, ⟨5, _⟩ => ⟨S2048x16, .f32⟩
  | .local _ .vmem, ⟨6, _⟩ => ⟨S2048x16, .f32⟩
  | .local _ .vmem, ⟨7, _⟩ => ⟨S2048x16, .f32⟩
  | .local _ .vmem, ⟨8, _⟩ => ⟨S2048x16, .f32⟩
  | .local _ .vmem, ⟨9, _⟩ => ⟨S2048x16, .f32⟩
  | .local _ .vmem, ⟨10, _⟩ => ⟨S2048x16, .f32⟩
  | .local _ .vmem, ⟨11, _⟩ => ⟨S2048x16, .f32⟩
  | .local _ .vmem, ⟨12, _⟩ => ⟨S2048x2048, .bf16⟩
  | .local _ .vmem, ⟨13, _⟩ => ⟨S2048x2048, .bf16⟩
  | .local _ .vmem, ⟨14, _⟩ => ⟨S2048x16, .f32⟩
  | .local _ .vmem, ⟨15, _⟩ => ⟨S2048x16, .f32⟩
  | .local _ .vmem, ⟨16, _⟩ => ⟨S16x16, .f32⟩
  | .local _ .vmem, ⟨17, _⟩ => ⟨S2048x16, .f32⟩
  | .local _ .vmem, ⟨18, _⟩ => ⟨S2048x16, .f32⟩
  | .local _ .vmem, ⟨19, _⟩ => ⟨S2048x16, .f32⟩
  | .local _ .vmem, ⟨20, _⟩ => ⟨S2048x16, .f32⟩
  | .local _ .vmem, ⟨21, _⟩ => ⟨S2048x16, .f32⟩
  | .local _ .vmem, ⟨22, _⟩ => ⟨S2048x16, .f32⟩
  | .local _ .vmem, ⟨23, _⟩ => ⟨S2048x16, .f32⟩
  | .local _ .vmem, ⟨24, _⟩ => ⟨S2048x2048, .bf16⟩
  | .local _ .vmem, ⟨25, _⟩ => ⟨S2048x2048, .bf16⟩
  | .local _ .vmem, ⟨26, _⟩ => ⟨S2048x16, .f32⟩
  | .local _ .vmem, ⟨27, _⟩ => ⟨S2048x16, .f32⟩
  | .local _ .vmem, ⟨28, _⟩ => ⟨S16x16, .f32⟩
  | .local _ .vmem, ⟨29, _⟩ => ⟨S2048x16, .f32⟩
  | .local _ .vmem, ⟨30, _⟩ => ⟨S2048x16, .f32⟩
  | .local _ .vmem, ⟨31, _⟩ => ⟨S2048x16, .f32⟩
  | .local _ .vmem, ⟨32, _⟩ => ⟨S2048x16, .f32⟩
  | .local _ .vmem, ⟨33, _⟩ => ⟨S2048x16, .f32⟩
  | .local _ .vmem, ⟨34, _⟩ => ⟨S2048x16, .f32⟩
  | .local _ .vmem, ⟨35, _⟩ => ⟨S2048x16, .f32⟩
  | .local _ .vmem, ⟨36, _⟩ => ⟨S2048x2048, .bf16⟩
  | .local _ .vmem, ⟨37, _⟩ => ⟨S2048x2048, .bf16⟩
  | .local _ .vmem, ⟨38, _⟩ => ⟨S2048x16, .f32⟩
  | .local _ .vmem, ⟨39, _⟩ => ⟨S2048x16, .f32⟩
  | .local _ .vmem, ⟨40, _⟩ => ⟨S16x16, .f32⟩
  | .local _ .vmem, ⟨41, _⟩ => ⟨S2048x16, .f32⟩
  | .local _ .vmem, ⟨42, _⟩ => ⟨S2048x16, .f32⟩
  | .local _ .vmem, ⟨43, _⟩ => ⟨S2048x16, .f32⟩
  | .local _ .vmem, ⟨44, _⟩ => ⟨S2048x16, .f32⟩
  | .local _ .vmem, ⟨45, _⟩ => ⟨S2048x16, .f32⟩
  | .local _ .vmem, ⟨46, _⟩ => ⟨S2048x16, .f32⟩
  | .local _ .vmem, ⟨47, _⟩ => ⟨S2048x16, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_scratch0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg5_1 : Ref sig .tc := ⟨.vmem, 34, rfl⟩
abbrev cc2_scratch0 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg3_1 : Ref sig .tc := ⟨.vmem, 42, rfl⟩
abbrev cc3_stg4_0 : Ref sig .tc := ⟨.vmem, 43, rfl⟩
abbrev cc3_stg4_1 : Ref sig .tc := ⟨.vmem, 44, rfl⟩
abbrev cc3_stg5_0 : Ref sig .tc := ⟨.vmem, 45, rfl⟩
abbrev cc3_stg5_1 : Ref sig .tc := ⟨.vmem, 46, rfl⟩
abbrev cc3_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem3_1 : DmaSem sig := 39
abbrev cc3_sem4_0 : DmaSem sig := 40
abbrev cc3_sem4_1 : DmaSem sig := 41
abbrev cc3_sem5_0 : DmaSem sig := 42
abbrev cc3_sem5_1 : DmaSem sig := 43

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2048x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2048x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S16x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S2048x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S2048x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨2, ![4, 4], ![false, false]⟩

def k3_cond2 (i : grid3.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S16x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S2048x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S2048x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S2048x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

class Facts₀ : Prop where
  bitsLt_bf16_f32 : FTy.bits .bf16 < FTy.bits .f32
  slices_S5x16x16_S1x16x16_0_0_0 : S5x16x16.Slices ![0, 0, 0] S1x16x16
  shapeCasts_S1x16x16_S16x16 : S1x16x16.ShapeCasts S16x16
  bcast_S_S8192x16 : S_.BroadcastsInDim S8192x16 (![] : Fin 0 → Fin S8192x16.rank)
  slices_S5x16x16_S1x16x16_1_0_0 : S5x16x16.Slices ![1, 0, 0] S1x16x16
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S16x16_S16x16_0_0 : ∀ a, (![0, 0] : Fin 2 → Nat) a + S16x16.size a ≤ S16x16.size a
  h_S16x16 : 0 < S16x16.numel
  shapeCasts_S16x16_S16x16 : S16x16.ShapeCasts S16x16
  slices_S5x16x16_S1x16x16_2_0_0 : S5x16x16.Slices ![2, 0, 0] S1x16x16
  slices_S5x16x16_S1x16x16_3_0_0 : S5x16x16.Slices ![3, 0, 0] S1x16x16
  slices_S5x16x16_S1x16x16_4_0_0 : S5x16x16.Slices ![4, 0, 0] S1x16x16
  dot_S8192x16_S16x16_S8192x16_1_0_0_1_n_n_wf : DotDims.WF S8192x16 S16x16 S8192x16 [1] [0] [0] [1] [] []
  dot_S2048x2048_S2048x16_S2048x16_1_0_0_1_n_n_wf : DotDims.WF S2048x2048 S2048x16 S2048x16 [1] [0] [0] [1] [] []
  dot_S2048x16_S16x16_S2048x16_1_0_0_1_n_n_wf : DotDims.WF S2048x16 S16x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x8192.size a
  hwx0_0 : ∀ i : grid0.Coords, EltTy.bits .bf16 = 32 ∨ (Rect.block (s := S8192x8192) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S8192x16.size a
  hwx0_1 : ∀ i : grid0.Coords, EltTy.bits .f32 = 32 ∨ (Rect.block (s := S8192x16) S2048x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x16.size a ≤ S16x16.size a
  hwx0_2 : ∀ i : grid0.Coords, EltTy.bits .f32 = 32 ∨ (Rect.block (s := S16x16) S16x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S8192x16.size a
  hwx0_3 : ∀ i : grid0.Coords, EltTy.bits .f32 = 32 ∨ (Rect.block (s := S8192x16) S2048x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x16.size a ≤ S8192x16.size a
  hwx0_4 : ∀ i : grid0.Coords, EltTy.bits .f32 = 32 ∨ (Rect.block (s := S8192x16) S2048x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x16.size a ≤ S8192x16.size a
  hwx0_5 : ∀ i : grid0.Coords, EltTy.bits .f32 = 32 ∨ (Rect.block (s := S8192x16) S2048x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .bf16 = 32 ∨ (Rect.block (s := S8192x8192) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x16.size a ≤ S8192x16.size a
  hwx1_1 : ∀ i : grid1.Coords, EltTy.bits .f32 = 32 ∨ (Rect.block (s := S8192x16) S2048x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x16.size a ≤ S8192x16.size a
  hwx1_3 : ∀ i : grid1.Coords, EltTy.bits .f32 = 32 ∨ (Rect.block (s := S8192x16) S2048x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x16.size a ≤ S8192x16.size a
  hwx1_4 : ∀ i : grid1.Coords, EltTy.bits .f32 = 32 ∨ (Rect.block (s := S8192x16) S2048x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x16.size a ≤ S8192x16.size a
  hwx1_5 : ∀ i : grid1.Coords, EltTy.bits .f32 = 32 ∨ (Rect.block (s := S8192x16) S2048x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x8192.size a
  hwx2_0 : ∀ i : grid2.Coords, EltTy.bits .bf16 = 32 ∨ (Rect.block (s := S8192x8192) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x16.size a ≤ S8192x16.size a
  hwx2_1 : ∀ i : grid2.Coords, EltTy.bits .f32 = 32 ∨ (Rect.block (s := S8192x16) S2048x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x16.size a ≤ S16x16.size a
  hwx2_2 : ∀ i : grid2.Coords, EltTy.bits .f32 = 32 ∨ (Rect.block (s := S16x16) S16x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x16.size a ≤ S8192x16.size a
  hwx2_3 : ∀ i : grid2.Coords, EltTy.bits .f32 = 32 ∨ (Rect.block (s := S8192x16) S2048x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x16.size a ≤ S8192x16.size a
  hwx2_4 : ∀ i : grid2.Coords, EltTy.bits .f32 = 32 ∨ (Rect.block (s := S8192x16) S2048x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x16.size a ≤ S8192x16.size a
  hwx2_5 : ∀ i : grid2.Coords, EltTy.bits .f32 = 32 ∨ (Rect.block (s := S8192x16) S2048x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S8192x8192.size a
  hwx3_0 : ∀ i : grid3.Coords, EltTy.bits .bf16 = 32 ∨ (Rect.block (s := S8192x8192) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x16.size a ≤ S8192x16.size a
  hwx3_1 : ∀ i : grid3.Coords, EltTy.bits .f32 = 32 ∨ (Rect.block (s := S8192x16) S2048x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x16.size a ≤ S16x16.size a
  hwx3_2 : ∀ i : grid3.Coords, EltTy.bits .f32 = 32 ∨ (Rect.block (s := S16x16) S16x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x16.size a ≤ S8192x16.size a
  hwx3_3 : ∀ i : grid3.Coords, EltTy.bits .f32 = 32 ∨ (Rect.block (s := S8192x16) S2048x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x16.size a ≤ S8192x16.size a
  hwx3_4 : ∀ i : grid3.Coords, EltTy.bits .f32 = 32 ∨ (Rect.block (s := S8192x16) S2048x16.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x16.size a ≤ S8192x16.size a
  hwx3_5 : ∀ i : grid3.Coords, EltTy.bits .f32 = 32 ∨ (Rect.block (s := S8192x16) S2048x16.size (cc3_transform_5 i) (hinb3_5 i)).WholeWords (EltTy.packing .f32)

variable [Facts₀]

def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf
def dot_S2048x2048_S2048x16_S2048x16_1_0_0_1_n_n : DotDims S2048x2048 S2048x16 S2048x16 where
  lhsContracting := [1]
  rhsContracting := [0]
  lhsNonContracting := [0]
  rhsNonContracting := [1]
  lhsBatch := []
  rhsBatch := []
  wf := dot_S2048x2048_S2048x16_S2048x16_1_0_0_1_n_n_wf
def dot_S2048x16_S16x16_S2048x16_1_0_0_1_n_n : DotDims S2048x16 S16x16 S2048x16 where
  lhsContracting := [1]
  rhsContracting := [0]
  lhsNonContracting := [0]
  rhsNonContracting := [1]
  lhsBatch := []
  rhsBatch := []
  wf := dot_S2048x16_S16x16_S2048x16_1_0_0_1_n_n_wf

abbrev win0_0 : Pipeline.Window sig grid0 :=
  Pipeline.Window.ofSpec (Memref.whole main_v0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S16x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S2048x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S2048x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v0) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_0) S2048x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7_1) S2048x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10_0) S2048x16.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10_1) S2048x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v0) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10_0) S2048x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S16x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10_1) S2048x16.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v13_0) S2048x16.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v13_1) S2048x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun i => !(k2_cond2 i == 1#1) | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v0) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13_0) S2048x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S16x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v13_1) S2048x16.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v16_0) S2048x16.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v16_1) S2048x16.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun i => !(k3_cond2 i == 1#1) | 5 => fun i => !(k3_cond2 i == 1#1) | ⟨_ + 6, h⟩ => absurd h (Nat.not_lt.2 (Nat.le_add_left _ _))

class Facts : Prop extends Facts₀ where

variable [Facts]
-- ==== ReferenceIdeal.lean ====
abbrev S8192x16 : Shape := ⟨2, ![8192, 16]⟩
abbrev S8192x8192 : Shape := ⟨2, ![8192, 8192]⟩
abbrev S5x16x16 : Shape := ⟨3, ![5, 16, 16]⟩
abbrev S1x16x16 : Shape := ⟨3, ![1, 16, 16]⟩
abbrev S16x16 : Shape := ⟨2, ![16, 16]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S8192x8192, .f32⟩
  | .hbm, ⟨2, _⟩ => ⟨S5x16x16, .f32⟩
  | .hbm, ⟨3, _⟩ => ⟨S1x16x16, .f32⟩
  | .hbm, ⟨4, _⟩ => ⟨S16x16, .f32⟩
  | .hbm, ⟨5, _⟩ => ⟨S8192x16, .f32⟩
  | .hbm, ⟨6, _⟩ => ⟨S_, .f32⟩
  | .hbm, ⟨7, _⟩ => ⟨S8192x16, .f32⟩
  | .hbm, ⟨8, _⟩ => ⟨S8192x16, .f32⟩
  | .hbm, ⟨9, _⟩ => ⟨S8192x16, .f32⟩
  | .hbm, ⟨10, _⟩ => ⟨S1x16x16, .f32⟩
  | .hbm, ⟨11, _⟩ => ⟨S16x16, .f32⟩
  | .hbm, ⟨12, _⟩ => ⟨S8192x16, .f32⟩
  | .hbm, ⟨13, _⟩ => ⟨S_, .f32⟩
  | .hbm, ⟨14, _⟩ => ⟨S8192x16, .f32⟩
  | .hbm, ⟨15, _⟩ => ⟨S8192x16, .f32⟩
  | .hbm, ⟨16, _⟩ => ⟨S8192x16, .f32⟩
  | .hbm, ⟨17, _⟩ => ⟨S8192x16, .f32⟩
  | .hbm, ⟨18, _⟩ => ⟨S1x16x16, .f32⟩
  | .hbm, ⟨19, _⟩ => ⟨S16x16, .f32⟩
  | .hbm, ⟨20, _⟩ => ⟨S8192x16, .f32⟩
  | .hbm, ⟨21, _⟩ => ⟨S_, .f32⟩
  | .hbm, ⟨22, _⟩ => ⟨S8192x16, .f32⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S1x16x16, .f32⟩
  | .hbm, ⟨27, _⟩ => ⟨S16x16, .f32⟩
  | .hbm, ⟨28, _⟩ => ⟨S8192x16, .f32⟩
  | .hbm, ⟨29, _⟩ => ⟨S_, .f32⟩
  | .hbm, ⟨30, _⟩ => ⟨S8192x16, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S1x16x16, .f32⟩
  | .hbm, ⟨35, _⟩ => ⟨S16x16, .f32⟩
  | .hbm, ⟨36, _⟩ => ⟨S8192x16, .f32⟩
  | .hbm, ⟨37, _⟩ => ⟨S_, .f32⟩
  | .hbm, ⟨38, _⟩ => ⟨S8192x16, .f32⟩
  | .hbm, ⟨39, _⟩ => ⟨S8192x16, .f32⟩
  | .hbm, ⟨40, _⟩ => ⟨S8192x16, .f32⟩
  | .hbm, ⟨41, _⟩ => ⟨S_, .f32⟩
  | .hbm, ⟨42, _⟩ => ⟨S8192x16, .f32⟩
  | .hbm, ⟨43, _⟩ => ⟨S8192x16, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call1_cst : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call2_cst : Ref sig .tc := ⟨.hbm, 21, rfl⟩
abbrev main_call2_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call3_cst : Ref sig .tc := ⟨.hbm, 29, rfl⟩
abbrev main_call3_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call4_cst : Ref sig .tc := ⟨.hbm, 37, rfl⟩
abbrev main_call4_v0 : Ref sig .tc := ⟨.hbm, 38, rfl⟩
abbrev main_v26 : Ref sig .tc := ⟨.hbm, 39, rfl⟩
abbrev main_v27 : Ref sig .tc := ⟨.hbm, 40, rfl⟩
abbrev main_call5_cst : Ref sig .tc := ⟨.hbm, 41, rfl⟩
abbrev main_call5_v0 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  slices_S5x16x16_S1x16x16_0_0_0 : S5x16x16.Slices ![0, 0, 0] S1x16x16
  shapeCasts_S1x16x16_S16x16 : S1x16x16.ShapeCasts S16x16
  bcast_S_S8192x16 : S_.BroadcastsInDim S8192x16 (![] : Fin 0 → Fin S8192x16.rank)
  slices_S5x16x16_S1x16x16_1_0_0 : S5x16x16.Slices ![1, 0, 0] S1x16x16
  slices_S5x16x16_S1x16x16_2_0_0 : S5x16x16.Slices ![2, 0, 0] S1x16x16
  slices_S5x16x16_S1x16x16_3_0_0 : S5x16x16.Slices ![3, 0, 0] S1x16x16
  slices_S5x16x16_S1x16x16_4_0_0 : S5x16x16.Slices ![4, 0, 0] S1x16x16
  dot_S8192x16_S16x16_S8192x16_1_0_0_1_n_n_wf : DotDims.WF S8192x16 S16x16 S8192x16 [1] [0] [0] [1] [] []
  dot_S8192x8192_S8192x16_S8192x16_1_0_0_1_n_n_wf : DotDims.WF S8192x8192 S8192x16 S8192x16 [1] [0] [0] [1] [] []

variable [Facts₀]

def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf
def dot_S8192x8192_S8192x16_S8192x16_1_0_0_1_n_n : DotDims S8192x8192 S8192x16 S8192x16 where
  lhsContracting := [1]
  rhsContracting := [0]
  lhsNonContracting := [0]
  rhsNonContracting := [1]
  lhsBatch := []
  rhsBatch := []
  wf := dot_S8192x8192_S8192x16_S8192x16_1_0_0_1_n_n_wf

class Facts : Prop extends Facts₀ where

variable [Facts]
-- ==== Proof.WHop0Points.lean ====
import proofs.«155136_j78743930404901_2_alg».proof.Proof.Gen.Kernel.Launch
import proofs.«155136_j78743930404901_2_alg».proof.Proof.Gen.Kernel.Skeleton
import proofs.«155136_j78743930404901_2_alg».proof.Proof.Gen.Kernel.Points
import Idealize.ShloMosaic.Lib.Pipeline.FrameBody
import Idealize.ShloMosaic.Lib.Ring
import Idealize.ShloMosaic.Lib.Tactic

/-!
# The sixteen grid points of the first propagation step

The grid is 4 × 4, point `t = 4 i + k`: `i` is the row of tiles, `k` the tile inside the row, `k` running fastest.
The body branches twice on `k` alone: it resets the scratch block when `k = 0`, and it finishes the row (stores both
output blocks) when `k = 3`. So a point is of one of three kinds — first of its row, middle, last of its row — and

* the two output windows are stored into only at the last point of a row, are written back exactly there, and are
  idle (their staging buffer handed back untouched) at the other three points;
* the four input windows are never idle.

Here: the two conditions in closed form over the point's number, those facts about the windows decided over the
sixteen points, and names for the memrefs the body is called with.
-/

set_option maxRecDepth 16384

noncomputable section

namespace Cert.Kernel.Hop0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- "This is the first tile of its row": the reset's condition, as the body computes it from the coordinate `k`. -/
abbrev isFirst (i : grid0.Coords) : Prop :=
  (Scalar.cmpi .ne (Scalar.extui (Scalar.cmpi .eq (BitVec.ofNat 32 (i 1).val) 0#32)) 0#32) = 1#1

/-- It holds exactly at the points `t ≡ 0 (mod 4)`. -/
theorem isFirst_iff : ∀ t : Fin cfg0.N, isFirst (grid0.coords t) ↔ t.val % 4 = 0 :=
  (by decide +kernel : ∀ t : Fin grid0.N, isFirst (grid0.coords t) ↔ t.val % 4 = 0)

/-- "This is the last tile of its row": the finishing branch's condition. -/
abbrev isLast (i : grid0.Coords) : Prop := k0_cond2 i = 1#1

/-- It holds exactly at the points `t ≡ 3 (mod 4)`. -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem in0_live : ∀ t : Fin cfg0.N, cfg0.idle 0 (grid0.coords t) = false := by decide +kernel
theorem in1_live : ∀ t : Fin cfg0.N, cfg0.idle 1 (grid0.coords t) = false := by decide +kernel
theorem in2_live : ∀ t : Fin cfg0.N, cfg0.idle 2 (grid0.coords t) = false := by decide +kernel
theorem in3_live : ∀ t : Fin cfg0.N, cfg0.idle 3 (grid0.coords t) = false := by decide +kernel

/-- Away from the end of a row the new features' block is idle, and is not written back. -/
theorem out4_idle : ∀ t : Fin cfg0.N, ¬isLast (grid0.coords t) → cfg0.idle 4 (grid0.coords t) = true := by decide +kernel
theorem out4_noFlush : ∀ t : Fin cfg0.N, ¬isLast (grid0.coords t) → (cfg0.win 4).flush t = false := by decide +kernel
/-- At the end of a row it is live. -/
theorem out4_live : ∀ t : Fin cfg0.N, isLast (grid0.coords t) → cfg0.idle 4 (grid0.coords t) = false := by decide +kernel

/-- The same for the running output's block. -/
theorem out5_idle : ∀ t : Fin cfg0.N, ¬isLast (grid0.coords t) → cfg0.idle 5 (grid0.coords t) = true := by decide +kernel
theorem out5_noFlush : ∀ t : Fin cfg0.N, ¬isLast (grid0.coords t) → (cfg0.win 5).flush t = false := by decide +kernel
theorem out5_live : ∀ t : Fin cfg0.N, isLast (grid0.coords t) → cfg0.idle 5 (grid0.coords t) = false := by decide +kernel

/-! ## The memrefs the body is called with at a point -/

abbrev ms0 (t : Fin cfg0.N) : Memref sig .tc .vmem S2048x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x16 .f32 := win0_5.stage (cfg0.slots t 5)
abbrev hs5 (t : Fin cfg0.N) : (ms5 t).IsWhole := hstage0_5 ((cfg0.slots t 5).cast nbuf0_5)

/-- The scratch block of partial sums: a whole scoped buffer of the call's own. -/
abbrev scratch : Memref sig .tc .vmem S2048x16 .f32 := Memref.whole cc0_scratch0

end Cert.Kernel.Hop0

end
-- ==== Proof.WHop0RunFirst.lean ====
import proofs.«155136_j78743930404901_2_alg».proof.Proof.WHop0Points

/-!
# The body at the first point of a row of tiles

The reset branch is taken, the finishing branch is not. Whatever the scratch block held — nothing at the very first
point, the previous row's finished block later — is overwritten by zeros before it is used; then the tile product is
added as at every point. Two stores into the scratch, each covering it whole; the later one is what it ends with.
The weight matrix, the incoming output block and both output windows are not touched.
-/

set_option maxRecDepth 16384

noncomputable section

namespace Cert.Kernel.Hop0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt` and the scratch at anything, the body runs to the end, leaves the tiles as they were
    and the scratch with the pieces `LS` written over it. -/
noncomputable def runFirst (c : Dev nD) (i : grid0.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : isFirst i) (hL : ¬isLast i)
    (lt : Vec F S2048x2048 .bf16) (xt : Vec F S2048x16 .f32) :
    { LS : List (View.Piece (Elt F) S2048x16 .f32) //
      ∀ (E : Set ℕ) (K : PUnit → sProp 𝕄),
        iprop(owns (c : Thread nD τ) a2 fullShare lt ∗ owns (c : Thread nD τ) a3 fullShare xt ∗ (∃ d, owns (c : Thread nD τ) a8 fullShare d)
            ∗ (iprop(owns (c : Thread nD τ) a2 fullShare lt ∗ owns (c : Thread nD τ) a3 fullShare xt
                ∗ (∃ f, a8.view.loc (c : Thread nD τ) ↦[a8.view.set]{fullShare} a8.view.writes (Elt F) f LS)) -∗ K ⟨⟩))
          ⊢ wp frame (wpE (defs₀ (F := F)) Variants.none c none) E (cc0__step_kernel i a2 h2 a3 h3 a4 h4 a5 h5 a6 h6 a7 h7 a8 h8) K } := by
  refine ⟨?_, fun E K => ?run⟩
  case run =>
    simp only [cc0__step_kernel_eq_skeleton]; unfold cc0__step_kernel_skel
    unfold owns
    iintro ⟨⟨%f2, %hf2, H2⟩, ⟨%f3, %hf3, H3⟩, ⟨%d8, %f8, -, H8⟩, Hk⟩
    obtain rfl := h2.eq_unread hf2; obtain rfl := h3.eq_unread hf3
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    iexists _; iexact H8

end Cert.Kernel.Hop0

end
-- ==== Proof.WHop0RunMiddle.lean ====
import proofs.«155136_j78743930404901_2_alg».proof.Proof.WHop0Points

/-!
# The body at a middle point of a row of tiles

Neither branch is taken. The body loads the Laplacian tile and the feature tile, loads the scratch block, and stores
back the scratch block plus the tile product: one store, covering the scratch whole. The weight matrix, the incoming
output block and both output windows are not touched at all, so the triple does not mention them.

The triple is stated on any whole memrefs; what the scratch ends with is given as the list of pieces the stores
wrote (here one), which the run itself determines.
-/

set_option maxRecDepth 16384

noncomputable section

namespace Cert.Kernel.Hop0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt` and the scratch at `sc`, the body runs to the end, leaves the tiles as they were
    and the scratch with the pieces `LS` written over it. -/
noncomputable def runMiddle (c : Dev nD) (i : grid0.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : ¬isFirst i) (hL : ¬isLast i)
    (lt : Vec F S2048x2048 .bf16) (xt : Vec F S2048x16 .f32) (sc : Vec F S2048x16 .f32) :
    { LS : List (View.Piece (Elt F) S2048x16 .f32) //
      ∀ (E : Set ℕ) (K : PUnit → sProp 𝕄),
        iprop(owns (c : Thread nD τ) a2 fullShare lt ∗ owns (c : Thread nD τ) a3 fullShare xt ∗ owns (c : Thread nD τ) a8 fullShare sc
            ∗ (iprop(owns (c : Thread nD τ) a2 fullShare lt ∗ owns (c : Thread nD τ) a3 fullShare xt
                ∗ (∃ f, a8.view.loc (c : Thread nD τ) ↦[a8.view.set]{fullShare} a8.view.writes (Elt F) f LS)) -∗ K ⟨⟩))
          ⊢ wp frame (wpE (defs₀ (F := F)) Variants.none c none) E (cc0__step_kernel i a2 h2 a3 h3 a4 h4 a5 h5 a6 h6 a7 h7 a8 h8) K } := by
  refine ⟨?_, fun E K => ?run⟩
  case run =>
    simp only [cc0__step_kernel_eq_skeleton]; unfold cc0__step_kernel_skel
    unfold owns
    iintro ⟨⟨%f2, %hf2, H2⟩, ⟨%f3, %hf3, H3⟩, ⟨%f8, %hf8, H8⟩, Hk⟩
    obtain rfl := h2.eq_unread hf2; obtain rfl := h3.eq_unread hf3; obtain rfl := h8.eq_unread hf8
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    iexists _; iexact H8

end Cert.Kernel.Hop0

end
-- ==== Proof.WHop0RunLast.lean ====
import proofs.«155136_j78743930404901_2_alg».proof.Proof.WHop0Points

/-!
# The body at the last point of a row of tiles

The reset branch is not taken, the finishing branch is. After the accumulation the scratch block is the finished
row block of new features: it is stored whole into the first output window; then, with the weight matrix and the
incoming output block, the rectified weight product added to the incoming block is stored whole into the second.
Both output windows are loaded before they are stored into (the values are not used), so they may hold anything.
-/

set_option maxRecDepth 16384

noncomputable section

namespace Cert.Kernel.Hop0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt`, the weights at `w`, the incoming block at `acc`, the scratch at `sc` and the two
    output windows at anything, the body runs to the end, leaves the four inputs as they were, and the two outputs
    and the scratch with the pieces `L6`, `L7`, `LS` written over them. -/
noncomputable def runLast (c : Dev nD) (i : grid0.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : ¬isFirst i) (hL : isLast i)
    (lt : Vec F S2048x2048 .bf16) (xt : Vec F S2048x16 .f32) (w : Vec F S16x16 .f32) (acc : Vec F S2048x16 .f32) (sc : Vec F S2048x16 .f32) :
    Σ' (L6 : List (View.Piece (Elt F) S2048x16 .f32)) (L7 : List (View.Piece (Elt F) S2048x16 .f32)),
    { LS : List (View.Piece (Elt F) S2048x16 .f32) //
      ∀ (E : Set ℕ) (K : PUnit → sProp 𝕄),
        iprop(owns (c : Thread nD τ) a2 fullShare lt ∗ owns (c : Thread nD τ) a3 fullShare xt ∗ owns (c : Thread nD τ) a4 fullShare w
            ∗ owns (c : Thread nD τ) a5 fullShare acc ∗ (∃ d, owns (c : Thread nD τ) a6 fullShare d) ∗ (∃ d, owns (c : Thread nD τ) a7 fullShare d)
            ∗ owns (c : Thread nD τ) a8 fullShare sc
            ∗ (iprop(owns (c : Thread nD τ) a2 fullShare lt ∗ owns (c : Thread nD τ) a3 fullShare xt ∗ owns (c : Thread nD τ) a4 fullShare w
                ∗ owns (c : Thread nD τ) a5 fullShare acc
                ∗ (∃ f, a6.view.loc (c : Thread nD τ) ↦[a6.view.set]{fullShare} a6.view.writes (Elt F) f L6)
                ∗ (∃ f, a7.view.loc (c : Thread nD τ) ↦[a7.view.set]{fullShare} a7.view.writes (Elt F) f L7)
                ∗ (∃ f, a8.view.loc (c : Thread nD τ) ↦[a8.view.set]{fullShare} a8.view.writes (Elt F) f LS)) -∗ K ⟨⟩))
          ⊢ wp frame (wpE (defs₀ (F := F)) Variants.none c none) E (cc0__step_kernel i a2 h2 a3 h3 a4 h4 a5 h5 a6 h6 a7 h7 a8 h8) K } := by
  refine ⟨?_, ?_, ?_, fun E K => ?run⟩
  case run =>
    simp only [cc0__step_kernel_eq_skeleton]; unfold cc0__step_kernel_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    obtain rfl := h2.eq_unread hf2; obtain rfl := h3.eq_unread hf3; obtain rfl := h4.eq_unread hf4
    obtain rfl := h5.eq_unread hf5; obtain rfl := h8.eq_unread hf8
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact H8

end Cert.Kernel.Hop0

end
-- ==== Proof.WHop0Data.lean ====
import proofs.«155136_j78743930404901_2_alg».proof.Proof.WHop0RunFirst
import proofs.«155136_j78743930404901_2_alg».proof.Proof.WHop0RunMiddle
import proofs.«155136_j78743930404901_2_alg».proof.Proof.WHop0RunLast

/-!
# The first propagation step, point by point

What the scratch block and the two output blocks hold after each of the sixteen points, by recursion on the point:

* after the first point of a row of tiles the scratch holds what the reset-and-accumulate run leaves, computed from
  that point's Laplacian tile and feature tile alone;
* after a middle point, what the accumulate run leaves, computed from the point's tiles and from what the point
  before left in the scratch;
* after the last point of a row the same, and the two output blocks hold what the finishing stores leave, computed
  from the point's tiles, the weight matrix, the incoming output block, and what the point before left in the scratch.

At the first three points of a row the output windows are idle: their staging buffers are handed back as found, and
what they "hold" there is a placeholder nobody reads.

Everything is stated relative to `V`, the contents of the core's buffers when the step is entered. The region's
invariant carries the scratch at the recursion's value from one point to the next (before the very first point it
is just "the call's scoped buffers at anything"), the other calls' scoped buffers unopened, and the generator
register at some state.
-/

set_option maxRecDepth 16384

noncomputable section

namespace Cert.Kernel.Hop0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, and views to read contents through -/

/-- Window `w`'s block at point `t`, read off its array as the step finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch as a view, and one staging buffer of each output window: contents are stated through them (the
    choice does not matter once the pieces cover). -/
abbrev VS : View sig .tc .vmem S2048x16 .f32 := (scratch : Memref sig .tc .vmem S2048x16 .f32).view
abbrev VO4 : View sig .tc .vmem S2048x16 .f32 := (Memref.whole cc0_stg4_0 : Memref sig .tc .vmem S2048x16 .f32).view
abbrev VO5 : View sig .tc .vmem S2048x16 .f32 := (Memref.whole cc0_stg5_0 : Memref sig .tc .vmem S2048x16 .f32).view

/-! ## The three runs at a point's own memrefs -/

abbrev firstRun (c : Dev nD) (t : Fin cfg0.N) (hF : isFirst (grid0.coords t)) (hL : ¬isLast (grid0.coords t))
    (lt : Vec F S2048x2048 .bf16) (xt : Vec F S2048x16 .f32) :=
  runFirst (F := F) c (grid0.coords t) (ms0 t) (hs0 t) (ms1 t) (hs1 t) (ms2 t) (hs2 t) (ms3 t) (hs3 t) (ms4 t) (hs4 t) (ms5 t) (hs5 t) scratch (Memref.isWhole_whole _) hF hL lt xt
abbrev middleRun (c : Dev nD) (t : Fin cfg0.N) (hF : ¬isFirst (grid0.coords t)) (hL : ¬isLast (grid0.coords t))
    (lt : Vec F S2048x2048 .bf16) (xt : Vec F S2048x16 .f32) (sc : Vec F S2048x16 .f32) :=
  runMiddle (F := F) c (grid0.coords t) (ms0 t) (hs0 t) (ms1 t) (hs1 t) (ms2 t) (hs2 t) (ms3 t) (hs3 t) (ms4 t) (hs4 t) (ms5 t) (hs5 t) scratch (Memref.isWhole_whole _) hF hL lt xt sc
abbrev lastRun (c : Dev nD) (t : Fin cfg0.N) (hF : ¬isFirst (grid0.coords t)) (hL : isLast (grid0.coords t))
    (lt : Vec F S2048x2048 .bf16) (xt : Vec F S2048x16 .f32) (w : Vec F S16x16 .f32) (acc : Vec F S2048x16 .f32) (sc : Vec F S2048x16 .f32) :=
  runLast (F := F) c (grid0.coords t) (ms0 t) (hs0 t) (ms1 t) (hs1 t) (ms2 t) (hs2 t) (ms3 t) (hs3 t) (ms4 t) (hs4 t) (ms5 t) (hs5 t) scratch (Memref.isWhole_whole _) hF hL lt xt w acc sc

/-! ## What each run leaves, and that its pieces cover -/

/-- The scratch after the first point of a row. -/
def scFirst (c : Dev nD) (t : Fin cfg0.N) (hF : isFirst (grid0.coords t)) (hL : ¬isLast (grid0.coords t))
    (lt : Vec F S2048x2048 .bf16) (xt : Vec F S2048x16 .f32) : Vec F S2048x16 .f32 :=
  VS.read (Elt F) (VS.writes (Elt F) VS.junk (firstRun c t hF hL lt xt).1)
theorem scFirst_cover (c : Dev nD) (t : Fin cfg0.N) (hF : isFirst (grid0.coords t)) (hL : ¬isLast (grid0.coords t))
    (lt : Vec F S2048x2048 .bf16) (xt : Vec F S2048x16 .f32) (y : S2048x16.Idx) :
    ∃ pc ∈ (firstRun c t hF hL lt xt).1, y ∈ pc.1.set :=
  View.cover_of_tiledL (firstRun c t hF hL lt xt).1 S2048x16.size (by sl_kernel_rfl) y

/-- The scratch after a middle point. -/
def scMiddle (c : Dev nD) (t : Fin cfg0.N) (hF : ¬isFirst (grid0.coords t)) (hL : ¬isLast (grid0.coords t))
    (lt : Vec F S2048x2048 .bf16) (xt : Vec F S2048x16 .f32) (sc : Vec F S2048x16 .f32) : Vec F S2048x16 .f32 :=
  VS.read (Elt F) (VS.writes (Elt F) VS.junk (middleRun c t hF hL lt xt sc).1)
theorem scMiddle_cover (c : Dev nD) (t : Fin cfg0.N) (hF : ¬isFirst (grid0.coords t)) (hL : ¬isLast (grid0.coords t))
    (lt : Vec F S2048x2048 .bf16) (xt : Vec F S2048x16 .f32) (sc : Vec F S2048x16 .f32) (y : S2048x16.Idx) :
    ∃ pc ∈ (middleRun c t hF hL lt xt sc).1, y ∈ pc.1.set :=
  View.cover_of_tiledL (middleRun c t hF hL lt xt sc).1 S2048x16.size (by sl_kernel_rfl) y

/-- The new features' block, the running output's block and the scratch after the last point of a row. -/
def out4Last (c : Dev nD) (t : Fin cfg0.N) (hF : ¬isFirst (grid0.coords t)) (hL : isLast (grid0.coords t))
    (lt : Vec F S2048x2048 .bf16) (xt : Vec F S2048x16 .f32) (w : Vec F S16x16 .f32) (acc : Vec F S2048x16 .f32) (sc : Vec F S2048x16 .f32) : Vec F S2048x16 .f32 :=
  VO4.read (Elt F) (VO4.writes (Elt F) VO4.junk (lastRun c t hF hL lt xt w acc sc).1)
theorem out4Last_cover (c : Dev nD) (t : Fin cfg0.N) (hF : ¬isFirst (grid0.coords t)) (hL : isLast (grid0.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).1, y ∈ pc.1.set :=
  View.cover_of_tiledL (lastRun c t hF hL lt xt w acc sc).1 S2048x16.size (by sl_kernel_rfl) y
def out5Last (c : Dev nD) (t : Fin cfg0.N) (hF : ¬isFirst (grid0.coords t)) (hL : isLast (grid0.coords t))
    (lt : Vec F S2048x2048 .bf16) (xt : Vec F S2048x16 .f32) (w : Vec F S16x16 .f32) (acc : Vec F S2048x16 .f32) (sc : Vec F S2048x16 .f32) : Vec F S2048x16 .f32 :=
  VO5.read (Elt F) (VO5.writes (Elt F) VO5.junk (lastRun c t hF hL lt xt w acc sc).2.1)
theorem out5Last_cover (c : Dev nD) (t : Fin cfg0.N) (hF : ¬isFirst (grid0.coords t)) (hL : isLast (grid0.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).2.1, y ∈ pc.1.set :=
  View.cover_of_tiledL (lastRun c t hF hL lt xt w acc sc).2.1 S2048x16.size (by sl_kernel_rfl) y
def scLast (c : Dev nD) (t : Fin cfg0.N) (hF : ¬isFirst (grid0.coords t)) (hL : isLast (grid0.coords t))
    (lt : Vec F S2048x2048 .bf16) (xt : Vec F S2048x16 .f32) (w : Vec F S16x16 .f32) (acc : Vec F S2048x16 .f32) (sc : Vec F S2048x16 .f32) : Vec F S2048x16 .f32 :=
  VS.read (Elt F) (VS.writes (Elt F) VS.junk (lastRun c t hF hL lt xt w acc sc).2.2.1)
theorem scLast_cover (c : Dev nD) (t : Fin cfg0.N) (hF : ¬isFirst (grid0.coords t)) (hL : isLast (grid0.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).2.2.1, y ∈ pc.1.set :=
  View.cover_of_tiledL (lastRun c t hF hL lt xt w acc sc).2.2.1 S2048x16.size (by sl_kernel_rfl) y

/-! ## The accumulation over the sixteen points -/

/-- What an idle output window "holds": a placeholder nobody reads. -/
def idle4 : Vec F S2048x16 .f32 := VO4.read (Elt F) VO4.junk
def idle5 : Vec F S2048x16 .f32 := VO5.read (Elt F) VO5.junk

/-- After point `n`: the new features' block, the running output's block, the scratch. The kind of the point is read
    off `n mod 4`; a middle or last point takes the scratch the point before left. -/
def outsAt (c : Dev nD) : (n : ℕ) → n < cfg0.N → Vec F S2048x16 .f32 × Vec F S2048x16 .f32 × Vec F S2048x16 .f32
  | 0, hn =>
    (idle4, idle5,
      scFirst c ⟨0, hn⟩ ((isFirst_iff ⟨0, hn⟩).mpr (Nat.zero_mod _))
        (fun h => (fun h => by (try dsimp only at h); omega) ((isLast_iff ⟨0, hn⟩).mp h))
        (iblk V c 0 ⟨0, hn⟩) (iblk V c 1 ⟨0, hn⟩))
  | n + 1, hn =>
    if h0 : (n + 1) % 4 = 0 then
      (idle4, idle5,
        scFirst c ⟨n + 1, hn⟩ ((isFirst_iff ⟨n + 1, hn⟩).mpr h0) (fun h => (fun h => by (try dsimp only at h); omega) ((isLast_iff ⟨n + 1, hn⟩).mp h))
          (iblk V c 0 ⟨n + 1, hn⟩) (iblk V c 1 ⟨n + 1, hn⟩))
    else
      if h3 : (n + 1) % 4 = 3 then
        (out4Last c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2,
          out5Last c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2,
          scLast c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2)
      else
        (idle4, idle5,
          scMiddle c ⟨n + 1, hn⟩ (fun h => h0 ((isFirst_iff ⟨n + 1, hn⟩).mp h)) (fun h => h3 ((isLast_iff ⟨n + 1, hn⟩).mp h))
            (iblk V c 0 ⟨n + 1, hn⟩) (iblk V c 1 ⟨n + 1, hn⟩) (outsAt c n (Nat.lt_of_succ_lt hn)).2.2)

/-- At the first point of a row. -/
theorem outsAt_first (c : Dev nD) (t : Fin cfg0.N) (h0 : t.val % 4 = 0) (hL : ¬isLast (grid0.coords t)) :
    outsAt V c t.val t.isLt
      = (idle4, idle5, scFirst c t ((isFirst_iff t).mpr h0) hL (iblk V c 0 t) (iblk V c 1 t)) := by
  obtain ⟨n, hn⟩ := t
  cases n with
  | zero => exact rfl
  | succ n => exact dif_pos h0

/-- At a middle point: over what the point before left. -/
theorem outsAt_middle (c : Dev nD) (t : Fin cfg0.N) (h0 : ¬t.val % 4 = 0) (h3 : ¬t.val % 4 = 3) :
    outsAt V c t.val t.isLt
      = (idle4, idle5, scMiddle c t (fun h => h0 ((isFirst_iff t).mp h)) (fun h => h3 ((isLast_iff t).mp h))
          (iblk V c 0 t) (iblk V c 1 t) (outsAt V c (t.val - 1) (Nat.lt_of_le_of_lt (Nat.sub_le _ _) t.isLt)).2.2) := by
  obtain ⟨n, hn⟩ := t
  cases n with
  | zero => exact absurd (Nat.zero_mod _) h0
  | succ n => exact (dif_neg h0).trans (dif_neg h3)

/-- At the last point of a row: over what the point before left. -/
theorem outsAt_last (c : Dev nD) (t : Fin cfg0.N) (h0 : ¬t.val % 4 = 0) (h3 : t.val % 4 = 3) :
    outsAt V c t.val t.isLt
      = (out4Last c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2,
          out5Last c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2,
          scLast c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2) := by
  obtain ⟨n, hn⟩ := t
  cases n with
  | zero => exact absurd (Nat.zero_mod _) h0
  | succ n => exact (dif_neg h0).trans (dif_pos h3)

/-! ## The invariant between points -/

/-- Before the first point: the call's scoped buffers at anything and the generator register at some state. After
    point `n`: the scratch at what that point left, the other scoped buffers unopened, the generator register. -/
def PhiS (c : Dev nD) : (n : ℕ) → n ≤ cfg0.N → sProp 𝕄
  | 0, _ => Pipeline.ΦA spec0 c
  | n + 1, hn =>
    iprop(iprop(owns (c : Thread nD τ) scratch fullShare ((outsAt V c n hn).2.2)
        ∗ Pipeline.scopedRestBut (Ix := Unit) (Name := ℕ) (U := UR sig nD τ) (Lvl := ℕ) (Val := Elt F) spec0 c [cc0_scratch0])
      ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn
      = iprop(iprop(owns (c : Thread nD τ) scratch fullShare ((outsAt V c n hn).2.2)
          ∗ Pipeline.scopedRestBut (Ix := Unit) (Name := ℕ) (U := UR sig nD τ) (Lvl := ℕ) (Val := Elt F) spec0 c [cc0_scratch0])
        ∗ (∃ r, prngReg c r)) := rfl

theorem PhiS_pos (c : Dev nD) (n : ℕ) (h : n ≤ cfg0.N) (hz : n ≠ 0) :
    PhiS V c n h
      = iprop(iprop(owns (c : Thread nD τ) scratch fullShare ((outsAt V c (n - 1) (by omega)).2.2)
          ∗ Pipeline.scopedRestBut (Ix := Unit) (Name := ℕ) (U := UR sig nD τ) (Lvl := ℕ) (Val := Elt F) spec0 c [cc0_scratch0])
        ∗ (∃ r, prngReg c r)) := by
  cases n with
  | zero => exact absurd rfl hz
  | succ n => rfl

/-- The class's invariant with the call's scratch taken out as a memref owned at some contents. -/
theorem PhiA_eq (c : Dev nD) :
    (Pipeline.ΦA spec0 c : sProp 𝕄)
      = iprop(iprop((∃ d, owns (c : Thread nD τ) scratch fullShare d)
          ∗ Pipeline.scopedRestBut (Ix := Unit) (Name := ℕ) (U := UR sig nD τ) (Lvl := ℕ) (Val := Elt F) spec0 c [cc0_scratch0])
        ∗ (∃ r, prngReg c r)) := by
  unfold Pipeline.ΦA; rw [scopedRest0_split]; simp only [scratch, owns_whole]; try rfl

/-! ## The proof data -/

/-- The arrays as the step finds them; after the body each input's buffer at its block, the outputs' at the
    recursion's values; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = (outsAt V c t.val t.isLt).1 := by dsimp only [dat]
theorem after5 (c : Dev nD) (t : Fin cfg0.N) : (dat V c).after 5 t = (outsAt V c t.val t.isLt).2.1 := by dsimp only [dat]

/-- Each input's current staging buffer holds its block at every point, fetched there or not: where the block index
    did not move, the block is still the one fetched earlier. -/
theorem before0 (c : Dev nD) (t : Fin cfg0.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dat V c).before 3 t d = iblk V c 3 t :=
  ((dat V c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

end Cert.Kernel.Hop0

end
-- ==== Proof.WHop0Body.lean ====
import proofs.«155136_j78743930404901_2_alg».proof.Proof.WHop0Data

/-!
# The body obligation of the first propagation step

At every point the body, called with the point's staging buffers, takes the region's invariant from "after the point
before" to "after this point" and leaves each window's buffer as the proof data says:

* the four inputs at their blocks, untouched;
* at the first three points of a row the two output windows as found (they are idle and not written back there),
  and the scratch at the recursion's next value — over anything at the first point of a row, over what the point
  before left at a middle point;
* at the last point of a row both output windows at what the finishing stores leave.

The point's kind is decided by `t mod 4`, and each kind is one of the three runs of the body; what a run leaves
as a list of pieces written over unknown contents is the recursion's value because the pieces cover the block.
-/

set_option maxRecDepth 16384

noncomputable section

namespace Cert.Kernel.Hop0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
      unfold Dat.leavesExact; rw [in0_live t], after0]
  rw [show (dat V c).leavesExact 1 t = owns (c : Thread nD τ) (ms1 t) fullShare ((dat V c).after 1 t) from by
      unfold Dat.leavesExact; rw [in1_live t], after1]
  rw [show (dat V c).leavesExact 2 t = owns (c : Thread nD τ) (ms2 t) fullShare ((dat V c).after 2 t) from by
      unfold Dat.leavesExact; rw [in2_live t], after2]
  rw [show (dat V c).leavesExact 3 t = owns (c : Thread nD τ) (ms3 t) fullShare ((dat V c).after 3 t) from by
      unfold Dat.leavesExact; rw [in3_live t], after3]
  have hN : t.val < 16 := lt_of_lt_of_eq t.isLt (show cfg0.N = 16 from N_0)
  by_cases h0 : t.val % 4 = 0
  · -- the first point of a row
    have hF : isFirst (grid0.coords t) := (isFirst_iff t).mpr h0
    have hL : ¬isLast (grid0.coords t) := fun h => by have := (isLast_iff t).mp h; omega
    rw [Dat.leavesExact_idle (dat V c) 4 t (out4_idle t hL) (out4_noFlush t hL),
      Dat.leavesExact_idle (dat V c) 5 t (out5_idle t hL) (out5_noFlush t hL)]
    rw [outsAt_first V c t h0 hL]
    unfold scFirst; (try dsimp only)
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩, ⟨%d3, H3⟩, H4, H5⟩
      iapply ((firstRun c t hF hL (iblk V c 0 t) (iblk V c 1 t)).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scFirst_cover c t hF hL _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((firstRun c t hF hL (iblk V c 0 t) (iblk V c 1 t)).2 Set.univ _)
      isplitl [H0]; · iexact H0
      isplitl [H1]; · iexact H1
      isplitl [HS]; · iexists _; iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scFirst_cover c t hF hL _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
  · have hF : ¬isFirst (grid0.coords t) := fun h => h0 ((isFirst_iff t).mp h)
    have hz : t.val ≠ 0 := fun h => h0 (by rw [h])
    by_cases h3 : t.val % 4 = 3
    · -- the last point of a row
      have hL : isLast (grid0.coords t) := (isLast_iff t).mpr h3
      rw [show (dat V c).leavesExact 4 t = owns (c : Thread nD τ) (ms4 t) fullShare ((dat V c).after 4 t) from by
          unfold Dat.leavesExact; rw [out4_live t hL], after4]
      rw [show (dat V c).leavesExact 5 t = owns (c : Thread nD τ) (ms5 t) fullShare ((dat V c).after 5 t) from by
          unfold Dat.leavesExact; rw [out5_live t hL], after5]
      rw [outsAt_last V c t h0 h3]
      unfold out4Last out5Last scLast; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((lastRun c t hF hL (iblk V c 0 t) (iblk V c 1 t) (iblk V c 2 t) (iblk V c 3 t) _).2.2.2 Set.univ _)
      isplitl [H0]; · iexact H0
      isplitl [H1]; · iexact H1
      isplitl [H2]; · iexact H2
      isplitl [H3]; · iexact H3
      isplitl [H4]; · icases H4 with ⟨%d4, H4⟩; iexists _; iexact H4
      isplitl [H5]; · icases H5 with ⟨%d5, H5⟩; iexists _; iexact H5
      isplitl [HS]; · iexact HS
      iintro ⟨H0, H1, H2, H3, ⟨%e4, H4⟩, ⟨%e5, H5⟩, ⟨%es, HS⟩⟩
      isplitl [HS Hrest Hg]
      · isplitl [HS Hrest]
        · isplitl [HS]
          · unfold owns; iexists _; isplitr
            swap; · iexact HS
            ipureintro; exact View.read_writes_of_cover _ _ _ _ _ (scLast_cover c t hF hL _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (out4Last_cover c t hF hL _ _ _ _ _)
      unfold owns; iexists _; isplitr
      swap; · iexact H5
      ipureintro; exact View.read_writes_of_cover _ _ _ _ _ (out5Last_cover c t hF hL _ _ _ _ _)
    · -- a middle point
      have hL : ¬isLast (grid0.coords t) := fun h => h3 ((isLast_iff t).mp h)
      rw [Dat.leavesExact_idle (dat V c) 4 t (out4_idle t hL) (out4_noFlush t hL),
        Dat.leavesExact_idle (dat V c) 5 t (out5_idle t hL) (out5_noFlush t hL)]
      rw [outsAt_middle V c t h0 h3]
      unfold scMiddle; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((middleRun c t hF hL (iblk V c 0 t) (iblk V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scMiddle_cover c t hF hL _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant at the two ends -/

/-- What the region hands the step is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch's contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA_eq]
  iintro ⟨⟨HS, Hrest⟩, Hg⟩
  isplitl [HS Hrest]
  · isplitl [HS]
    · iexists _; iexact HS
    iexact Hrest
  iexact Hg

end Cert.Kernel.Hop0

end
-- ==== Proof.WHop1Points.lean ====
import proofs.«155136_j78743930404901_2_alg».proof.Proof.Gen.Kernel.Launch
import proofs.«155136_j78743930404901_2_alg».proof.Proof.Gen.Kernel.Skeleton
import proofs.«155136_j78743930404901_2_alg».proof.Proof.Gen.Kernel.Points
import Idealize.ShloMosaic.Lib.Pipeline.FrameBody
import Idealize.ShloMosaic.Lib.Ring
import Idealize.ShloMosaic.Lib.Tactic

/-!
# The sixteen grid points of the second propagation step

The grid is 4 × 4, point `t = 4 i + k`: `i` is the row of tiles, `k` the tile inside the row, `k` running fastest.
The body branches twice on `k` alone: it resets the scratch block when `k = 0`, and it finishes the row (stores both
output blocks) when `k = 3`. So a point is of one of three kinds — first of its row, middle, last of its row — and

* the two output windows are stored into only at the last point of a row, are written back exactly there, and are
  idle (their staging buffer handed back untouched) at the other three points;
* the four input windows are never idle.

Here: the two conditions in closed form over the point's number, those facts about the windows decided over the
sixteen points, and names for the memrefs the body is called with.
-/

set_option maxRecDepth 16384

noncomputable section

namespace Cert.Kernel.Hop1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- "This is the first tile of its row": the reset's condition, as the body computes it from the coordinate `k`. -/
abbrev isFirst (i : grid1.Coords) : Prop :=
  (Scalar.cmpi .ne (Scalar.extui (Scalar.cmpi .eq (BitVec.ofNat 32 (i 1).val) 0#32)) 0#32) = 1#1

/-- It holds exactly at the points `t ≡ 0 (mod 4)`. -/
theorem isFirst_iff : ∀ t : Fin cfg1.N, isFirst (grid1.coords t) ↔ t.val % 4 = 0 :=
  (by decide +kernel : ∀ t : Fin grid1.N, isFirst (grid1.coords t) ↔ t.val % 4 = 0)

/-- "This is the last tile of its row": the finishing branch's condition. -/
abbrev isLast (i : grid1.Coords) : Prop := k1_cond2 i = 1#1

/-- It holds exactly at the points `t ≡ 3 (mod 4)`. -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem in0_live : ∀ t : Fin cfg1.N, cfg1.idle 0 (grid1.coords t) = false := by decide +kernel
theorem in1_live : ∀ t : Fin cfg1.N, cfg1.idle 1 (grid1.coords t) = false := by decide +kernel
theorem in2_live : ∀ t : Fin cfg1.N, cfg1.idle 2 (grid1.coords t) = false := by decide +kernel
theorem in3_live : ∀ t : Fin cfg1.N, cfg1.idle 3 (grid1.coords t) = false := by decide +kernel

/-- Away from the end of a row the new features' block is idle, and is not written back. -/
theorem out4_idle : ∀ t : Fin cfg1.N, ¬isLast (grid1.coords t) → cfg1.idle 4 (grid1.coords t) = true := by decide +kernel
theorem out4_noFlush : ∀ t : Fin cfg1.N, ¬isLast (grid1.coords t) → (cfg1.win 4).flush t = false := by decide +kernel
/-- At the end of a row it is live. -/
theorem out4_live : ∀ t : Fin cfg1.N, isLast (grid1.coords t) → cfg1.idle 4 (grid1.coords t) = false := by decide +kernel

/-- The same for the running output's block. -/
theorem out5_idle : ∀ t : Fin cfg1.N, ¬isLast (grid1.coords t) → cfg1.idle 5 (grid1.coords t) = true := by decide +kernel
theorem out5_noFlush : ∀ t : Fin cfg1.N, ¬isLast (grid1.coords t) → (cfg1.win 5).flush t = false := by decide +kernel
theorem out5_live : ∀ t : Fin cfg1.N, isLast (grid1.coords t) → cfg1.idle 5 (grid1.coords t) = false := by decide +kernel

/-! ## The memrefs the body is called with at a point -/

abbrev ms0 (t : Fin cfg1.N) : Memref sig .tc .vmem S2048x2048 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x16 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S16x16 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S2048x16 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S2048x16 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S2048x16 .f32 := win1_5.stage (cfg1.slots t 5)
abbrev hs5 (t : Fin cfg1.N) : (ms5 t).IsWhole := hstage1_5 ((cfg1.slots t 5).cast nbuf1_5)

/-- The scratch block of partial sums: a whole scoped buffer of the call's own. -/
abbrev scratch : Memref sig .tc .vmem S2048x16 .f32 := Memref.whole cc1_scratch0

end Cert.Kernel.Hop1

end
-- ==== Proof.WHop1RunFirst.lean ====
import proofs.«155136_j78743930404901_2_alg».proof.Proof.WHop1Points

/-!
# The body at the first point of a row of tiles

The reset branch is taken, the finishing branch is not. Whatever the scratch block held — nothing at the very first
point, the previous row's finished block later — is overwritten by zeros before it is used; then the tile product is
added as at every point. Two stores into the scratch, each covering it whole; the later one is what it ends with.
The weight matrix, the incoming output block and both output windows are not touched.
-/

set_option maxRecDepth 16384

noncomputable section

namespace Cert.Kernel.Hop1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt` and the scratch at anything, the body runs to the end, leaves the tiles as they were
    and the scratch with the pieces `LS` written over it. -/
noncomputable def runFirst (c : Dev nD) (i : grid1.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : isFirst i) (hL : ¬isLast i)
    (lt : Vec F S2048x2048 .bf16) (xt : Vec F S2048x16 .f32) :
    { LS : List (View.Piece (Elt F) S2048x16 .f32) //
      ∀ (E : Set ℕ) (K : PUnit → sProp 𝕄),
        iprop(owns (c : Thread nD τ) a2 fullShare lt ∗ owns (c : Thread nD τ) a3 fullShare xt ∗ (∃ d, owns (c : Thread nD τ) a8 fullShare d)
            ∗ (iprop(owns (c : Thread nD τ) a2 fullShare lt ∗ owns (c : Thread nD τ) a3 fullShare xt
                ∗ (∃ f, a8.view.loc (c : Thread nD τ) ↦[a8.view.set]{fullShare} a8.view.writes (Elt F) f LS)) -∗ K ⟨⟩))
          ⊢ wp frame (wpE (defs₀ (F := F)) Variants.none c none) E (cc1__step_kernel i a2 h2 a3 h3 a4 h4 a5 h5 a6 h6 a7 h7 a8 h8) K } := by
  refine ⟨?_, fun E K => ?run⟩
  case run =>
    simp only [cc1__step_kernel_eq_skeleton]; unfold cc1__step_kernel_skel
    unfold owns
    iintro ⟨⟨%f2, %hf2, H2⟩, ⟨%f3, %hf3, H3⟩, ⟨%d8, %f8, -, H8⟩, Hk⟩
    obtain rfl := h2.eq_unread hf2; obtain rfl := h3.eq_unread hf3
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    iexists _; iexact H8

end Cert.Kernel.Hop1

end
-- ==== Proof.WHop1RunMiddle.lean ====
import proofs.«155136_j78743930404901_2_alg».proof.Proof.WHop1Points

/-!
# The body at a middle point of a row of tiles

Neither branch is taken. The body loads the Laplacian tile and the feature tile, loads the scratch block, and stores
back the scratch block plus the tile product: one store, covering the scratch whole. The weight matrix, the incoming
output block and both output windows are not touched at all, so the triple does not mention them.

The triple is stated on any whole memrefs; what the scratch ends with is given as the list of pieces the stores
wrote (here one), which the run itself determines.
-/

set_option maxRecDepth 16384

noncomputable section

namespace Cert.Kernel.Hop1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt` and the scratch at `sc`, the body runs to the end, leaves the tiles as they were
    and the scratch with the pieces `LS` written over it. -/
noncomputable def runMiddle (c : Dev nD) (i : grid1.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : ¬isFirst i) (hL : ¬isLast i)
    (lt : Vec F S2048x2048 .bf16) (xt : Vec F S2048x16 .f32) (sc : Vec F S2048x16 .f32) :
    { LS : List (View.Piece (Elt F) S2048x16 .f32) //
      ∀ (E : Set ℕ) (K : PUnit → sProp 𝕄),
        iprop(owns (c : Thread nD τ) a2 fullShare lt ∗ owns (c : Thread nD τ) a3 fullShare xt ∗ owns (c : Thread nD τ) a8 fullShare sc
            ∗ (iprop(owns (c : Thread nD τ) a2 fullShare lt ∗ owns (c : Thread nD τ) a3 fullShare xt
                ∗ (∃ f, a8.view.loc (c : Thread nD τ) ↦[a8.view.set]{fullShare} a8.view.writes (Elt F) f LS)) -∗ K ⟨⟩))
          ⊢ wp frame (wpE (defs₀ (F := F)) Variants.none c none) E (cc1__step_kernel i a2 h2 a3 h3 a4 h4 a5 h5 a6 h6 a7 h7 a8 h8) K } := by
  refine ⟨?_, fun E K => ?run⟩
  case run =>
    simp only [cc1__step_kernel_eq_skeleton]; unfold cc1__step_kernel_skel
    unfold owns
    iintro ⟨⟨%f2, %hf2, H2⟩, ⟨%f3, %hf3, H3⟩, ⟨%f8, %hf8, H8⟩, Hk⟩
    obtain rfl := h2.eq_unread hf2; obtain rfl := h3.eq_unread hf3; obtain rfl := h8.eq_unread hf8
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    iexists _; iexact H8

end Cert.Kernel.Hop1

end
-- ==== Proof.WHop1RunLast.lean ====
import proofs.«155136_j78743930404901_2_alg».proof.Proof.WHop1Points

/-!
# The body at the last point of a row of tiles

The reset branch is not taken, the finishing branch is. After the accumulation the scratch block is the finished
row block of new features: it is stored whole into the first output window; then, with the weight matrix and the
incoming output block, the rectified weight product added to the incoming block is stored whole into the second.
Both output windows are loaded before they are stored into (the values are not used), so they may hold anything.
-/

set_option maxRecDepth 16384

noncomputable section

namespace Cert.Kernel.Hop1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt`, the weights at `w`, the incoming block at `acc`, the scratch at `sc` and the two
    output windows at anything, the body runs to the end, leaves the four inputs as they were, and the two outputs
    and the scratch with the pieces `L6`, `L7`, `LS` written over them. -/
noncomputable def runLast (c : Dev nD) (i : grid1.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : ¬isFirst i) (hL : isLast i)
    (lt : Vec F S2048x2048 .bf16) (xt : Vec F S2048x16 .f32) (w : Vec F S16x16 .f32) (acc : Vec F S2048x16 .f32) (sc : Vec F S2048x16 .f32) :
    Σ' (L6 : List (View.Piece (Elt F) S2048x16 .f32)) (L7 : List (View.Piece (Elt F) S2048x16 .f32)),
    { LS : List (View.Piece (Elt F) S2048x16 .f32) //
      ∀ (E : Set ℕ) (K : PUnit → sProp 𝕄),
        iprop(owns (c : Thread nD τ) a2 fullShare lt ∗ owns (c : Thread nD τ) a3 fullShare xt ∗ owns (c : Thread nD τ) a4 fullShare w
            ∗ owns (c : Thread nD τ) a5 fullShare acc ∗ (∃ d, owns (c : Thread nD τ) a6 fullShare d) ∗ (∃ d, owns (c : Thread nD τ) a7 fullShare d)
            ∗ owns (c : Thread nD τ) a8 fullShare sc
            ∗ (iprop(owns (c : Thread nD τ) a2 fullShare lt ∗ owns (c : Thread nD τ) a3 fullShare xt ∗ owns (c : Thread nD τ) a4 fullShare w
                ∗ owns (c : Thread nD τ) a5 fullShare acc
                ∗ (∃ f, a6.view.loc (c : Thread nD τ) ↦[a6.view.set]{fullShare} a6.view.writes (Elt F) f L6)
                ∗ (∃ f, a7.view.loc (c : Thread nD τ) ↦[a7.view.set]{fullShare} a7.view.writes (Elt F) f L7)
                ∗ (∃ f, a8.view.loc (c : Thread nD τ) ↦[a8.view.set]{fullShare} a8.view.writes (Elt F) f LS)) -∗ K ⟨⟩))
          ⊢ wp frame (wpE (defs₀ (F := F)) Variants.none c none) E (cc1__step_kernel i a2 h2 a3 h3 a4 h4 a5 h5 a6 h6 a7 h7 a8 h8) K } := by
  refine ⟨?_, ?_, ?_, fun E K => ?run⟩
  case run =>
    simp only [cc1__step_kernel_eq_skeleton]; unfold cc1__step_kernel_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    obtain rfl := h2.eq_unread hf2; obtain rfl := h3.eq_unread hf3; obtain rfl := h4.eq_unread hf4
    obtain rfl := h5.eq_unread hf5; obtain rfl := h8.eq_unread hf8
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact H8

end Cert.Kernel.Hop1

end
-- ==== Proof.WHop1Data.lean ====
import proofs.«155136_j78743930404901_2_alg».proof.Proof.WHop1RunFirst
import proofs.«155136_j78743930404901_2_alg».proof.Proof.WHop1RunMiddle
import proofs.«155136_j78743930404901_2_alg».proof.Proof.WHop1RunLast

/-!
# The first propagation step, point by point

What the scratch block and the two output blocks hold after each of the sixteen points, by recursion on the point:

* after the first point of a row of tiles the scratch holds what the reset-and-accumulate run leaves, computed from
  that point's Laplacian tile and feature tile alone;
* after a middle point, what the accumulate run leaves, computed from the point's tiles and from what the point
  before left in the scratch;
* after the last point of a row the same, and the two output blocks hold what the finishing stores leave, computed
  from the point's tiles, the weight matrix, the incoming output block, and what the point before left in the scratch.

At the first three points of a row the output windows are idle: their staging buffers are handed back as found, and
what they "hold" there is a placeholder nobody reads.

Everything is stated relative to `V`, the contents of the core's buffers when the step is entered. The region's
invariant carries the scratch at the recursion's value from one point to the next (before the very first point it
is just "the call's scoped buffers at anything"), the other calls' scoped buffers unopened, and the generator
register at some state.
-/

set_option maxRecDepth 16384

noncomputable section

namespace Cert.Kernel.Hop1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, and views to read contents through -/

/-- Window `w`'s block at point `t`, read off its array as the step finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch as a view, and one staging buffer of each output window: contents are stated through them (the
    choice does not matter once the pieces cover). -/
abbrev VS : View sig .tc .vmem S2048x16 .f32 := (scratch : Memref sig .tc .vmem S2048x16 .f32).view
abbrev VO4 : View sig .tc .vmem S2048x16 .f32 := (Memref.whole cc1_stg4_0 : Memref sig .tc .vmem S2048x16 .f32).view
abbrev VO5 : View sig .tc .vmem S2048x16 .f32 := (Memref.whole cc1_stg5_0 : Memref sig .tc .vmem S2048x16 .f32).view

/-! ## The three runs at a point's own memrefs -/

abbrev firstRun (c : Dev nD) (t : Fin cfg1.N) (hF : isFirst (grid1.coords t)) (hL : ¬isLast (grid1.coords t))
    (lt : Vec F S2048x2048 .bf16) (xt : Vec F S2048x16 .f32) :=
  runFirst (F := F) c (grid1.coords t) (ms0 t) (hs0 t) (ms1 t) (hs1 t) (ms2 t) (hs2 t) (ms3 t) (hs3 t) (ms4 t) (hs4 t) (ms5 t) (hs5 t) scratch (Memref.isWhole_whole _) hF hL lt xt
abbrev middleRun (c : Dev nD) (t : Fin cfg1.N) (hF : ¬isFirst (grid1.coords t)) (hL : ¬isLast (grid1.coords t))
    (lt : Vec F S2048x2048 .bf16) (xt : Vec F S2048x16 .f32) (sc : Vec F S2048x16 .f32) :=
  runMiddle (F := F) c (grid1.coords t) (ms0 t) (hs0 t) (ms1 t) (hs1 t) (ms2 t) (hs2 t) (ms3 t) (hs3 t) (ms4 t) (hs4 t) (ms5 t) (hs5 t) scratch (Memref.isWhole_whole _) hF hL lt xt sc
abbrev lastRun (c : Dev nD) (t : Fin cfg1.N) (hF : ¬isFirst (grid1.coords t)) (hL : isLast (grid1.coords t))
    (lt : Vec F S2048x2048 .bf16) (xt : Vec F S2048x16 .f32) (w : Vec F S16x16 .f32) (acc : Vec F S2048x16 .f32) (sc : Vec F S2048x16 .f32) :=
  runLast (F := F) c (grid1.coords t) (ms0 t) (hs0 t) (ms1 t) (hs1 t) (ms2 t) (hs2 t) (ms3 t) (hs3 t) (ms4 t) (hs4 t) (ms5 t) (hs5 t) scratch (Memref.isWhole_whole _) hF hL lt xt w acc sc

/-! ## What each run leaves, and that its pieces cover -/

/-- The scratch after the first point of a row. -/
def scFirst (c : Dev nD) (t : Fin cfg1.N) (hF : isFirst (grid1.coords t)) (hL : ¬isLast (grid1.coords t))
    (lt : Vec F S2048x2048 .bf16) (xt : Vec F S2048x16 .f32) : Vec F S2048x16 .f32 :=
  VS.read (Elt F) (VS.writes (Elt F) VS.junk (firstRun c t hF hL lt xt).1)
theorem scFirst_cover (c : Dev nD) (t : Fin cfg1.N) (hF : isFirst (grid1.coords t)) (hL : ¬isLast (grid1.coords t))
    (lt : Vec F S2048x2048 .bf16) (xt : Vec F S2048x16 .f32) (y : S2048x16.Idx) :
    ∃ pc ∈ (firstRun c t hF hL lt xt).1, y ∈ pc.1.set :=
  View.cover_of_tiledL (firstRun c t hF hL lt xt).1 S2048x16.size (by sl_kernel_rfl) y

/-- The scratch after a middle point. -/
def scMiddle (c : Dev nD) (t : Fin cfg1.N) (hF : ¬isFirst (grid1.coords t)) (hL : ¬isLast (grid1.coords t))
    (lt : Vec F S2048x2048 .bf16) (xt : Vec F S2048x16 .f32) (sc : Vec F S2048x16 .f32) : Vec F S2048x16 .f32 :=
  VS.read (Elt F) (VS.writes (Elt F) VS.junk (middleRun c t hF hL lt xt sc).1)
theorem scMiddle_cover (c : Dev nD) (t : Fin cfg1.N) (hF : ¬isFirst (grid1.coords t)) (hL : ¬isLast (grid1.coords t))
    (lt : Vec F S2048x2048 .bf16) (xt : Vec F S2048x16 .f32) (sc : Vec F S2048x16 .f32) (y : S2048x16.Idx) :
    ∃ pc ∈ (middleRun c t hF hL lt xt sc).1, y ∈ pc.1.set :=
  View.cover_of_tiledL (middleRun c t hF hL lt xt sc).1 S2048x16.size (by sl_kernel_rfl) y

/-- The new features' block, the running output's block and the scratch after the last point of a row. -/
def out4Last (c : Dev nD) (t : Fin cfg1.N) (hF : ¬isFirst (grid1.coords t)) (hL : isLast (grid1.coords t))
    (lt : Vec F S2048x2048 .bf16) (xt : Vec F S2048x16 .f32) (w : Vec F S16x16 .f32) (acc : Vec F S2048x16 .f32) (sc : Vec F S2048x16 .f32) : Vec F S2048x16 .f32 :=
  VO4.read (Elt F) (VO4.writes (Elt F) VO4.junk (lastRun c t hF hL lt xt w acc sc).1)
theorem out4Last_cover (c : Dev nD) (t : Fin cfg1.N) (hF : ¬isFirst (grid1.coords t)) (hL : isLast (grid1.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).1, y ∈ pc.1.set :=
  View.cover_of_tiledL (lastRun c t hF hL lt xt w acc sc).1 S2048x16.size (by sl_kernel_rfl) y
def out5Last (c : Dev nD) (t : Fin cfg1.N) (hF : ¬isFirst (grid1.coords t)) (hL : isLast (grid1.coords t))
    (lt : Vec F S2048x2048 .bf16) (xt : Vec F S2048x16 .f32) (w : Vec F S16x16 .f32) (acc : Vec F S2048x16 .f32) (sc : Vec F S2048x16 .f32) : Vec F S2048x16 .f32 :=
  VO5.read (Elt F) (VO5.writes (Elt F) VO5.junk (lastRun c t hF hL lt xt w acc sc).2.1)
theorem out5Last_cover (c : Dev nD) (t : Fin cfg1.N) (hF : ¬isFirst (grid1.coords t)) (hL : isLast (grid1.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).2.1, y ∈ pc.1.set :=
  View.cover_of_tiledL (lastRun c t hF hL lt xt w acc sc).2.1 S2048x16.size (by sl_kernel_rfl) y
def scLast (c : Dev nD) (t : Fin cfg1.N) (hF : ¬isFirst (grid1.coords t)) (hL : isLast (grid1.coords t))
    (lt : Vec F S2048x2048 .bf16) (xt : Vec F S2048x16 .f32) (w : Vec F S16x16 .f32) (acc : Vec F S2048x16 .f32) (sc : Vec F S2048x16 .f32) : Vec F S2048x16 .f32 :=
  VS.read (Elt F) (VS.writes (Elt F) VS.junk (lastRun c t hF hL lt xt w acc sc).2.2.1)
theorem scLast_cover (c : Dev nD) (t : Fin cfg1.N) (hF : ¬isFirst (grid1.coords t)) (hL : isLast (grid1.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).2.2.1, y ∈ pc.1.set :=
  View.cover_of_tiledL (lastRun c t hF hL lt xt w acc sc).2.2.1 S2048x16.size (by sl_kernel_rfl) y

/-! ## The accumulation over the sixteen points -/

/-- What an idle output window "holds": a placeholder nobody reads. -/
def idle4 : Vec F S2048x16 .f32 := VO4.read (Elt F) VO4.junk
def idle5 : Vec F S2048x16 .f32 := VO5.read (Elt F) VO5.junk

/-- After point `n`: the new features' block, the running output's block, the scratch. The kind of the point is read
    off `n mod 4`; a middle or last point takes the scratch the point before left. -/
def outsAt (c : Dev nD) : (n : ℕ) → n < cfg1.N → Vec F S2048x16 .f32 × Vec F S2048x16 .f32 × Vec F S2048x16 .f32
  | 0, hn =>
    (idle4, idle5,
      scFirst c ⟨0, hn⟩ ((isFirst_iff ⟨0, hn⟩).mpr (Nat.zero_mod _))
        (fun h => (fun h => by (try dsimp only at h); omega) ((isLast_iff ⟨0, hn⟩).mp h))
        (iblk V c 0 ⟨0, hn⟩) (iblk V c 1 ⟨0, hn⟩))
  | n + 1, hn =>
    if h0 : (n + 1) % 4 = 0 then
      (idle4, idle5,
        scFirst c ⟨n + 1, hn⟩ ((isFirst_iff ⟨n + 1, hn⟩).mpr h0) (fun h => (fun h => by (try dsimp only at h); omega) ((isLast_iff ⟨n + 1, hn⟩).mp h))
          (iblk V c 0 ⟨n + 1, hn⟩) (iblk V c 1 ⟨n + 1, hn⟩))
    else
      if h3 : (n + 1) % 4 = 3 then
        (out4Last c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2,
          out5Last c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2,
          scLast c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2)
      else
        (idle4, idle5,
          scMiddle c ⟨n + 1, hn⟩ (fun h => h0 ((isFirst_iff ⟨n + 1, hn⟩).mp h)) (fun h => h3 ((isLast_iff ⟨n + 1, hn⟩).mp h))
            (iblk V c 0 ⟨n + 1, hn⟩) (iblk V c 1 ⟨n + 1, hn⟩) (outsAt c n (Nat.lt_of_succ_lt hn)).2.2)

/-- At the first point of a row. -/
theorem outsAt_first (c : Dev nD) (t : Fin cfg1.N) (h0 : t.val % 4 = 0) (hL : ¬isLast (grid1.coords t)) :
    outsAt V c t.val t.isLt
      = (idle4, idle5, scFirst c t ((isFirst_iff t).mpr h0) hL (iblk V c 0 t) (iblk V c 1 t)) := by
  obtain ⟨n, hn⟩ := t
  cases n with
  | zero => exact rfl
  | succ n => exact dif_pos h0

/-- At a middle point: over what the point before left. -/
theorem outsAt_middle (c : Dev nD) (t : Fin cfg1.N) (h0 : ¬t.val % 4 = 0) (h3 : ¬t.val % 4 = 3) :
    outsAt V c t.val t.isLt
      = (idle4, idle5, scMiddle c t (fun h => h0 ((isFirst_iff t).mp h)) (fun h => h3 ((isLast_iff t).mp h))
          (iblk V c 0 t) (iblk V c 1 t) (outsAt V c (t.val - 1) (Nat.lt_of_le_of_lt (Nat.sub_le _ _) t.isLt)).2.2) := by
  obtain ⟨n, hn⟩ := t
  cases n with
  | zero => exact absurd (Nat.zero_mod _) h0
  | succ n => exact (dif_neg h0).trans (dif_neg h3)

/-- At the last point of a row: over what the point before left. -/
theorem outsAt_last (c : Dev nD) (t : Fin cfg1.N) (h0 : ¬t.val % 4 = 0) (h3 : t.val % 4 = 3) :
    outsAt V c t.val t.isLt
      = (out4Last c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2,
          out5Last c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2,
          scLast c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2) := by
  obtain ⟨n, hn⟩ := t
  cases n with
  | zero => exact absurd (Nat.zero_mod _) h0
  | succ n => exact (dif_neg h0).trans (dif_pos h3)

/-! ## The invariant between points -/

/-- Before the first point: the call's scoped buffers at anything and the generator register at some state. After
    point `n`: the scratch at what that point left, the other scoped buffers unopened, the generator register. -/
def PhiS (c : Dev nD) : (n : ℕ) → n ≤ cfg1.N → sProp 𝕄
  | 0, _ => Pipeline.ΦA spec1 c
  | n + 1, hn =>
    iprop(iprop(owns (c : Thread nD τ) scratch fullShare ((outsAt V c n hn).2.2)
        ∗ Pipeline.scopedRestBut (Ix := Unit) (Name := ℕ) (U := UR sig nD τ) (Lvl := ℕ) (Val := Elt F) spec1 c [cc1_scratch0])
      ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn
      = iprop(iprop(owns (c : Thread nD τ) scratch fullShare ((outsAt V c n hn).2.2)
          ∗ Pipeline.scopedRestBut (Ix := Unit) (Name := ℕ) (U := UR sig nD τ) (Lvl := ℕ) (Val := Elt F) spec1 c [cc1_scratch0])
        ∗ (∃ r, prngReg c r)) := rfl

theorem PhiS_pos (c : Dev nD) (n : ℕ) (h : n ≤ cfg1.N) (hz : n ≠ 0) :
    PhiS V c n h
      = iprop(iprop(owns (c : Thread nD τ) scratch fullShare ((outsAt V c (n - 1) (by omega)).2.2)
          ∗ Pipeline.scopedRestBut (Ix := Unit) (Name := ℕ) (U := UR sig nD τ) (Lvl := ℕ) (Val := Elt F) spec1 c [cc1_scratch0])
        ∗ (∃ r, prngReg c r)) := by
  cases n with
  | zero => exact absurd rfl hz
  | succ n => rfl

/-- The class's invariant with the call's scratch taken out as a memref owned at some contents. -/
theorem PhiA_eq (c : Dev nD) :
    (Pipeline.ΦA spec1 c : sProp 𝕄)
      = iprop(iprop((∃ d, owns (c : Thread nD τ) scratch fullShare d)
          ∗ Pipeline.scopedRestBut (Ix := Unit) (Name := ℕ) (U := UR sig nD τ) (Lvl := ℕ) (Val := Elt F) spec1 c [cc1_scratch0])
        ∗ (∃ r, prngReg c r)) := by
  unfold Pipeline.ΦA; rw [scopedRest1_split]; simp only [scratch, owns_whole]; try rfl

/-! ## The proof data -/

/-- The arrays as the step finds them; after the body each input's buffer at its block, the outputs' at the
    recursion's values; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2.1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = (outsAt V c t.val t.isLt).1 := by dsimp only [dat]
theorem after5 (c : Dev nD) (t : Fin cfg1.N) : (dat V c).after 5 t = (outsAt V c t.val t.isLt).2.1 := by dsimp only [dat]

/-- Each input's current staging buffer holds its block at every point, fetched there or not: where the block index
    did not move, the block is still the one fetched earlier. -/
theorem before0 (c : Dev nD) (t : Fin cfg1.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg1.N) (d) : (dat V c).before 3 t d = iblk V c 3 t :=
  ((dat V c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

end Cert.Kernel.Hop1

end
-- ==== Proof.WHop1Body.lean ====
import proofs.«155136_j78743930404901_2_alg».proof.Proof.WHop1Data

/-!
# The body obligation of the second propagation step

At every point the body, called with the point's staging buffers, takes the region's invariant from "after the point
before" to "after this point" and leaves each window's buffer as the proof data says:

* the four inputs at their blocks, untouched;
* at the first three points of a row the two output windows as found (they are idle and not written back there),
  and the scratch at the recursion's next value — over anything at the first point of a row, over what the point
  before left at a middle point;
* at the last point of a row both output windows at what the finishing stores leave.

The point's kind is decided by `t mod 4`, and each kind is one of the three runs of the body; what a run leaves
as a list of pieces written over unknown contents is the recursion's value because the pieces cover the block.
-/

set_option maxRecDepth 16384

noncomputable section

namespace Cert.Kernel.Hop1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
      unfold Dat.leavesExact; rw [in0_live t], after0]
  rw [show (dat V c).leavesExact 1 t = owns (c : Thread nD τ) (ms1 t) fullShare ((dat V c).after 1 t) from by
      unfold Dat.leavesExact; rw [in1_live t], after1]
  rw [show (dat V c).leavesExact 2 t = owns (c : Thread nD τ) (ms2 t) fullShare ((dat V c).after 2 t) from by
      unfold Dat.leavesExact; rw [in2_live t], after2]
  rw [show (dat V c).leavesExact 3 t = owns (c : Thread nD τ) (ms3 t) fullShare ((dat V c).after 3 t) from by
      unfold Dat.leavesExact; rw [in3_live t], after3]
  have hN : t.val < 16 := lt_of_lt_of_eq t.isLt (show cfg1.N = 16 from N_1)
  by_cases h0 : t.val % 4 = 0
  · -- the first point of a row
    have hF : isFirst (grid1.coords t) := (isFirst_iff t).mpr h0
    have hL : ¬isLast (grid1.coords t) := fun h => by have := (isLast_iff t).mp h; omega
    rw [Dat.leavesExact_idle (dat V c) 4 t (out4_idle t hL) (out4_noFlush t hL),
      Dat.leavesExact_idle (dat V c) 5 t (out5_idle t hL) (out5_noFlush t hL)]
    rw [outsAt_first V c t h0 hL]
    unfold scFirst; (try dsimp only)
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩, ⟨%d3, H3⟩, H4, H5⟩
      iapply ((firstRun c t hF hL (iblk V c 0 t) (iblk V c 1 t)).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scFirst_cover c t hF hL _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((firstRun c t hF hL (iblk V c 0 t) (iblk V c 1 t)).2 Set.univ _)
      isplitl [H0]; · iexact H0
      isplitl [H1]; · iexact H1
      isplitl [HS]; · iexists _; iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scFirst_cover c t hF hL _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
  · have hF : ¬isFirst (grid1.coords t) := fun h => h0 ((isFirst_iff t).mp h)
    have hz : t.val ≠ 0 := fun h => h0 (by rw [h])
    by_cases h3 : t.val % 4 = 3
    · -- the last point of a row
      have hL : isLast (grid1.coords t) := (isLast_iff t).mpr h3
      rw [show (dat V c).leavesExact 4 t = owns (c : Thread nD τ) (ms4 t) fullShare ((dat V c).after 4 t) from by
          unfold Dat.leavesExact; rw [out4_live t hL], after4]
      rw [show (dat V c).leavesExact 5 t = owns (c : Thread nD τ) (ms5 t) fullShare ((dat V c).after 5 t) from by
          unfold Dat.leavesExact; rw [out5_live t hL], after5]
      rw [outsAt_last V c t h0 h3]
      unfold out4Last out5Last scLast; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((lastRun c t hF hL (iblk V c 0 t) (iblk V c 1 t) (iblk V c 2 t) (iblk V c 3 t) _).2.2.2 Set.univ _)
      isplitl [H0]; · iexact H0
      isplitl [H1]; · iexact H1
      isplitl [H2]; · iexact H2
      isplitl [H3]; · iexact H3
      isplitl [H4]; · icases H4 with ⟨%d4, H4⟩; iexists _; iexact H4
      isplitl [H5]; · icases H5 with ⟨%d5, H5⟩; iexists _; iexact H5
      isplitl [HS]; · iexact HS
      iintro ⟨H0, H1, H2, H3, ⟨%e4, H4⟩, ⟨%e5, H5⟩, ⟨%es, HS⟩⟩
      isplitl [HS Hrest Hg]
      · isplitl [HS Hrest]
        · isplitl [HS]
          · unfold owns; iexists _; isplitr
            swap; · iexact HS
            ipureintro; exact View.read_writes_of_cover _ _ _ _ _ (scLast_cover c t hF hL _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (out4Last_cover c t hF hL _ _ _ _ _)
      unfold owns; iexists _; isplitr
      swap; · iexact H5
      ipureintro; exact View.read_writes_of_cover _ _ _ _ _ (out5Last_cover c t hF hL _ _ _ _ _)
    · -- a middle point
      have hL : ¬isLast (grid1.coords t) := fun h => h3 ((isLast_iff t).mp h)
      rw [Dat.leavesExact_idle (dat V c) 4 t (out4_idle t hL) (out4_noFlush t hL),
        Dat.leavesExact_idle (dat V c) 5 t (out5_idle t hL) (out5_noFlush t hL)]
      rw [outsAt_middle V c t h0 h3]
      unfold scMiddle; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((middleRun c t hF hL (iblk V c 0 t) (iblk V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scMiddle_cover c t hF hL _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant at the two ends -/

/-- What the region hands the step is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch's contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 16 := N_1; omega), PhiA_eq]
  iintro ⟨⟨HS, Hrest⟩, Hg⟩
  isplitl [HS Hrest]
  · isplitl [HS]
    · iexists _; iexact HS
    iexact Hrest
  iexact Hg

end Cert.Kernel.Hop1

end
-- ==== Proof.WHop2Points.lean ====
import proofs.«155136_j78743930404901_2_alg».proof.Proof.Gen.Kernel.Launch
import proofs.«155136_j78743930404901_2_alg».proof.Proof.Gen.Kernel.Skeleton
import proofs.«155136_j78743930404901_2_alg».proof.Proof.Gen.Kernel.Points
import Idealize.ShloMosaic.Lib.Pipeline.FrameBody
import Idealize.ShloMosaic.Lib.Ring
import Idealize.ShloMosaic.Lib.Tactic

/-!
# The sixteen grid points of the third propagation step

The grid is 4 × 4, point `t = 4 i + k`: `i` is the row of tiles, `k` the tile inside the row, `k` running fastest.
The body branches twice on `k` alone: it resets the scratch block when `k = 0`, and it finishes the row (stores both
output blocks) when `k = 3`. So a point is of one of three kinds — first of its row, middle, last of its row — and

* the two output windows are stored into only at the last point of a row, are written back exactly there, and are
  idle (their staging buffer handed back untouched) at the other three points;
* the four input windows are never idle.

Here: the two conditions in closed form over the point's number, those facts about the windows decided over the
sixteen points, and names for the memrefs the body is called with.
-/

set_option maxRecDepth 16384

noncomputable section

namespace Cert.Kernel.Hop2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- "This is the first tile of its row": the reset's condition, as the body computes it from the coordinate `k`. -/
abbrev isFirst (i : grid2.Coords) : Prop :=
  (Scalar.cmpi .ne (Scalar.extui (Scalar.cmpi .eq (BitVec.ofNat 32 (i 1).val) 0#32)) 0#32) = 1#1

/-- It holds exactly at the points `t ≡ 0 (mod 4)`. -/
theorem isFirst_iff : ∀ t : Fin cfg2.N, isFirst (grid2.coords t) ↔ t.val % 4 = 0 :=
  (by decide +kernel : ∀ t : Fin grid2.N, isFirst (grid2.coords t) ↔ t.val % 4 = 0)

/-- "This is the last tile of its row": the finishing branch's condition. -/
abbrev isLast (i : grid2.Coords) : Prop := k2_cond2 i = 1#1

/-- It holds exactly at the points `t ≡ 3 (mod 4)`. -/
theorem isLast_iff : ∀ t : Fin cfg2.N, isLast (grid2.coords t) ↔ t.val % 4 = 3 :=
  (by decide +kernel : ∀ t : Fin grid2.N, isLast (grid2.coords t) ↔ t.val % 4 = 3)

/-! ## Where the windows are idle -/

theorem in0_live : ∀ t : Fin cfg2.N, cfg2.idle 0 (grid2.coords t) = false := by decide +kernel
theorem in1_live : ∀ t : Fin cfg2.N, cfg2.idle 1 (grid2.coords t) = false := by decide +kernel
theorem in2_live : ∀ t : Fin cfg2.N, cfg2.idle 2 (grid2.coords t) = false := by decide +kernel
theorem in3_live : ∀ t : Fin cfg2.N, cfg2.idle 3 (grid2.coords t) = false := by decide +kernel

/-- Away from the end of a row the new features' block is idle, and is not written back. -/
theorem out4_idle : ∀ t : Fin cfg2.N, ¬isLast (grid2.coords t) → cfg2.idle 4 (grid2.coords t) = true := by decide +kernel
theorem out4_noFlush : ∀ t : Fin cfg2.N, ¬isLast (grid2.coords t) → (cfg2.win 4).flush t = false := by decide +kernel
/-- At the end of a row it is live. -/
theorem out4_live : ∀ t : Fin cfg2.N, isLast (grid2.coords t) → cfg2.idle 4 (grid2.coords t) = false := by decide +kernel

/-- The same for the running output's block. -/
theorem out5_idle : ∀ t : Fin cfg2.N, ¬isLast (grid2.coords t) → cfg2.idle 5 (grid2.coords t) = true := by decide +kernel
theorem out5_noFlush : ∀ t : Fin cfg2.N, ¬isLast (grid2.coords t) → (cfg2.win 5).flush t = false := by decide +kernel
theorem out5_live : ∀ t : Fin cfg2.N, isLast (grid2.coords t) → cfg2.idle 5 (grid2.coords t) = false := by decide +kernel

/-! ## The memrefs the body is called with at a point -/

abbrev ms0 (t : Fin cfg2.N) : Memref sig .tc .vmem S2048x2048 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S2048x16 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S16x16 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S2048x16 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S2048x16 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S2048x16 .f32 := win2_5.stage (cfg2.slots t 5)
abbrev hs5 (t : Fin cfg2.N) : (ms5 t).IsWhole := hstage2_5 ((cfg2.slots t 5).cast nbuf2_5)

/-- The scratch block of partial sums: a whole scoped buffer of the call's own. -/
abbrev scratch : Memref sig .tc .vmem S2048x16 .f32 := Memref.whole cc2_scratch0

end Cert.Kernel.Hop2

end
-- ==== Proof.WHop2RunFirst.lean ====
import proofs.«155136_j78743930404901_2_alg».proof.Proof.WHop2Points

/-!
# The body at the first point of a row of tiles

The reset branch is taken, the finishing branch is not. Whatever the scratch block held — nothing at the very first
point, the previous row's finished block later — is overwritten by zeros before it is used; then the tile product is
added as at every point. Two stores into the scratch, each covering it whole; the later one is what it ends with.
The weight matrix, the incoming output block and both output windows are not touched.
-/

set_option maxRecDepth 16384

noncomputable section

namespace Cert.Kernel.Hop2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt` and the scratch at anything, the body runs to the end, leaves the tiles as they were
    and the scratch with the pieces `LS` written over it. -/
noncomputable def runFirst (c : Dev nD) (i : grid2.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : isFirst i) (hL : ¬isLast i)
    (lt : Vec F S2048x2048 .bf16) (xt : Vec F S2048x16 .f32) :
    { LS : List (View.Piece (Elt F) S2048x16 .f32) //
      ∀ (E : Set ℕ) (K : PUnit → sProp 𝕄),
        iprop(owns (c : Thread nD τ) a2 fullShare lt ∗ owns (c : Thread nD τ) a3 fullShare xt ∗ (∃ d, owns (c : Thread nD τ) a8 fullShare d)
            ∗ (iprop(owns (c : Thread nD τ) a2 fullShare lt ∗ owns (c : Thread nD τ) a3 fullShare xt
                ∗ (∃ f, a8.view.loc (c : Thread nD τ) ↦[a8.view.set]{fullShare} a8.view.writes (Elt F) f LS)) -∗ K ⟨⟩))
          ⊢ wp frame (wpE (defs₀ (F := F)) Variants.none c none) E (cc2__step_kernel i a2 h2 a3 h3 a4 h4 a5 h5 a6 h6 a7 h7 a8 h8) K } := by
  refine ⟨?_, fun E K => ?run⟩
  case run =>
    simp only [cc2__step_kernel_eq_skeleton]; unfold cc2__step_kernel_skel
    unfold owns
    iintro ⟨⟨%f2, %hf2, H2⟩, ⟨%f3, %hf3, H3⟩, ⟨%d8, %f8, -, H8⟩, Hk⟩
    obtain rfl := h2.eq_unread hf2; obtain rfl := h3.eq_unread hf3
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    iexists _; iexact H8

end Cert.Kernel.Hop2

end
-- ==== Proof.WHop2RunMiddle.lean ====
import proofs.«155136_j78743930404901_2_alg».proof.Proof.WHop2Points

/-!
# The body at a middle point of a row of tiles

Neither branch is taken. The body loads the Laplacian tile and the feature tile, loads the scratch block, and stores
back the scratch block plus the tile product: one store, covering the scratch whole. The weight matrix, the incoming
output block and both output windows are not touched at all, so the triple does not mention them.

The triple is stated on any whole memrefs; what the scratch ends with is given as the list of pieces the stores
wrote (here one), which the run itself determines.
-/

set_option maxRecDepth 16384

noncomputable section

namespace Cert.Kernel.Hop2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt` and the scratch at `sc`, the body runs to the end, leaves the tiles as they were
    and the scratch with the pieces `LS` written over it. -/
noncomputable def runMiddle (c : Dev nD) (i : grid2.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : ¬isFirst i) (hL : ¬isLast i)
    (lt : Vec F S2048x2048 .bf16) (xt : Vec F S2048x16 .f32) (sc : Vec F S2048x16 .f32) :
    { LS : List (View.Piece (Elt F) S2048x16 .f32) //
      ∀ (E : Set ℕ) (K : PUnit → sProp 𝕄),
        iprop(owns (c : Thread nD τ) a2 fullShare lt ∗ owns (c : Thread nD τ) a3 fullShare xt ∗ owns (c : Thread nD τ) a8 fullShare sc
            ∗ (iprop(owns (c : Thread nD τ) a2 fullShare lt ∗ owns (c : Thread nD τ) a3 fullShare xt
                ∗ (∃ f, a8.view.loc (c : Thread nD τ) ↦[a8.view.set]{fullShare} a8.view.writes (Elt F) f LS)) -∗ K ⟨⟩))
          ⊢ wp frame (wpE (defs₀ (F := F)) Variants.none c none) E (cc2__step_kernel i a2 h2 a3 h3 a4 h4 a5 h5 a6 h6 a7 h7 a8 h8) K } := by
  refine ⟨?_, fun E K => ?run⟩
  case run =>
    simp only [cc2__step_kernel_eq_skeleton]; unfold cc2__step_kernel_skel
    unfold owns
    iintro ⟨⟨%f2, %hf2, H2⟩, ⟨%f3, %hf3, H3⟩, ⟨%f8, %hf8, H8⟩, Hk⟩
    obtain rfl := h2.eq_unread hf2; obtain rfl := h3.eq_unread hf3; obtain rfl := h8.eq_unread hf8
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    iexists _; iexact H8

end Cert.Kernel.Hop2

end
-- ==== Proof.WHop2RunLast.lean ====
import proofs.«155136_j78743930404901_2_alg».proof.Proof.WHop2Points

/-!
# The body at the last point of a row of tiles

The reset branch is not taken, the finishing branch is. After the accumulation the scratch block is the finished
row block of new features: it is stored whole into the first output window; then, with the weight matrix and the
incoming output block, the rectified weight product added to the incoming block is stored whole into the second.
Both output windows are loaded before they are stored into (the values are not used), so they may hold anything.
-/

set_option maxRecDepth 16384

noncomputable section

namespace Cert.Kernel.Hop2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt`, the weights at `w`, the incoming block at `acc`, the scratch at `sc` and the two
    output windows at anything, the body runs to the end, leaves the four inputs as they were, and the two outputs
    and the scratch with the pieces `L6`, `L7`, `LS` written over them. -/
noncomputable def runLast (c : Dev nD) (i : grid2.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : ¬isFirst i) (hL : isLast i)
    (lt : Vec F S2048x2048 .bf16) (xt : Vec F S2048x16 .f32) (w : Vec F S16x16 .f32) (acc : Vec F S2048x16 .f32) (sc : Vec F S2048x16 .f32) :
    Σ' (L6 : List (View.Piece (Elt F) S2048x16 .f32)) (L7 : List (View.Piece (Elt F) S2048x16 .f32)),
    { LS : List (View.Piece (Elt F) S2048x16 .f32) //
      ∀ (E : Set ℕ) (K : PUnit → sProp 𝕄),
        iprop(owns (c : Thread nD τ) a2 fullShare lt ∗ owns (c : Thread nD τ) a3 fullShare xt ∗ owns (c : Thread nD τ) a4 fullShare w
            ∗ owns (c : Thread nD τ) a5 fullShare acc ∗ (∃ d, owns (c : Thread nD τ) a6 fullShare d) ∗ (∃ d, owns (c : Thread nD τ) a7 fullShare d)
            ∗ owns (c : Thread nD τ) a8 fullShare sc
            ∗ (iprop(owns (c : Thread nD τ) a2 fullShare lt ∗ owns (c : Thread nD τ) a3 fullShare xt ∗ owns (c : Thread nD τ) a4 fullShare w
                ∗ owns (c : Thread nD τ) a5 fullShare acc
                ∗ (∃ f, a6.view.loc (c : Thread nD τ) ↦[a6.view.set]{fullShare} a6.view.writes (Elt F) f L6)
                ∗ (∃ f, a7.view.loc (c : Thread nD τ) ↦[a7.view.set]{fullShare} a7.view.writes (Elt F) f L7)
                ∗ (∃ f, a8.view.loc (c : Thread nD τ) ↦[a8.view.set]{fullShare} a8.view.writes (Elt F) f LS)) -∗ K ⟨⟩))
          ⊢ wp frame (wpE (defs₀ (F := F)) Variants.none c none) E (cc2__step_kernel i a2 h2 a3 h3 a4 h4 a5 h5 a6 h6 a7 h7 a8 h8) K } := by
  refine ⟨?_, ?_, ?_, fun E K => ?run⟩
  case run =>
    simp only [cc2__step_kernel_eq_skeleton]; unfold cc2__step_kernel_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    obtain rfl := h2.eq_unread hf2; obtain rfl := h3.eq_unread hf3; obtain rfl := h4.eq_unread hf4
    obtain rfl := h5.eq_unread hf5; obtain rfl := h8.eq_unread hf8
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact H8

end Cert.Kernel.Hop2

end
-- ==== Proof.WHop2Data.lean ====
import proofs.«155136_j78743930404901_2_alg».proof.Proof.WHop2RunFirst
import proofs.«155136_j78743930404901_2_alg».proof.Proof.WHop2RunMiddle
import proofs.«155136_j78743930404901_2_alg».proof.Proof.WHop2RunLast

/-!
# The first propagation step, point by point

What the scratch block and the two output blocks hold after each of the sixteen points, by recursion on the point:

* after the first point of a row of tiles the scratch holds what the reset-and-accumulate run leaves, computed from
  that point's Laplacian tile and feature tile alone;
* after a middle point, what the accumulate run leaves, computed from the point's tiles and from what the point
  before left in the scratch;
* after the last point of a row the same, and the two output blocks hold what the finishing stores leave, computed
  from the point's tiles, the weight matrix, the incoming output block, and what the point before left in the scratch.

At the first three points of a row the output windows are idle: their staging buffers are handed back as found, and
what they "hold" there is a placeholder nobody reads.

Everything is stated relative to `V`, the contents of the core's buffers when the step is entered. The region's
invariant carries the scratch at the recursion's value from one point to the next (before the very first point it
is just "the call's scoped buffers at anything"), the other calls' scoped buffers unopened, and the generator
register at some state.
-/

set_option maxRecDepth 16384

noncomputable section

namespace Cert.Kernel.Hop2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, and views to read contents through -/

/-- Window `w`'s block at point `t`, read off its array as the step finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch as a view, and one staging buffer of each output window: contents are stated through them (the
    choice does not matter once the pieces cover). -/
abbrev VS : View sig .tc .vmem S2048x16 .f32 := (scratch : Memref sig .tc .vmem S2048x16 .f32).view
abbrev VO4 : View sig .tc .vmem S2048x16 .f32 := (Memref.whole cc2_stg4_0 : Memref sig .tc .vmem S2048x16 .f32).view
abbrev VO5 : View sig .tc .vmem S2048x16 .f32 := (Memref.whole cc2_stg5_0 : Memref sig .tc .vmem S2048x16 .f32).view

/-! ## The three runs at a point's own memrefs -/

abbrev firstRun (c : Dev nD) (t : Fin cfg2.N) (hF : isFirst (grid2.coords t)) (hL : ¬isLast (grid2.coords t))
    (lt : Vec F S2048x2048 .bf16) (xt : Vec F S2048x16 .f32) :=
  runFirst (F := F) c (grid2.coords t) (ms0 t) (hs0 t) (ms1 t) (hs1 t) (ms2 t) (hs2 t) (ms3 t) (hs3 t) (ms4 t) (hs4 t) (ms5 t) (hs5 t) scratch (Memref.isWhole_whole _) hF hL lt xt
abbrev middleRun (c : Dev nD) (t : Fin cfg2.N) (hF : ¬isFirst (grid2.coords t)) (hL : ¬isLast (grid2.coords t))
    (lt : Vec F S2048x2048 .bf16) (xt : Vec F S2048x16 .f32) (sc : Vec F S2048x16 .f32) :=
  runMiddle (F := F) c (grid2.coords t) (ms0 t) (hs0 t) (ms1 t) (hs1 t) (ms2 t) (hs2 t) (ms3 t) (hs3 t) (ms4 t) (hs4 t) (ms5 t) (hs5 t) scratch (Memref.isWhole_whole _) hF hL lt xt sc
abbrev lastRun (c : Dev nD) (t : Fin cfg2.N) (hF : ¬isFirst (grid2.coords t)) (hL : isLast (grid2.coords t))
    (lt : Vec F S2048x2048 .bf16) (xt : Vec F S2048x16 .f32) (w : Vec F S16x16 .f32) (acc : Vec F S2048x16 .f32) (sc : Vec F S2048x16 .f32) :=
  runLast (F := F) c (grid2.coords t) (ms0 t) (hs0 t) (ms1 t) (hs1 t) (ms2 t) (hs2 t) (ms3 t) (hs3 t) (ms4 t) (hs4 t) (ms5 t) (hs5 t) scratch (Memref.isWhole_whole _) hF hL lt xt w acc sc

/-! ## What each run leaves, and that its pieces cover -/

/-- The scratch after the first point of a row. -/
def scFirst (c : Dev nD) (t : Fin cfg2.N) (hF : isFirst (grid2.coords t)) (hL : ¬isLast (grid2.coords t))
    (lt : Vec F S2048x2048 .bf16) (xt : Vec F S2048x16 .f32) : Vec F S2048x16 .f32 :=
  VS.read (Elt F) (VS.writes (Elt F) VS.junk (firstRun c t hF hL lt xt).1)
theorem scFirst_cover (c : Dev nD) (t : Fin cfg2.N) (hF : isFirst (grid2.coords t)) (hL : ¬isLast (grid2.coords t))
    (lt : Vec F S2048x2048 .bf16) (xt : Vec F S2048x16 .f32) (y : S2048x16.Idx) :
    ∃ pc ∈ (firstRun c t hF hL lt xt).1, y ∈ pc.1.set :=
  View.cover_of_tiledL (firstRun c t hF hL lt xt).1 S2048x16.size (by sl_kernel_rfl) y

/-- The scratch after a middle point. -/
def scMiddle (c : Dev nD) (t : Fin cfg2.N) (hF : ¬isFirst (grid2.coords t)) (hL : ¬isLast (grid2.coords t))
    (lt : Vec F S2048x2048 .bf16) (xt : Vec F S2048x16 .f32) (sc : Vec F S2048x16 .f32) : Vec F S2048x16 .f32 :=
  VS.read (Elt F) (VS.writes (Elt F) VS.junk (middleRun c t hF hL lt xt sc).1)
theorem scMiddle_cover (c : Dev nD) (t : Fin cfg2.N) (hF : ¬isFirst (grid2.coords t)) (hL : ¬isLast (grid2.coords t))
    (lt : Vec F S2048x2048 .bf16) (xt : Vec F S2048x16 .f32) (sc : Vec F S2048x16 .f32) (y : S2048x16.Idx) :
    ∃ pc ∈ (middleRun c t hF hL lt xt sc).1, y ∈ pc.1.set :=
  View.cover_of_tiledL (middleRun c t hF hL lt xt sc).1 S2048x16.size (by sl_kernel_rfl) y

/-- The new features' block, the running output's block and the scratch after the last point of a row. -/
def out4Last (c : Dev nD) (t : Fin cfg2.N) (hF : ¬isFirst (grid2.coords t)) (hL : isLast (grid2.coords t))
    (lt : Vec F S2048x2048 .bf16) (xt : Vec F S2048x16 .f32) (w : Vec F S16x16 .f32) (acc : Vec F S2048x16 .f32) (sc : Vec F S2048x16 .f32) : Vec F S2048x16 .f32 :=
  VO4.read (Elt F) (VO4.writes (Elt F) VO4.junk (lastRun c t hF hL lt xt w acc sc).1)
theorem out4Last_cover (c : Dev nD) (t : Fin cfg2.N) (hF : ¬isFirst (grid2.coords t)) (hL : isLast (grid2.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).1, y ∈ pc.1.set :=
  View.cover_of_tiledL (lastRun c t hF hL lt xt w acc sc).1 S2048x16.size (by sl_kernel_rfl) y
def out5Last (c : Dev nD) (t : Fin cfg2.N) (hF : ¬isFirst (grid2.coords t)) (hL : isLast (grid2.coords t))
    (lt : Vec F S2048x2048 .bf16) (xt : Vec F S2048x16 .f32) (w : Vec F S16x16 .f32) (acc : Vec F S2048x16 .f32) (sc : Vec F S2048x16 .f32) : Vec F S2048x16 .f32 :=
  VO5.read (Elt F) (VO5.writes (Elt F) VO5.junk (lastRun c t hF hL lt xt w acc sc).2.1)
theorem out5Last_cover (c : Dev nD) (t : Fin cfg2.N) (hF : ¬isFirst (grid2.coords t)) (hL : isLast (grid2.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).2.1, y ∈ pc.1.set :=
  View.cover_of_tiledL (lastRun c t hF hL lt xt w acc sc).2.1 S2048x16.size (by sl_kernel_rfl) y
def scLast (c : Dev nD) (t : Fin cfg2.N) (hF : ¬isFirst (grid2.coords t)) (hL : isLast (grid2.coords t))
    (lt : Vec F S2048x2048 .bf16) (xt : Vec F S2048x16 .f32) (w : Vec F S16x16 .f32) (acc : Vec F S2048x16 .f32) (sc : Vec F S2048x16 .f32) : Vec F S2048x16 .f32 :=
  VS.read (Elt F) (VS.writes (Elt F) VS.junk (lastRun c t hF hL lt xt w acc sc).2.2.1)
theorem scLast_cover (c : Dev nD) (t : Fin cfg2.N) (hF : ¬isFirst (grid2.coords t)) (hL : isLast (grid2.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).2.2.1, y ∈ pc.1.set :=
  View.cover_of_tiledL (lastRun c t hF hL lt xt w acc sc).2.2.1 S2048x16.size (by sl_kernel_rfl) y

/-! ## The accumulation over the sixteen points -/

/-- What an idle output window "holds": a placeholder nobody reads. -/
def idle4 : Vec F S2048x16 .f32 := VO4.read (Elt F) VO4.junk
def idle5 : Vec F S2048x16 .f32 := VO5.read (Elt F) VO5.junk

/-- After point `n`: the new features' block, the running output's block, the scratch. The kind of the point is read
    off `n mod 4`; a middle or last point takes the scratch the point before left. -/
def outsAt (c : Dev nD) : (n : ℕ) → n < cfg2.N → Vec F S2048x16 .f32 × Vec F S2048x16 .f32 × Vec F S2048x16 .f32
  | 0, hn =>
    (idle4, idle5,
      scFirst c ⟨0, hn⟩ ((isFirst_iff ⟨0, hn⟩).mpr (Nat.zero_mod _))
        (fun h => (fun h => by (try dsimp only at h); omega) ((isLast_iff ⟨0, hn⟩).mp h))
        (iblk V c 0 ⟨0, hn⟩) (iblk V c 1 ⟨0, hn⟩))
  | n + 1, hn =>
    if h0 : (n + 1) % 4 = 0 then
      (idle4, idle5,
        scFirst c ⟨n + 1, hn⟩ ((isFirst_iff ⟨n + 1, hn⟩).mpr h0) (fun h => (fun h => by (try dsimp only at h); omega) ((isLast_iff ⟨n + 1, hn⟩).mp h))
          (iblk V c 0 ⟨n + 1, hn⟩) (iblk V c 1 ⟨n + 1, hn⟩))
    else
      if h3 : (n + 1) % 4 = 3 then
        (out4Last c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2,
          out5Last c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2,
          scLast c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2)
      else
        (idle4, idle5,
          scMiddle c ⟨n + 1, hn⟩ (fun h => h0 ((isFirst_iff ⟨n + 1, hn⟩).mp h)) (fun h => h3 ((isLast_iff ⟨n + 1, hn⟩).mp h))
            (iblk V c 0 ⟨n + 1, hn⟩) (iblk V c 1 ⟨n + 1, hn⟩) (outsAt c n (Nat.lt_of_succ_lt hn)).2.2)

/-- At the first point of a row. -/
theorem outsAt_first (c : Dev nD) (t : Fin cfg2.N) (h0 : t.val % 4 = 0) (hL : ¬isLast (grid2.coords t)) :
    outsAt V c t.val t.isLt
      = (idle4, idle5, scFirst c t ((isFirst_iff t).mpr h0) hL (iblk V c 0 t) (iblk V c 1 t)) := by
  obtain ⟨n, hn⟩ := t
  cases n with
  | zero => exact rfl
  | succ n => exact dif_pos h0

/-- At a middle point: over what the point before left. -/
theorem outsAt_middle (c : Dev nD) (t : Fin cfg2.N) (h0 : ¬t.val % 4 = 0) (h3 : ¬t.val % 4 = 3) :
    outsAt V c t.val t.isLt
      = (idle4, idle5, scMiddle c t (fun h => h0 ((isFirst_iff t).mp h)) (fun h => h3 ((isLast_iff t).mp h))
          (iblk V c 0 t) (iblk V c 1 t) (outsAt V c (t.val - 1) (Nat.lt_of_le_of_lt (Nat.sub_le _ _) t.isLt)).2.2) := by
  obtain ⟨n, hn⟩ := t
  cases n with
  | zero => exact absurd (Nat.zero_mod _) h0
  | succ n => exact (dif_neg h0).trans (dif_neg h3)

/-- At the last point of a row: over what the point before left. -/
theorem outsAt_last (c : Dev nD) (t : Fin cfg2.N) (h0 : ¬t.val % 4 = 0) (h3 : t.val % 4 = 3) :
    outsAt V c t.val t.isLt
      = (out4Last c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2,
          out5Last c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2,
          scLast c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2) := by
  obtain ⟨n, hn⟩ := t
  cases n with
  | zero => exact absurd (Nat.zero_mod _) h0
  | succ n => exact (dif_neg h0).trans (dif_pos h3)

/-! ## The invariant between points -/

/-- Before the first point: the call's scoped buffers at anything and the generator register at some state. After
    point `n`: the scratch at what that point left, the other scoped buffers unopened, the generator register. -/
def PhiS (c : Dev nD) : (n : ℕ) → n ≤ cfg2.N → sProp 𝕄
  | 0, _ => Pipeline.ΦA spec2 c
  | n + 1, hn =>
    iprop(iprop(owns (c : Thread nD τ) scratch fullShare ((outsAt V c n hn).2.2)
        ∗ Pipeline.scopedRestBut (Ix := Unit) (Name := ℕ) (U := UR sig nD τ) (Lvl := ℕ) (Val := Elt F) spec2 c [cc2_scratch0])
      ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn
      = iprop(iprop(owns (c : Thread nD τ) scratch fullShare ((outsAt V c n hn).2.2)
          ∗ Pipeline.scopedRestBut (Ix := Unit) (Name := ℕ) (U := UR sig nD τ) (Lvl := ℕ) (Val := Elt F) spec2 c [cc2_scratch0])
        ∗ (∃ r, prngReg c r)) := rfl

theorem PhiS_pos (c : Dev nD) (n : ℕ) (h : n ≤ cfg2.N) (hz : n ≠ 0) :
    PhiS V c n h
      = iprop(iprop(owns (c : Thread nD τ) scratch fullShare ((outsAt V c (n - 1) (by omega)).2.2)
          ∗ Pipeline.scopedRestBut (Ix := Unit) (Name := ℕ) (U := UR sig nD τ) (Lvl := ℕ) (Val := Elt F) spec2 c [cc2_scratch0])
        ∗ (∃ r, prngReg c r)) := by
  cases n with
  | zero => exact absurd rfl hz
  | succ n => rfl

/-- The class's invariant with the call's scratch taken out as a memref owned at some contents. -/
theorem PhiA_eq (c : Dev nD) :
    (Pipeline.ΦA spec2 c : sProp 𝕄)
      = iprop(iprop((∃ d, owns (c : Thread nD τ) scratch fullShare d)
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scratch, owns_whole]; try rfl

/-! ## The proof data -/

/-- The arrays as the step finds them; after the body each input's buffer at its block, the outputs' at the
    recursion's values; the invariant above; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2.1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = (outsAt V c t.val t.isLt).1 := by dsimp only [dat]
theorem after5 (c : Dev nD) (t : Fin cfg2.N) : (dat V c).after 5 t = (outsAt V c t.val t.isLt).2.1 := by dsimp only [dat]

/-- Each input's current staging buffer holds its block at every point, fetched there or not: where the block index
    did not move, the block is still the one fetched earlier. -/
theorem before0 (c : Dev nD) (t : Fin cfg2.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg2.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg2.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg2.N) (d) : (dat V c).before 3 t d = iblk V c 3 t :=
  ((dat V c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

end Cert.Kernel.Hop2

end
-- ==== Proof.WHop2Body.lean ====
import proofs.«155136_j78743930404901_2_alg».proof.Proof.WHop2Data

/-!
# The body obligation of the third propagation step

At every point the body, called with the point's staging buffers, takes the region's invariant from "after the point
before" to "after this point" and leaves each window's buffer as the proof data says:

* the four inputs at their blocks, untouched;
* at the first three points of a row the two output windows as found (they are idle and not written back there),
  and the scratch at the recursion's next value — over anything at the first point of a row, over what the point
  before left at a middle point;
* at the last point of a row both output windows at what the finishing stores leave.

The point's kind is decided by `t mod 4`, and each kind is one of the three runs of the body; what a run leaves
as a list of pieces written over unknown contents is the recursion's value because the pieces cover the block.
-/

set_option maxRecDepth 16384

noncomputable section

namespace Cert.Kernel.Hop2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
      unfold Dat.leavesExact; rw [in0_live t], after0]
  rw [show (dat V c).leavesExact 1 t = owns (c : Thread nD τ) (ms1 t) fullShare ((dat V c).after 1 t) from by
      unfold Dat.leavesExact; rw [in1_live t], after1]
  rw [show (dat V c).leavesExact 2 t = owns (c : Thread nD τ) (ms2 t) fullShare ((dat V c).after 2 t) from by
      unfold Dat.leavesExact; rw [in2_live t], after2]
  rw [show (dat V c).leavesExact 3 t = owns (c : Thread nD τ) (ms3 t) fullShare ((dat V c).after 3 t) from by
      unfold Dat.leavesExact; rw [in3_live t], after3]
  have hN : t.val < 16 := lt_of_lt_of_eq t.isLt (show cfg2.N = 16 from N_2)
  by_cases h0 : t.val % 4 = 0
  · -- the first point of a row
    have hF : isFirst (grid2.coords t) := (isFirst_iff t).mpr h0
    have hL : ¬isLast (grid2.coords t) := fun h => by have := (isLast_iff t).mp h; omega
    rw [Dat.leavesExact_idle (dat V c) 4 t (out4_idle t hL) (out4_noFlush t hL),
      Dat.leavesExact_idle (dat V c) 5 t (out5_idle t hL) (out5_noFlush t hL)]
    rw [outsAt_first V c t h0 hL]
    unfold scFirst; (try dsimp only)
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩, ⟨%d3, H3⟩, H4, H5⟩
      iapply ((firstRun c t hF hL (iblk V c 0 t) (iblk V c 1 t)).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scFirst_cover c t hF hL _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((firstRun c t hF hL (iblk V c 0 t) (iblk V c 1 t)).2 Set.univ _)
      isplitl [H0]; · iexact H0
      isplitl [H1]; · iexact H1
      isplitl [HS]; · iexists _; iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scFirst_cover c t hF hL _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
  · have hF : ¬isFirst (grid2.coords t) := fun h => h0 ((isFirst_iff t).mp h)
    have hz : t.val ≠ 0 := fun h => h0 (by rw [h])
    by_cases h3 : t.val % 4 = 3
    · -- the last point of a row
      have hL : isLast (grid2.coords t) := (isLast_iff t).mpr h3
      rw [show (dat V c).leavesExact 4 t = owns (c : Thread nD τ) (ms4 t) fullShare ((dat V c).after 4 t) from by
          unfold Dat.leavesExact; rw [out4_live t hL], after4]
      rw [show (dat V c).leavesExact 5 t = owns (c : Thread nD τ) (ms5 t) fullShare ((dat V c).after 5 t) from by
          unfold Dat.leavesExact; rw [out5_live t hL], after5]
      rw [outsAt_last V c t h0 h3]
      unfold out4Last out5Last scLast; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((lastRun c t hF hL (iblk V c 0 t) (iblk V c 1 t) (iblk V c 2 t) (iblk V c 3 t) _).2.2.2 Set.univ _)
      isplitl [H0]; · iexact H0
      isplitl [H1]; · iexact H1
      isplitl [H2]; · iexact H2
      isplitl [H3]; · iexact H3
      isplitl [H4]; · icases H4 with ⟨%d4, H4⟩; iexists _; iexact H4
      isplitl [H5]; · icases H5 with ⟨%d5, H5⟩; iexists _; iexact H5
      isplitl [HS]; · iexact HS
      iintro ⟨H0, H1, H2, H3, ⟨%e4, H4⟩, ⟨%e5, H5⟩, ⟨%es, HS⟩⟩
      isplitl [HS Hrest Hg]
      · isplitl [HS Hrest]
        · isplitl [HS]
          · unfold owns; iexists _; isplitr
            swap; · iexact HS
            ipureintro; exact View.read_writes_of_cover _ _ _ _ _ (scLast_cover c t hF hL _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (out4Last_cover c t hF hL _ _ _ _ _)
      unfold owns; iexists _; isplitr
      swap; · iexact H5
      ipureintro; exact View.read_writes_of_cover _ _ _ _ _ (out5Last_cover c t hF hL _ _ _ _ _)
    · -- a middle point
      have hL : ¬isLast (grid2.coords t) := fun h => h3 ((isLast_iff t).mp h)
      rw [Dat.leavesExact_idle (dat V c) 4 t (out4_idle t hL) (out4_noFlush t hL),
        Dat.leavesExact_idle (dat V c) 5 t (out5_idle t hL) (out5_noFlush t hL)]
      rw [outsAt_middle V c t h0 h3]
      unfold scMiddle; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((middleRun c t hF hL (iblk V c 0 t) (iblk V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scMiddle_cover c t hF hL _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dat (F := F) V c) (defs₀ (F := F)) Variants.none () Set.univ := fun t => by
  rw [bigSep_W2, bigSep_W2]
  exact sound_body V c t

/-! ## The invariant at the two ends -/

/-- What the region hands the step is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch's contents are forgotten. -/
theorem hout (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 16 := N_2; omega), PhiA_eq]
  iintro ⟨⟨HS, Hrest⟩, Hg⟩
  isplitl [HS Hrest]
  · isplitl [HS]
    · iexists _; iexact HS
    iexact Hrest
  iexact Hg

end Cert.Kernel.Hop2

end
-- ==== Proof.WHop3Points.lean ====
import proofs.«155136_j78743930404901_2_alg».proof.Proof.Gen.Kernel.Launch
import proofs.«155136_j78743930404901_2_alg».proof.Proof.Gen.Kernel.Skeleton
import proofs.«155136_j78743930404901_2_alg».proof.Proof.Gen.Kernel.Points
import Idealize.ShloMosaic.Lib.Pipeline.FrameBody
import Idealize.ShloMosaic.Lib.Ring
import Idealize.ShloMosaic.Lib.Tactic

/-!
# The sixteen grid points of the fourth propagation step

The grid is 4 × 4, point `t = 4 i + k`: `i` is the row of tiles, `k` the tile inside the row, `k` running fastest.
The body branches twice on `k` alone: it resets the scratch block when `k = 0`, and it finishes the row (stores both
output blocks) when `k = 3`. So a point is of one of three kinds — first of its row, middle, last of its row — and

* the two output windows are stored into only at the last point of a row, are written back exactly there, and are
  idle (their staging buffer handed back untouched) at the other three points;
* the four input windows are never idle.

Here: the two conditions in closed form over the point's number, those facts about the windows decided over the
sixteen points, and names for the memrefs the body is called with.
-/

set_option maxRecDepth 16384

noncomputable section

namespace Cert.Kernel.Hop3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- "This is the first tile of its row": the reset's condition, as the body computes it from the coordinate `k`. -/
abbrev isFirst (i : grid3.Coords) : Prop :=
  (Scalar.cmpi .ne (Scalar.extui (Scalar.cmpi .eq (BitVec.ofNat 32 (i 1).val) 0#32)) 0#32) = 1#1

/-- It holds exactly at the points `t ≡ 0 (mod 4)`. -/
theorem isFirst_iff : ∀ t : Fin cfg3.N, isFirst (grid3.coords t) ↔ t.val % 4 = 0 :=
  (by decide +kernel : ∀ t : Fin grid3.N, isFirst (grid3.coords t) ↔ t.val % 4 = 0)

/-- "This is the last tile of its row": the finishing branch's condition. -/
abbrev isLast (i : grid3.Coords) : Prop := k3_cond2 i = 1#1

/-- It holds exactly at the points `t ≡ 3 (mod 4)`. -/
theorem isLast_iff : ∀ t : Fin cfg3.N, isLast (grid3.coords t) ↔ t.val % 4 = 3 :=
  (by decide +kernel : ∀ t : Fin grid3.N, isLast (grid3.coords t) ↔ t.val % 4 = 3)

/-! ## Where the windows are idle -/

theorem in0_live : ∀ t : Fin cfg3.N, cfg3.idle 0 (grid3.coords t) = false := by decide +kernel
theorem in1_live : ∀ t : Fin cfg3.N, cfg3.idle 1 (grid3.coords t) = false := by decide +kernel
theorem in2_live : ∀ t : Fin cfg3.N, cfg3.idle 2 (grid3.coords t) = false := by decide +kernel
theorem in3_live : ∀ t : Fin cfg3.N, cfg3.idle 3 (grid3.coords t) = false := by decide +kernel

/-- Away from the end of a row the new features' block is idle, and is not written back. -/
theorem out4_idle : ∀ t : Fin cfg3.N, ¬isLast (grid3.coords t) → cfg3.idle 4 (grid3.coords t) = true := by decide +kernel
theorem out4_noFlush : ∀ t : Fin cfg3.N, ¬isLast (grid3.coords t) → (cfg3.win 4).flush t = false := by decide +kernel
/-- At the end of a row it is live. -/
theorem out4_live : ∀ t : Fin cfg3.N, isLast (grid3.coords t) → cfg3.idle 4 (grid3.coords t) = false := by decide +kernel

/-- The same for the running output's block. -/
theorem out5_idle : ∀ t : Fin cfg3.N, ¬isLast (grid3.coords t) → cfg3.idle 5 (grid3.coords t) = true := by decide +kernel
theorem out5_noFlush : ∀ t : Fin cfg3.N, ¬isLast (grid3.coords t) → (cfg3.win 5).flush t = false := by decide +kernel
theorem out5_live : ∀ t : Fin cfg3.N, isLast (grid3.coords t) → cfg3.idle 5 (grid3.coords t) = false := by decide +kernel

/-! ## The memrefs the body is called with at a point -/

abbrev ms0 (t : Fin cfg3.N) : Memref sig .tc .vmem S2048x2048 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S2048x16 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S16x16 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S2048x16 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S2048x16 .f32 := win3_4.stage (cfg3.slots t 4)
abbrev hs4 (t : Fin cfg3.N) : (ms4 t).IsWhole := hstage3_4 ((cfg3.slots t 4).cast nbuf3_4)
abbrev ms5 (t : Fin cfg3.N) : Memref sig .tc .vmem S2048x16 .f32 := win3_5.stage (cfg3.slots t 5)
abbrev hs5 (t : Fin cfg3.N) : (ms5 t).IsWhole := hstage3_5 ((cfg3.slots t 5).cast nbuf3_5)

/-- The scratch block of partial sums: a whole scoped buffer of the call's own. -/
abbrev scratch : Memref sig .tc .vmem S2048x16 .f32 := Memref.whole cc3_scratch0

end Cert.Kernel.Hop3

end
-- ==== Proof.WHop3RunFirst.lean ====
import proofs.«155136_j78743930404901_2_alg».proof.Proof.WHop3Points

/-!
# The body at the first point of a row of tiles

The reset branch is taken, the finishing branch is not. Whatever the scratch block held — nothing at the very first
point, the previous row's finished block later — is overwritten by zeros before it is used; then the tile product is
added as at every point. Two stores into the scratch, each covering it whole; the later one is what it ends with.
The weight matrix, the incoming output block and both output windows are not touched.
-/

set_option maxRecDepth 16384

noncomputable section

namespace Cert.Kernel.Hop3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt` and the scratch at anything, the body runs to the end, leaves the tiles as they were
    and the scratch with the pieces `LS` written over it. -/
noncomputable def runFirst (c : Dev nD) (i : grid3.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : isFirst i) (hL : ¬isLast i)
    (lt : Vec F S2048x2048 .bf16) (xt : Vec F S2048x16 .f32) :
    { LS : List (View.Piece (Elt F) S2048x16 .f32) //
      ∀ (E : Set ℕ) (K : PUnit → sProp 𝕄),
        iprop(owns (c : Thread nD τ) a2 fullShare lt ∗ owns (c : Thread nD τ) a3 fullShare xt ∗ (∃ d, owns (c : Thread nD τ) a8 fullShare d)
            ∗ (iprop(owns (c : Thread nD τ) a2 fullShare lt ∗ owns (c : Thread nD τ) a3 fullShare xt
                ∗ (∃ f, a8.view.loc (c : Thread nD τ) ↦[a8.view.set]{fullShare} a8.view.writes (Elt F) f LS)) -∗ K ⟨⟩))
          ⊢ wp frame (wpE (defs₀ (F := F)) Variants.none c none) E (cc3__step_kernel i a2 h2 a3 h3 a4 h4 a5 h5 a6 h6 a7 h7 a8 h8) K } := by
  refine ⟨?_, fun E K => ?run⟩
  case run =>
    simp only [cc3__step_kernel_eq_skeleton]; unfold cc3__step_kernel_skel
    unfold owns
    iintro ⟨⟨%f2, %hf2, H2⟩, ⟨%f3, %hf3, H3⟩, ⟨%d8, %f8, -, H8⟩, Hk⟩
    obtain rfl := h2.eq_unread hf2; obtain rfl := h3.eq_unread hf3
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    iexists _; iexact H8

end Cert.Kernel.Hop3

end
-- ==== Proof.WHop3RunMiddle.lean ====
import proofs.«155136_j78743930404901_2_alg».proof.Proof.WHop3Points

/-!
# The body at a middle point of a row of tiles

Neither branch is taken. The body loads the Laplacian tile and the feature tile, loads the scratch block, and stores
back the scratch block plus the tile product: one store, covering the scratch whole. The weight matrix, the incoming
output block and both output windows are not touched at all, so the triple does not mention them.

The triple is stated on any whole memrefs; what the scratch ends with is given as the list of pieces the stores
wrote (here one), which the run itself determines.
-/

set_option maxRecDepth 16384

noncomputable section

namespace Cert.Kernel.Hop3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt` and the scratch at `sc`, the body runs to the end, leaves the tiles as they were
    and the scratch with the pieces `LS` written over it. -/
noncomputable def runMiddle (c : Dev nD) (i : grid3.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : ¬isFirst i) (hL : ¬isLast i)
    (lt : Vec F S2048x2048 .bf16) (xt : Vec F S2048x16 .f32) (sc : Vec F S2048x16 .f32) :
    { LS : List (View.Piece (Elt F) S2048x16 .f32) //
      ∀ (E : Set ℕ) (K : PUnit → sProp 𝕄),
        iprop(owns (c : Thread nD τ) a2 fullShare lt ∗ owns (c : Thread nD τ) a3 fullShare xt ∗ owns (c : Thread nD τ) a8 fullShare sc
            ∗ (iprop(owns (c : Thread nD τ) a2 fullShare lt ∗ owns (c : Thread nD τ) a3 fullShare xt
                ∗ (∃ f, a8.view.loc (c : Thread nD τ) ↦[a8.view.set]{fullShare} a8.view.writes (Elt F) f LS)) -∗ K ⟨⟩))
          ⊢ wp frame (wpE (defs₀ (F := F)) Variants.none c none) E (cc3__step_kernel i a2 h2 a3 h3 a4 h4 a5 h5 a6 h6 a7 h7 a8 h8) K } := by
  refine ⟨?_, fun E K => ?run⟩
  case run =>
    simp only [cc3__step_kernel_eq_skeleton]; unfold cc3__step_kernel_skel
    unfold owns
    iintro ⟨⟨%f2, %hf2, H2⟩, ⟨%f3, %hf3, H3⟩, ⟨%f8, %hf8, H8⟩, Hk⟩
    obtain rfl := h2.eq_unread hf2; obtain rfl := h3.eq_unread hf3; obtain rfl := h8.eq_unread hf8
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    iexists _; iexact H8

end Cert.Kernel.Hop3

end
-- ==== Proof.WHop3RunLast.lean ====
import proofs.«155136_j78743930404901_2_alg».proof.Proof.WHop3Points

/-!
# The body at the last point of a row of tiles

The reset branch is not taken, the finishing branch is. After the accumulation the scratch block is the finished
row block of new features: it is stored whole into the first output window; then, with the weight matrix and the
incoming output block, the incoming block plus the rectified weight product — rectified once more, since this is the
layer's last step and its closing rectification is done here — is stored whole into the second.
Both output windows are loaded before they are stored into (the values are not used), so they may hold anything.
-/

set_option maxRecDepth 16384

noncomputable section

namespace Cert.Kernel.Hop3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt`, the weights at `w`, the incoming block at `acc`, the scratch at `sc` and the two
    output windows at anything, the body runs to the end, leaves the four inputs as they were, and the two outputs
    and the scratch with the pieces `L6`, `L7`, `LS` written over them. -/
noncomputable def runLast (c : Dev nD) (i : grid3.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : ¬isFirst i) (hL : isLast i)
    (lt : Vec F S2048x2048 .bf16) (xt : Vec F S2048x16 .f32) (w : Vec F S16x16 .f32) (acc : Vec F S2048x16 .f32) (sc : Vec F S2048x16 .f32) :
    Σ' (L6 : List (View.Piece (Elt F) S2048x16 .f32)) (L7 : List (View.Piece (Elt F) S2048x16 .f32)),
    { LS : List (View.Piece (Elt F) S2048x16 .f32) //
      ∀ (E : Set ℕ) (K : PUnit → sProp 𝕄),
        iprop(owns (c : Thread nD τ) a2 fullShare lt ∗ owns (c : Thread nD τ) a3 fullShare xt ∗ owns (c : Thread nD τ) a4 fullShare w
            ∗ owns (c : Thread nD τ) a5 fullShare acc ∗ (∃ d, owns (c : Thread nD τ) a6 fullShare d) ∗ (∃ d, owns (c : Thread nD τ) a7 fullShare d)
            ∗ owns (c : Thread nD τ) a8 fullShare sc
            ∗ (iprop(owns (c : Thread nD τ) a2 fullShare lt ∗ owns (c : Thread nD τ) a3 fullShare xt ∗ owns (c : Thread nD τ) a4 fullShare w
                ∗ owns (c : Thread nD τ) a5 fullShare acc
                ∗ (∃ f, a6.view.loc (c : Thread nD τ) ↦[a6.view.set]{fullShare} a6.view.writes (Elt F) f L6)
                ∗ (∃ f, a7.view.loc (c : Thread nD τ) ↦[a7.view.set]{fullShare} a7.view.writes (Elt F) f L7)
                ∗ (∃ f, a8.view.loc (c : Thread nD τ) ↦[a8.view.set]{fullShare} a8.view.writes (Elt F) f LS)) -∗ K ⟨⟩))
          ⊢ wp frame (wpE (defs₀ (F := F)) Variants.none c none) E (cc3__step_kernel i a2 h2 a3 h3 a4 h4 a5 h5 a6 h6 a7 h7 a8 h8) K } := by
  refine ⟨?_, ?_, ?_, fun E K => ?run⟩
  case run =>
    simp only [cc3__step_kernel_eq_skeleton]; unfold cc3__step_kernel_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    obtain rfl := h2.eq_unread hf2; obtain rfl := h3.eq_unread hf3; obtain rfl := h4.eq_unread hf4
    obtain rfl := h5.eq_unread hf5; obtain rfl := h8.eq_unread hf8
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact H8

end Cert.Kernel.Hop3

end
-- ==== Proof.WHop3Data.lean ====
import proofs.«155136_j78743930404901_2_alg».proof.Proof.WHop3RunFirst
import proofs.«155136_j78743930404901_2_alg».proof.Proof.WHop3RunMiddle
import proofs.«155136_j78743930404901_2_alg».proof.Proof.WHop3RunLast

/-!
# The first propagation step, point by point

What the scratch block and the two output blocks hold after each of the sixteen points, by recursion on the point:

* after the first point of a row of tiles the scratch holds what the reset-and-accumulate run leaves, computed from
  that point's Laplacian tile and feature tile alone;
* after a middle point, what the accumulate run leaves, computed from the point's tiles and from what the point
  before left in the scratch;
* after the last point of a row the same, and the two output blocks hold what the finishing stores leave, computed
  from the point's tiles, the weight matrix, the incoming output block, and what the point before left in the scratch.

At the first three points of a row the output windows are idle: their staging buffers are handed back as found, and
what they "hold" there is a placeholder nobody reads.

Everything is stated relative to `V`, the contents of the core's buffers when the step is entered. The region's
invariant carries the scratch at the recursion's value from one point to the next (before the very first point it
is just "the call's scoped buffers at anything"), the other calls' scoped buffers unopened, and the generator
register at some state.
-/

set_option maxRecDepth 16384

noncomputable section

namespace Cert.Kernel.Hop3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, and views to read contents through -/

/-- Window `w`'s block at point `t`, read off its array as the step finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch as a view, and one staging buffer of each output window: contents are stated through them (the
    choice does not matter once the pieces cover). -/
abbrev VS : View sig .tc .vmem S2048x16 .f32 := (scratch : Memref sig .tc .vmem S2048x16 .f32).view
abbrev VO4 : View sig .tc .vmem S2048x16 .f32 := (Memref.whole cc3_stg4_0 : Memref sig .tc .vmem S2048x16 .f32).view
abbrev VO5 : View sig .tc .vmem S2048x16 .f32 := (Memref.whole cc3_stg5_0 : Memref sig .tc .vmem S2048x16 .f32).view

/-! ## The three runs at a point's own memrefs -/

abbrev firstRun (c : Dev nD) (t : Fin cfg3.N) (hF : isFirst (grid3.coords t)) (hL : ¬isLast (grid3.coords t))
    (lt : Vec F S2048x2048 .bf16) (xt : Vec F S2048x16 .f32) :=
  runFirst (F := F) c (grid3.coords t) (ms0 t) (hs0 t) (ms1 t) (hs1 t) (ms2 t) (hs2 t) (ms3 t) (hs3 t) (ms4 t) (hs4 t) (ms5 t) (hs5 t) scratch (Memref.isWhole_whole _) hF hL lt xt
abbrev middleRun (c : Dev nD) (t : Fin cfg3.N) (hF : ¬isFirst (grid3.coords t)) (hL : ¬isLast (grid3.coords t))
    (lt : Vec F S2048x2048 .bf16) (xt : Vec F S2048x16 .f32) (sc : Vec F S2048x16 .f32) :=
  runMiddle (F := F) c (grid3.coords t) (ms0 t) (hs0 t) (ms1 t) (hs1 t) (ms2 t) (hs2 t) (ms3 t) (hs3 t) (ms4 t) (hs4 t) (ms5 t) (hs5 t) scratch (Memref.isWhole_whole _) hF hL lt xt sc
abbrev lastRun (c : Dev nD) (t : Fin cfg3.N) (hF : ¬isFirst (grid3.coords t)) (hL : isLast (grid3.coords t))
    (lt : Vec F S2048x2048 .bf16) (xt : Vec F S2048x16 .f32) (w : Vec F S16x16 .f32) (acc : Vec F S2048x16 .f32) (sc : Vec F S2048x16 .f32) :=
  runLast (F := F) c (grid3.coords t) (ms0 t) (hs0 t) (ms1 t) (hs1 t) (ms2 t) (hs2 t) (ms3 t) (hs3 t) (ms4 t) (hs4 t) (ms5 t) (hs5 t) scratch (Memref.isWhole_whole _) hF hL lt xt w acc sc

/-! ## What each run leaves, and that its pieces cover -/

/-- The scratch after the first point of a row. -/
def scFirst (c : Dev nD) (t : Fin cfg3.N) (hF : isFirst (grid3.coords t)) (hL : ¬isLast (grid3.coords t))
    (lt : Vec F S2048x2048 .bf16) (xt : Vec F S2048x16 .f32) : Vec F S2048x16 .f32 :=
  VS.read (Elt F) (VS.writes (Elt F) VS.junk (firstRun c t hF hL lt xt).1)
theorem scFirst_cover (c : Dev nD) (t : Fin cfg3.N) (hF : isFirst (grid3.coords t)) (hL : ¬isLast (grid3.coords t))
    (lt : Vec F S2048x2048 .bf16) (xt : Vec F S2048x16 .f32) (y : S2048x16.Idx) :
    ∃ pc ∈ (firstRun c t hF hL lt xt).1, y ∈ pc.1.set :=
  View.cover_of_tiledL (firstRun c t hF hL lt xt).1 S2048x16.size (by sl_kernel_rfl) y

/-- The scratch after a middle point. -/
def scMiddle (c : Dev nD) (t : Fin cfg3.N) (hF : ¬isFirst (grid3.coords t)) (hL : ¬isLast (grid3.coords t))
    (lt : Vec F S2048x2048 .bf16) (xt : Vec F S2048x16 .f32) (sc : Vec F S2048x16 .f32) : Vec F S2048x16 .f32 :=
  VS.read (Elt F) (VS.writes (Elt F) VS.junk (middleRun c t hF hL lt xt sc).1)
theorem scMiddle_cover (c : Dev nD) (t : Fin cfg3.N) (hF : ¬isFirst (grid3.coords t)) (hL : ¬isLast (grid3.coords t))
    (lt : Vec F S2048x2048 .bf16) (xt : Vec F S2048x16 .f32) (sc : Vec F S2048x16 .f32) (y : S2048x16.Idx) :
    ∃ pc ∈ (middleRun c t hF hL lt xt sc).1, y ∈ pc.1.set :=
  View.cover_of_tiledL (middleRun c t hF hL lt xt sc).1 S2048x16.size (by sl_kernel_rfl) y

/-- The new features' block, the running output's block and the scratch after the last point of a row. -/
def out4Last (c : Dev nD) (t : Fin cfg3.N) (hF : ¬isFirst (grid3.coords t)) (hL : isLast (grid3.coords t))
    (lt : Vec F S2048x2048 .bf16) (xt : Vec F S2048x16 .f32) (w : Vec F S16x16 .f32) (acc : Vec F S2048x16 .f32) (sc : Vec F S2048x16 .f32) : Vec F S2048x16 .f32 :=
  VO4.read (Elt F) (VO4.writes (Elt F) VO4.junk (lastRun c t hF hL lt xt w acc sc).1)
theorem out4Last_cover (c : Dev nD) (t : Fin cfg3.N) (hF : ¬isFirst (grid3.coords t)) (hL : isLast (grid3.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).1, y ∈ pc.1.set :=
  View.cover_of_tiledL (lastRun c t hF hL lt xt w acc sc).1 S2048x16.size (by sl_kernel_rfl) y
def out5Last (c : Dev nD) (t : Fin cfg3.N) (hF : ¬isFirst (grid3.coords t)) (hL : isLast (grid3.coords t))
    (lt : Vec F S2048x2048 .bf16) (xt : Vec F S2048x16 .f32) (w : Vec F S16x16 .f32) (acc : Vec F S2048x16 .f32) (sc : Vec F S2048x16 .f32) : Vec F S2048x16 .f32 :=
  VO5.read (Elt F) (VO5.writes (Elt F) VO5.junk (lastRun c t hF hL lt xt w acc sc).2.1)
theorem out5Last_cover (c : Dev nD) (t : Fin cfg3.N) (hF : ¬isFirst (grid3.coords t)) (hL : isLast (grid3.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).2.1, y ∈ pc.1.set :=
  View.cover_of_tiledL (lastRun c t hF hL lt xt w acc sc).2.1 S2048x16.size (by sl_kernel_rfl) y
def scLast (c : Dev nD) (t : Fin cfg3.N) (hF : ¬isFirst (grid3.coords t)) (hL : isLast (grid3.coords t))
    (lt : Vec F S2048x2048 .bf16) (xt : Vec F S2048x16 .f32) (w : Vec F S16x16 .f32) (acc : Vec F S2048x16 .f32) (sc : Vec F S2048x16 .f32) : Vec F S2048x16 .f32 :=
  VS.read (Elt F) (VS.writes (Elt F) VS.junk (lastRun c t hF hL lt xt w acc sc).2.2.1)
theorem scLast_cover (c : Dev nD) (t : Fin cfg3.N) (hF : ¬isFirst (grid3.coords t)) (hL : isLast (grid3.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).2.2.1, y ∈ pc.1.set :=
  View.cover_of_tiledL (lastRun c t hF hL lt xt w acc sc).2.2.1 S2048x16.size (by sl_kernel_rfl) y

/-! ## The accumulation over the sixteen points -/

/-- What an idle output window "holds": a placeholder nobody reads. -/
def idle4 : Vec F S2048x16 .f32 := VO4.read (Elt F) VO4.junk
def idle5 : Vec F S2048x16 .f32 := VO5.read (Elt F) VO5.junk

/-- After point `n`: the new features' block, the running output's block, the scratch. The kind of the point is read
    off `n mod 4`; a middle or last point takes the scratch the point before left. -/
def outsAt (c : Dev nD) : (n : ℕ) → n < cfg3.N → Vec F S2048x16 .f32 × Vec F S2048x16 .f32 × Vec F S2048x16 .f32
  | 0, hn =>
    (idle4, idle5,
      scFirst c ⟨0, hn⟩ ((isFirst_iff ⟨0, hn⟩).mpr (Nat.zero_mod _))
        (fun h => (fun h => by (try dsimp only at h); omega) ((isLast_iff ⟨0, hn⟩).mp h))
        (iblk V c 0 ⟨0, hn⟩) (iblk V c 1 ⟨0, hn⟩))
  | n + 1, hn =>
    if h0 : (n + 1) % 4 = 0 then
      (idle4, idle5,
        scFirst c ⟨n + 1, hn⟩ ((isFirst_iff ⟨n + 1, hn⟩).mpr h0) (fun h => (fun h => by (try dsimp only at h); omega) ((isLast_iff ⟨n + 1, hn⟩).mp h))
          (iblk V c 0 ⟨n + 1, hn⟩) (iblk V c 1 ⟨n + 1, hn⟩))
    else
      if h3 : (n + 1) % 4 = 3 then
        (out4Last c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2,
          out5Last c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2,
          scLast c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2)
      else
        (idle4, idle5,
          scMiddle c ⟨n + 1, hn⟩ (fun h => h0 ((isFirst_iff ⟨n + 1, hn⟩).mp h)) (fun h => h3 ((isLast_iff ⟨n + 1, hn⟩).mp h))
            (iblk V c 0 ⟨n + 1, hn⟩) (iblk V c 1 ⟨n + 1, hn⟩) (outsAt c n (Nat.lt_of_succ_lt hn)).2.2)

/-- At the first point of a row. -/
theorem outsAt_first (c : Dev nD) (t : Fin cfg3.N) (h0 : t.val % 4 = 0) (hL : ¬isLast (grid3.coords t)) :
    outsAt V c t.val t.isLt
      = (idle4, idle5, scFirst c t ((isFirst_iff t).mpr h0) hL (iblk V c 0 t) (iblk V c 1 t)) := by
  obtain ⟨n, hn⟩ := t
  cases n with
  | zero => exact rfl
  | succ n => exact dif_pos h0

/-- At a middle point: over what the point before left. -/
theorem outsAt_middle (c : Dev nD) (t : Fin cfg3.N) (h0 : ¬t.val % 4 = 0) (h3 : ¬t.val % 4 = 3) :
    outsAt V c t.val t.isLt
      = (idle4, idle5, scMiddle c t (fun h => h0 ((isFirst_iff t).mp h)) (fun h => h3 ((isLast_iff t).mp h))
          (iblk V c 0 t) (iblk V c 1 t) (outsAt V c (t.val - 1) (Nat.lt_of_le_of_lt (Nat.sub_le _ _) t.isLt)).2.2) := by
  obtain ⟨n, hn⟩ := t
  cases n with
  | zero => exact absurd (Nat.zero_mod _) h0
  | succ n => exact (dif_neg h0).trans (dif_neg h3)

/-- At the last point of a row: over what the point before left. -/
theorem outsAt_last (c : Dev nD) (t : Fin cfg3.N) (h0 : ¬t.val % 4 = 0) (h3 : t.val % 4 = 3) :
    outsAt V c t.val t.isLt
      = (out4Last c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2,
          out5Last c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2,
          scLast c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2) := by
  obtain ⟨n, hn⟩ := t
  cases n with
  | zero => exact absurd (Nat.zero_mod _) h0
  | succ n => exact (dif_neg h0).trans (dif_pos h3)

/-! ## The invariant between points -/

/-- Before the first point: the call's scoped buffers at anything and the generator register at some state. After
    point `n`: the scratch at what that point left, the other scoped buffers unopened, the generator register. -/
def PhiS (c : Dev nD) : (n : ℕ) → n ≤ cfg3.N → sProp 𝕄
  | 0, _ => Pipeline.ΦA spec3 c
  | n + 1, hn =>
    iprop(iprop(owns (c : Thread nD τ) scratch fullShare ((outsAt V c n hn).2.2)
        ∗ Pipeline.scopedRestBut (Ix := Unit) (Name := ℕ) (U := UR sig nD τ) (Lvl := ℕ) (Val := Elt F) spec3 c [cc3_scratch0])
      ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn
      = iprop(iprop(owns (c : Thread nD τ) scratch fullShare ((outsAt V c n hn).2.2)
          ∗ Pipeline.scopedRestBut (Ix := Unit) (Name := ℕ) (U := UR sig nD τ) (Lvl := ℕ) (Val := Elt F) spec3 c [cc3_scratch0])
        ∗ (∃ r, prngReg c r)) := rfl

theorem PhiS_pos (c : Dev nD) (n : ℕ) (h : n ≤ cfg3.N) (hz : n ≠ 0) :
    PhiS V c n h
      = iprop(iprop(owns (c : Thread nD τ) scratch fullShare ((outsAt V c (n - 1) (by omega)).2.2)
          ∗ Pipeline.scopedRestBut (Ix := Unit) (Name := ℕ) (U := UR sig nD τ) (Lvl := ℕ) (Val := Elt F) spec3 c [cc3_scratch0])
        ∗ (∃ r, prngReg c r)) := by
  cases n with
  | zero => exact absurd rfl hz
  | succ n => rfl

/-- The class's invariant with the call's scratch taken out as a memref owned at some contents. -/
theorem PhiA_eq (c : Dev nD) :
    (Pipeline.ΦA spec3 c : sProp 𝕄)
      = iprop(iprop((∃ d, owns (c : Thread nD τ) scratch fullShare d)
          ∗ Pipeline.scopedRestBut (Ix := Unit) (Name := ℕ) (U := UR sig nD τ) (Lvl := ℕ) (Val := Elt F) spec3 c [cc3_scratch0])
        ∗ (∃ r, prngReg c r)) := by
  unfold Pipeline.ΦA; rw [scopedRest3_split]; simp only [scratch, owns_whole]; try rfl

/-! ## The proof data -/

/-- The arrays as the step finds them; after the body each input's buffer at its block, the outputs' at the
    recursion's values; the invariant above; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2.1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = iblk V c 3 t := by dsimp only [dat]
theorem after4 (c : Dev nD) (t : Fin cfg3.N) : (dat V c).after 4 t = (outsAt V c t.val t.isLt).1 := by dsimp only [dat]
theorem after5 (c : Dev nD) (t : Fin cfg3.N) : (dat V c).after 5 t = (outsAt V c t.val t.isLt).2.1 := by dsimp only [dat]

/-- Each input's current staging buffer holds its block at every point, fetched there or not: where the block index
    did not move, the block is still the one fetched earlier. -/
theorem before0 (c : Dev nD) (t : Fin cfg3.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg3.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg3.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg3.N) (d) : (dat V c).before 3 t d = iblk V c 3 t :=
  ((dat V c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

end Cert.Kernel.Hop3

end
-- ==== Proof.WHop3Body.lean ====
import proofs.«155136_j78743930404901_2_alg».proof.Proof.WHop3Data

/-!
# The body obligation of the fourth propagation step

At every point the body, called with the point's staging buffers, takes the region's invariant from "after the point
before" to "after this point" and leaves each window's buffer as the proof data says:

* the four inputs at their blocks, untouched;
* at the first three points of a row the two output windows as found (they are idle and not written back there),
  and the scratch at the recursion's next value — over anything at the first point of a row, over what the point
  before left at a middle point;
* at the last point of a row both output windows at what the finishing stores leave.

The point's kind is decided by `t mod 4`, and each kind is one of the three runs of the body; what a run leaves
as a list of pieces written over unknown contents is the recursion's value because the pieces cover the block.
-/

set_option maxRecDepth 16384

noncomputable section

namespace Cert.Kernel.Hop3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg3.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 4800000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
      unfold Dat.leavesExact; rw [in0_live t], after0]
  rw [show (dat V c).leavesExact 1 t = owns (c : Thread nD τ) (ms1 t) fullShare ((dat V c).after 1 t) from by
      unfold Dat.leavesExact; rw [in1_live t], after1]
  rw [show (dat V c).leavesExact 2 t = owns (c : Thread nD τ) (ms2 t) fullShare ((dat V c).after 2 t) from by
      unfold Dat.leavesExact; rw [in2_live t], after2]
  rw [show (dat V c).leavesExact 3 t = owns (c : Thread nD τ) (ms3 t) fullShare ((dat V c).after 3 t) from by
      unfold Dat.leavesExact; rw [in3_live t], after3]
  have hN : t.val < 16 := lt_of_lt_of_eq t.isLt (show cfg3.N = 16 from N_3)
  by_cases h0 : t.val % 4 = 0
  · -- the first point of a row
    have hF : isFirst (grid3.coords t) := (isFirst_iff t).mpr h0
    have hL : ¬isLast (grid3.coords t) := fun h => by have := (isLast_iff t).mp h; omega
    rw [Dat.leavesExact_idle (dat V c) 4 t (out4_idle t hL) (out4_noFlush t hL),
      Dat.leavesExact_idle (dat V c) 5 t (out5_idle t hL) (out5_noFlush t hL)]
    rw [outsAt_first V c t h0 hL]
    unfold scFirst; (try dsimp only)
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩, ⟨%d3, H3⟩, H4, H5⟩
      iapply ((firstRun c t hF hL (iblk V c 0 t) (iblk V c 1 t)).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scFirst_cover c t hF hL _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((firstRun c t hF hL (iblk V c 0 t) (iblk V c 1 t)).2 Set.univ _)
      isplitl [H0]; · iexact H0
      isplitl [H1]; · iexact H1
      isplitl [HS]; · iexists _; iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scFirst_cover c t hF hL _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
  · have hF : ¬isFirst (grid3.coords t) := fun h => h0 ((isFirst_iff t).mp h)
    have hz : t.val ≠ 0 := fun h => h0 (by rw [h])
    by_cases h3 : t.val % 4 = 3
    · -- the last point of a row
      have hL : isLast (grid3.coords t) := (isLast_iff t).mpr h3
      rw [show (dat V c).leavesExact 4 t = owns (c : Thread nD τ) (ms4 t) fullShare ((dat V c).after 4 t) from by
          unfold Dat.leavesExact; rw [out4_live t hL], after4]
      rw [show (dat V c).leavesExact 5 t = owns (c : Thread nD τ) (ms5 t) fullShare ((dat V c).after 5 t) from by
          unfold Dat.leavesExact; rw [out5_live t hL], after5]
      rw [outsAt_last V c t h0 h3]
      unfold out4Last out5Last scLast; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((lastRun c t hF hL (iblk V c 0 t) (iblk V c 1 t) (iblk V c 2 t) (iblk V c 3 t) _).2.2.2 Set.univ _)
      isplitl [H0]; · iexact H0
      isplitl [H1]; · iexact H1
      isplitl [H2]; · iexact H2
      isplitl [H3]; · iexact H3
      isplitl [H4]; · icases H4 with ⟨%d4, H4⟩; iexists _; iexact H4
      isplitl [H5]; · icases H5 with ⟨%d5, H5⟩; iexists _; iexact H5
      isplitl [HS]; · iexact HS
      iintro ⟨H0, H1, H2, H3, ⟨%e4, H4⟩, ⟨%e5, H5⟩, ⟨%es, HS⟩⟩
      isplitl [HS Hrest Hg]
      · isplitl [HS Hrest]
        · isplitl [HS]
          · unfold owns; iexists _; isplitr
            swap; · iexact HS
            ipureintro; exact View.read_writes_of_cover _ _ _ _ _ (scLast_cover c t hF hL _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (out4Last_cover c t hF hL _ _ _ _ _)
      unfold owns; iexists _; isplitr
      swap; · iexact H5
      ipureintro; exact View.read_writes_of_cover _ _ _ _ _ (out5Last_cover c t hF hL _ _ _ _ _)
    · -- a middle point
      have hL : ¬isLast (grid3.coords t) := fun h => h3 ((isLast_iff t).mp h)
      rw [Dat.leavesExact_idle (dat V c) 4 t (out4_idle t hL) (out4_noFlush t hL),
        Dat.leavesExact_idle (dat V c) 5 t (out5_idle t hL) (out5_noFlush t hL)]
      rw [outsAt_middle V c t h0 h3]
      unfold scMiddle; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((middleRun c t hF hL (iblk V c 0 t) (iblk V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scMiddle_cover c t hF hL _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dat (F := F) V c) (defs₀ (F := F)) Variants.none () Set.univ := fun t => by
  rw [bigSep_W3, bigSep_W3]
  exact sound_body V c t

/-! ## The invariant at the two ends -/

/-- What the region hands the step is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch's contents are forgotten. -/
theorem hout (c : Dev nD) : (dat V c).Φ (Fin.last cfg3.N) ⊢ Pipeline.ΦA spec3 c := by
  rw [show (dat V c).Φ (Fin.last cfg3.N) = PhiS V c (Fin.last cfg3.N).val (Nat.le_of_lt_succ (Fin.last cfg3.N).isLt) from rfl,
    PhiS_pos V c _ _ (by rw [Fin.val_last]; have : cfg3.N = 16 := N_3; omega), PhiA_eq]
  iintro ⟨⟨HS, Hrest⟩, Hg⟩
  isplitl [HS Hrest]
  · isplitl [HS]
    · iexists _; iexact HS
    iexact Hrest
  iexact Hg

end Cert.Kernel.Hop3

end
-- ==== Proof.WWhole.lean ====
import proofs.«155136_j78743930404901_2_alg».proof.Proof.WHop0Body
import proofs.«155136_j78743930404901_2_alg».proof.Proof.WHop1Body
import proofs.«155136_j78743930404901_2_alg».proof.Proof.WHop2Body
import proofs.«155136_j78743930404901_2_alg».proof.Proof.WHop3Body
import proofs.«155136_j78743930404901_2_alg».proof.Proof.Gen.Kernel.Regions
import Idealize.ShloMosaic.Lib.Pipeline.RegionsLoop
import Idealize.ShloMosaic.Lib.Pipeline.FrameSuffix

/-!
# The whole program: ten items, four of them propagation steps

@main is three stretches of host operations (the Laplacian's change of format, the first weight slice and
`relu (x · W₀)`, the second weight slice), then four times a propagation step followed — except after the last — by
the next weight slice. Between two items a core holds every unscoped buffer at known contents:

* a host stretch changes them by its operations' composed effect;
* a propagation step replaces its two result arrays by what its write-backs leave (the proof data's arrays after
  the last point) and leaves every other buffer alone.

The contents after each item are named stage by stage, each step's proof data stated at the contents it is entered
from; then each step is a region record of the several-region launch (its arrays split out of the unscoped buffers
at entry and put back at exit, the generator register and the scoped buffers through the invariant, nothing owed),
and the frame follows from the four records.
-/

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg HostSeg)

variable {F : FTy → Type} [FloatOps F]

local notation "𝕄" => MT nD τ sig Unit (Elt F) ℕ (UR sig nD τ) ℕ

variable (m : (ℓ : Loc nD τ sig) → Buf (Elt F) ℓ)

/-! ## The contents at each boundary, stage by stage -/

/-- What the first step is entered from: the launch contents after the three host stretches. -/
abbrev E0 (c : Dev nD) (b : Ref sig .tc) : Buf (Elt F) ((c : Thread nD τ).loc b) := V3 m c b
/-- What the first step leaves in its two result arrays. -/
def x1 (c : Dev nD) : Buf (Elt F) ((c : Thread nD τ).loc main_v7_0) := (Hop0.dat (E0 m) c).arrAt 4 cfg0.N
def a1 (c : Dev nD) : Buf (Elt F) ((c : Thread nD τ).loc main_v7_1) := (Hop0.dat (E0 m) c).arrAt 5 cfg0.N
abbrev U4 (c : Dev nD) : Valuation τ sig (Elt F) := Function.update (Function.update (V3 m c) main_v7_0 (x1 m c)) main_v7_1 (a1 m c)
abbrev U5 (c : Dev nD) : Valuation τ sig (Elt F) := StableHlo.after hostOps1 (U4 m c)

abbrev E1 (c : Dev nD) (b : Ref sig .tc) : Buf (Elt F) ((c : Thread nD τ).loc b) := U5 m c b
def x2 (c : Dev nD) : Buf (Elt F) ((c : Thread nD τ).loc main_v10_0) := (Hop1.dat (E1 m) c).arrAt 4 cfg1.N
def a2 (c : Dev nD) : Buf (Elt F) ((c : Thread nD τ).loc main_v10_1) := (Hop1.dat (E1 m) c).arrAt 5 cfg1.N
abbrev U6 (c : Dev nD) : Valuation τ sig (Elt F) := Function.update (Function.update (U5 m c) main_v10_0 (x2 m c)) main_v10_1 (a2 m c)
abbrev U7 (c : Dev nD) : Valuation τ sig (Elt F) := StableHlo.after hostOps2 (U6 m c)

abbrev E2 (c : Dev nD) (b : Ref sig .tc) : Buf (Elt F) ((c : Thread nD τ).loc b) := U7 m c b
def x3 (c : Dev nD) : Buf (Elt F) ((c : Thread nD τ).loc main_v13_0) := (Hop2.dat (E2 m) c).arrAt 4 cfg2.N
def a3 (c : Dev nD) : Buf (Elt F) ((c : Thread nD τ).loc main_v13_1) := (Hop2.dat (E2 m) c).arrAt 5 cfg2.N
abbrev U8 (c : Dev nD) : Valuation τ sig (Elt F) := Function.update (Function.update (U7 m c) main_v13_0 (x3 m c)) main_v13_1 (a3 m c)
abbrev U9 (c : Dev nD) : Valuation τ sig (Elt F) := StableHlo.after hostOps3 (U8 m c)

abbrev E3 (c : Dev nD) (b : Ref sig .tc) : Buf (Elt F) ((c : Thread nD τ).loc b) := U9 m c b
def x4 (c : Dev nD) : Buf (Elt F) ((c : Thread nD τ).loc main_v16_0) := (Hop3.dat (E3 m) c).arrAt 4 cfg3.N
def a4 (c : Dev nD) : Buf (Elt F) ((c : Thread nD τ).loc main_v16_1) := (Hop3.dat (E3 m) c).arrAt 5 cfg3.N
abbrev U10 (c : Dev nD) : Valuation τ sig (Elt F) := Function.update (Function.update (U9 m c) main_v16_0 (x4 m c)) main_v16_1 (a4 m c)

/-- What the steps leave, as the family the conditional frame is stated over: each result array's contents after
    its step (the item number is not consulted: a result array is written by one step only). -/
def outs : Outs (F := F) := fun _ r c =>
  if h : r = main_v7_0 then h ▸ x1 m c
  else if h : r = main_v7_1 then h ▸ a1 m c
  else if h : r = main_v10_0 then h ▸ x2 m c
  else if h : r = main_v10_1 then h ▸ a2 m c
  else if h : r = main_v13_0 then h ▸ x3 m c
  else if h : r = main_v13_1 then h ▸ a3 m c
  else if h : r = main_v16_0 then h ▸ x4 m c
  else if h : r = main_v16_1 then h ▸ a4 m c
  else V0 m c r

theorem outs_x1 (J : ℕ) (c : Dev nD) : outs m J main_v7_0 c = x1 m c := by unfold outs; rw [dif_pos rfl]
theorem outs_a1 (J : ℕ) (c : Dev nD) : outs m J main_v7_1 c = a1 m c := by
  unfold outs; rw [dif_neg (by decide), dif_pos rfl]
theorem outs_x2 (J : ℕ) (c : Dev nD) : outs m J main_v10_0 c = x2 m c := by
  unfold outs; rw [dif_neg (by decide), dif_neg (by decide), dif_pos rfl]
theorem outs_a2 (J : ℕ) (c : Dev nD) : outs m J main_v10_1 c = a2 m c := by
  unfold outs; rw [dif_neg (by decide), dif_neg (by decide), dif_neg (by decide), dif_pos rfl]
theorem outs_x3 (J : ℕ) (c : Dev nD) : outs m J main_v13_0 c = x3 m c := by
  unfold outs; rw [dif_neg (by decide), dif_neg (by decide), dif_neg (by decide), dif_neg (by decide), dif_pos rfl]
theorem outs_a3 (J : ℕ) (c : Dev nD) : outs m J main_v13_1 c = a3 m c := by
  unfold outs; rw [dif_neg (by decide), dif_neg (by decide), dif_neg (by decide), dif_neg (by decide), dif_neg (by decide), dif_pos rfl]
theorem outs_x4 (J : ℕ) (c : Dev nD) : outs m J main_v16_0 c = x4 m c := by
  unfold outs; rw [dif_neg (by decide), dif_neg (by decide), dif_neg (by decide), dif_neg (by decide), dif_neg (by decide), dif_neg (by decide), dif_pos rfl]
theorem outs_a4 (J : ℕ) (c : Dev nD) : outs m J main_v16_1 c = a4 m c := by
  unfold outs; rw [dif_neg (by decide), dif_neg (by decide), dif_neg (by decide), dif_neg (by decide), dif_neg (by decide), dif_neg (by decide), dif_neg (by decide), dif_pos rfl]

/-- The generated valuations at this family are the staged ones. -/
theorem V4_eq (c : Dev nD) : V4 m (outs m) c = U4 m c := by
  show Function.update (Function.update (V3 m c) main_v7_0 (outs m 4 main_v7_0 c)) main_v7_1 (outs m 4 main_v7_1 c) = _
  rw [outs_x1, outs_a1]
theorem V5_eq (c : Dev nD) : V5 m (outs m) c = U5 m c := by
  show StableHlo.after hostOps1 (V4 m (outs m) c) = _; rw [V4_eq]
theorem V6_eq (c : Dev nD) : V6 m (outs m) c = U6 m c := by
  show Function.update (Function.update (V5 m (outs m) c) main_v10_0 (outs m 6 main_v10_0 c)) main_v10_1 (outs m 6 main_v10_1 c) = _
  rw [outs_x2, outs_a2, V5_eq]
theorem V7_eq (c : Dev nD) : V7 m (outs m) c = U7 m c := by
  show StableHlo.after hostOps2 (V6 m (outs m) c) = _; rw [V6_eq]
theorem V8_eq (c : Dev nD) : V8 m (outs m) c = U8 m c := by
  show Function.update (Function.update (V7 m (outs m) c) main_v13_0 (outs m 8 main_v13_0 c)) main_v13_1 (outs m 8 main_v13_1 c) = _
  rw [outs_x3, outs_a3, V7_eq]
theorem V9_eq (c : Dev nD) : V9 m (outs m) c = U9 m c := by
  show StableHlo.after hostOps3 (V8 m (outs m) c) = _; rw [V8_eq]
theorem V10_eq (c : Dev nD) : V10 m (outs m) c = U10 m c := by
  show Function.update (Function.update (V9 m (outs m) c) main_v16_0 (outs m 10 main_v16_0 c)) main_v16_1 (outs m 10 main_v16_1 c) = _
  rw [outs_x4, outs_a4, V9_eq]

/-! ## The proof data of the four steps, and what rides beside the buffers -/

/-- Each step's proof data at the contents it is entered from. -/
def pdats : (p : Fin 4) → (c : Dev nD) → Dat τ (Elt F) Unit ℕ (UR sig nD τ) ℕ (cfgs p) c
  | ⟨0, _⟩ => fun c => Hop0.dat (E0 m) c
  | ⟨1, _⟩ => fun c => Hop1.dat (E1 m) c
  | ⟨2, _⟩ => fun c => Hop2.dat (E2 m) c
  | ⟨3, _⟩ => fun c => Hop3.dat (E3 m) c

/-- No core owes another anything: no level is assigned. -/
abbrev L : GSem nD τ sig → Finset Unit := fun _ => ∅
abbrev lv : GSem nD τ sig → Unit → ℕ := fun _ _ => 0

/-- Beside the buffers, through every item: the generator register at some state and the core owing nothing. -/
abbrev R (c : Dev nD) : sProp 𝕄 := iprop((∃ r, prngReg c r) ∗ ∃ W, owes (c : Thread nD τ) (0 : CellTallies nD τ sig Unit) W)

/-! ## What a step leaves in the unscoped buffers -/

theorem hF0 (c : Dev nD) (w : Fin cfg0.W) :
    (Hop0.dat (E0 m) c).arrAt w cfg0.N = (fun b : Ref sig .tc => V4 m (outs m) c b) (Pipeline.arrRef spec0 w) :=
  match w with
  | ⟨0, _⟩ => ((Hop0.dat (E0 m) c).arrAt_in 0 rfl _).trans ((Hop0.A_eq (E0 m) c 0).trans (V4_of m (outs m) c main_v0 (by decide)).symm)
  | ⟨1, _⟩ => ((Hop0.dat (E0 m) c).arrAt_in 1 rfl _).trans ((Hop0.A_eq (E0 m) c 1).trans (V4_of m (outs m) c main_arg0 (by decide)).symm)
  | ⟨2, _⟩ => ((Hop0.dat (E0 m) c).arrAt_in 2 rfl _).trans ((Hop0.A_eq (E0 m) c 2).trans (V4_of m (outs m) c main_v6 (by decide)).symm)
  | ⟨3, _⟩ => ((Hop0.dat (E0 m) c).arrAt_in 3 rfl _).trans ((Hop0.A_eq (E0 m) c 3).trans (V4_of m (outs m) c main_v4 (by decide)).symm)
  | ⟨4, _⟩ => by
    show x1 m c = Function.update (Function.update (V3 m c) main_v7_0 (outs m 4 main_v7_0 c)) main_v7_1 (outs m 4 main_v7_1 c) main_v7_0
    rw [Function.update_of_ne (StableHlo.devRef_ne_of_ne (by decide : main_v7_0 ≠ main_v7_1)), Function.update_self, outs_x1]
  | ⟨5, _⟩ => by
    show a1 m c = Function.update (Function.update (V3 m c) main_v7_0 (outs m 4 main_v7_0 c)) main_v7_1 (outs m 4 main_v7_1 c) main_v7_1
    rw [Function.update_self, outs_a1]

theorem hrest0 (c : Dev nD) : ∀ b, b ∉ Finset.univ.image (Pipeline.arrRef spec0) → V4 m (outs m) c b = E0 m c b :=
  fun b hb => V4_of m (outs m) c b (fun hm => by
    rcases List.mem_cons.mp hm with rfl | hm
    · exact hb (Finset.mem_image.mpr ⟨4, Finset.mem_univ _, rfl⟩)
    · rcases List.mem_cons.mp hm with rfl | hm
      · exact hb (Finset.mem_image.mpr ⟨5, Finset.mem_univ _, rfl⟩)
      · exact absurd hm List.not_mem_nil)

/-! ## The steps as region records -/

set_option backward.isDefEq.respectTransparency.types false in
/-- The first step: entered from every unscoped buffer at the contents after the three host stretches, left with
    its two result arrays replaced. Its six arrays are split out of the unscoped buffers at entry and put back at
    exit; the generator register and the scoped buffers go through the invariant; nothing is owed; the kernel has no
    semaphore of its own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Hop0.body_obligation (E0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Hop0.hin (E0 m) c)
    unfold Pipeline.ΦA
    iintro ⟨Hp, -, Hr⟩
    isplitl [Hr]; · iexact Hr
    iexact Hp
  hout c := by
    rw [Pipeline.ownSems0_none]
    refine (Hop0.hout (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b : Ref sig .tc => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF1 (c : Dev nD) (w : Fin cfg1.W) :
    (Hop1.dat (E1 m) c).arrAt w cfg1.N = (fun b : Ref sig .tc => V6 m (outs m) c b) (Pipeline.arrRef spec1 w) :=
  match w with
  | ⟨0, _⟩ => ((Hop1.dat (E1 m) c).arrAt_in 0 rfl _).trans ((Hop1.A_eq (E1 m) c 0).trans ((V6_of m (outs m) c main_v0 (by decide)).trans (congrFun (V5_eq m c) _)).symm)
  | ⟨1, _⟩ => ((Hop1.dat (E1 m) c).arrAt_in 1 rfl _).trans ((Hop1.A_eq (E1 m) c 1).trans ((V6_of m (outs m) c main_v7_0 (by decide)).trans (congrFun (V5_eq m c) _)).symm)
  | ⟨2, _⟩ => ((Hop1.dat (E1 m) c).arrAt_in 2 rfl _).trans ((Hop1.A_eq (E1 m) c 2).trans ((V6_of m (outs m) c main_v9 (by decide)).trans (congrFun (V5_eq m c) _)).symm)
  | ⟨3, _⟩ => ((Hop1.dat (E1 m) c).arrAt_in 3 rfl _).trans ((Hop1.A_eq (E1 m) c 3).trans ((V6_of m (outs m) c main_v7_1 (by decide)).trans (congrFun (V5_eq m c) _)).symm)
  | ⟨4, _⟩ => by
    show x2 m c = Function.update (Function.update (V5 m (outs m) c) main_v10_0 (outs m 6 main_v10_0 c)) main_v10_1 (outs m 6 main_v10_1 c) main_v10_0
    rw [Function.update_of_ne (StableHlo.devRef_ne_of_ne (by decide : main_v10_0 ≠ main_v10_1)), Function.update_self, outs_x2]
  | ⟨5, _⟩ => by
    show a2 m c = Function.update (Function.update (V5 m (outs m) c) main_v10_0 (outs m 6 main_v10_0 c)) main_v10_1 (outs m 6 main_v10_1 c) main_v10_1
    rw [Function.update_self, outs_a2]

theorem hrest1 (c : Dev nD) : ∀ b, b ∉ Finset.univ.image (Pipeline.arrRef spec1) → V6 m (outs m) c b = E1 m c b :=
  fun b hb => (V6_of m (outs m) c b (fun hm => by
    rcases List.mem_cons.mp hm with rfl | hm
    · exact hb (Finset.mem_image.mpr ⟨4, Finset.mem_univ _, rfl⟩)
    · rcases List.mem_cons.mp hm with rfl | hm
      · exact hb (Finset.mem_image.mpr ⟨5, Finset.mem_univ _, rfl⟩)
      · exact absurd hm List.not_mem_nil)).trans (congrFun (V5_eq m c) _)

theorem hF2 (c : Dev nD) (w : Fin cfg2.W) :
    (Hop2.dat (E2 m) c).arrAt w cfg2.N = (fun b : Ref sig .tc => V8 m (outs m) c b) (Pipeline.arrRef spec2 w) :=
  match w with
  | ⟨0, _⟩ => ((Hop2.dat (E2 m) c).arrAt_in 0 rfl _).trans ((Hop2.A_eq (E2 m) c 0).trans ((V8_of m (outs m) c main_v0 (by decide)).trans (congrFun (V7_eq m c) _)).symm)
  | ⟨1, _⟩ => ((Hop2.dat (E2 m) c).arrAt_in 1 rfl _).trans ((Hop2.A_eq (E2 m) c 1).trans ((V8_of m (outs m) c main_v10_0 (by decide)).trans (congrFun (V7_eq m c) _)).symm)
  | ⟨2, _⟩ => ((Hop2.dat (E2 m) c).arrAt_in 2 rfl _).trans ((Hop2.A_eq (E2 m) c 2).trans ((V8_of m (outs m) c main_v12 (by decide)).trans (congrFun (V7_eq m c) _)).symm)
  | ⟨3, _⟩ => ((Hop2.dat (E2 m) c).arrAt_in 3 rfl _).trans ((Hop2.A_eq (E2 m) c 3).trans ((V8_of m (outs m) c main_v10_1 (by decide)).trans (congrFun (V7_eq m c) _)).symm)
  | ⟨4, _⟩ => by
    show x3 m c = Function.update (Function.update (V7 m (outs m) c) main_v13_0 (outs m 8 main_v13_0 c)) main_v13_1 (outs m 8 main_v13_1 c) main_v13_0
    rw [Function.update_of_ne (StableHlo.devRef_ne_of_ne (by decide : main_v13_0 ≠ main_v13_1)), Function.update_self, outs_x3]
  | ⟨5, _⟩ => by
    show a3 m c = Function.update (Function.update (V7 m (outs m) c) main_v13_0 (outs m 8 main_v13_0 c)) main_v13_1 (outs m 8 main_v13_1 c) main_v13_1
    rw [Function.update_self, outs_a3]

theorem hrest2 (c : Dev nD) : ∀ b, b ∉ Finset.univ.image (Pipeline.arrRef spec2) → V8 m (outs m) c b = E2 m c b :=
  fun b hb => (V8_of m (outs m) c b (fun hm => by
    rcases List.mem_cons.mp hm with rfl | hm
    · exact hb (Finset.mem_image.mpr ⟨4, Finset.mem_univ _, rfl⟩)
    · rcases List.mem_cons.mp hm with rfl | hm
      · exact hb (Finset.mem_image.mpr ⟨5, Finset.mem_univ _, rfl⟩)
      · exact absurd hm List.not_mem_nil)).trans (congrFun (V7_eq m c) _)

theorem hF3 (c : Dev nD) (w : Fin cfg3.W) :
    (Hop3.dat (E3 m) c).arrAt w cfg3.N = (fun b : Ref sig .tc => V10 m (outs m) c b) (Pipeline.arrRef spec3 w) :=
  match w with
  | ⟨0, _⟩ => ((Hop3.dat (E3 m) c).arrAt_in 0 rfl _).trans ((Hop3.A_eq (E3 m) c 0).trans ((V10_of m (outs m) c main_v0 (by decide)).trans (congrFun (V9_eq m c) _)).symm)
  | ⟨1, _⟩ => ((Hop3.dat (E3 m) c).arrAt_in 1 rfl _).trans ((Hop3.A_eq (E3 m) c 1).trans ((V10_of m (outs m) c main_v13_0 (by decide)).trans (congrFun (V9_eq m c) _)).symm)
  | ⟨2, _⟩ => ((Hop3.dat (E3 m) c).arrAt_in 2 rfl _).trans ((Hop3.A_eq (E3 m) c 2).trans ((V10_of m (outs m) c main_v15 (by decide)).trans (congrFun (V9_eq m c) _)).symm)
  | ⟨3, _⟩ => ((Hop3.dat (E3 m) c).arrAt_in 3 rfl _).trans ((Hop3.A_eq (E3 m) c 3).trans ((V10_of m (outs m) c main_v13_1 (by decide)).trans (congrFun (V9_eq m c) _)).symm)
  | ⟨4, _⟩ => by
    show x4 m c = Function.update (Function.update (V9 m (outs m) c) main_v16_0 (outs m 10 main_v16_0 c)) main_v16_1 (outs m 10 main_v16_1 c) main_v16_0
    rw [Function.update_of_ne (StableHlo.devRef_ne_of_ne (by decide : main_v16_0 ≠ main_v16_1)), Function.update_self, outs_x4]
  | ⟨5, _⟩ => by
    show a4 m c = Function.update (Function.update (V9 m (outs m) c) main_v16_0 (outs m 10 main_v16_0 c)) main_v16_1 (outs m 10 main_v16_1 c) main_v16_1
    rw [Function.update_self, outs_a4]

theorem hrest3 (c : Dev nD) : ∀ b, b ∉ Finset.univ.image (Pipeline.arrRef spec3) → V10 m (outs m) c b = E3 m c b :=
  fun b hb => (V10_of m (outs m) c b (fun hm => by
    rcases List.mem_cons.mp hm with rfl | hm
    · exact hb (Finset.mem_image.mpr ⟨4, Finset.mem_univ _, rfl⟩)
    · rcases List.mem_cons.mp hm with rfl | hm
      · exact hb (Finset.mem_image.mpr ⟨5, Finset.mem_univ _, rfl⟩)
      · exact absurd hm List.not_mem_nil)).trans (congrFun (V9_eq m c) _)

set_option backward.isDefEq.respectTransparency.types false in
/-- The second step: entered from the contents after the first step and the third weight slice. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Hop1.body_obligation (E1 m) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none, V5_eq]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Hop1.hin (E1 m) c)
    unfold Pipeline.ΦA
    iintro ⟨Hp, -, Hr⟩
    isplitl [Hr]; · iexact Hr
    iexact Hp
  hout c := by
    rw [Pipeline.ownSems0_none]
    refine (Hop1.hout (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b : Ref sig .tc => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third step: entered from the contents after the second step and the fourth weight slice. -/
def reg2 : RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (Hop2.body_obligation (E2 m) c).loose
  hwaits := Pipeline.hwaits_of_owed_zero _ _ _ _ L lv 2 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none, V7_eq]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Hop2.hin (E2 m) c)
    unfold Pipeline.ΦA
    iintro ⟨Hp, -, Hr⟩
    isplitl [Hr]; · iexact Hr
    iexact Hp
  hout c := by
    rw [Pipeline.ownSems0_none]
    refine (Hop2.hout (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (fun b : Ref sig .tc => V8 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fourth step: entered from the contents after the third step and the last weight slice. -/
def reg3 : RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (Hop3.body_obligation (E3 m) c).loose
  hwaits := Pipeline.hwaits_of_owed_zero _ _ _ _ L lv 3 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none, V9_eq]
    have hsplit := Pipeline.arrays_of_unscopedBufs (p := 3) (pcfgs (F := F)) adm (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Hop3.hin (E3 m) c)
    unfold Pipeline.ΦA
    iintro ⟨Hp, -, Hr⟩
    isplitl [Hr]; · iexact Hr
    iexact Hp
  hout c := by
    rw [Pipeline.ownSems0_none]
    refine (Hop3.hout (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E3 m c) (fun b : Ref sig .tc => V10 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- From any memory with zero counters every weakly fair execution of @main terminates, nothing faulting, and the
    three argument arrays end as launched: the conditional frame of the ten items, at the four records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond m (Ix := Unit) (U := UR sig nD τ) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE4 := fun c => by
      iintro ⟨-, HO⟩
      iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)

end Cert.Kernel.Whole

end
-- ==== Proof.Hop0Points.lean ====
import proofs.«155136_j78743930404901_2_alg».proof.Proof.Gen.KernelIdeal.Launch
import proofs.«155136_j78743930404901_2_alg».proof.Proof.Gen.KernelIdeal.Skeleton
import proofs.«155136_j78743930404901_2_alg».proof.Proof.Gen.KernelIdeal.Points
import Idealize.ShloMosaic.Lib.Pipeline.FrameBody
import Idealize.ShloMosaic.Lib.Ring
import Idealize.ShloMosaic.Lib.Tactic

/-!
# The sixteen grid points of the first propagation step

The grid is 4 × 4, point `t = 4 i + k`: `i` is the row of tiles, `k` the tile inside the row, `k` running fastest.
The body branches twice on `k` alone: it resets the scratch block when `k = 0`, and it finishes the row (stores both
output blocks) when `k = 3`. So a point is of one of three kinds — first of its row, middle, last of its row — and

* the two output windows are stored into only at the last point of a row, are written back exactly there, and are
  idle (their staging buffer handed back untouched) at the other three points;
* the four input windows are never idle.

Here: the two conditions in closed form over the point's number, those facts about the windows decided over the
sixteen points, and names for the memrefs the body is called with.
-/

set_option maxRecDepth 16384

noncomputable section

namespace Cert.KernelIdeal.Hop0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- "This is the first tile of its row": the reset's condition, as the body computes it from the coordinate `k`. -/
abbrev isFirst (i : grid0.Coords) : Prop :=
  (Scalar.cmpi .ne (Scalar.extui (Scalar.cmpi .eq (BitVec.ofNat 32 (i 1).val) 0#32)) 0#32) = 1#1

/-- It holds exactly at the points `t ≡ 0 (mod 4)`. -/
theorem isFirst_iff : ∀ t : Fin cfg0.N, isFirst (grid0.coords t) ↔ t.val % 4 = 0 :=
  (by decide +kernel : ∀ t : Fin grid0.N, isFirst (grid0.coords t) ↔ t.val % 4 = 0)

/-- "This is the last tile of its row": the finishing branch's condition. -/
abbrev isLast (i : grid0.Coords) : Prop := k0_cond2 i = 1#1

/-- It holds exactly at the points `t ≡ 3 (mod 4)`. -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem in0_live : ∀ t : Fin cfg0.N, cfg0.idle 0 (grid0.coords t) = false := by decide +kernel
theorem in1_live : ∀ t : Fin cfg0.N, cfg0.idle 1 (grid0.coords t) = false := by decide +kernel
theorem in2_live : ∀ t : Fin cfg0.N, cfg0.idle 2 (grid0.coords t) = false := by decide +kernel
theorem in3_live : ∀ t : Fin cfg0.N, cfg0.idle 3 (grid0.coords t) = false := by decide +kernel

/-- Away from the end of a row the new features' block is idle, and is not written back. -/
theorem out4_idle : ∀ t : Fin cfg0.N, ¬isLast (grid0.coords t) → cfg0.idle 4 (grid0.coords t) = true := by decide +kernel
theorem out4_noFlush : ∀ t : Fin cfg0.N, ¬isLast (grid0.coords t) → (cfg0.win 4).flush t = false := by decide +kernel
/-- At the end of a row it is live. -/
theorem out4_live : ∀ t : Fin cfg0.N, isLast (grid0.coords t) → cfg0.idle 4 (grid0.coords t) = false := by decide +kernel

/-- The same for the running output's block. -/
theorem out5_idle : ∀ t : Fin cfg0.N, ¬isLast (grid0.coords t) → cfg0.idle 5 (grid0.coords t) = true := by decide +kernel
theorem out5_noFlush : ∀ t : Fin cfg0.N, ¬isLast (grid0.coords t) → (cfg0.win 5).flush t = false := by decide +kernel
theorem out5_live : ∀ t : Fin cfg0.N, isLast (grid0.coords t) → cfg0.idle 5 (grid0.coords t) = false := by decide +kernel

/-! ## The memrefs the body is called with at a point -/

abbrev ms0 (t : Fin cfg0.N) : Memref sig .tc .vmem S2048x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x16 .f32 := win0_5.stage (cfg0.slots t 5)
abbrev hs5 (t : Fin cfg0.N) : (ms5 t).IsWhole := hstage0_5 ((cfg0.slots t 5).cast nbuf0_5)

/-- The scratch block of partial sums: a whole scoped buffer of the call's own. -/
abbrev scratch : Memref sig .tc .vmem S2048x16 .f32 := Memref.whole cc0_scratch0

end Cert.KernelIdeal.Hop0

end
-- ==== Proof.Hop0RunFirst.lean ====
import proofs.«155136_j78743930404901_2_alg».proof.Proof.Hop0Points

/-!
# The body at the first point of a row of tiles

The reset branch is taken, the finishing branch is not. Whatever the scratch block held — nothing at the very first
point, the previous row's finished block later — is overwritten by zeros before it is used; then the tile product is
added as at every point. Two stores into the scratch, each covering it whole; the later one is what it ends with.
The weight matrix, the incoming output block and both output windows are not touched.
-/

set_option maxRecDepth 16384

noncomputable section

namespace Cert.KernelIdeal.Hop0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt` and the scratch at anything, the body runs to the end, leaves the tiles as they were
    and the scratch with the pieces `LS` written over it. -/
noncomputable def runFirst (c : Dev nD) (i : grid0.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : isFirst i) (hL : ¬isLast i)
    (lt : Vec F S2048x2048 .bf16) (xt : Vec F S2048x16 .f32) :
    { LS : List (View.Piece (Elt F) S2048x16 .f32) //
      ∀ (E : Set ℕ) (K : PUnit → sProp 𝕄),
        iprop(owns (c : Thread nD τ) a2 fullShare lt ∗ owns (c : Thread nD τ) a3 fullShare xt ∗ (∃ d, owns (c : Thread nD τ) a8 fullShare d)
            ∗ (iprop(owns (c : Thread nD τ) a2 fullShare lt ∗ owns (c : Thread nD τ) a3 fullShare xt
                ∗ (∃ f, a8.view.loc (c : Thread nD τ) ↦[a8.view.set]{fullShare} a8.view.writes (Elt F) f LS)) -∗ K ⟨⟩))
          ⊢ wp frame (wpE (defs₀ (F := F)) Variants.none c none) E (cc0__step_kernel i a2 h2 a3 h3 a4 h4 a5 h5 a6 h6 a7 h7 a8 h8) K } := by
  refine ⟨?_, fun E K => ?run⟩
  case run =>
    simp only [cc0__step_kernel_eq_skeleton]; unfold cc0__step_kernel_skel
    unfold owns
    iintro ⟨⟨%f2, %hf2, H2⟩, ⟨%f3, %hf3, H3⟩, ⟨%d8, %f8, -, H8⟩, Hk⟩
    obtain rfl := h2.eq_unread hf2; obtain rfl := h3.eq_unread hf3
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    iexists _; iexact H8

end Cert.KernelIdeal.Hop0

end
-- ==== Proof.Hop0RunMiddle.lean ====
import proofs.«155136_j78743930404901_2_alg».proof.Proof.Hop0Points

/-!
# The body at a middle point of a row of tiles

Neither branch is taken. The body loads the Laplacian tile and the feature tile, loads the scratch block, and stores
back the scratch block plus the tile product: one store, covering the scratch whole. The weight matrix, the incoming
output block and both output windows are not touched at all, so the triple does not mention them.

The triple is stated on any whole memrefs; what the scratch ends with is given as the list of pieces the stores
wrote (here one), which the run itself determines.
-/

set_option maxRecDepth 16384

noncomputable section

namespace Cert.KernelIdeal.Hop0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt` and the scratch at `sc`, the body runs to the end, leaves the tiles as they were
    and the scratch with the pieces `LS` written over it. -/
noncomputable def runMiddle (c : Dev nD) (i : grid0.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : ¬isFirst i) (hL : ¬isLast i)
    (lt : Vec F S2048x2048 .bf16) (xt : Vec F S2048x16 .f32) (sc : Vec F S2048x16 .f32) :
    { LS : List (View.Piece (Elt F) S2048x16 .f32) //
      ∀ (E : Set ℕ) (K : PUnit → sProp 𝕄),
        iprop(owns (c : Thread nD τ) a2 fullShare lt ∗ owns (c : Thread nD τ) a3 fullShare xt ∗ owns (c : Thread nD τ) a8 fullShare sc
            ∗ (iprop(owns (c : Thread nD τ) a2 fullShare lt ∗ owns (c : Thread nD τ) a3 fullShare xt
                ∗ (∃ f, a8.view.loc (c : Thread nD τ) ↦[a8.view.set]{fullShare} a8.view.writes (Elt F) f LS)) -∗ K ⟨⟩))
          ⊢ wp frame (wpE (defs₀ (F := F)) Variants.none c none) E (cc0__step_kernel i a2 h2 a3 h3 a4 h4 a5 h5 a6 h6 a7 h7 a8 h8) K } := by
  refine ⟨?_, fun E K => ?run⟩
  case run =>
    simp only [cc0__step_kernel_eq_skeleton]; unfold cc0__step_kernel_skel
    unfold owns
    iintro ⟨⟨%f2, %hf2, H2⟩, ⟨%f3, %hf3, H3⟩, ⟨%f8, %hf8, H8⟩, Hk⟩
    obtain rfl := h2.eq_unread hf2; obtain rfl := h3.eq_unread hf3; obtain rfl := h8.eq_unread hf8
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    iexists _; iexact H8

end Cert.KernelIdeal.Hop0

end
-- ==== Proof.Hop0RunLast.lean ====
import proofs.«155136_j78743930404901_2_alg».proof.Proof.Hop0Points

/-!
# The body at the last point of a row of tiles

The reset branch is not taken, the finishing branch is. After the accumulation the scratch block is the finished
row block of new features: it is stored whole into the first output window; then, with the weight matrix and the
incoming output block, the rectified weight product added to the incoming block is stored whole into the second.
Both output windows are loaded before they are stored into (the values are not used), so they may hold anything.
-/

set_option maxRecDepth 16384

noncomputable section

namespace Cert.KernelIdeal.Hop0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt`, the weights at `w`, the incoming block at `acc`, the scratch at `sc` and the two
    output windows at anything, the body runs to the end, leaves the four inputs as they were, and the two outputs
    and the scratch with the pieces `L6`, `L7`, `LS` written over them. -/
noncomputable def runLast (c : Dev nD) (i : grid0.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : ¬isFirst i) (hL : isLast i)
    (lt : Vec F S2048x2048 .bf16) (xt : Vec F S2048x16 .f32) (w : Vec F S16x16 .f32) (acc : Vec F S2048x16 .f32) (sc : Vec F S2048x16 .f32) :
    Σ' (L6 : List (View.Piece (Elt F) S2048x16 .f32)) (L7 : List (View.Piece (Elt F) S2048x16 .f32)),
    { LS : List (View.Piece (Elt F) S2048x16 .f32) //
      ∀ (E : Set ℕ) (K : PUnit → sProp 𝕄),
        iprop(owns (c : Thread nD τ) a2 fullShare lt ∗ owns (c : Thread nD τ) a3 fullShare xt ∗ owns (c : Thread nD τ) a4 fullShare w
            ∗ owns (c : Thread nD τ) a5 fullShare acc ∗ (∃ d, owns (c : Thread nD τ) a6 fullShare d) ∗ (∃ d, owns (c : Thread nD τ) a7 fullShare d)
            ∗ owns (c : Thread nD τ) a8 fullShare sc
            ∗ (iprop(owns (c : Thread nD τ) a2 fullShare lt ∗ owns (c : Thread nD τ) a3 fullShare xt ∗ owns (c : Thread nD τ) a4 fullShare w
                ∗ owns (c : Thread nD τ) a5 fullShare acc
                ∗ (∃ f, a6.view.loc (c : Thread nD τ) ↦[a6.view.set]{fullShare} a6.view.writes (Elt F) f L6)
                ∗ (∃ f, a7.view.loc (c : Thread nD τ) ↦[a7.view.set]{fullShare} a7.view.writes (Elt F) f L7)
                ∗ (∃ f, a8.view.loc (c : Thread nD τ) ↦[a8.view.set]{fullShare} a8.view.writes (Elt F) f LS)) -∗ K ⟨⟩))
          ⊢ wp frame (wpE (defs₀ (F := F)) Variants.none c none) E (cc0__step_kernel i a2 h2 a3 h3 a4 h4 a5 h5 a6 h6 a7 h7 a8 h8) K } := by
  refine ⟨?_, ?_, ?_, fun E K => ?run⟩
  case run =>
    simp only [cc0__step_kernel_eq_skeleton]; unfold cc0__step_kernel_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    obtain rfl := h2.eq_unread hf2; obtain rfl := h3.eq_unread hf3; obtain rfl := h4.eq_unread hf4
    obtain rfl := h5.eq_unread hf5; obtain rfl := h8.eq_unread hf8
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact H8

end Cert.KernelIdeal.Hop0

end
-- ==== Proof.Hop0Data.lean ====
import proofs.«155136_j78743930404901_2_alg».proof.Proof.Hop0RunFirst
import proofs.«155136_j78743930404901_2_alg».proof.Proof.Hop0RunMiddle
import proofs.«155136_j78743930404901_2_alg».proof.Proof.Hop0RunLast

/-!
# The first propagation step, point by point

What the scratch block and the two output blocks hold after each of the sixteen points, by recursion on the point:

* after the first point of a row of tiles the scratch holds what the reset-and-accumulate run leaves, computed from
  that point's Laplacian tile and feature tile alone;
* after a middle point, what the accumulate run leaves, computed from the point's tiles and from what the point
  before left in the scratch;
* after the last point of a row the same, and the two output blocks hold what the finishing stores leave, computed
  from the point's tiles, the weight matrix, the incoming output block, and what the point before left in the scratch.

At the first three points of a row the output windows are idle: their staging buffers are handed back as found, and
what they "hold" there is a placeholder nobody reads.

Everything is stated relative to `V`, the contents of the core's buffers when the step is entered. The region's
invariant carries the scratch at the recursion's value from one point to the next (before the very first point it
is just "the call's scoped buffers at anything"), the other calls' scoped buffers unopened, and the generator
register at some state.
-/

set_option maxRecDepth 16384

noncomputable section

namespace Cert.KernelIdeal.Hop0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, and views to read contents through -/

/-- Window `w`'s block at point `t`, read off its array as the step finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch as a view, and one staging buffer of each output window: contents are stated through them (the
    choice does not matter once the pieces cover). -/
abbrev VS : View sig .tc .vmem S2048x16 .f32 := (scratch : Memref sig .tc .vmem S2048x16 .f32).view
abbrev VO4 : View sig .tc .vmem S2048x16 .f32 := (Memref.whole cc0_stg4_0 : Memref sig .tc .vmem S2048x16 .f32).view
abbrev VO5 : View sig .tc .vmem S2048x16 .f32 := (Memref.whole cc0_stg5_0 : Memref sig .tc .vmem S2048x16 .f32).view

/-! ## The three runs at a point's own memrefs -/

abbrev firstRun (c : Dev nD) (t : Fin cfg0.N) (hF : isFirst (grid0.coords t)) (hL : ¬isLast (grid0.coords t))
    (lt : Vec F S2048x2048 .bf16) (xt : Vec F S2048x16 .f32) :=
  runFirst (F := F) c (grid0.coords t) (ms0 t) (hs0 t) (ms1 t) (hs1 t) (ms2 t) (hs2 t) (ms3 t) (hs3 t) (ms4 t) (hs4 t) (ms5 t) (hs5 t) scratch (Memref.isWhole_whole _) hF hL lt xt
abbrev middleRun (c : Dev nD) (t : Fin cfg0.N) (hF : ¬isFirst (grid0.coords t)) (hL : ¬isLast (grid0.coords t))
    (lt : Vec F S2048x2048 .bf16) (xt : Vec F S2048x16 .f32) (sc : Vec F S2048x16 .f32) :=
  runMiddle (F := F) c (grid0.coords t) (ms0 t) (hs0 t) (ms1 t) (hs1 t) (ms2 t) (hs2 t) (ms3 t) (hs3 t) (ms4 t) (hs4 t) (ms5 t) (hs5 t) scratch (Memref.isWhole_whole _) hF hL lt xt sc
abbrev lastRun (c : Dev nD) (t : Fin cfg0.N) (hF : ¬isFirst (grid0.coords t)) (hL : isLast (grid0.coords t))
    (lt : Vec F S2048x2048 .bf16) (xt : Vec F S2048x16 .f32) (w : Vec F S16x16 .f32) (acc : Vec F S2048x16 .f32) (sc : Vec F S2048x16 .f32) :=
  runLast (F := F) c (grid0.coords t) (ms0 t) (hs0 t) (ms1 t) (hs1 t) (ms2 t) (hs2 t) (ms3 t) (hs3 t) (ms4 t) (hs4 t) (ms5 t) (hs5 t) scratch (Memref.isWhole_whole _) hF hL lt xt w acc sc

/-! ## What each run leaves, and that its pieces cover -/

/-- The scratch after the first point of a row. -/
def scFirst (c : Dev nD) (t : Fin cfg0.N) (hF : isFirst (grid0.coords t)) (hL : ¬isLast (grid0.coords t))
    (lt : Vec F S2048x2048 .bf16) (xt : Vec F S2048x16 .f32) : Vec F S2048x16 .f32 :=
  VS.read (Elt F) (VS.writes (Elt F) VS.junk (firstRun c t hF hL lt xt).1)
theorem scFirst_cover (c : Dev nD) (t : Fin cfg0.N) (hF : isFirst (grid0.coords t)) (hL : ¬isLast (grid0.coords t))
    (lt : Vec F S2048x2048 .bf16) (xt : Vec F S2048x16 .f32) (y : S2048x16.Idx) :
    ∃ pc ∈ (firstRun c t hF hL lt xt).1, y ∈ pc.1.set :=
  View.cover_of_tiledL (firstRun c t hF hL lt xt).1 S2048x16.size (by sl_kernel_rfl) y

/-- The scratch after a middle point. -/
def scMiddle (c : Dev nD) (t : Fin cfg0.N) (hF : ¬isFirst (grid0.coords t)) (hL : ¬isLast (grid0.coords t))
    (lt : Vec F S2048x2048 .bf16) (xt : Vec F S2048x16 .f32) (sc : Vec F S2048x16 .f32) : Vec F S2048x16 .f32 :=
  VS.read (Elt F) (VS.writes (Elt F) VS.junk (middleRun c t hF hL lt xt sc).1)
theorem scMiddle_cover (c : Dev nD) (t : Fin cfg0.N) (hF : ¬isFirst (grid0.coords t)) (hL : ¬isLast (grid0.coords t))
    (lt : Vec F S2048x2048 .bf16) (xt : Vec F S2048x16 .f32) (sc : Vec F S2048x16 .f32) (y : S2048x16.Idx) :
    ∃ pc ∈ (middleRun c t hF hL lt xt sc).1, y ∈ pc.1.set :=
  View.cover_of_tiledL (middleRun c t hF hL lt xt sc).1 S2048x16.size (by sl_kernel_rfl) y

/-- The new features' block, the running output's block and the scratch after the last point of a row. -/
def out4Last (c : Dev nD) (t : Fin cfg0.N) (hF : ¬isFirst (grid0.coords t)) (hL : isLast (grid0.coords t))
    (lt : Vec F S2048x2048 .bf16) (xt : Vec F S2048x16 .f32) (w : Vec F S16x16 .f32) (acc : Vec F S2048x16 .f32) (sc : Vec F S2048x16 .f32) : Vec F S2048x16 .f32 :=
  VO4.read (Elt F) (VO4.writes (Elt F) VO4.junk (lastRun c t hF hL lt xt w acc sc).1)
theorem out4Last_cover (c : Dev nD) (t : Fin cfg0.N) (hF : ¬isFirst (grid0.coords t)) (hL : isLast (grid0.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).1, y ∈ pc.1.set :=
  View.cover_of_tiledL (lastRun c t hF hL lt xt w acc sc).1 S2048x16.size (by sl_kernel_rfl) y
def out5Last (c : Dev nD) (t : Fin cfg0.N) (hF : ¬isFirst (grid0.coords t)) (hL : isLast (grid0.coords t))
    (lt : Vec F S2048x2048 .bf16) (xt : Vec F S2048x16 .f32) (w : Vec F S16x16 .f32) (acc : Vec F S2048x16 .f32) (sc : Vec F S2048x16 .f32) : Vec F S2048x16 .f32 :=
  VO5.read (Elt F) (VO5.writes (Elt F) VO5.junk (lastRun c t hF hL lt xt w acc sc).2.1)
theorem out5Last_cover (c : Dev nD) (t : Fin cfg0.N) (hF : ¬isFirst (grid0.coords t)) (hL : isLast (grid0.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).2.1, y ∈ pc.1.set :=
  View.cover_of_tiledL (lastRun c t hF hL lt xt w acc sc).2.1 S2048x16.size (by sl_kernel_rfl) y
def scLast (c : Dev nD) (t : Fin cfg0.N) (hF : ¬isFirst (grid0.coords t)) (hL : isLast (grid0.coords t))
    (lt : Vec F S2048x2048 .bf16) (xt : Vec F S2048x16 .f32) (w : Vec F S16x16 .f32) (acc : Vec F S2048x16 .f32) (sc : Vec F S2048x16 .f32) : Vec F S2048x16 .f32 :=
  VS.read (Elt F) (VS.writes (Elt F) VS.junk (lastRun c t hF hL lt xt w acc sc).2.2.1)
theorem scLast_cover (c : Dev nD) (t : Fin cfg0.N) (hF : ¬isFirst (grid0.coords t)) (hL : isLast (grid0.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).2.2.1, y ∈ pc.1.set :=
  View.cover_of_tiledL (lastRun c t hF hL lt xt w acc sc).2.2.1 S2048x16.size (by sl_kernel_rfl) y

/-! ## The accumulation over the sixteen points -/

/-- What an idle output window "holds": a placeholder nobody reads. -/
def idle4 : Vec F S2048x16 .f32 := VO4.read (Elt F) VO4.junk
def idle5 : Vec F S2048x16 .f32 := VO5.read (Elt F) VO5.junk

/-- After point `n`: the new features' block, the running output's block, the scratch. The kind of the point is read
    off `n mod 4`; a middle or last point takes the scratch the point before left. -/
def outsAt (c : Dev nD) : (n : ℕ) → n < cfg0.N → Vec F S2048x16 .f32 × Vec F S2048x16 .f32 × Vec F S2048x16 .f32
  | 0, hn =>
    (idle4, idle5,
      scFirst c ⟨0, hn⟩ ((isFirst_iff ⟨0, hn⟩).mpr (Nat.zero_mod _))
        (fun h => (fun h => by (try dsimp only at h); omega) ((isLast_iff ⟨0, hn⟩).mp h))
        (iblk V c 0 ⟨0, hn⟩) (iblk V c 1 ⟨0, hn⟩))
  | n + 1, hn =>
    if h0 : (n + 1) % 4 = 0 then
      (idle4, idle5,
        scFirst c ⟨n + 1, hn⟩ ((isFirst_iff ⟨n + 1, hn⟩).mpr h0) (fun h => (fun h => by (try dsimp only at h); omega) ((isLast_iff ⟨n + 1, hn⟩).mp h))
          (iblk V c 0 ⟨n + 1, hn⟩) (iblk V c 1 ⟨n + 1, hn⟩))
    else
      if h3 : (n + 1) % 4 = 3 then
        (out4Last c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2,
          out5Last c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2,
          scLast c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2)
      else
        (idle4, idle5,
          scMiddle c ⟨n + 1, hn⟩ (fun h => h0 ((isFirst_iff ⟨n + 1, hn⟩).mp h)) (fun h => h3 ((isLast_iff ⟨n + 1, hn⟩).mp h))
            (iblk V c 0 ⟨n + 1, hn⟩) (iblk V c 1 ⟨n + 1, hn⟩) (outsAt c n (Nat.lt_of_succ_lt hn)).2.2)

/-- At the first point of a row. -/
theorem outsAt_first (c : Dev nD) (t : Fin cfg0.N) (h0 : t.val % 4 = 0) (hL : ¬isLast (grid0.coords t)) :
    outsAt V c t.val t.isLt
      = (idle4, idle5, scFirst c t ((isFirst_iff t).mpr h0) hL (iblk V c 0 t) (iblk V c 1 t)) := by
  obtain ⟨n, hn⟩ := t
  cases n with
  | zero => exact rfl
  | succ n => exact dif_pos h0

/-- At a middle point: over what the point before left. -/
theorem outsAt_middle (c : Dev nD) (t : Fin cfg0.N) (h0 : ¬t.val % 4 = 0) (h3 : ¬t.val % 4 = 3) :
    outsAt V c t.val t.isLt
      = (idle4, idle5, scMiddle c t (fun h => h0 ((isFirst_iff t).mp h)) (fun h => h3 ((isLast_iff t).mp h))
          (iblk V c 0 t) (iblk V c 1 t) (outsAt V c (t.val - 1) (Nat.lt_of_le_of_lt (Nat.sub_le _ _) t.isLt)).2.2) := by
  obtain ⟨n, hn⟩ := t
  cases n with
  | zero => exact absurd (Nat.zero_mod _) h0
  | succ n => exact (dif_neg h0).trans (dif_neg h3)

/-- At the last point of a row: over what the point before left. -/
theorem outsAt_last (c : Dev nD) (t : Fin cfg0.N) (h0 : ¬t.val % 4 = 0) (h3 : t.val % 4 = 3) :
    outsAt V c t.val t.isLt
      = (out4Last c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2,
          out5Last c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2,
          scLast c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2) := by
  obtain ⟨n, hn⟩ := t
  cases n with
  | zero => exact absurd (Nat.zero_mod _) h0
  | succ n => exact (dif_neg h0).trans (dif_pos h3)

/-! ## The invariant between points -/

/-- Before the first point: the call's scoped buffers at anything and the generator register at some state. After
    point `n`: the scratch at what that point left, the other scoped buffers unopened, the generator register. -/
def PhiS (c : Dev nD) : (n : ℕ) → n ≤ cfg0.N → sProp 𝕄
  | 0, _ => Pipeline.ΦA spec0 c
  | n + 1, hn =>
    iprop(iprop(owns (c : Thread nD τ) scratch fullShare ((outsAt V c n hn).2.2)
        ∗ Pipeline.scopedRestBut (Ix := Unit) (Name := ℕ) (U := UR sig nD τ) (Lvl := ℕ) (Val := Elt F) spec0 c [cc0_scratch0])
      ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn
      = iprop(iprop(owns (c : Thread nD τ) scratch fullShare ((outsAt V c n hn).2.2)
          ∗ Pipeline.scopedRestBut (Ix := Unit) (Name := ℕ) (U := UR sig nD τ) (Lvl := ℕ) (Val := Elt F) spec0 c [cc0_scratch0])
        ∗ (∃ r, prngReg c r)) := rfl

theorem PhiS_pos (c : Dev nD) (n : ℕ) (h : n ≤ cfg0.N) (hz : n ≠ 0) :
    PhiS V c n h
      = iprop(iprop(owns (c : Thread nD τ) scratch fullShare ((outsAt V c (n - 1) (by omega)).2.2)
          ∗ Pipeline.scopedRestBut (Ix := Unit) (Name := ℕ) (U := UR sig nD τ) (Lvl := ℕ) (Val := Elt F) spec0 c [cc0_scratch0])
        ∗ (∃ r, prngReg c r)) := by
  cases n with
  | zero => exact absurd rfl hz
  | succ n => rfl

/-- The class's invariant with the call's scratch taken out as a memref owned at some contents. -/
theorem PhiA_eq (c : Dev nD) :
    (Pipeline.ΦA spec0 c : sProp 𝕄)
      = iprop(iprop((∃ d, owns (c : Thread nD τ) scratch fullShare d)
          ∗ Pipeline.scopedRestBut (Ix := Unit) (Name := ℕ) (U := UR sig nD τ) (Lvl := ℕ) (Val := Elt F) spec0 c [cc0_scratch0])
        ∗ (∃ r, prngReg c r)) := by
  unfold Pipeline.ΦA; rw [scopedRest0_split]; simp only [scratch, owns_whole]; try rfl

/-! ## The proof data -/

/-- The arrays as the step finds them; after the body each input's buffer at its block, the outputs' at the
    recursion's values; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = (outsAt V c t.val t.isLt).1 := by dsimp only [dat]
theorem after5 (c : Dev nD) (t : Fin cfg0.N) : (dat V c).after 5 t = (outsAt V c t.val t.isLt).2.1 := by dsimp only [dat]

/-- Each input's current staging buffer holds its block at every point, fetched there or not: where the block index
    did not move, the block is still the one fetched earlier. -/
theorem before0 (c : Dev nD) (t : Fin cfg0.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dat V c).before 3 t d = iblk V c 3 t :=
  ((dat V c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

end Cert.KernelIdeal.Hop0

end
-- ==== Proof.Hop0Body.lean ====
import proofs.«155136_j78743930404901_2_alg».proof.Proof.Hop0Data

/-!
# The body obligation of the first propagation step

At every point the body, called with the point's staging buffers, takes the region's invariant from "after the point
before" to "after this point" and leaves each window's buffer as the proof data says:

* the four inputs at their blocks, untouched;
* at the first three points of a row the two output windows as found (they are idle and not written back there),
  and the scratch at the recursion's next value — over anything at the first point of a row, over what the point
  before left at a middle point;
* at the last point of a row both output windows at what the finishing stores leave.

The point's kind is decided by `t mod 4`, and each kind is one of the three runs of the body; what a run leaves
as a list of pieces written over unknown contents is the recursion's value because the pieces cover the block.
-/

set_option maxRecDepth 16384

noncomputable section

namespace Cert.KernelIdeal.Hop0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
      unfold Dat.leavesExact; rw [in0_live t], after0]
  rw [show (dat V c).leavesExact 1 t = owns (c : Thread nD τ) (ms1 t) fullShare ((dat V c).after 1 t) from by
      unfold Dat.leavesExact; rw [in1_live t], after1]
  rw [show (dat V c).leavesExact 2 t = owns (c : Thread nD τ) (ms2 t) fullShare ((dat V c).after 2 t) from by
      unfold Dat.leavesExact; rw [in2_live t], after2]
  rw [show (dat V c).leavesExact 3 t = owns (c : Thread nD τ) (ms3 t) fullShare ((dat V c).after 3 t) from by
      unfold Dat.leavesExact; rw [in3_live t], after3]
  have hN : t.val < 16 := lt_of_lt_of_eq t.isLt (show cfg0.N = 16 from N_0)
  by_cases h0 : t.val % 4 = 0
  · -- the first point of a row
    have hF : isFirst (grid0.coords t) := (isFirst_iff t).mpr h0
    have hL : ¬isLast (grid0.coords t) := fun h => by have := (isLast_iff t).mp h; omega
    rw [Dat.leavesExact_idle (dat V c) 4 t (out4_idle t hL) (out4_noFlush t hL),
      Dat.leavesExact_idle (dat V c) 5 t (out5_idle t hL) (out5_noFlush t hL)]
    rw [outsAt_first V c t h0 hL]
    unfold scFirst; (try dsimp only)
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩, ⟨%d3, H3⟩, H4, H5⟩
      iapply ((firstRun c t hF hL (iblk V c 0 t) (iblk V c 1 t)).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scFirst_cover c t hF hL _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((firstRun c t hF hL (iblk V c 0 t) (iblk V c 1 t)).2 Set.univ _)
      isplitl [H0]; · iexact H0
      isplitl [H1]; · iexact H1
      isplitl [HS]; · iexists _; iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scFirst_cover c t hF hL _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
  · have hF : ¬isFirst (grid0.coords t) := fun h => h0 ((isFirst_iff t).mp h)
    have hz : t.val ≠ 0 := fun h => h0 (by rw [h])
    by_cases h3 : t.val % 4 = 3
    · -- the last point of a row
      have hL : isLast (grid0.coords t) := (isLast_iff t).mpr h3
      rw [show (dat V c).leavesExact 4 t = owns (c : Thread nD τ) (ms4 t) fullShare ((dat V c).after 4 t) from by
          unfold Dat.leavesExact; rw [out4_live t hL], after4]
      rw [show (dat V c).leavesExact 5 t = owns (c : Thread nD τ) (ms5 t) fullShare ((dat V c).after 5 t) from by
          unfold Dat.leavesExact; rw [out5_live t hL], after5]
      rw [outsAt_last V c t h0 h3]
      unfold out4Last out5Last scLast; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((lastRun c t hF hL (iblk V c 0 t) (iblk V c 1 t) (iblk V c 2 t) (iblk V c 3 t) _).2.2.2 Set.univ _)
      isplitl [H0]; · iexact H0
      isplitl [H1]; · iexact H1
      isplitl [H2]; · iexact H2
      isplitl [H3]; · iexact H3
      isplitl [H4]; · icases H4 with ⟨%d4, H4⟩; iexists _; iexact H4
      isplitl [H5]; · icases H5 with ⟨%d5, H5⟩; iexists _; iexact H5
      isplitl [HS]; · iexact HS
      iintro ⟨H0, H1, H2, H3, ⟨%e4, H4⟩, ⟨%e5, H5⟩, ⟨%es, HS⟩⟩
      isplitl [HS Hrest Hg]
      · isplitl [HS Hrest]
        · isplitl [HS]
          · unfold owns; iexists _; isplitr
            swap; · iexact HS
            ipureintro; exact View.read_writes_of_cover _ _ _ _ _ (scLast_cover c t hF hL _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (out4Last_cover c t hF hL _ _ _ _ _)
      unfold owns; iexists _; isplitr
      swap; · iexact H5
      ipureintro; exact View.read_writes_of_cover _ _ _ _ _ (out5Last_cover c t hF hL _ _ _ _ _)
    · -- a middle point
      have hL : ¬isLast (grid0.coords t) := fun h => h3 ((isLast_iff t).mp h)
      rw [Dat.leavesExact_idle (dat V c) 4 t (out4_idle t hL) (out4_noFlush t hL),
        Dat.leavesExact_idle (dat V c) 5 t (out5_idle t hL) (out5_noFlush t hL)]
      rw [outsAt_middle V c t h0 h3]
      unfold scMiddle; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((middleRun c t hF hL (iblk V c 0 t) (iblk V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scMiddle_cover c t hF hL _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant at the two ends -/

/-- What the region hands the step is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch's contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA_eq]
  iintro ⟨⟨HS, Hrest⟩, Hg⟩
  isplitl [HS Hrest]
  · isplitl [HS]
    · iexists _; iexact HS
    iexact Hrest
  iexact Hg

end Cert.KernelIdeal.Hop0

end
-- ==== Proof.Hop1Points.lean ====
import proofs.«155136_j78743930404901_2_alg».proof.Proof.Gen.KernelIdeal.Launch
import proofs.«155136_j78743930404901_2_alg».proof.Proof.Gen.KernelIdeal.Skeleton
import proofs.«155136_j78743930404901_2_alg».proof.Proof.Gen.KernelIdeal.Points
import Idealize.ShloMosaic.Lib.Pipeline.FrameBody
import Idealize.ShloMosaic.Lib.Ring
import Idealize.ShloMosaic.Lib.Tactic

/-!
# The sixteen grid points of the second propagation step

The grid is 4 × 4, point `t = 4 i + k`: `i` is the row of tiles, `k` the tile inside the row, `k` running fastest.
The body branches twice on `k` alone: it resets the scratch block when `k = 0`, and it finishes the row (stores both
output blocks) when `k = 3`. So a point is of one of three kinds — first of its row, middle, last of its row — and

* the two output windows are stored into only at the last point of a row, are written back exactly there, and are
  idle (their staging buffer handed back untouched) at the other three points;
* the four input windows are never idle.

Here: the two conditions in closed form over the point's number, those facts about the windows decided over the
sixteen points, and names for the memrefs the body is called with.
-/

set_option maxRecDepth 16384

noncomputable section

namespace Cert.KernelIdeal.Hop1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- "This is the first tile of its row": the reset's condition, as the body computes it from the coordinate `k`. -/
abbrev isFirst (i : grid1.Coords) : Prop :=
  (Scalar.cmpi .ne (Scalar.extui (Scalar.cmpi .eq (BitVec.ofNat 32 (i 1).val) 0#32)) 0#32) = 1#1

/-- It holds exactly at the points `t ≡ 0 (mod 4)`. -/
theorem isFirst_iff : ∀ t : Fin cfg1.N, isFirst (grid1.coords t) ↔ t.val % 4 = 0 :=
  (by decide +kernel : ∀ t : Fin grid1.N, isFirst (grid1.coords t) ↔ t.val % 4 = 0)

/-- "This is the last tile of its row": the finishing branch's condition. -/
abbrev isLast (i : grid1.Coords) : Prop := k1_cond2 i = 1#1

/-- It holds exactly at the points `t ≡ 3 (mod 4)`. -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem in0_live : ∀ t : Fin cfg1.N, cfg1.idle 0 (grid1.coords t) = false := by decide +kernel
theorem in1_live : ∀ t : Fin cfg1.N, cfg1.idle 1 (grid1.coords t) = false := by decide +kernel
theorem in2_live : ∀ t : Fin cfg1.N, cfg1.idle 2 (grid1.coords t) = false := by decide +kernel
theorem in3_live : ∀ t : Fin cfg1.N, cfg1.idle 3 (grid1.coords t) = false := by decide +kernel

/-- Away from the end of a row the new features' block is idle, and is not written back. -/
theorem out4_idle : ∀ t : Fin cfg1.N, ¬isLast (grid1.coords t) → cfg1.idle 4 (grid1.coords t) = true := by decide +kernel
theorem out4_noFlush : ∀ t : Fin cfg1.N, ¬isLast (grid1.coords t) → (cfg1.win 4).flush t = false := by decide +kernel
/-- At the end of a row it is live. -/
theorem out4_live : ∀ t : Fin cfg1.N, isLast (grid1.coords t) → cfg1.idle 4 (grid1.coords t) = false := by decide +kernel

/-- The same for the running output's block. -/
theorem out5_idle : ∀ t : Fin cfg1.N, ¬isLast (grid1.coords t) → cfg1.idle 5 (grid1.coords t) = true := by decide +kernel
theorem out5_noFlush : ∀ t : Fin cfg1.N, ¬isLast (grid1.coords t) → (cfg1.win 5).flush t = false := by decide +kernel
theorem out5_live : ∀ t : Fin cfg1.N, isLast (grid1.coords t) → cfg1.idle 5 (grid1.coords t) = false := by decide +kernel

/-! ## The memrefs the body is called with at a point -/

abbrev ms0 (t : Fin cfg1.N) : Memref sig .tc .vmem S2048x2048 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x16 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S16x16 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S2048x16 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S2048x16 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S2048x16 .f32 := win1_5.stage (cfg1.slots t 5)
abbrev hs5 (t : Fin cfg1.N) : (ms5 t).IsWhole := hstage1_5 ((cfg1.slots t 5).cast nbuf1_5)

/-- The scratch block of partial sums: a whole scoped buffer of the call's own. -/
abbrev scratch : Memref sig .tc .vmem S2048x16 .f32 := Memref.whole cc1_scratch0

end Cert.KernelIdeal.Hop1

end
-- ==== Proof.Hop1RunFirst.lean ====
import proofs.«155136_j78743930404901_2_alg».proof.Proof.Hop1Points

/-!
# The body at the first point of a row of tiles

The reset branch is taken, the finishing branch is not. Whatever the scratch block held — nothing at the very first
point, the previous row's finished block later — is overwritten by zeros before it is used; then the tile product is
added as at every point. Two stores into the scratch, each covering it whole; the later one is what it ends with.
The weight matrix, the incoming output block and both output windows are not touched.
-/

set_option maxRecDepth 16384

noncomputable section

namespace Cert.KernelIdeal.Hop1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt` and the scratch at anything, the body runs to the end, leaves the tiles as they were
    and the scratch with the pieces `LS` written over it. -/
noncomputable def runFirst (c : Dev nD) (i : grid1.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : isFirst i) (hL : ¬isLast i)
    (lt : Vec F S2048x2048 .bf16) (xt : Vec F S2048x16 .f32) :
    { LS : List (View.Piece (Elt F) S2048x16 .f32) //
      ∀ (E : Set ℕ) (K : PUnit → sProp 𝕄),
        iprop(owns (c : Thread nD τ) a2 fullShare lt ∗ owns (c : Thread nD τ) a3 fullShare xt ∗ (∃ d, owns (c : Thread nD τ) a8 fullShare d)
            ∗ (iprop(owns (c : Thread nD τ) a2 fullShare lt ∗ owns (c : Thread nD τ) a3 fullShare xt
                ∗ (∃ f, a8.view.loc (c : Thread nD τ) ↦[a8.view.set]{fullShare} a8.view.writes (Elt F) f LS)) -∗ K ⟨⟩))
          ⊢ wp frame (wpE (defs₀ (F := F)) Variants.none c none) E (cc1__step_kernel i a2 h2 a3 h3 a4 h4 a5 h5 a6 h6 a7 h7 a8 h8) K } := by
  refine ⟨?_, fun E K => ?run⟩
  case run =>
    simp only [cc1__step_kernel_eq_skeleton]; unfold cc1__step_kernel_skel
    unfold owns
    iintro ⟨⟨%f2, %hf2, H2⟩, ⟨%f3, %hf3, H3⟩, ⟨%d8, %f8, -, H8⟩, Hk⟩
    obtain rfl := h2.eq_unread hf2; obtain rfl := h3.eq_unread hf3
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    iexists _; iexact H8

end Cert.KernelIdeal.Hop1

end
-- ==== Proof.Hop1RunMiddle.lean ====
import proofs.«155136_j78743930404901_2_alg».proof.Proof.Hop1Points

/-!
# The body at a middle point of a row of tiles

Neither branch is taken. The body loads the Laplacian tile and the feature tile, loads the scratch block, and stores
back the scratch block plus the tile product: one store, covering the scratch whole. The weight matrix, the incoming
output block and both output windows are not touched at all, so the triple does not mention them.

The triple is stated on any whole memrefs; what the scratch ends with is given as the list of pieces the stores
wrote (here one), which the run itself determines.
-/

set_option maxRecDepth 16384

noncomputable section

namespace Cert.KernelIdeal.Hop1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt` and the scratch at `sc`, the body runs to the end, leaves the tiles as they were
    and the scratch with the pieces `LS` written over it. -/
noncomputable def runMiddle (c : Dev nD) (i : grid1.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : ¬isFirst i) (hL : ¬isLast i)
    (lt : Vec F S2048x2048 .bf16) (xt : Vec F S2048x16 .f32) (sc : Vec F S2048x16 .f32) :
    { LS : List (View.Piece (Elt F) S2048x16 .f32) //
      ∀ (E : Set ℕ) (K : PUnit → sProp 𝕄),
        iprop(owns (c : Thread nD τ) a2 fullShare lt ∗ owns (c : Thread nD τ) a3 fullShare xt ∗ owns (c : Thread nD τ) a8 fullShare sc
            ∗ (iprop(owns (c : Thread nD τ) a2 fullShare lt ∗ owns (c : Thread nD τ) a3 fullShare xt
                ∗ (∃ f, a8.view.loc (c : Thread nD τ) ↦[a8.view.set]{fullShare} a8.view.writes (Elt F) f LS)) -∗ K ⟨⟩))
          ⊢ wp frame (wpE (defs₀ (F := F)) Variants.none c none) E (cc1__step_kernel i a2 h2 a3 h3 a4 h4 a5 h5 a6 h6 a7 h7 a8 h8) K } := by
  refine ⟨?_, fun E K => ?run⟩
  case run =>
    simp only [cc1__step_kernel_eq_skeleton]; unfold cc1__step_kernel_skel
    unfold owns
    iintro ⟨⟨%f2, %hf2, H2⟩, ⟨%f3, %hf3, H3⟩, ⟨%f8, %hf8, H8⟩, Hk⟩
    obtain rfl := h2.eq_unread hf2; obtain rfl := h3.eq_unread hf3; obtain rfl := h8.eq_unread hf8
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    iexists _; iexact H8

end Cert.KernelIdeal.Hop1

end
-- ==== Proof.Hop1RunLast.lean ====
import proofs.«155136_j78743930404901_2_alg».proof.Proof.Hop1Points

/-!
# The body at the last point of a row of tiles

The reset branch is not taken, the finishing branch is. After the accumulation the scratch block is the finished
row block of new features: it is stored whole into the first output window; then, with the weight matrix and the
incoming output block, the rectified weight product added to the incoming block is stored whole into the second.
Both output windows are loaded before they are stored into (the values are not used), so they may hold anything.
-/

set_option maxRecDepth 16384

noncomputable section

namespace Cert.KernelIdeal.Hop1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt`, the weights at `w`, the incoming block at `acc`, the scratch at `sc` and the two
    output windows at anything, the body runs to the end, leaves the four inputs as they were, and the two outputs
    and the scratch with the pieces `L6`, `L7`, `LS` written over them. -/
noncomputable def runLast (c : Dev nD) (i : grid1.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : ¬isFirst i) (hL : isLast i)
    (lt : Vec F S2048x2048 .bf16) (xt : Vec F S2048x16 .f32) (w : Vec F S16x16 .f32) (acc : Vec F S2048x16 .f32) (sc : Vec F S2048x16 .f32) :
    Σ' (L6 : List (View.Piece (Elt F) S2048x16 .f32)) (L7 : List (View.Piece (Elt F) S2048x16 .f32)),
    { LS : List (View.Piece (Elt F) S2048x16 .f32) //
      ∀ (E : Set ℕ) (K : PUnit → sProp 𝕄),
        iprop(owns (c : Thread nD τ) a2 fullShare lt ∗ owns (c : Thread nD τ) a3 fullShare xt ∗ owns (c : Thread nD τ) a4 fullShare w
            ∗ owns (c : Thread nD τ) a5 fullShare acc ∗ (∃ d, owns (c : Thread nD τ) a6 fullShare d) ∗ (∃ d, owns (c : Thread nD τ) a7 fullShare d)
            ∗ owns (c : Thread nD τ) a8 fullShare sc
            ∗ (iprop(owns (c : Thread nD τ) a2 fullShare lt ∗ owns (c : Thread nD τ) a3 fullShare xt ∗ owns (c : Thread nD τ) a4 fullShare w
                ∗ owns (c : Thread nD τ) a5 fullShare acc
                ∗ (∃ f, a6.view.loc (c : Thread nD τ) ↦[a6.view.set]{fullShare} a6.view.writes (Elt F) f L6)
                ∗ (∃ f, a7.view.loc (c : Thread nD τ) ↦[a7.view.set]{fullShare} a7.view.writes (Elt F) f L7)
                ∗ (∃ f, a8.view.loc (c : Thread nD τ) ↦[a8.view.set]{fullShare} a8.view.writes (Elt F) f LS)) -∗ K ⟨⟩))
          ⊢ wp frame (wpE (defs₀ (F := F)) Variants.none c none) E (cc1__step_kernel i a2 h2 a3 h3 a4 h4 a5 h5 a6 h6 a7 h7 a8 h8) K } := by
  refine ⟨?_, ?_, ?_, fun E K => ?run⟩
  case run =>
    simp only [cc1__step_kernel_eq_skeleton]; unfold cc1__step_kernel_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    obtain rfl := h2.eq_unread hf2; obtain rfl := h3.eq_unread hf3; obtain rfl := h4.eq_unread hf4
    obtain rfl := h5.eq_unread hf5; obtain rfl := h8.eq_unread hf8
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact H8

end Cert.KernelIdeal.Hop1

end
-- ==== Proof.Hop1Data.lean ====
import proofs.«155136_j78743930404901_2_alg».proof.Proof.Hop1RunFirst
import proofs.«155136_j78743930404901_2_alg».proof.Proof.Hop1RunMiddle
import proofs.«155136_j78743930404901_2_alg».proof.Proof.Hop1RunLast

/-!
# The first propagation step, point by point

What the scratch block and the two output blocks hold after each of the sixteen points, by recursion on the point:

* after the first point of a row of tiles the scratch holds what the reset-and-accumulate run leaves, computed from
  that point's Laplacian tile and feature tile alone;
* after a middle point, what the accumulate run leaves, computed from the point's tiles and from what the point
  before left in the scratch;
* after the last point of a row the same, and the two output blocks hold what the finishing stores leave, computed
  from the point's tiles, the weight matrix, the incoming output block, and what the point before left in the scratch.

At the first three points of a row the output windows are idle: their staging buffers are handed back as found, and
what they "hold" there is a placeholder nobody reads.

Everything is stated relative to `V`, the contents of the core's buffers when the step is entered. The region's
invariant carries the scratch at the recursion's value from one point to the next (before the very first point it
is just "the call's scoped buffers at anything"), the other calls' scoped buffers unopened, and the generator
register at some state.
-/

set_option maxRecDepth 16384

noncomputable section

namespace Cert.KernelIdeal.Hop1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, and views to read contents through -/

/-- Window `w`'s block at point `t`, read off its array as the step finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch as a view, and one staging buffer of each output window: contents are stated through them (the
    choice does not matter once the pieces cover). -/
abbrev VS : View sig .tc .vmem S2048x16 .f32 := (scratch : Memref sig .tc .vmem S2048x16 .f32).view
abbrev VO4 : View sig .tc .vmem S2048x16 .f32 := (Memref.whole cc1_stg4_0 : Memref sig .tc .vmem S2048x16 .f32).view
abbrev VO5 : View sig .tc .vmem S2048x16 .f32 := (Memref.whole cc1_stg5_0 : Memref sig .tc .vmem S2048x16 .f32).view

/-! ## The three runs at a point's own memrefs -/

abbrev firstRun (c : Dev nD) (t : Fin cfg1.N) (hF : isFirst (grid1.coords t)) (hL : ¬isLast (grid1.coords t))
    (lt : Vec F S2048x2048 .bf16) (xt : Vec F S2048x16 .f32) :=
  runFirst (F := F) c (grid1.coords t) (ms0 t) (hs0 t) (ms1 t) (hs1 t) (ms2 t) (hs2 t) (ms3 t) (hs3 t) (ms4 t) (hs4 t) (ms5 t) (hs5 t) scratch (Memref.isWhole_whole _) hF hL lt xt
abbrev middleRun (c : Dev nD) (t : Fin cfg1.N) (hF : ¬isFirst (grid1.coords t)) (hL : ¬isLast (grid1.coords t))
    (lt : Vec F S2048x2048 .bf16) (xt : Vec F S2048x16 .f32) (sc : Vec F S2048x16 .f32) :=
  runMiddle (F := F) c (grid1.coords t) (ms0 t) (hs0 t) (ms1 t) (hs1 t) (ms2 t) (hs2 t) (ms3 t) (hs3 t) (ms4 t) (hs4 t) (ms5 t) (hs5 t) scratch (Memref.isWhole_whole _) hF hL lt xt sc
abbrev lastRun (c : Dev nD) (t : Fin cfg1.N) (hF : ¬isFirst (grid1.coords t)) (hL : isLast (grid1.coords t))
    (lt : Vec F S2048x2048 .bf16) (xt : Vec F S2048x16 .f32) (w : Vec F S16x16 .f32) (acc : Vec F S2048x16 .f32) (sc : Vec F S2048x16 .f32) :=
  runLast (F := F) c (grid1.coords t) (ms0 t) (hs0 t) (ms1 t) (hs1 t) (ms2 t) (hs2 t) (ms3 t) (hs3 t) (ms4 t) (hs4 t) (ms5 t) (hs5 t) scratch (Memref.isWhole_whole _) hF hL lt xt w acc sc

/-! ## What each run leaves, and that its pieces cover -/

/-- The scratch after the first point of a row. -/
def scFirst (c : Dev nD) (t : Fin cfg1.N) (hF : isFirst (grid1.coords t)) (hL : ¬isLast (grid1.coords t))
    (lt : Vec F S2048x2048 .bf16) (xt : Vec F S2048x16 .f32) : Vec F S2048x16 .f32 :=
  VS.read (Elt F) (VS.writes (Elt F) VS.junk (firstRun c t hF hL lt xt).1)
theorem scFirst_cover (c : Dev nD) (t : Fin cfg1.N) (hF : isFirst (grid1.coords t)) (hL : ¬isLast (grid1.coords t))
    (lt : Vec F S2048x2048 .bf16) (xt : Vec F S2048x16 .f32) (y : S2048x16.Idx) :
    ∃ pc ∈ (firstRun c t hF hL lt xt).1, y ∈ pc.1.set :=
  View.cover_of_tiledL (firstRun c t hF hL lt xt).1 S2048x16.size (by sl_kernel_rfl) y

/-- The scratch after a middle point. -/
def scMiddle (c : Dev nD) (t : Fin cfg1.N) (hF : ¬isFirst (grid1.coords t)) (hL : ¬isLast (grid1.coords t))
    (lt : Vec F S2048x2048 .bf16) (xt : Vec F S2048x16 .f32) (sc : Vec F S2048x16 .f32) : Vec F S2048x16 .f32 :=
  VS.read (Elt F) (VS.writes (Elt F) VS.junk (middleRun c t hF hL lt xt sc).1)
theorem scMiddle_cover (c : Dev nD) (t : Fin cfg1.N) (hF : ¬isFirst (grid1.coords t)) (hL : ¬isLast (grid1.coords t))
    (lt : Vec F S2048x2048 .bf16) (xt : Vec F S2048x16 .f32) (sc : Vec F S2048x16 .f32) (y : S2048x16.Idx) :
    ∃ pc ∈ (middleRun c t hF hL lt xt sc).1, y ∈ pc.1.set :=
  View.cover_of_tiledL (middleRun c t hF hL lt xt sc).1 S2048x16.size (by sl_kernel_rfl) y

/-- The new features' block, the running output's block and the scratch after the last point of a row. -/
def out4Last (c : Dev nD) (t : Fin cfg1.N) (hF : ¬isFirst (grid1.coords t)) (hL : isLast (grid1.coords t))
    (lt : Vec F S2048x2048 .bf16) (xt : Vec F S2048x16 .f32) (w : Vec F S16x16 .f32) (acc : Vec F S2048x16 .f32) (sc : Vec F S2048x16 .f32) : Vec F S2048x16 .f32 :=
  VO4.read (Elt F) (VO4.writes (Elt F) VO4.junk (lastRun c t hF hL lt xt w acc sc).1)
theorem out4Last_cover (c : Dev nD) (t : Fin cfg1.N) (hF : ¬isFirst (grid1.coords t)) (hL : isLast (grid1.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).1, y ∈ pc.1.set :=
  View.cover_of_tiledL (lastRun c t hF hL lt xt w acc sc).1 S2048x16.size (by sl_kernel_rfl) y
def out5Last (c : Dev nD) (t : Fin cfg1.N) (hF : ¬isFirst (grid1.coords t)) (hL : isLast (grid1.coords t))
    (lt : Vec F S2048x2048 .bf16) (xt : Vec F S2048x16 .f32) (w : Vec F S16x16 .f32) (acc : Vec F S2048x16 .f32) (sc : Vec F S2048x16 .f32) : Vec F S2048x16 .f32 :=
  VO5.read (Elt F) (VO5.writes (Elt F) VO5.junk (lastRun c t hF hL lt xt w acc sc).2.1)
theorem out5Last_cover (c : Dev nD) (t : Fin cfg1.N) (hF : ¬isFirst (grid1.coords t)) (hL : isLast (grid1.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).2.1, y ∈ pc.1.set :=
  View.cover_of_tiledL (lastRun c t hF hL lt xt w acc sc).2.1 S2048x16.size (by sl_kernel_rfl) y
def scLast (c : Dev nD) (t : Fin cfg1.N) (hF : ¬isFirst (grid1.coords t)) (hL : isLast (grid1.coords t))
    (lt : Vec F S2048x2048 .bf16) (xt : Vec F S2048x16 .f32) (w : Vec F S16x16 .f32) (acc : Vec F S2048x16 .f32) (sc : Vec F S2048x16 .f32) : Vec F S2048x16 .f32 :=
  VS.read (Elt F) (VS.writes (Elt F) VS.junk (lastRun c t hF hL lt xt w acc sc).2.2.1)
theorem scLast_cover (c : Dev nD) (t : Fin cfg1.N) (hF : ¬isFirst (grid1.coords t)) (hL : isLast (grid1.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).2.2.1, y ∈ pc.1.set :=
  View.cover_of_tiledL (lastRun c t hF hL lt xt w acc sc).2.2.1 S2048x16.size (by sl_kernel_rfl) y

/-! ## The accumulation over the sixteen points -/

/-- What an idle output window "holds": a placeholder nobody reads. -/
def idle4 : Vec F S2048x16 .f32 := VO4.read (Elt F) VO4.junk
def idle5 : Vec F S2048x16 .f32 := VO5.read (Elt F) VO5.junk

/-- After point `n`: the new features' block, the running output's block, the scratch. The kind of the point is read
    off `n mod 4`; a middle or last point takes the scratch the point before left. -/
def outsAt (c : Dev nD) : (n : ℕ) → n < cfg1.N → Vec F S2048x16 .f32 × Vec F S2048x16 .f32 × Vec F S2048x16 .f32
  | 0, hn =>
    (idle4, idle5,
      scFirst c ⟨0, hn⟩ ((isFirst_iff ⟨0, hn⟩).mpr (Nat.zero_mod _))
        (fun h => (fun h => by (try dsimp only at h); omega) ((isLast_iff ⟨0, hn⟩).mp h))
        (iblk V c 0 ⟨0, hn⟩) (iblk V c 1 ⟨0, hn⟩))
  | n + 1, hn =>
    if h0 : (n + 1) % 4 = 0 then
      (idle4, idle5,
        scFirst c ⟨n + 1, hn⟩ ((isFirst_iff ⟨n + 1, hn⟩).mpr h0) (fun h => (fun h => by (try dsimp only at h); omega) ((isLast_iff ⟨n + 1, hn⟩).mp h))
          (iblk V c 0 ⟨n + 1, hn⟩) (iblk V c 1 ⟨n + 1, hn⟩))
    else
      if h3 : (n + 1) % 4 = 3 then
        (out4Last c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2,
          out5Last c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2,
          scLast c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2)
      else
        (idle4, idle5,
          scMiddle c ⟨n + 1, hn⟩ (fun h => h0 ((isFirst_iff ⟨n + 1, hn⟩).mp h)) (fun h => h3 ((isLast_iff ⟨n + 1, hn⟩).mp h))
            (iblk V c 0 ⟨n + 1, hn⟩) (iblk V c 1 ⟨n + 1, hn⟩) (outsAt c n (Nat.lt_of_succ_lt hn)).2.2)

/-- At the first point of a row. -/
theorem outsAt_first (c : Dev nD) (t : Fin cfg1.N) (h0 : t.val % 4 = 0) (hL : ¬isLast (grid1.coords t)) :
    outsAt V c t.val t.isLt
      = (idle4, idle5, scFirst c t ((isFirst_iff t).mpr h0) hL (iblk V c 0 t) (iblk V c 1 t)) := by
  obtain ⟨n, hn⟩ := t
  cases n with
  | zero => exact rfl
  | succ n => exact dif_pos h0

/-- At a middle point: over what the point before left. -/
theorem outsAt_middle (c : Dev nD) (t : Fin cfg1.N) (h0 : ¬t.val % 4 = 0) (h3 : ¬t.val % 4 = 3) :
    outsAt V c t.val t.isLt
      = (idle4, idle5, scMiddle c t (fun h => h0 ((isFirst_iff t).mp h)) (fun h => h3 ((isLast_iff t).mp h))
          (iblk V c 0 t) (iblk V c 1 t) (outsAt V c (t.val - 1) (Nat.lt_of_le_of_lt (Nat.sub_le _ _) t.isLt)).2.2) := by
  obtain ⟨n, hn⟩ := t
  cases n with
  | zero => exact absurd (Nat.zero_mod _) h0
  | succ n => exact (dif_neg h0).trans (dif_neg h3)

/-- At the last point of a row: over what the point before left. -/
theorem outsAt_last (c : Dev nD) (t : Fin cfg1.N) (h0 : ¬t.val % 4 = 0) (h3 : t.val % 4 = 3) :
    outsAt V c t.val t.isLt
      = (out4Last c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2,
          out5Last c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2,
          scLast c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2) := by
  obtain ⟨n, hn⟩ := t
  cases n with
  | zero => exact absurd (Nat.zero_mod _) h0
  | succ n => exact (dif_neg h0).trans (dif_pos h3)

/-! ## The invariant between points -/

/-- Before the first point: the call's scoped buffers at anything and the generator register at some state. After
    point `n`: the scratch at what that point left, the other scoped buffers unopened, the generator register. -/
def PhiS (c : Dev nD) : (n : ℕ) → n ≤ cfg1.N → sProp 𝕄
  | 0, _ => Pipeline.ΦA spec1 c
  | n + 1, hn =>
    iprop(iprop(owns (c : Thread nD τ) scratch fullShare ((outsAt V c n hn).2.2)
        ∗ Pipeline.scopedRestBut (Ix := Unit) (Name := ℕ) (U := UR sig nD τ) (Lvl := ℕ) (Val := Elt F) spec1 c [cc1_scratch0])
      ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn
      = iprop(iprop(owns (c : Thread nD τ) scratch fullShare ((outsAt V c n hn).2.2)
          ∗ Pipeline.scopedRestBut (Ix := Unit) (Name := ℕ) (U := UR sig nD τ) (Lvl := ℕ) (Val := Elt F) spec1 c [cc1_scratch0])
        ∗ (∃ r, prngReg c r)) := rfl

theorem PhiS_pos (c : Dev nD) (n : ℕ) (h : n ≤ cfg1.N) (hz : n ≠ 0) :
    PhiS V c n h
      = iprop(iprop(owns (c : Thread nD τ) scratch fullShare ((outsAt V c (n - 1) (by omega)).2.2)
          ∗ Pipeline.scopedRestBut (Ix := Unit) (Name := ℕ) (U := UR sig nD τ) (Lvl := ℕ) (Val := Elt F) spec1 c [cc1_scratch0])
        ∗ (∃ r, prngReg c r)) := by
  cases n with
  | zero => exact absurd rfl hz
  | succ n => rfl

/-- The class's invariant with the call's scratch taken out as a memref owned at some contents. -/
theorem PhiA_eq (c : Dev nD) :
    (Pipeline.ΦA spec1 c : sProp 𝕄)
      = iprop(iprop((∃ d, owns (c : Thread nD τ) scratch fullShare d)
          ∗ Pipeline.scopedRestBut (Ix := Unit) (Name := ℕ) (U := UR sig nD τ) (Lvl := ℕ) (Val := Elt F) spec1 c [cc1_scratch0])
        ∗ (∃ r, prngReg c r)) := by
  unfold Pipeline.ΦA; rw [scopedRest1_split]; simp only [scratch, owns_whole]; try rfl

/-! ## The proof data -/

/-- The arrays as the step finds them; after the body each input's buffer at its block, the outputs' at the
    recursion's values; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2.1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = (outsAt V c t.val t.isLt).1 := by dsimp only [dat]
theorem after5 (c : Dev nD) (t : Fin cfg1.N) : (dat V c).after 5 t = (outsAt V c t.val t.isLt).2.1 := by dsimp only [dat]

/-- Each input's current staging buffer holds its block at every point, fetched there or not: where the block index
    did not move, the block is still the one fetched earlier. -/
theorem before0 (c : Dev nD) (t : Fin cfg1.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg1.N) (d) : (dat V c).before 3 t d = iblk V c 3 t :=
  ((dat V c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

end Cert.KernelIdeal.Hop1

end
-- ==== Proof.Hop1Body.lean ====
import proofs.«155136_j78743930404901_2_alg».proof.Proof.Hop1Data

/-!
# The body obligation of the second propagation step

At every point the body, called with the point's staging buffers, takes the region's invariant from "after the point
before" to "after this point" and leaves each window's buffer as the proof data says:

* the four inputs at their blocks, untouched;
* at the first three points of a row the two output windows as found (they are idle and not written back there),
  and the scratch at the recursion's next value — over anything at the first point of a row, over what the point
  before left at a middle point;
* at the last point of a row both output windows at what the finishing stores leave.

The point's kind is decided by `t mod 4`, and each kind is one of the three runs of the body; what a run leaves
as a list of pieces written over unknown contents is the recursion's value because the pieces cover the block.
-/

set_option maxRecDepth 16384

noncomputable section

namespace Cert.KernelIdeal.Hop1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
      unfold Dat.leavesExact; rw [in0_live t], after0]
  rw [show (dat V c).leavesExact 1 t = owns (c : Thread nD τ) (ms1 t) fullShare ((dat V c).after 1 t) from by
      unfold Dat.leavesExact; rw [in1_live t], after1]
  rw [show (dat V c).leavesExact 2 t = owns (c : Thread nD τ) (ms2 t) fullShare ((dat V c).after 2 t) from by
      unfold Dat.leavesExact; rw [in2_live t], after2]
  rw [show (dat V c).leavesExact 3 t = owns (c : Thread nD τ) (ms3 t) fullShare ((dat V c).after 3 t) from by
      unfold Dat.leavesExact; rw [in3_live t], after3]
  have hN : t.val < 16 := lt_of_lt_of_eq t.isLt (show cfg1.N = 16 from N_1)
  by_cases h0 : t.val % 4 = 0
  · -- the first point of a row
    have hF : isFirst (grid1.coords t) := (isFirst_iff t).mpr h0
    have hL : ¬isLast (grid1.coords t) := fun h => by have := (isLast_iff t).mp h; omega
    rw [Dat.leavesExact_idle (dat V c) 4 t (out4_idle t hL) (out4_noFlush t hL),
      Dat.leavesExact_idle (dat V c) 5 t (out5_idle t hL) (out5_noFlush t hL)]
    rw [outsAt_first V c t h0 hL]
    unfold scFirst; (try dsimp only)
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩, ⟨%d3, H3⟩, H4, H5⟩
      iapply ((firstRun c t hF hL (iblk V c 0 t) (iblk V c 1 t)).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scFirst_cover c t hF hL _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((firstRun c t hF hL (iblk V c 0 t) (iblk V c 1 t)).2 Set.univ _)
      isplitl [H0]; · iexact H0
      isplitl [H1]; · iexact H1
      isplitl [HS]; · iexists _; iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scFirst_cover c t hF hL _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
  · have hF : ¬isFirst (grid1.coords t) := fun h => h0 ((isFirst_iff t).mp h)
    have hz : t.val ≠ 0 := fun h => h0 (by rw [h])
    by_cases h3 : t.val % 4 = 3
    · -- the last point of a row
      have hL : isLast (grid1.coords t) := (isLast_iff t).mpr h3
      rw [show (dat V c).leavesExact 4 t = owns (c : Thread nD τ) (ms4 t) fullShare ((dat V c).after 4 t) from by
          unfold Dat.leavesExact; rw [out4_live t hL], after4]
      rw [show (dat V c).leavesExact 5 t = owns (c : Thread nD τ) (ms5 t) fullShare ((dat V c).after 5 t) from by
          unfold Dat.leavesExact; rw [out5_live t hL], after5]
      rw [outsAt_last V c t h0 h3]
      unfold out4Last out5Last scLast; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((lastRun c t hF hL (iblk V c 0 t) (iblk V c 1 t) (iblk V c 2 t) (iblk V c 3 t) _).2.2.2 Set.univ _)
      isplitl [H0]; · iexact H0
      isplitl [H1]; · iexact H1
      isplitl [H2]; · iexact H2
      isplitl [H3]; · iexact H3
      isplitl [H4]; · icases H4 with ⟨%d4, H4⟩; iexists _; iexact H4
      isplitl [H5]; · icases H5 with ⟨%d5, H5⟩; iexists _; iexact H5
      isplitl [HS]; · iexact HS
      iintro ⟨H0, H1, H2, H3, ⟨%e4, H4⟩, ⟨%e5, H5⟩, ⟨%es, HS⟩⟩
      isplitl [HS Hrest Hg]
      · isplitl [HS Hrest]
        · isplitl [HS]
          · unfold owns; iexists _; isplitr
            swap; · iexact HS
            ipureintro; exact View.read_writes_of_cover _ _ _ _ _ (scLast_cover c t hF hL _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (out4Last_cover c t hF hL _ _ _ _ _)
      unfold owns; iexists _; isplitr
      swap; · iexact H5
      ipureintro; exact View.read_writes_of_cover _ _ _ _ _ (out5Last_cover c t hF hL _ _ _ _ _)
    · -- a middle point
      have hL : ¬isLast (grid1.coords t) := fun h => h3 ((isLast_iff t).mp h)
      rw [Dat.leavesExact_idle (dat V c) 4 t (out4_idle t hL) (out4_noFlush t hL),
        Dat.leavesExact_idle (dat V c) 5 t (out5_idle t hL) (out5_noFlush t hL)]
      rw [outsAt_middle V c t h0 h3]
      unfold scMiddle; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((middleRun c t hF hL (iblk V c 0 t) (iblk V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scMiddle_cover c t hF hL _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant at the two ends -/

/-- What the region hands the step is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch's contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 16 := N_1; omega), PhiA_eq]
  iintro ⟨⟨HS, Hrest⟩, Hg⟩
  isplitl [HS Hrest]
  · isplitl [HS]
    · iexists _; iexact HS
    iexact Hrest
  iexact Hg

end Cert.KernelIdeal.Hop1

end
-- ==== Proof.Hop2Points.lean ====
import proofs.«155136_j78743930404901_2_alg».proof.Proof.Gen.KernelIdeal.Launch
import proofs.«155136_j78743930404901_2_alg».proof.Proof.Gen.KernelIdeal.Skeleton
import proofs.«155136_j78743930404901_2_alg».proof.Proof.Gen.KernelIdeal.Points
import Idealize.ShloMosaic.Lib.Pipeline.FrameBody
import Idealize.ShloMosaic.Lib.Ring
import Idealize.ShloMosaic.Lib.Tactic

/-!
# The sixteen grid points of the third propagation step

The grid is 4 × 4, point `t = 4 i + k`: `i` is the row of tiles, `k` the tile inside the row, `k` running fastest.
The body branches twice on `k` alone: it resets the scratch block when `k = 0`, and it finishes the row (stores both
output blocks) when `k = 3`. So a point is of one of three kinds — first of its row, middle, last of its row — and

* the two output windows are stored into only at the last point of a row, are written back exactly there, and are
  idle (their staging buffer handed back untouched) at the other three points;
* the four input windows are never idle.

Here: the two conditions in closed form over the point's number, those facts about the windows decided over the
sixteen points, and names for the memrefs the body is called with.
-/

set_option maxRecDepth 16384

noncomputable section

namespace Cert.KernelIdeal.Hop2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- "This is the first tile of its row": the reset's condition, as the body computes it from the coordinate `k`. -/
abbrev isFirst (i : grid2.Coords) : Prop :=
  (Scalar.cmpi .ne (Scalar.extui (Scalar.cmpi .eq (BitVec.ofNat 32 (i 1).val) 0#32)) 0#32) = 1#1

/-- It holds exactly at the points `t ≡ 0 (mod 4)`. -/
theorem isFirst_iff : ∀ t : Fin cfg2.N, isFirst (grid2.coords t) ↔ t.val % 4 = 0 :=
  (by decide +kernel : ∀ t : Fin grid2.N, isFirst (grid2.coords t) ↔ t.val % 4 = 0)

/-- "This is the last tile of its row": the finishing branch's condition. -/
abbrev isLast (i : grid2.Coords) : Prop := k2_cond2 i = 1#1

/-- It holds exactly at the points `t ≡ 3 (mod 4)`. -/
theorem isLast_iff : ∀ t : Fin cfg2.N, isLast (grid2.coords t) ↔ t.val % 4 = 3 :=
  (by decide +kernel : ∀ t : Fin grid2.N, isLast (grid2.coords t) ↔ t.val % 4 = 3)

/-! ## Where the windows are idle -/

theorem in0_live : ∀ t : Fin cfg2.N, cfg2.idle 0 (grid2.coords t) = false := by decide +kernel
theorem in1_live : ∀ t : Fin cfg2.N, cfg2.idle 1 (grid2.coords t) = false := by decide +kernel
theorem in2_live : ∀ t : Fin cfg2.N, cfg2.idle 2 (grid2.coords t) = false := by decide +kernel
theorem in3_live : ∀ t : Fin cfg2.N, cfg2.idle 3 (grid2.coords t) = false := by decide +kernel

/-- Away from the end of a row the new features' block is idle, and is not written back. -/
theorem out4_idle : ∀ t : Fin cfg2.N, ¬isLast (grid2.coords t) → cfg2.idle 4 (grid2.coords t) = true := by decide +kernel
theorem out4_noFlush : ∀ t : Fin cfg2.N, ¬isLast (grid2.coords t) → (cfg2.win 4).flush t = false := by decide +kernel
/-- At the end of a row it is live. -/
theorem out4_live : ∀ t : Fin cfg2.N, isLast (grid2.coords t) → cfg2.idle 4 (grid2.coords t) = false := by decide +kernel

/-- The same for the running output's block. -/
theorem out5_idle : ∀ t : Fin cfg2.N, ¬isLast (grid2.coords t) → cfg2.idle 5 (grid2.coords t) = true := by decide +kernel
theorem out5_noFlush : ∀ t : Fin cfg2.N, ¬isLast (grid2.coords t) → (cfg2.win 5).flush t = false := by decide +kernel
theorem out5_live : ∀ t : Fin cfg2.N, isLast (grid2.coords t) → cfg2.idle 5 (grid2.coords t) = false := by decide +kernel

/-! ## The memrefs the body is called with at a point -/

abbrev ms0 (t : Fin cfg2.N) : Memref sig .tc .vmem S2048x2048 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S2048x16 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S16x16 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S2048x16 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S2048x16 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S2048x16 .f32 := win2_5.stage (cfg2.slots t 5)
abbrev hs5 (t : Fin cfg2.N) : (ms5 t).IsWhole := hstage2_5 ((cfg2.slots t 5).cast nbuf2_5)

/-- The scratch block of partial sums: a whole scoped buffer of the call's own. -/
abbrev scratch : Memref sig .tc .vmem S2048x16 .f32 := Memref.whole cc2_scratch0

end Cert.KernelIdeal.Hop2

end
-- ==== Proof.Hop2RunFirst.lean ====
import proofs.«155136_j78743930404901_2_alg».proof.Proof.Hop2Points

/-!
# The body at the first point of a row of tiles

The reset branch is taken, the finishing branch is not. Whatever the scratch block held — nothing at the very first
point, the previous row's finished block later — is overwritten by zeros before it is used; then the tile product is
added as at every point. Two stores into the scratch, each covering it whole; the later one is what it ends with.
The weight matrix, the incoming output block and both output windows are not touched.
-/

set_option maxRecDepth 16384

noncomputable section

namespace Cert.KernelIdeal.Hop2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt` and the scratch at anything, the body runs to the end, leaves the tiles as they were
    and the scratch with the pieces `LS` written over it. -/
noncomputable def runFirst (c : Dev nD) (i : grid2.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : isFirst i) (hL : ¬isLast i)
    (lt : Vec F S2048x2048 .bf16) (xt : Vec F S2048x16 .f32) :
    { LS : List (View.Piece (Elt F) S2048x16 .f32) //
      ∀ (E : Set ℕ) (K : PUnit → sProp 𝕄),
        iprop(owns (c : Thread nD τ) a2 fullShare lt ∗ owns (c : Thread nD τ) a3 fullShare xt ∗ (∃ d, owns (c : Thread nD τ) a8 fullShare d)
            ∗ (iprop(owns (c : Thread nD τ) a2 fullShare lt ∗ owns (c : Thread nD τ) a3 fullShare xt
                ∗ (∃ f, a8.view.loc (c : Thread nD τ) ↦[a8.view.set]{fullShare} a8.view.writes (Elt F) f LS)) -∗ K ⟨⟩))
          ⊢ wp frame (wpE (defs₀ (F := F)) Variants.none c none) E (cc2__step_kernel i a2 h2 a3 h3 a4 h4 a5 h5 a6 h6 a7 h7 a8 h8) K } := by
  refine ⟨?_, fun E K => ?run⟩
  case run =>
    simp only [cc2__step_kernel_eq_skeleton]; unfold cc2__step_kernel_skel
    unfold owns
    iintro ⟨⟨%f2, %hf2, H2⟩, ⟨%f3, %hf3, H3⟩, ⟨%d8, %f8, -, H8⟩, Hk⟩
    obtain rfl := h2.eq_unread hf2; obtain rfl := h3.eq_unread hf3
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    iexists _; iexact H8

end Cert.KernelIdeal.Hop2

end
-- ==== Proof.Hop2RunMiddle.lean ====
import proofs.«155136_j78743930404901_2_alg».proof.Proof.Hop2Points

/-!
# The body at a middle point of a row of tiles

Neither branch is taken. The body loads the Laplacian tile and the feature tile, loads the scratch block, and stores
back the scratch block plus the tile product: one store, covering the scratch whole. The weight matrix, the incoming
output block and both output windows are not touched at all, so the triple does not mention them.

The triple is stated on any whole memrefs; what the scratch ends with is given as the list of pieces the stores
wrote (here one), which the run itself determines.
-/

set_option maxRecDepth 16384

noncomputable section

namespace Cert.KernelIdeal.Hop2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt` and the scratch at `sc`, the body runs to the end, leaves the tiles as they were
    and the scratch with the pieces `LS` written over it. -/
noncomputable def runMiddle (c : Dev nD) (i : grid2.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : ¬isFirst i) (hL : ¬isLast i)
    (lt : Vec F S2048x2048 .bf16) (xt : Vec F S2048x16 .f32) (sc : Vec F S2048x16 .f32) :
    { LS : List (View.Piece (Elt F) S2048x16 .f32) //
      ∀ (E : Set ℕ) (K : PUnit → sProp 𝕄),
        iprop(owns (c : Thread nD τ) a2 fullShare lt ∗ owns (c : Thread nD τ) a3 fullShare xt ∗ owns (c : Thread nD τ) a8 fullShare sc
            ∗ (iprop(owns (c : Thread nD τ) a2 fullShare lt ∗ owns (c : Thread nD τ) a3 fullShare xt
                ∗ (∃ f, a8.view.loc (c : Thread nD τ) ↦[a8.view.set]{fullShare} a8.view.writes (Elt F) f LS)) -∗ K ⟨⟩))
          ⊢ wp frame (wpE (defs₀ (F := F)) Variants.none c none) E (cc2__step_kernel i a2 h2 a3 h3 a4 h4 a5 h5 a6 h6 a7 h7 a8 h8) K } := by
  refine ⟨?_, fun E K => ?run⟩
  case run =>
    simp only [cc2__step_kernel_eq_skeleton]; unfold cc2__step_kernel_skel
    unfold owns
    iintro ⟨⟨%f2, %hf2, H2⟩, ⟨%f3, %hf3, H3⟩, ⟨%f8, %hf8, H8⟩, Hk⟩
    obtain rfl := h2.eq_unread hf2; obtain rfl := h3.eq_unread hf3; obtain rfl := h8.eq_unread hf8
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    iexists _; iexact H8

end Cert.KernelIdeal.Hop2

end
-- ==== Proof.Hop2RunLast.lean ====
import proofs.«155136_j78743930404901_2_alg».proof.Proof.Hop2Points

/-!
# The body at the last point of a row of tiles

The reset branch is not taken, the finishing branch is. After the accumulation the scratch block is the finished
row block of new features: it is stored whole into the first output window; then, with the weight matrix and the
incoming output block, the rectified weight product added to the incoming block is stored whole into the second.
Both output windows are loaded before they are stored into (the values are not used), so they may hold anything.
-/

set_option maxRecDepth 16384

noncomputable section

namespace Cert.KernelIdeal.Hop2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt`, the weights at `w`, the incoming block at `acc`, the scratch at `sc` and the two
    output windows at anything, the body runs to the end, leaves the four inputs as they were, and the two outputs
    and the scratch with the pieces `L6`, `L7`, `LS` written over them. -/
noncomputable def runLast (c : Dev nD) (i : grid2.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : ¬isFirst i) (hL : isLast i)
    (lt : Vec F S2048x2048 .bf16) (xt : Vec F S2048x16 .f32) (w : Vec F S16x16 .f32) (acc : Vec F S2048x16 .f32) (sc : Vec F S2048x16 .f32) :
    Σ' (L6 : List (View.Piece (Elt F) S2048x16 .f32)) (L7 : List (View.Piece (Elt F) S2048x16 .f32)),
    { LS : List (View.Piece (Elt F) S2048x16 .f32) //
      ∀ (E : Set ℕ) (K : PUnit → sProp 𝕄),
        iprop(owns (c : Thread nD τ) a2 fullShare lt ∗ owns (c : Thread nD τ) a3 fullShare xt ∗ owns (c : Thread nD τ) a4 fullShare w
            ∗ owns (c : Thread nD τ) a5 fullShare acc ∗ (∃ d, owns (c : Thread nD τ) a6 fullShare d) ∗ (∃ d, owns (c : Thread nD τ) a7 fullShare d)
            ∗ owns (c : Thread nD τ) a8 fullShare sc
            ∗ (iprop(owns (c : Thread nD τ) a2 fullShare lt ∗ owns (c : Thread nD τ) a3 fullShare xt ∗ owns (c : Thread nD τ) a4 fullShare w
                ∗ owns (c : Thread nD τ) a5 fullShare acc
                ∗ (∃ f, a6.view.loc (c : Thread nD τ) ↦[a6.view.set]{fullShare} a6.view.writes (Elt F) f L6)
                ∗ (∃ f, a7.view.loc (c : Thread nD τ) ↦[a7.view.set]{fullShare} a7.view.writes (Elt F) f L7)
                ∗ (∃ f, a8.view.loc (c : Thread nD τ) ↦[a8.view.set]{fullShare} a8.view.writes (Elt F) f LS)) -∗ K ⟨⟩))
          ⊢ wp frame (wpE (defs₀ (F := F)) Variants.none c none) E (cc2__step_kernel i a2 h2 a3 h3 a4 h4 a5 h5 a6 h6 a7 h7 a8 h8) K } := by
  refine ⟨?_, ?_, ?_, fun E K => ?run⟩
  case run =>
    simp only [cc2__step_kernel_eq_skeleton]; unfold cc2__step_kernel_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    obtain rfl := h2.eq_unread hf2; obtain rfl := h3.eq_unread hf3; obtain rfl := h4.eq_unread hf4
    obtain rfl := h5.eq_unread hf5; obtain rfl := h8.eq_unread hf8
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact H8

end Cert.KernelIdeal.Hop2

end
-- ==== Proof.Hop2Data.lean ====
import proofs.«155136_j78743930404901_2_alg».proof.Proof.Hop2RunFirst
import proofs.«155136_j78743930404901_2_alg».proof.Proof.Hop2RunMiddle
import proofs.«155136_j78743930404901_2_alg».proof.Proof.Hop2RunLast

/-!
# The first propagation step, point by point

What the scratch block and the two output blocks hold after each of the sixteen points, by recursion on the point:

* after the first point of a row of tiles the scratch holds what the reset-and-accumulate run leaves, computed from
  that point's Laplacian tile and feature tile alone;
* after a middle point, what the accumulate run leaves, computed from the point's tiles and from what the point
  before left in the scratch;
* after the last point of a row the same, and the two output blocks hold what the finishing stores leave, computed
  from the point's tiles, the weight matrix, the incoming output block, and what the point before left in the scratch.

At the first three points of a row the output windows are idle: their staging buffers are handed back as found, and
what they "hold" there is a placeholder nobody reads.

Everything is stated relative to `V`, the contents of the core's buffers when the step is entered. The region's
invariant carries the scratch at the recursion's value from one point to the next (before the very first point it
is just "the call's scoped buffers at anything"), the other calls' scoped buffers unopened, and the generator
register at some state.
-/

set_option maxRecDepth 16384

noncomputable section

namespace Cert.KernelIdeal.Hop2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, and views to read contents through -/

/-- Window `w`'s block at point `t`, read off its array as the step finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch as a view, and one staging buffer of each output window: contents are stated through them (the
    choice does not matter once the pieces cover). -/
abbrev VS : View sig .tc .vmem S2048x16 .f32 := (scratch : Memref sig .tc .vmem S2048x16 .f32).view
abbrev VO4 : View sig .tc .vmem S2048x16 .f32 := (Memref.whole cc2_stg4_0 : Memref sig .tc .vmem S2048x16 .f32).view
abbrev VO5 : View sig .tc .vmem S2048x16 .f32 := (Memref.whole cc2_stg5_0 : Memref sig .tc .vmem S2048x16 .f32).view

/-! ## The three runs at a point's own memrefs -/

abbrev firstRun (c : Dev nD) (t : Fin cfg2.N) (hF : isFirst (grid2.coords t)) (hL : ¬isLast (grid2.coords t))
    (lt : Vec F S2048x2048 .bf16) (xt : Vec F S2048x16 .f32) :=
  runFirst (F := F) c (grid2.coords t) (ms0 t) (hs0 t) (ms1 t) (hs1 t) (ms2 t) (hs2 t) (ms3 t) (hs3 t) (ms4 t) (hs4 t) (ms5 t) (hs5 t) scratch (Memref.isWhole_whole _) hF hL lt xt
abbrev middleRun (c : Dev nD) (t : Fin cfg2.N) (hF : ¬isFirst (grid2.coords t)) (hL : ¬isLast (grid2.coords t))
    (lt : Vec F S2048x2048 .bf16) (xt : Vec F S2048x16 .f32) (sc : Vec F S2048x16 .f32) :=
  runMiddle (F := F) c (grid2.coords t) (ms0 t) (hs0 t) (ms1 t) (hs1 t) (ms2 t) (hs2 t) (ms3 t) (hs3 t) (ms4 t) (hs4 t) (ms5 t) (hs5 t) scratch (Memref.isWhole_whole _) hF hL lt xt sc
abbrev lastRun (c : Dev nD) (t : Fin cfg2.N) (hF : ¬isFirst (grid2.coords t)) (hL : isLast (grid2.coords t))
    (lt : Vec F S2048x2048 .bf16) (xt : Vec F S2048x16 .f32) (w : Vec F S16x16 .f32) (acc : Vec F S2048x16 .f32) (sc : Vec F S2048x16 .f32) :=
  runLast (F := F) c (grid2.coords t) (ms0 t) (hs0 t) (ms1 t) (hs1 t) (ms2 t) (hs2 t) (ms3 t) (hs3 t) (ms4 t) (hs4 t) (ms5 t) (hs5 t) scratch (Memref.isWhole_whole _) hF hL lt xt w acc sc

/-! ## What each run leaves, and that its pieces cover -/

/-- The scratch after the first point of a row. -/
def scFirst (c : Dev nD) (t : Fin cfg2.N) (hF : isFirst (grid2.coords t)) (hL : ¬isLast (grid2.coords t))
    (lt : Vec F S2048x2048 .bf16) (xt : Vec F S2048x16 .f32) : Vec F S2048x16 .f32 :=
  VS.read (Elt F) (VS.writes (Elt F) VS.junk (firstRun c t hF hL lt xt).1)
theorem scFirst_cover (c : Dev nD) (t : Fin cfg2.N) (hF : isFirst (grid2.coords t)) (hL : ¬isLast (grid2.coords t))
    (lt : Vec F S2048x2048 .bf16) (xt : Vec F S2048x16 .f32) (y : S2048x16.Idx) :
    ∃ pc ∈ (firstRun c t hF hL lt xt).1, y ∈ pc.1.set :=
  View.cover_of_tiledL (firstRun c t hF hL lt xt).1 S2048x16.size (by sl_kernel_rfl) y

/-- The scratch after a middle point. -/
def scMiddle (c : Dev nD) (t : Fin cfg2.N) (hF : ¬isFirst (grid2.coords t)) (hL : ¬isLast (grid2.coords t))
    (lt : Vec F S2048x2048 .bf16) (xt : Vec F S2048x16 .f32) (sc : Vec F S2048x16 .f32) : Vec F S2048x16 .f32 :=
  VS.read (Elt F) (VS.writes (Elt F) VS.junk (middleRun c t hF hL lt xt sc).1)
theorem scMiddle_cover (c : Dev nD) (t : Fin cfg2.N) (hF : ¬isFirst (grid2.coords t)) (hL : ¬isLast (grid2.coords t))
    (lt : Vec F S2048x2048 .bf16) (xt : Vec F S2048x16 .f32) (sc : Vec F S2048x16 .f32) (y : S2048x16.Idx) :
    ∃ pc ∈ (middleRun c t hF hL lt xt sc).1, y ∈ pc.1.set :=
  View.cover_of_tiledL (middleRun c t hF hL lt xt sc).1 S2048x16.size (by sl_kernel_rfl) y

/-- The new features' block, the running output's block and the scratch after the last point of a row. -/
def out4Last (c : Dev nD) (t : Fin cfg2.N) (hF : ¬isFirst (grid2.coords t)) (hL : isLast (grid2.coords t))
    (lt : Vec F S2048x2048 .bf16) (xt : Vec F S2048x16 .f32) (w : Vec F S16x16 .f32) (acc : Vec F S2048x16 .f32) (sc : Vec F S2048x16 .f32) : Vec F S2048x16 .f32 :=
  VO4.read (Elt F) (VO4.writes (Elt F) VO4.junk (lastRun c t hF hL lt xt w acc sc).1)
theorem out4Last_cover (c : Dev nD) (t : Fin cfg2.N) (hF : ¬isFirst (grid2.coords t)) (hL : isLast (grid2.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).1, y ∈ pc.1.set :=
  View.cover_of_tiledL (lastRun c t hF hL lt xt w acc sc).1 S2048x16.size (by sl_kernel_rfl) y
def out5Last (c : Dev nD) (t : Fin cfg2.N) (hF : ¬isFirst (grid2.coords t)) (hL : isLast (grid2.coords t))
    (lt : Vec F S2048x2048 .bf16) (xt : Vec F S2048x16 .f32) (w : Vec F S16x16 .f32) (acc : Vec F S2048x16 .f32) (sc : Vec F S2048x16 .f32) : Vec F S2048x16 .f32 :=
  VO5.read (Elt F) (VO5.writes (Elt F) VO5.junk (lastRun c t hF hL lt xt w acc sc).2.1)
theorem out5Last_cover (c : Dev nD) (t : Fin cfg2.N) (hF : ¬isFirst (grid2.coords t)) (hL : isLast (grid2.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).2.1, y ∈ pc.1.set :=
  View.cover_of_tiledL (lastRun c t hF hL lt xt w acc sc).2.1 S2048x16.size (by sl_kernel_rfl) y
def scLast (c : Dev nD) (t : Fin cfg2.N) (hF : ¬isFirst (grid2.coords t)) (hL : isLast (grid2.coords t))
    (lt : Vec F S2048x2048 .bf16) (xt : Vec F S2048x16 .f32) (w : Vec F S16x16 .f32) (acc : Vec F S2048x16 .f32) (sc : Vec F S2048x16 .f32) : Vec F S2048x16 .f32 :=
  VS.read (Elt F) (VS.writes (Elt F) VS.junk (lastRun c t hF hL lt xt w acc sc).2.2.1)
theorem scLast_cover (c : Dev nD) (t : Fin cfg2.N) (hF : ¬isFirst (grid2.coords t)) (hL : isLast (grid2.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).2.2.1, y ∈ pc.1.set :=
  View.cover_of_tiledL (lastRun c t hF hL lt xt w acc sc).2.2.1 S2048x16.size (by sl_kernel_rfl) y

/-! ## The accumulation over the sixteen points -/

/-- What an idle output window "holds": a placeholder nobody reads. -/
def idle4 : Vec F S2048x16 .f32 := VO4.read (Elt F) VO4.junk
def idle5 : Vec F S2048x16 .f32 := VO5.read (Elt F) VO5.junk

/-- After point `n`: the new features' block, the running output's block, the scratch. The kind of the point is read
    off `n mod 4`; a middle or last point takes the scratch the point before left. -/
def outsAt (c : Dev nD) : (n : ℕ) → n < cfg2.N → Vec F S2048x16 .f32 × Vec F S2048x16 .f32 × Vec F S2048x16 .f32
  | 0, hn =>
    (idle4, idle5,
      scFirst c ⟨0, hn⟩ ((isFirst_iff ⟨0, hn⟩).mpr (Nat.zero_mod _))
        (fun h => (fun h => by (try dsimp only at h); omega) ((isLast_iff ⟨0, hn⟩).mp h))
        (iblk V c 0 ⟨0, hn⟩) (iblk V c 1 ⟨0, hn⟩))
  | n + 1, hn =>
    if h0 : (n + 1) % 4 = 0 then
      (idle4, idle5,
        scFirst c ⟨n + 1, hn⟩ ((isFirst_iff ⟨n + 1, hn⟩).mpr h0) (fun h => (fun h => by (try dsimp only at h); omega) ((isLast_iff ⟨n + 1, hn⟩).mp h))
          (iblk V c 0 ⟨n + 1, hn⟩) (iblk V c 1 ⟨n + 1, hn⟩))
    else
      if h3 : (n + 1) % 4 = 3 then
        (out4Last c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2,
          out5Last c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2,
          scLast c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2)
      else
        (idle4, idle5,
          scMiddle c ⟨n + 1, hn⟩ (fun h => h0 ((isFirst_iff ⟨n + 1, hn⟩).mp h)) (fun h => h3 ((isLast_iff ⟨n + 1, hn⟩).mp h))
            (iblk V c 0 ⟨n + 1, hn⟩) (iblk V c 1 ⟨n + 1, hn⟩) (outsAt c n (Nat.lt_of_succ_lt hn)).2.2)

/-- At the first point of a row. -/
theorem outsAt_first (c : Dev nD) (t : Fin cfg2.N) (h0 : t.val % 4 = 0) (hL : ¬isLast (grid2.coords t)) :
    outsAt V c t.val t.isLt
      = (idle4, idle5, scFirst c t ((isFirst_iff t).mpr h0) hL (iblk V c 0 t) (iblk V c 1 t)) := by
  obtain ⟨n, hn⟩ := t
  cases n with
  | zero => exact rfl
  | succ n => exact dif_pos h0

/-- At a middle point: over what the point before left. -/
theorem outsAt_middle (c : Dev nD) (t : Fin cfg2.N) (h0 : ¬t.val % 4 = 0) (h3 : ¬t.val % 4 = 3) :
    outsAt V c t.val t.isLt
      = (idle4, idle5, scMiddle c t (fun h => h0 ((isFirst_iff t).mp h)) (fun h => h3 ((isLast_iff t).mp h))
          (iblk V c 0 t) (iblk V c 1 t) (outsAt V c (t.val - 1) (Nat.lt_of_le_of_lt (Nat.sub_le _ _) t.isLt)).2.2) := by
  obtain ⟨n, hn⟩ := t
  cases n with
  | zero => exact absurd (Nat.zero_mod _) h0
  | succ n => exact (dif_neg h0).trans (dif_neg h3)

/-- At the last point of a row: over what the point before left. -/
theorem outsAt_last (c : Dev nD) (t : Fin cfg2.N) (h0 : ¬t.val % 4 = 0) (h3 : t.val % 4 = 3) :
    outsAt V c t.val t.isLt
      = (out4Last c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2,
          out5Last c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2,
          scLast c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2) := by
  obtain ⟨n, hn⟩ := t
  cases n with
  | zero => exact absurd (Nat.zero_mod _) h0
  | succ n => exact (dif_neg h0).trans (dif_pos h3)

/-! ## The invariant between points -/

/-- Before the first point: the call's scoped buffers at anything and the generator register at some state. After
    point `n`: the scratch at what that point left, the other scoped buffers unopened, the generator register. -/
def PhiS (c : Dev nD) : (n : ℕ) → n ≤ cfg2.N → sProp 𝕄
  | 0, _ => Pipeline.ΦA spec2 c
  | n + 1, hn =>
    iprop(iprop(owns (c : Thread nD τ) scratch fullShare ((outsAt V c n hn).2.2)
        ∗ Pipeline.scopedRestBut (Ix := Unit) (Name := ℕ) (U := UR sig nD τ) (Lvl := ℕ) (Val := Elt F) spec2 c [cc2_scratch0])
      ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn
      = iprop(iprop(owns (c : Thread nD τ) scratch fullShare ((outsAt V c n hn).2.2)
          ∗ Pipeline.scopedRestBut (Ix := Unit) (Name := ℕ) (U := UR sig nD τ) (Lvl := ℕ) (Val := Elt F) spec2 c [cc2_scratch0])
        ∗ (∃ r, prngReg c r)) := rfl

theorem PhiS_pos (c : Dev nD) (n : ℕ) (h : n ≤ cfg2.N) (hz : n ≠ 0) :
    PhiS V c n h
      = iprop(iprop(owns (c : Thread nD τ) scratch fullShare ((outsAt V c (n - 1) (by omega)).2.2)
          ∗ Pipeline.scopedRestBut (Ix := Unit) (Name := ℕ) (U := UR sig nD τ) (Lvl := ℕ) (Val := Elt F) spec2 c [cc2_scratch0])
        ∗ (∃ r, prngReg c r)) := by
  cases n with
  | zero => exact absurd rfl hz
  | succ n => rfl

/-- The class's invariant with the call's scratch taken out as a memref owned at some contents. -/
theorem PhiA_eq (c : Dev nD) :
    (Pipeline.ΦA spec2 c : sProp 𝕄)
      = iprop(iprop((∃ d, owns (c : Thread nD τ) scratch fullShare d)
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scratch, owns_whole]; try rfl

/-! ## The proof data -/

/-- The arrays as the step finds them; after the body each input's buffer at its block, the outputs' at the
    recursion's values; the invariant above; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2.1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = (outsAt V c t.val t.isLt).1 := by dsimp only [dat]
theorem after5 (c : Dev nD) (t : Fin cfg2.N) : (dat V c).after 5 t = (outsAt V c t.val t.isLt).2.1 := by dsimp only [dat]

/-- Each input's current staging buffer holds its block at every point, fetched there or not: where the block index
    did not move, the block is still the one fetched earlier. -/
theorem before0 (c : Dev nD) (t : Fin cfg2.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg2.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg2.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg2.N) (d) : (dat V c).before 3 t d = iblk V c 3 t :=
  ((dat V c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

end Cert.KernelIdeal.Hop2

end
-- ==== Proof.Hop2Body.lean ====
import proofs.«155136_j78743930404901_2_alg».proof.Proof.Hop2Data

/-!
# The body obligation of the third propagation step

At every point the body, called with the point's staging buffers, takes the region's invariant from "after the point
before" to "after this point" and leaves each window's buffer as the proof data says:

* the four inputs at their blocks, untouched;
* at the first three points of a row the two output windows as found (they are idle and not written back there),
  and the scratch at the recursion's next value — over anything at the first point of a row, over what the point
  before left at a middle point;
* at the last point of a row both output windows at what the finishing stores leave.

The point's kind is decided by `t mod 4`, and each kind is one of the three runs of the body; what a run leaves
as a list of pieces written over unknown contents is the recursion's value because the pieces cover the block.
-/

set_option maxRecDepth 16384

noncomputable section

namespace Cert.KernelIdeal.Hop2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
      unfold Dat.leavesExact; rw [in0_live t], after0]
  rw [show (dat V c).leavesExact 1 t = owns (c : Thread nD τ) (ms1 t) fullShare ((dat V c).after 1 t) from by
      unfold Dat.leavesExact; rw [in1_live t], after1]
  rw [show (dat V c).leavesExact 2 t = owns (c : Thread nD τ) (ms2 t) fullShare ((dat V c).after 2 t) from by
      unfold Dat.leavesExact; rw [in2_live t], after2]
  rw [show (dat V c).leavesExact 3 t = owns (c : Thread nD τ) (ms3 t) fullShare ((dat V c).after 3 t) from by
      unfold Dat.leavesExact; rw [in3_live t], after3]
  have hN : t.val < 16 := lt_of_lt_of_eq t.isLt (show cfg2.N = 16 from N_2)
  by_cases h0 : t.val % 4 = 0
  · -- the first point of a row
    have hF : isFirst (grid2.coords t) := (isFirst_iff t).mpr h0
    have hL : ¬isLast (grid2.coords t) := fun h => by have := (isLast_iff t).mp h; omega
    rw [Dat.leavesExact_idle (dat V c) 4 t (out4_idle t hL) (out4_noFlush t hL),
      Dat.leavesExact_idle (dat V c) 5 t (out5_idle t hL) (out5_noFlush t hL)]
    rw [outsAt_first V c t h0 hL]
    unfold scFirst; (try dsimp only)
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩, ⟨%d3, H3⟩, H4, H5⟩
      iapply ((firstRun c t hF hL (iblk V c 0 t) (iblk V c 1 t)).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scFirst_cover c t hF hL _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((firstRun c t hF hL (iblk V c 0 t) (iblk V c 1 t)).2 Set.univ _)
      isplitl [H0]; · iexact H0
      isplitl [H1]; · iexact H1
      isplitl [HS]; · iexists _; iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scFirst_cover c t hF hL _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
  · have hF : ¬isFirst (grid2.coords t) := fun h => h0 ((isFirst_iff t).mp h)
    have hz : t.val ≠ 0 := fun h => h0 (by rw [h])
    by_cases h3 : t.val % 4 = 3
    · -- the last point of a row
      have hL : isLast (grid2.coords t) := (isLast_iff t).mpr h3
      rw [show (dat V c).leavesExact 4 t = owns (c : Thread nD τ) (ms4 t) fullShare ((dat V c).after 4 t) from by
          unfold Dat.leavesExact; rw [out4_live t hL], after4]
      rw [show (dat V c).leavesExact 5 t = owns (c : Thread nD τ) (ms5 t) fullShare ((dat V c).after 5 t) from by
          unfold Dat.leavesExact; rw [out5_live t hL], after5]
      rw [outsAt_last V c t h0 h3]
      unfold out4Last out5Last scLast; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((lastRun c t hF hL (iblk V c 0 t) (iblk V c 1 t) (iblk V c 2 t) (iblk V c 3 t) _).2.2.2 Set.univ _)
      isplitl [H0]; · iexact H0
      isplitl [H1]; · iexact H1
      isplitl [H2]; · iexact H2
      isplitl [H3]; · iexact H3
      isplitl [H4]; · icases H4 with ⟨%d4, H4⟩; iexists _; iexact H4
      isplitl [H5]; · icases H5 with ⟨%d5, H5⟩; iexists _; iexact H5
      isplitl [HS]; · iexact HS
      iintro ⟨H0, H1, H2, H3, ⟨%e4, H4⟩, ⟨%e5, H5⟩, ⟨%es, HS⟩⟩
      isplitl [HS Hrest Hg]
      · isplitl [HS Hrest]
        · isplitl [HS]
          · unfold owns; iexists _; isplitr
            swap; · iexact HS
            ipureintro; exact View.read_writes_of_cover _ _ _ _ _ (scLast_cover c t hF hL _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (out4Last_cover c t hF hL _ _ _ _ _)
      unfold owns; iexists _; isplitr
      swap; · iexact H5
      ipureintro; exact View.read_writes_of_cover _ _ _ _ _ (out5Last_cover c t hF hL _ _ _ _ _)
    · -- a middle point
      have hL : ¬isLast (grid2.coords t) := fun h => h3 ((isLast_iff t).mp h)
      rw [Dat.leavesExact_idle (dat V c) 4 t (out4_idle t hL) (out4_noFlush t hL),
        Dat.leavesExact_idle (dat V c) 5 t (out5_idle t hL) (out5_noFlush t hL)]
      rw [outsAt_middle V c t h0 h3]
      unfold scMiddle; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((middleRun c t hF hL (iblk V c 0 t) (iblk V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scMiddle_cover c t hF hL _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dat (F := F) V c) (defs₀ (F := F)) Variants.none () Set.univ := fun t => by
  rw [bigSep_W2, bigSep_W2]
  exact sound_body V c t

/-! ## The invariant at the two ends -/

/-- What the region hands the step is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch's contents are forgotten. -/
theorem hout (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 16 := N_2; omega), PhiA_eq]
  iintro ⟨⟨HS, Hrest⟩, Hg⟩
  isplitl [HS Hrest]
  · isplitl [HS]
    · iexists _; iexact HS
    iexact Hrest
  iexact Hg

end Cert.KernelIdeal.Hop2

end
-- ==== Proof.Hop3Points.lean ====
import proofs.«155136_j78743930404901_2_alg».proof.Proof.Gen.KernelIdeal.Launch
import proofs.«155136_j78743930404901_2_alg».proof.Proof.Gen.KernelIdeal.Skeleton
import proofs.«155136_j78743930404901_2_alg».proof.Proof.Gen.KernelIdeal.Points
import Idealize.ShloMosaic.Lib.Pipeline.FrameBody
import Idealize.ShloMosaic.Lib.Ring
import Idealize.ShloMosaic.Lib.Tactic

/-!
# The sixteen grid points of the fourth propagation step

The grid is 4 × 4, point `t = 4 i + k`: `i` is the row of tiles, `k` the tile inside the row, `k` running fastest.
The body branches twice on `k` alone: it resets the scratch block when `k = 0`, and it finishes the row (stores both
output blocks) when `k = 3`. So a point is of one of three kinds — first of its row, middle, last of its row — and

* the two output windows are stored into only at the last point of a row, are written back exactly there, and are
  idle (their staging buffer handed back untouched) at the other three points;
* the four input windows are never idle.

Here: the two conditions in closed form over the point's number, those facts about the windows decided over the
sixteen points, and names for the memrefs the body is called with.
-/

set_option maxRecDepth 16384

noncomputable section

namespace Cert.KernelIdeal.Hop3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- "This is the first tile of its row": the reset's condition, as the body computes it from the coordinate `k`. -/
abbrev isFirst (i : grid3.Coords) : Prop :=
  (Scalar.cmpi .ne (Scalar.extui (Scalar.cmpi .eq (BitVec.ofNat 32 (i 1).val) 0#32)) 0#32) = 1#1

/-- It holds exactly at the points `t ≡ 0 (mod 4)`. -/
theorem isFirst_iff : ∀ t : Fin cfg3.N, isFirst (grid3.coords t) ↔ t.val % 4 = 0 :=
  (by decide +kernel : ∀ t : Fin grid3.N, isFirst (grid3.coords t) ↔ t.val % 4 = 0)

/-- "This is the last tile of its row": the finishing branch's condition. -/
abbrev isLast (i : grid3.Coords) : Prop := k3_cond2 i = 1#1

/-- It holds exactly at the points `t ≡ 3 (mod 4)`. -/
theorem isLast_iff : ∀ t : Fin cfg3.N, isLast (grid3.coords t) ↔ t.val % 4 = 3 :=
  (by decide +kernel : ∀ t : Fin grid3.N, isLast (grid3.coords t) ↔ t.val % 4 = 3)

/-! ## Where the windows are idle -/

theorem in0_live : ∀ t : Fin cfg3.N, cfg3.idle 0 (grid3.coords t) = false := by decide +kernel
theorem in1_live : ∀ t : Fin cfg3.N, cfg3.idle 1 (grid3.coords t) = false := by decide +kernel
theorem in2_live : ∀ t : Fin cfg3.N, cfg3.idle 2 (grid3.coords t) = false := by decide +kernel
theorem in3_live : ∀ t : Fin cfg3.N, cfg3.idle 3 (grid3.coords t) = false := by decide +kernel

/-- Away from the end of a row the new features' block is idle, and is not written back. -/
theorem out4_idle : ∀ t : Fin cfg3.N, ¬isLast (grid3.coords t) → cfg3.idle 4 (grid3.coords t) = true := by decide +kernel
theorem out4_noFlush : ∀ t : Fin cfg3.N, ¬isLast (grid3.coords t) → (cfg3.win 4).flush t = false := by decide +kernel
/-- At the end of a row it is live. -/
theorem out4_live : ∀ t : Fin cfg3.N, isLast (grid3.coords t) → cfg3.idle 4 (grid3.coords t) = false := by decide +kernel

/-- The same for the running output's block. -/
theorem out5_idle : ∀ t : Fin cfg3.N, ¬isLast (grid3.coords t) → cfg3.idle 5 (grid3.coords t) = true := by decide +kernel
theorem out5_noFlush : ∀ t : Fin cfg3.N, ¬isLast (grid3.coords t) → (cfg3.win 5).flush t = false := by decide +kernel
theorem out5_live : ∀ t : Fin cfg3.N, isLast (grid3.coords t) → cfg3.idle 5 (grid3.coords t) = false := by decide +kernel

/-! ## The memrefs the body is called with at a point -/

abbrev ms0 (t : Fin cfg3.N) : Memref sig .tc .vmem S2048x2048 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S2048x16 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S16x16 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S2048x16 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S2048x16 .f32 := win3_4.stage (cfg3.slots t 4)
abbrev hs4 (t : Fin cfg3.N) : (ms4 t).IsWhole := hstage3_4 ((cfg3.slots t 4).cast nbuf3_4)
abbrev ms5 (t : Fin cfg3.N) : Memref sig .tc .vmem S2048x16 .f32 := win3_5.stage (cfg3.slots t 5)
abbrev hs5 (t : Fin cfg3.N) : (ms5 t).IsWhole := hstage3_5 ((cfg3.slots t 5).cast nbuf3_5)

/-- The scratch block of partial sums: a whole scoped buffer of the call's own. -/
abbrev scratch : Memref sig .tc .vmem S2048x16 .f32 := Memref.whole cc3_scratch0

end Cert.KernelIdeal.Hop3

end
-- ==== Proof.Hop3RunFirst.lean ====
import proofs.«155136_j78743930404901_2_alg».proof.Proof.Hop3Points

/-!
# The body at the first point of a row of tiles

The reset branch is taken, the finishing branch is not. Whatever the scratch block held — nothing at the very first
point, the previous row's finished block later — is overwritten by zeros before it is used; then the tile product is
added as at every point. Two stores into the scratch, each covering it whole; the later one is what it ends with.
The weight matrix, the incoming output block and both output windows are not touched.
-/

set_option maxRecDepth 16384

noncomputable section

namespace Cert.KernelIdeal.Hop3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt` and the scratch at anything, the body runs to the end, leaves the tiles as they were
    and the scratch with the pieces `LS` written over it. -/
noncomputable def runFirst (c : Dev nD) (i : grid3.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : isFirst i) (hL : ¬isLast i)
    (lt : Vec F S2048x2048 .bf16) (xt : Vec F S2048x16 .f32) :
    { LS : List (View.Piece (Elt F) S2048x16 .f32) //
      ∀ (E : Set ℕ) (K : PUnit → sProp 𝕄),
        iprop(owns (c : Thread nD τ) a2 fullShare lt ∗ owns (c : Thread nD τ) a3 fullShare xt ∗ (∃ d, owns (c : Thread nD τ) a8 fullShare d)
            ∗ (iprop(owns (c : Thread nD τ) a2 fullShare lt ∗ owns (c : Thread nD τ) a3 fullShare xt
                ∗ (∃ f, a8.view.loc (c : Thread nD τ) ↦[a8.view.set]{fullShare} a8.view.writes (Elt F) f LS)) -∗ K ⟨⟩))
          ⊢ wp frame (wpE (defs₀ (F := F)) Variants.none c none) E (cc3__step_kernel i a2 h2 a3 h3 a4 h4 a5 h5 a6 h6 a7 h7 a8 h8) K } := by
  refine ⟨?_, fun E K => ?run⟩
  case run =>
    simp only [cc3__step_kernel_eq_skeleton]; unfold cc3__step_kernel_skel
    unfold owns
    iintro ⟨⟨%f2, %hf2, H2⟩, ⟨%f3, %hf3, H3⟩, ⟨%d8, %f8, -, H8⟩, Hk⟩
    obtain rfl := h2.eq_unread hf2; obtain rfl := h3.eq_unread hf3
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    iexists _; iexact H8

end Cert.KernelIdeal.Hop3

end
-- ==== Proof.Hop3RunMiddle.lean ====
import proofs.«155136_j78743930404901_2_alg».proof.Proof.Hop3Points

/-!
# The body at a middle point of a row of tiles

Neither branch is taken. The body loads the Laplacian tile and the feature tile, loads the scratch block, and stores
back the scratch block plus the tile product: one store, covering the scratch whole. The weight matrix, the incoming
output block and both output windows are not touched at all, so the triple does not mention them.

The triple is stated on any whole memrefs; what the scratch ends with is given as the list of pieces the stores
wrote (here one), which the run itself determines.
-/

set_option maxRecDepth 16384

noncomputable section

namespace Cert.KernelIdeal.Hop3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt` and the scratch at `sc`, the body runs to the end, leaves the tiles as they were
    and the scratch with the pieces `LS` written over it. -/
noncomputable def runMiddle (c : Dev nD) (i : grid3.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : ¬isFirst i) (hL : ¬isLast i)
    (lt : Vec F S2048x2048 .bf16) (xt : Vec F S2048x16 .f32) (sc : Vec F S2048x16 .f32) :
    { LS : List (View.Piece (Elt F) S2048x16 .f32) //
      ∀ (E : Set ℕ) (K : PUnit → sProp 𝕄),
        iprop(owns (c : Thread nD τ) a2 fullShare lt ∗ owns (c : Thread nD τ) a3 fullShare xt ∗ owns (c : Thread nD τ) a8 fullShare sc
            ∗ (iprop(owns (c : Thread nD τ) a2 fullShare lt ∗ owns (c : Thread nD τ) a3 fullShare xt
                ∗ (∃ f, a8.view.loc (c : Thread nD τ) ↦[a8.view.set]{fullShare} a8.view.writes (Elt F) f LS)) -∗ K ⟨⟩))
          ⊢ wp frame (wpE (defs₀ (F := F)) Variants.none c none) E (cc3__step_kernel i a2 h2 a3 h3 a4 h4 a5 h5 a6 h6 a7 h7 a8 h8) K } := by
  refine ⟨?_, fun E K => ?run⟩
  case run =>
    simp only [cc3__step_kernel_eq_skeleton]; unfold cc3__step_kernel_skel
    unfold owns
    iintro ⟨⟨%f2, %hf2, H2⟩, ⟨%f3, %hf3, H3⟩, ⟨%f8, %hf8, H8⟩, Hk⟩
    obtain rfl := h2.eq_unread hf2; obtain rfl := h3.eq_unread hf3; obtain rfl := h8.eq_unread hf8
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    iexists _; iexact H8

end Cert.KernelIdeal.Hop3

end
-- ==== Proof.Hop3RunLast.lean ====
import proofs.«155136_j78743930404901_2_alg».proof.Proof.Hop3Points

/-!
# The body at the last point of a row of tiles

The reset branch is not taken, the finishing branch is. After the accumulation the scratch block is the finished
row block of new features: it is stored whole into the first output window; then, with the weight matrix and the
incoming output block, the incoming block plus the rectified weight product — rectified once more, since this is the
layer's last step and its closing rectification is done here — is stored whole into the second.
Both output windows are loaded before they are stored into (the values are not used), so they may hold anything.
-/

set_option maxRecDepth 16384

noncomputable section

namespace Cert.KernelIdeal.Hop3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- From the tiles at `lt`, `xt`, the weights at `w`, the incoming block at `acc`, the scratch at `sc` and the two
    output windows at anything, the body runs to the end, leaves the four inputs as they were, and the two outputs
    and the scratch with the pieces `L6`, `L7`, `LS` written over them. -/
noncomputable def runLast (c : Dev nD) (i : grid3.Coords)
    (a2 : Memref sig .tc .vmem S2048x2048 .bf16) (h2 : a2.IsWhole) (a3 : Memref sig .tc .vmem S2048x16 .f32) (h3 : a3.IsWhole)
    (a4 : Memref sig .tc .vmem S16x16 .f32) (h4 : a4.IsWhole) (a5 : Memref sig .tc .vmem S2048x16 .f32) (h5 : a5.IsWhole)
    (a6 : Memref sig .tc .vmem S2048x16 .f32) (h6 : a6.IsWhole) (a7 : Memref sig .tc .vmem S2048x16 .f32) (h7 : a7.IsWhole)
    (a8 : Memref sig .tc .vmem S2048x16 .f32) (h8 : a8.IsWhole)
    (hF : ¬isFirst i) (hL : isLast i)
    (lt : Vec F S2048x2048 .bf16) (xt : Vec F S2048x16 .f32) (w : Vec F S16x16 .f32) (acc : Vec F S2048x16 .f32) (sc : Vec F S2048x16 .f32) :
    Σ' (L6 : List (View.Piece (Elt F) S2048x16 .f32)) (L7 : List (View.Piece (Elt F) S2048x16 .f32)),
    { LS : List (View.Piece (Elt F) S2048x16 .f32) //
      ∀ (E : Set ℕ) (K : PUnit → sProp 𝕄),
        iprop(owns (c : Thread nD τ) a2 fullShare lt ∗ owns (c : Thread nD τ) a3 fullShare xt ∗ owns (c : Thread nD τ) a4 fullShare w
            ∗ owns (c : Thread nD τ) a5 fullShare acc ∗ (∃ d, owns (c : Thread nD τ) a6 fullShare d) ∗ (∃ d, owns (c : Thread nD τ) a7 fullShare d)
            ∗ owns (c : Thread nD τ) a8 fullShare sc
            ∗ (iprop(owns (c : Thread nD τ) a2 fullShare lt ∗ owns (c : Thread nD τ) a3 fullShare xt ∗ owns (c : Thread nD τ) a4 fullShare w
                ∗ owns (c : Thread nD τ) a5 fullShare acc
                ∗ (∃ f, a6.view.loc (c : Thread nD τ) ↦[a6.view.set]{fullShare} a6.view.writes (Elt F) f L6)
                ∗ (∃ f, a7.view.loc (c : Thread nD τ) ↦[a7.view.set]{fullShare} a7.view.writes (Elt F) f L7)
                ∗ (∃ f, a8.view.loc (c : Thread nD τ) ↦[a8.view.set]{fullShare} a8.view.writes (Elt F) f LS)) -∗ K ⟨⟩))
          ⊢ wp frame (wpE (defs₀ (F := F)) Variants.none c none) E (cc3__step_kernel i a2 h2 a3 h3 a4 h4 a5 h5 a6 h6 a7 h7 a8 h8) K } := by
  refine ⟨?_, ?_, ?_, fun E K => ?run⟩
  case run =>
    simp only [cc3__step_kernel_eq_skeleton]; unfold cc3__step_kernel_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    obtain rfl := h2.eq_unread hf2; obtain rfl := h3.eq_unread hf3; obtain rfl := h4.eq_unread hf4
    obtain rfl := h5.eq_unread hf5; obtain rfl := h8.eq_unread hf8
    sl_exec (disch := first | exact hF | exact hL)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact H8

end Cert.KernelIdeal.Hop3

end
-- ==== Proof.Hop3Data.lean ====
import proofs.«155136_j78743930404901_2_alg».proof.Proof.Hop3RunFirst
import proofs.«155136_j78743930404901_2_alg».proof.Proof.Hop3RunMiddle
import proofs.«155136_j78743930404901_2_alg».proof.Proof.Hop3RunLast

/-!
# The first propagation step, point by point

What the scratch block and the two output blocks hold after each of the sixteen points, by recursion on the point:

* after the first point of a row of tiles the scratch holds what the reset-and-accumulate run leaves, computed from
  that point's Laplacian tile and feature tile alone;
* after a middle point, what the accumulate run leaves, computed from the point's tiles and from what the point
  before left in the scratch;
* after the last point of a row the same, and the two output blocks hold what the finishing stores leave, computed
  from the point's tiles, the weight matrix, the incoming output block, and what the point before left in the scratch.

At the first three points of a row the output windows are idle: their staging buffers are handed back as found, and
what they "hold" there is a placeholder nobody reads.

Everything is stated relative to `V`, the contents of the core's buffers when the step is entered. The region's
invariant carries the scratch at the recursion's value from one point to the next (before the very first point it
is just "the call's scoped buffers at anything"), the other calls' scoped buffers unopened, and the generator
register at some state.
-/

set_option maxRecDepth 16384

noncomputable section

namespace Cert.KernelIdeal.Hop3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, and views to read contents through -/

/-- Window `w`'s block at point `t`, read off its array as the step finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch as a view, and one staging buffer of each output window: contents are stated through them (the
    choice does not matter once the pieces cover). -/
abbrev VS : View sig .tc .vmem S2048x16 .f32 := (scratch : Memref sig .tc .vmem S2048x16 .f32).view
abbrev VO4 : View sig .tc .vmem S2048x16 .f32 := (Memref.whole cc3_stg4_0 : Memref sig .tc .vmem S2048x16 .f32).view
abbrev VO5 : View sig .tc .vmem S2048x16 .f32 := (Memref.whole cc3_stg5_0 : Memref sig .tc .vmem S2048x16 .f32).view

/-! ## The three runs at a point's own memrefs -/

abbrev firstRun (c : Dev nD) (t : Fin cfg3.N) (hF : isFirst (grid3.coords t)) (hL : ¬isLast (grid3.coords t))
    (lt : Vec F S2048x2048 .bf16) (xt : Vec F S2048x16 .f32) :=
  runFirst (F := F) c (grid3.coords t) (ms0 t) (hs0 t) (ms1 t) (hs1 t) (ms2 t) (hs2 t) (ms3 t) (hs3 t) (ms4 t) (hs4 t) (ms5 t) (hs5 t) scratch (Memref.isWhole_whole _) hF hL lt xt
abbrev middleRun (c : Dev nD) (t : Fin cfg3.N) (hF : ¬isFirst (grid3.coords t)) (hL : ¬isLast (grid3.coords t))
    (lt : Vec F S2048x2048 .bf16) (xt : Vec F S2048x16 .f32) (sc : Vec F S2048x16 .f32) :=
  runMiddle (F := F) c (grid3.coords t) (ms0 t) (hs0 t) (ms1 t) (hs1 t) (ms2 t) (hs2 t) (ms3 t) (hs3 t) (ms4 t) (hs4 t) (ms5 t) (hs5 t) scratch (Memref.isWhole_whole _) hF hL lt xt sc
abbrev lastRun (c : Dev nD) (t : Fin cfg3.N) (hF : ¬isFirst (grid3.coords t)) (hL : isLast (grid3.coords t))
    (lt : Vec F S2048x2048 .bf16) (xt : Vec F S2048x16 .f32) (w : Vec F S16x16 .f32) (acc : Vec F S2048x16 .f32) (sc : Vec F S2048x16 .f32) :=
  runLast (F := F) c (grid3.coords t) (ms0 t) (hs0 t) (ms1 t) (hs1 t) (ms2 t) (hs2 t) (ms3 t) (hs3 t) (ms4 t) (hs4 t) (ms5 t) (hs5 t) scratch (Memref.isWhole_whole _) hF hL lt xt w acc sc

/-! ## What each run leaves, and that its pieces cover -/

/-- The scratch after the first point of a row. -/
def scFirst (c : Dev nD) (t : Fin cfg3.N) (hF : isFirst (grid3.coords t)) (hL : ¬isLast (grid3.coords t))
    (lt : Vec F S2048x2048 .bf16) (xt : Vec F S2048x16 .f32) : Vec F S2048x16 .f32 :=
  VS.read (Elt F) (VS.writes (Elt F) VS.junk (firstRun c t hF hL lt xt).1)
theorem scFirst_cover (c : Dev nD) (t : Fin cfg3.N) (hF : isFirst (grid3.coords t)) (hL : ¬isLast (grid3.coords t))
    (lt : Vec F S2048x2048 .bf16) (xt : Vec F S2048x16 .f32) (y : S2048x16.Idx) :
    ∃ pc ∈ (firstRun c t hF hL lt xt).1, y ∈ pc.1.set :=
  View.cover_of_tiledL (firstRun c t hF hL lt xt).1 S2048x16.size (by sl_kernel_rfl) y

/-- The scratch after a middle point. -/
def scMiddle (c : Dev nD) (t : Fin cfg3.N) (hF : ¬isFirst (grid3.coords t)) (hL : ¬isLast (grid3.coords t))
    (lt : Vec F S2048x2048 .bf16) (xt : Vec F S2048x16 .f32) (sc : Vec F S2048x16 .f32) : Vec F S2048x16 .f32 :=
  VS.read (Elt F) (VS.writes (Elt F) VS.junk (middleRun c t hF hL lt xt sc).1)
theorem scMiddle_cover (c : Dev nD) (t : Fin cfg3.N) (hF : ¬isFirst (grid3.coords t)) (hL : ¬isLast (grid3.coords t))
    (lt : Vec F S2048x2048 .bf16) (xt : Vec F S2048x16 .f32) (sc : Vec F S2048x16 .f32) (y : S2048x16.Idx) :
    ∃ pc ∈ (middleRun c t hF hL lt xt sc).1, y ∈ pc.1.set :=
  View.cover_of_tiledL (middleRun c t hF hL lt xt sc).1 S2048x16.size (by sl_kernel_rfl) y

/-- The new features' block, the running output's block and the scratch after the last point of a row. -/
def out4Last (c : Dev nD) (t : Fin cfg3.N) (hF : ¬isFirst (grid3.coords t)) (hL : isLast (grid3.coords t))
    (lt : Vec F S2048x2048 .bf16) (xt : Vec F S2048x16 .f32) (w : Vec F S16x16 .f32) (acc : Vec F S2048x16 .f32) (sc : Vec F S2048x16 .f32) : Vec F S2048x16 .f32 :=
  VO4.read (Elt F) (VO4.writes (Elt F) VO4.junk (lastRun c t hF hL lt xt w acc sc).1)
theorem out4Last_cover (c : Dev nD) (t : Fin cfg3.N) (hF : ¬isFirst (grid3.coords t)) (hL : isLast (grid3.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).1, y ∈ pc.1.set :=
  View.cover_of_tiledL (lastRun c t hF hL lt xt w acc sc).1 S2048x16.size (by sl_kernel_rfl) y
def out5Last (c : Dev nD) (t : Fin cfg3.N) (hF : ¬isFirst (grid3.coords t)) (hL : isLast (grid3.coords t))
    (lt : Vec F S2048x2048 .bf16) (xt : Vec F S2048x16 .f32) (w : Vec F S16x16 .f32) (acc : Vec F S2048x16 .f32) (sc : Vec F S2048x16 .f32) : Vec F S2048x16 .f32 :=
  VO5.read (Elt F) (VO5.writes (Elt F) VO5.junk (lastRun c t hF hL lt xt w acc sc).2.1)
theorem out5Last_cover (c : Dev nD) (t : Fin cfg3.N) (hF : ¬isFirst (grid3.coords t)) (hL : isLast (grid3.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).2.1, y ∈ pc.1.set :=
  View.cover_of_tiledL (lastRun c t hF hL lt xt w acc sc).2.1 S2048x16.size (by sl_kernel_rfl) y
def scLast (c : Dev nD) (t : Fin cfg3.N) (hF : ¬isFirst (grid3.coords t)) (hL : isLast (grid3.coords t))
    (lt : Vec F S2048x2048 .bf16) (xt : Vec F S2048x16 .f32) (w : Vec F S16x16 .f32) (acc : Vec F S2048x16 .f32) (sc : Vec F S2048x16 .f32) : Vec F S2048x16 .f32 :=
  VS.read (Elt F) (VS.writes (Elt F) VS.junk (lastRun c t hF hL lt xt w acc sc).2.2.1)
theorem scLast_cover (c : Dev nD) (t : Fin cfg3.N) (hF : ¬isFirst (grid3.coords t)) (hL : isLast (grid3.coords t))
    (lt : Vec F S2048x2048 .bf16) (xt : Vec F S2048x16 .f32) (w : Vec F S16x16 .f32) (acc : Vec F S2048x16 .f32) (sc : Vec F S2048x16 .f32) (y : S2048x16.Idx) :
    ∃ pc ∈ (lastRun c t hF hL lt xt w acc sc).2.2.1, y ∈ pc.1.set :=
  View.cover_of_tiledL (lastRun c t hF hL lt xt w acc sc).2.2.1 S2048x16.size (by sl_kernel_rfl) y

/-! ## The accumulation over the sixteen points -/

/-- What an idle output window "holds": a placeholder nobody reads. -/
def idle4 : Vec F S2048x16 .f32 := VO4.read (Elt F) VO4.junk
def idle5 : Vec F S2048x16 .f32 := VO5.read (Elt F) VO5.junk

/-- After point `n`: the new features' block, the running output's block, the scratch. The kind of the point is read
    off `n mod 4`; a middle or last point takes the scratch the point before left. -/
def outsAt (c : Dev nD) : (n : ℕ) → n < cfg3.N → Vec F S2048x16 .f32 × Vec F S2048x16 .f32 × Vec F S2048x16 .f32
  | 0, hn =>
    (idle4, idle5,
      scFirst c ⟨0, hn⟩ ((isFirst_iff ⟨0, hn⟩).mpr (Nat.zero_mod _))
        (fun h => (fun h => by (try dsimp only at h); omega) ((isLast_iff ⟨0, hn⟩).mp h))
        (iblk V c 0 ⟨0, hn⟩) (iblk V c 1 ⟨0, hn⟩))
  | n + 1, hn =>
    if h0 : (n + 1) % 4 = 0 then
      (idle4, idle5,
        scFirst c ⟨n + 1, hn⟩ ((isFirst_iff ⟨n + 1, hn⟩).mpr h0) (fun h => (fun h => by (try dsimp only at h); omega) ((isLast_iff ⟨n + 1, hn⟩).mp h))
          (iblk V c 0 ⟨n + 1, hn⟩) (iblk V c 1 ⟨n + 1, hn⟩))
    else
      if h3 : (n + 1) % 4 = 3 then
        (out4Last c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2,
          out5Last c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2,
          scLast c ⟨n + 1, hn⟩ (fun h => h0 ((isFirst_iff ⟨n + 1, hn⟩).mp h)) ((isLast_iff ⟨n + 1, hn⟩).mpr h3)
            (iblk V c 0 ⟨n + 1, hn⟩) (iblk V c 1 ⟨n + 1, hn⟩) (iblk V c 2 ⟨n + 1, hn⟩) (iblk V c 3 ⟨n + 1, hn⟩)
            (outsAt c n (Nat.lt_of_succ_lt hn)).2.2)
      else
        (idle4, idle5,
          scMiddle c ⟨n + 1, hn⟩ (fun h => h0 ((isFirst_iff ⟨n + 1, hn⟩).mp h)) (fun h => h3 ((isLast_iff ⟨n + 1, hn⟩).mp h))
            (iblk V c 0 ⟨n + 1, hn⟩) (iblk V c 1 ⟨n + 1, hn⟩) (outsAt c n (Nat.lt_of_succ_lt hn)).2.2)

/-- At the first point of a row. -/
theorem outsAt_first (c : Dev nD) (t : Fin cfg3.N) (h0 : t.val % 4 = 0) (hL : ¬isLast (grid3.coords t)) :
    outsAt V c t.val t.isLt
      = (idle4, idle5, scFirst c t ((isFirst_iff t).mpr h0) hL (iblk V c 0 t) (iblk V c 1 t)) := by
  obtain ⟨n, hn⟩ := t
  cases n with
  | zero => exact rfl
  | succ n => exact dif_pos h0

/-- At a middle point: over what the point before left. -/
theorem outsAt_middle (c : Dev nD) (t : Fin cfg3.N) (h0 : ¬t.val % 4 = 0) (h3 : ¬t.val % 4 = 3) :
    outsAt V c t.val t.isLt
      = (idle4, idle5, scMiddle c t (fun h => h0 ((isFirst_iff t).mp h)) (fun h => h3 ((isLast_iff t).mp h))
          (iblk V c 0 t) (iblk V c 1 t) (outsAt V c (t.val - 1) (Nat.lt_of_le_of_lt (Nat.sub_le _ _) t.isLt)).2.2) := by
  obtain ⟨n, hn⟩ := t
  cases n with
  | zero => exact absurd (Nat.zero_mod _) h0
  | succ n => exact (dif_neg h0).trans (dif_neg h3)

/-- At the last point of a row: over what the point before left. -/
theorem outsAt_last (c : Dev nD) (t : Fin cfg3.N) (h0 : ¬t.val % 4 = 0) (h3 : t.val % 4 = 3) :
    outsAt V c t.val t.isLt
      = (out4Last c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2,
          out5Last c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2,
          scLast c t (fun h => h0 ((isFirst_iff t).mp h)) ((isLast_iff t).mpr h3) (iblk V c 0 t) (iblk V c 1 t) (iblk V c 2 t) (iblk V c 3 t)
            (outsAt V c (t.val - 1) (Nat.lt_of_le_of_lt (Nat.sub_le _ _) t.isLt)).2.2) := by
  obtain ⟨n, hn⟩ := t
  cases n with
  | zero => exact absurd (Nat.zero_mod _) h0
  | succ n => exact (dif_neg h0).trans (dif_pos h3)

/-! ## The invariant between points -/

/-- Before the first point: the call's scoped buffers at anything and the generator register at some state. After
    point `n`: the scratch at what that point left, the other scoped buffers unopened, the generator register. -/
def PhiS (c : Dev nD) : (n : ℕ) → n ≤ cfg3.N → sProp 𝕄
  | 0, _ => Pipeline.ΦA spec3 c
  | n + 1, hn =>
    iprop(iprop(owns (c : Thread nD τ) scratch fullShare ((outsAt V c n hn).2.2)
        ∗ Pipeline.scopedRestBut (Ix := Unit) (Name := ℕ) (U := UR sig nD τ) (Lvl := ℕ) (Val := Elt F) spec3 c [cc3_scratch0])
      ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn
      = iprop(iprop(owns (c : Thread nD τ) scratch fullShare ((outsAt V c n hn).2.2)
          ∗ Pipeline.scopedRestBut (Ix := Unit) (Name := ℕ) (U := UR sig nD τ) (Lvl := ℕ) (Val := Elt F) spec3 c [cc3_scratch0])
        ∗ (∃ r, prngReg c r)) := rfl

theorem PhiS_pos (c : Dev nD) (n : ℕ) (h : n ≤ cfg3.N) (hz : n ≠ 0) :
    PhiS V c n h
      = iprop(iprop(owns (c : Thread nD τ) scratch fullShare ((outsAt V c (n - 1) (by omega)).2.2)
          ∗ Pipeline.scopedRestBut (Ix := Unit) (Name := ℕ) (U := UR sig nD τ) (Lvl := ℕ) (Val := Elt F) spec3 c [cc3_scratch0])
        ∗ (∃ r, prngReg c r)) := by
  cases n with
  | zero => exact absurd rfl hz
  | succ n => rfl

/-- The class's invariant with the call's scratch taken out as a memref owned at some contents. -/
theorem PhiA_eq (c : Dev nD) :
    (Pipeline.ΦA spec3 c : sProp 𝕄)
      = iprop(iprop((∃ d, owns (c : Thread nD τ) scratch fullShare d)
          ∗ Pipeline.scopedRestBut (Ix := Unit) (Name := ℕ) (U := UR sig nD τ) (Lvl := ℕ) (Val := Elt F) spec3 c [cc3_scratch0])
        ∗ (∃ r, prngReg c r)) := by
  unfold Pipeline.ΦA; rw [scopedRest3_split]; simp only [scratch, owns_whole]; try rfl

/-! ## The proof data -/

/-- The arrays as the step finds them; after the body each input's buffer at its block, the outputs' at the
    recursion's values; the invariant above; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2.1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = iblk V c 3 t := by dsimp only [dat]
theorem after4 (c : Dev nD) (t : Fin cfg3.N) : (dat V c).after 4 t = (outsAt V c t.val t.isLt).1 := by dsimp only [dat]
theorem after5 (c : Dev nD) (t : Fin cfg3.N) : (dat V c).after 5 t = (outsAt V c t.val t.isLt).2.1 := by dsimp only [dat]

/-- Each input's current staging buffer holds its block at every point, fetched there or not: where the block index
    did not move, the block is still the one fetched earlier. -/
theorem before0 (c : Dev nD) (t : Fin cfg3.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg3.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg3.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg3.N) (d) : (dat V c).before 3 t d = iblk V c 3 t :=
  ((dat V c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

end Cert.KernelIdeal.Hop3

end
-- ==== Proof.Hop3Body.lean ====
import proofs.«155136_j78743930404901_2_alg».proof.Proof.Hop3Data

/-!
# The body obligation of the fourth propagation step

At every point the body, called with the point's staging buffers, takes the region's invariant from "after the point
before" to "after this point" and leaves each window's buffer as the proof data says:

* the four inputs at their blocks, untouched;
* at the first three points of a row the two output windows as found (they are idle and not written back there),
  and the scratch at the recursion's next value — over anything at the first point of a row, over what the point
  before left at a middle point;
* at the last point of a row both output windows at what the finishing stores leave.

The point's kind is decided by `t mod 4`, and each kind is one of the three runs of the body; what a run leaves
as a list of pieces written over unknown contents is the recursion's value because the pieces cover the block.
-/

set_option maxRecDepth 16384

noncomputable section

namespace Cert.KernelIdeal.Hop3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg3.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

set_option maxHeartbeats 4800000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
      unfold Dat.leavesExact; rw [in0_live t], after0]
  rw [show (dat V c).leavesExact 1 t = owns (c : Thread nD τ) (ms1 t) fullShare ((dat V c).after 1 t) from by
      unfold Dat.leavesExact; rw [in1_live t], after1]
  rw [show (dat V c).leavesExact 2 t = owns (c : Thread nD τ) (ms2 t) fullShare ((dat V c).after 2 t) from by
      unfold Dat.leavesExact; rw [in2_live t], after2]
  rw [show (dat V c).leavesExact 3 t = owns (c : Thread nD τ) (ms3 t) fullShare ((dat V c).after 3 t) from by
      unfold Dat.leavesExact; rw [in3_live t], after3]
  have hN : t.val < 16 := lt_of_lt_of_eq t.isLt (show cfg3.N = 16 from N_3)
  by_cases h0 : t.val % 4 = 0
  · -- the first point of a row
    have hF : isFirst (grid3.coords t) := (isFirst_iff t).mpr h0
    have hL : ¬isLast (grid3.coords t) := fun h => by have := (isLast_iff t).mp h; omega
    rw [Dat.leavesExact_idle (dat V c) 4 t (out4_idle t hL) (out4_noFlush t hL),
      Dat.leavesExact_idle (dat V c) 5 t (out5_idle t hL) (out5_noFlush t hL)]
    rw [outsAt_first V c t h0 hL]
    unfold scFirst; (try dsimp only)
    by_cases hz : t.val = 0
    · rw [PhiS_castSucc V c t, PhiS_zero V c _ _ hz, PhiA_eq]
      iintro ⟨⟨⟨HS, Hrest⟩, Hg⟩, Ho, ⟨%d0, H0⟩, ⟨%d1, H1⟩, ⟨%d2, H2⟩, ⟨%d3, H3⟩, H4, H5⟩
      iapply ((firstRun c t hF hL (iblk V c 0 t) (iblk V c 1 t)).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scFirst_cover c t hF hL _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((firstRun c t hF hL (iblk V c 0 t) (iblk V c 1 t)).2 Set.univ _)
      isplitl [H0]; · iexact H0
      isplitl [H1]; · iexact H1
      isplitl [HS]; · iexists _; iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scFirst_cover c t hF hL _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
  · have hF : ¬isFirst (grid3.coords t) := fun h => h0 ((isFirst_iff t).mp h)
    have hz : t.val ≠ 0 := fun h => h0 (by rw [h])
    by_cases h3 : t.val % 4 = 3
    · -- the last point of a row
      have hL : isLast (grid3.coords t) := (isLast_iff t).mpr h3
      rw [show (dat V c).leavesExact 4 t = owns (c : Thread nD τ) (ms4 t) fullShare ((dat V c).after 4 t) from by
          unfold Dat.leavesExact; rw [out4_live t hL], after4]
      rw [show (dat V c).leavesExact 5 t = owns (c : Thread nD τ) (ms5 t) fullShare ((dat V c).after 5 t) from by
          unfold Dat.leavesExact; rw [out5_live t hL], after5]
      rw [outsAt_last V c t h0 h3]
      unfold out4Last out5Last scLast; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((lastRun c t hF hL (iblk V c 0 t) (iblk V c 1 t) (iblk V c 2 t) (iblk V c 3 t) _).2.2.2 Set.univ _)
      isplitl [H0]; · iexact H0
      isplitl [H1]; · iexact H1
      isplitl [H2]; · iexact H2
      isplitl [H3]; · iexact H3
      isplitl [H4]; · icases H4 with ⟨%d4, H4⟩; iexists _; iexact H4
      isplitl [H5]; · icases H5 with ⟨%d5, H5⟩; iexists _; iexact H5
      isplitl [HS]; · iexact HS
      iintro ⟨H0, H1, H2, H3, ⟨%e4, H4⟩, ⟨%e5, H5⟩, ⟨%es, HS⟩⟩
      isplitl [HS Hrest Hg]
      · isplitl [HS Hrest]
        · isplitl [HS]
          · unfold owns; iexists _; isplitr
            swap; · iexact HS
            ipureintro; exact View.read_writes_of_cover _ _ _ _ _ (scLast_cover c t hF hL _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (out4Last_cover c t hF hL _ _ _ _ _)
      unfold owns; iexists _; isplitr
      swap; · iexact H5
      ipureintro; exact View.read_writes_of_cover _ _ _ _ _ (out5Last_cover c t hF hL _ _ _ _ _)
    · -- a middle point
      have hL : ¬isLast (grid3.coords t) := fun h => h3 ((isLast_iff t).mp h)
      rw [Dat.leavesExact_idle (dat V c) 4 t (out4_idle t hL) (out4_noFlush t hL),
        Dat.leavesExact_idle (dat V c) 5 t (out5_idle t hL) (out5_noFlush t hL)]
      rw [outsAt_middle V c t h0 h3]
      unfold scMiddle; (try dsimp only)
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩, H4, H5⟩
      iapply ((middleRun c t hF hL (iblk V c 0 t) (iblk V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scMiddle_cover c t hF hL _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dat (F := F) V c) (defs₀ (F := F)) Variants.none () Set.univ := fun t => by
  rw [bigSep_W3, bigSep_W3]
  exact sound_body V c t

/-! ## The invariant at the two ends -/

/-- What the region hands the step is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the scratch's contents are forgotten. -/
theorem hout (c : Dev nD) : (dat V c).Φ (Fin.last cfg3.N) ⊢ Pipeline.ΦA spec3 c := by
  rw [show (dat V c).Φ (Fin.last cfg3.N) = PhiS V c (Fin.last cfg3.N).val (Nat.le_of_lt_succ (Fin.last cfg3.N).isLt) from rfl,
    PhiS_pos V c _ _ (by rw [Fin.val_last]; have : cfg3.N = 16 := N_3; omega), PhiA_eq]
  iintro ⟨⟨HS, Hrest⟩, Hg⟩
  isplitl [HS Hrest]
  · isplitl [HS]
    · iexists _; iexact HS
    iexact Hrest
  iexact Hg

end Cert.KernelIdeal.Hop3

end
-- ==== Proof.Whole.lean ====
import proofs.«155136_j78743930404901_2_alg».proof.Proof.Hop0Body
import proofs.«155136_j78743930404901_2_alg».proof.Proof.Hop1Body
import proofs.«155136_j78743930404901_2_alg».proof.Proof.Hop2Body
import proofs.«155136_j78743930404901_2_alg».proof.Proof.Hop3Body
import proofs.«155136_j78743930404901_2_alg».proof.Proof.Gen.KernelIdeal.Regions
import Idealize.ShloMosaic.Lib.Pipeline.RegionsLoop
import Idealize.ShloMosaic.Lib.Pipeline.FrameSuffix

/-!
# The whole program: ten items, four of them propagation steps

@main is three stretches of host operations (the Laplacian's change of format, the first weight slice and
`relu (x · W₀)`, the second weight slice), then four times a propagation step followed — except after the last — by
the next weight slice. Between two items a core holds every unscoped buffer at known contents:

* a host stretch changes them by its operations' composed effect;
* a propagation step replaces its two result arrays by what its write-backs leave (the proof data's arrays after
  the last point) and leaves every other buffer alone.

The contents after each item are named stage by stage, each step's proof data stated at the contents it is entered
from; then each step is a region record of the several-region launch (its arrays split out of the unscoped buffers
at entry and put back at exit, the generator register and the scoped buffers through the invariant, nothing owed),
and the frame follows from the four records.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg HostSeg)

variable {F : FTy → Type} [FloatOps F]

local notation "𝕄" => MT nD τ sig Unit (Elt F) ℕ (UR sig nD τ) ℕ

variable (m : (ℓ : Loc nD τ sig) → Buf (Elt F) ℓ)

/-! ## The contents at each boundary, stage by stage -/

/-- What the first step is entered from: the launch contents after the three host stretches. -/
abbrev E0 (c : Dev nD) (b : Ref sig .tc) : Buf (Elt F) ((c : Thread nD τ).loc b) := V3 m c b
/-- What the first step leaves in its two result arrays. -/
def x1 (c : Dev nD) : Buf (Elt F) ((c : Thread nD τ).loc main_v7_0) := (Hop0.dat (E0 m) c).arrAt 4 cfg0.N
def a1 (c : Dev nD) : Buf (Elt F) ((c : Thread nD τ).loc main_v7_1) := (Hop0.dat (E0 m) c).arrAt 5 cfg0.N
abbrev U4 (c : Dev nD) : Valuation τ sig (Elt F) := Function.update (Function.update (V3 m c) main_v7_0 (x1 m c)) main_v7_1 (a1 m c)
abbrev U5 (c : Dev nD) : Valuation τ sig (Elt F) := StableHlo.after hostOps1 (U4 m c)

abbrev E1 (c : Dev nD) (b : Ref sig .tc) : Buf (Elt F) ((c : Thread nD τ).loc b) := U5 m c b
def x2 (c : Dev nD) : Buf (Elt F) ((c : Thread nD τ).loc main_v10_0) := (Hop1.dat (E1 m) c).arrAt 4 cfg1.N
def a2 (c : Dev nD) : Buf (Elt F) ((c : Thread nD τ).loc main_v10_1) := (Hop1.dat (E1 m) c).arrAt 5 cfg1.N
abbrev U6 (c : Dev nD) : Valuation τ sig (Elt F) := Function.update (Function.update (U5 m c) main_v10_0 (x2 m c)) main_v10_1 (a2 m c)
abbrev U7 (c : Dev nD) : Valuation τ sig (Elt F) := StableHlo.after hostOps2 (U6 m c)

abbrev E2 (c : Dev nD) (b : Ref sig .tc) : Buf (Elt F) ((c : Thread nD τ).loc b) := U7 m c b
def x3 (c : Dev nD) : Buf (Elt F) ((c : Thread nD τ).loc main_v13_0) := (Hop2.dat (E2 m) c).arrAt 4 cfg2.N
def a3 (c : Dev nD) : Buf (Elt F) ((c : Thread nD τ).loc main_v13_1) := (Hop2.dat (E2 m) c).arrAt 5 cfg2.N
abbrev U8 (c : Dev nD) : Valuation τ sig (Elt F) := Function.update (Function.update (U7 m c) main_v13_0 (x3 m c)) main_v13_1 (a3 m c)
abbrev U9 (c : Dev nD) : Valuation τ sig (Elt F) := StableHlo.after hostOps3 (U8 m c)

abbrev E3 (c : Dev nD) (b : Ref sig .tc) : Buf (Elt F) ((c : Thread nD τ).loc b) := U9 m c b
def x4 (c : Dev nD) : Buf (Elt F) ((c : Thread nD τ).loc main_v16_0) := (Hop3.dat (E3 m) c).arrAt 4 cfg3.N
def a4 (c : Dev nD) : Buf (Elt F) ((c : Thread nD τ).loc main_v16_1) := (Hop3.dat (E3 m) c).arrAt 5 cfg3.N
abbrev U10 (c : Dev nD) : Valuation τ sig (Elt F) := Function.update (Function.update (U9 m c) main_v16_0 (x4 m c)) main_v16_1 (a4 m c)

/-- What the steps leave, as the family the conditional frame is stated over: each result array's contents after
    its step (the item number is not consulted: a result array is written by one step only). -/
def outs : Outs (F := F) := fun _ r c =>
  if h : r = main_v7_0 then h ▸ x1 m c
  else if h : r = main_v7_1 then h ▸ a1 m c
  else if h : r = main_v10_0 then h ▸ x2 m c
  else if h : r = main_v10_1 then h ▸ a2 m c
  else if h : r = main_v13_0 then h ▸ x3 m c
  else if h : r = main_v13_1 then h ▸ a3 m c
  else if h : r = main_v16_0 then h ▸ x4 m c
  else if h : r = main_v16_1 then h ▸ a4 m c
  else V0 m c r

theorem outs_x1 (J : ℕ) (c : Dev nD) : outs m J main_v7_0 c = x1 m c := by unfold outs; rw [dif_pos rfl]
theorem outs_a1 (J : ℕ) (c : Dev nD) : outs m J main_v7_1 c = a1 m c := by
  unfold outs; rw [dif_neg (by decide), dif_pos rfl]
theorem outs_x2 (J : ℕ) (c : Dev nD) : outs m J main_v10_0 c = x2 m c := by
  unfold outs; rw [dif_neg (by decide), dif_neg (by decide), dif_pos rfl]
theorem outs_a2 (J : ℕ) (c : Dev nD) : outs m J main_v10_1 c = a2 m c := by
  unfold outs; rw [dif_neg (by decide), dif_neg (by decide), dif_neg (by decide), dif_pos rfl]
theorem outs_x3 (J : ℕ) (c : Dev nD) : outs m J main_v13_0 c = x3 m c := by
  unfold outs; rw [dif_neg (by decide), dif_neg (by decide), dif_neg (by decide), dif_neg (by decide), dif_pos rfl]
theorem outs_a3 (J : ℕ) (c : Dev nD) : outs m J main_v13_1 c = a3 m c := by
  unfold outs; rw [dif_neg (by decide), dif_neg (by decide), dif_neg (by decide), dif_neg (by decide), dif_neg (by decide), dif_pos rfl]
theorem outs_x4 (J : ℕ) (c : Dev nD) : outs m J main_v16_0 c = x4 m c := by
  unfold outs; rw [dif_neg (by decide), dif_neg (by decide), dif_neg (by decide), dif_neg (by decide), dif_neg (by decide), dif_neg (by decide), dif_pos rfl]
theorem outs_a4 (J : ℕ) (c : Dev nD) : outs m J main_v16_1 c = a4 m c := by
  unfold outs; rw [dif_neg (by decide), dif_neg (by decide), dif_neg (by decide), dif_neg (by decide), dif_neg (by decide), dif_neg (by decide), dif_neg (by decide), dif_pos rfl]

/-- The generated valuations at this family are the staged ones. -/
theorem V4_eq (c : Dev nD) : V4 m (outs m) c = U4 m c := by
  show Function.update (Function.update (V3 m c) main_v7_0 (outs m 4 main_v7_0 c)) main_v7_1 (outs m 4 main_v7_1 c) = _
  rw [outs_x1, outs_a1]
theorem V5_eq (c : Dev nD) : V5 m (outs m) c = U5 m c := by
  show StableHlo.after hostOps1 (V4 m (outs m) c) = _; rw [V4_eq]
theorem V6_eq (c : Dev nD) : V6 m (outs m) c = U6 m c := by
  show Function.update (Function.update (V5 m (outs m) c) main_v10_0 (outs m 6 main_v10_0 c)) main_v10_1 (outs m 6 main_v10_1 c) = _
  rw [outs_x2, outs_a2, V5_eq]
theorem V7_eq (c : Dev nD) : V7 m (outs m) c = U7 m c := by
  show StableHlo.after hostOps2 (V6 m (outs m) c) = _; rw [V6_eq]
theorem V8_eq (c : Dev nD) : V8 m (outs m) c = U8 m c := by
  show Function.update (Function.update (V7 m (outs m) c) main_v13_0 (outs m 8 main_v13_0 c)) main_v13_1 (outs m 8 main_v13_1 c) = _
  rw [outs_x3, outs_a3, V7_eq]
theorem V9_eq (c : Dev nD) : V9 m (outs m) c = U9 m c := by
  show StableHlo.after hostOps3 (V8 m (outs m) c) = _; rw [V8_eq]
theorem V10_eq (c : Dev nD) : V10 m (outs m) c = U10 m c := by
  show Function.update (Function.update (V9 m (outs m) c) main_v16_0 (outs m 10 main_v16_0 c)) main_v16_1 (outs m 10 main_v16_1 c) = _
  rw [outs_x4, outs_a4, V9_eq]

/-! ## The proof data of the four steps, and what rides beside the buffers -/

/-- Each step's proof data at the contents it is entered from. -/
def pdats : (p : Fin 4) → (c : Dev nD) → Dat τ (Elt F) Unit ℕ (UR sig nD τ) ℕ (cfgs p) c
  | ⟨0, _⟩ => fun c => Hop0.dat (E0 m) c
  | ⟨1, _⟩ => fun c => Hop1.dat (E1 m) c
  | ⟨2, _⟩ => fun c => Hop2.dat (E2 m) c
  | ⟨3, _⟩ => fun c => Hop3.dat (E3 m) c

/-- No core owes another anything: no level is assigned. -/
abbrev L : GSem nD τ sig → Finset Unit := fun _ => ∅
abbrev lv : GSem nD τ sig → Unit → ℕ := fun _ _ => 0

/-- Beside the buffers, through every item: the generator register at some state and the core owing nothing. -/
abbrev R (c : Dev nD) : sProp 𝕄 := iprop((∃ r, prngReg c r) ∗ ∃ W, owes (c : Thread nD τ) (0 : CellTallies nD τ sig Unit) W)

/-! ## What a step leaves in the unscoped buffers -/

theorem hF0 (c : Dev nD) (w : Fin cfg0.W) :
    (Hop0.dat (E0 m) c).arrAt w cfg0.N = (fun b : Ref sig .tc => V4 m (outs m) c b) (Pipeline.arrRef spec0 w) :=
  match w with
  | ⟨0, _⟩ => ((Hop0.dat (E0 m) c).arrAt_in 0 rfl _).trans ((Hop0.A_eq (E0 m) c 0).trans (V4_of m (outs m) c main_v0 (by decide)).symm)
  | ⟨1, _⟩ => ((Hop0.dat (E0 m) c).arrAt_in 1 rfl _).trans ((Hop0.A_eq (E0 m) c 1).trans (V4_of m (outs m) c main_arg0 (by decide)).symm)
  | ⟨2, _⟩ => ((Hop0.dat (E0 m) c).arrAt_in 2 rfl _).trans ((Hop0.A_eq (E0 m) c 2).trans (V4_of m (outs m) c main_v6 (by decide)).symm)
  | ⟨3, _⟩ => ((Hop0.dat (E0 m) c).arrAt_in 3 rfl _).trans ((Hop0.A_eq (E0 m) c 3).trans (V4_of m (outs m) c main_v4 (by decide)).symm)
  | ⟨4, _⟩ => by
    show x1 m c = Function.update (Function.update (V3 m c) main_v7_0 (outs m 4 main_v7_0 c)) main_v7_1 (outs m 4 main_v7_1 c) main_v7_0
    rw [Function.update_of_ne (StableHlo.devRef_ne_of_ne (by decide : main_v7_0 ≠ main_v7_1)), Function.update_self, outs_x1]
  | ⟨5, _⟩ => by
    show a1 m c = Function.update (Function.update (V3 m c) main_v7_0 (outs m 4 main_v7_0 c)) main_v7_1 (outs m 4 main_v7_1 c) main_v7_1
    rw [Function.update_self, outs_a1]

theorem hrest0 (c : Dev nD) : ∀ b, b ∉ Finset.univ.image (Pipeline.arrRef spec0) → V4 m (outs m) c b = E0 m c b :=
  fun b hb => V4_of m (outs m) c b (fun hm => by
    rcases List.mem_cons.mp hm with rfl | hm
    · exact hb (Finset.mem_image.mpr ⟨4, Finset.mem_univ _, rfl⟩)
    · rcases List.mem_cons.mp hm with rfl | hm
      · exact hb (Finset.mem_image.mpr ⟨5, Finset.mem_univ _, rfl⟩)
      · exact absurd hm List.not_mem_nil)

/-! ## The steps as region records -/

set_option backward.isDefEq.respectTransparency.types false in
/-- The first step: entered from every unscoped buffer at the contents after the three host stretches, left with
    its two result arrays replaced. Its six arrays are split out of the unscoped buffers at entry and put back at
    exit; the generator register and the scoped buffers go through the invariant; nothing is owed; the kernel has no
    semaphore of its own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Hop0.body_obligation (E0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Hop0.hin (E0 m) c)
    unfold Pipeline.ΦA
    iintro ⟨Hp, -, Hr⟩
    isplitl [Hr]; · iexact Hr
    iexact Hp
  hout c := by
    rw [Pipeline.ownSems0_none]
    refine (Hop0.hout (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b : Ref sig .tc => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF1 (c : Dev nD) (w : Fin cfg1.W) :
    (Hop1.dat (E1 m) c).arrAt w cfg1.N = (fun b : Ref sig .tc => V6 m (outs m) c b) (Pipeline.arrRef spec1 w) :=
  match w with
  | ⟨0, _⟩ => ((Hop1.dat (E1 m) c).arrAt_in 0 rfl _).trans ((Hop1.A_eq (E1 m) c 0).trans ((V6_of m (outs m) c main_v0 (by decide)).trans (congrFun (V5_eq m c) _)).symm)
  | ⟨1, _⟩ => ((Hop1.dat (E1 m) c).arrAt_in 1 rfl _).trans ((Hop1.A_eq (E1 m) c 1).trans ((V6_of m (outs m) c main_v7_0 (by decide)).trans (congrFun (V5_eq m c) _)).symm)
  | ⟨2, _⟩ => ((Hop1.dat (E1 m) c).arrAt_in 2 rfl _).trans ((Hop1.A_eq (E1 m) c 2).trans ((V6_of m (outs m) c main_v9 (by decide)).trans (congrFun (V5_eq m c) _)).symm)
  | ⟨3, _⟩ => ((Hop1.dat (E1 m) c).arrAt_in 3 rfl _).trans ((Hop1.A_eq (E1 m) c 3).trans ((V6_of m (outs m) c main_v7_1 (by decide)).trans (congrFun (V5_eq m c) _)).symm)
  | ⟨4, _⟩ => by
    show x2 m c = Function.update (Function.update (V5 m (outs m) c) main_v10_0 (outs m 6 main_v10_0 c)) main_v10_1 (outs m 6 main_v10_1 c) main_v10_0
    rw [Function.update_of_ne (StableHlo.devRef_ne_of_ne (by decide : main_v10_0 ≠ main_v10_1)), Function.update_self, outs_x2]
  | ⟨5, _⟩ => by
    show a2 m c = Function.update (Function.update (V5 m (outs m) c) main_v10_0 (outs m 6 main_v10_0 c)) main_v10_1 (outs m 6 main_v10_1 c) main_v10_1
    rw [Function.update_self, outs_a2]

theorem hrest1 (c : Dev nD) : ∀ b, b ∉ Finset.univ.image (Pipeline.arrRef spec1) → V6 m (outs m) c b = E1 m c b :=
  fun b hb => (V6_of m (outs m) c b (fun hm => by
    rcases List.mem_cons.mp hm with rfl | hm
    · exact hb (Finset.mem_image.mpr ⟨4, Finset.mem_univ _, rfl⟩)
    · rcases List.mem_cons.mp hm with rfl | hm
      · exact hb (Finset.mem_image.mpr ⟨5, Finset.mem_univ _, rfl⟩)
      · exact absurd hm List.not_mem_nil)).trans (congrFun (V5_eq m c) _)

theorem hF2 (c : Dev nD) (w : Fin cfg2.W) :
    (Hop2.dat (E2 m) c).arrAt w cfg2.N = (fun b : Ref sig .tc => V8 m (outs m) c b) (Pipeline.arrRef spec2 w) :=
  match w with
  | ⟨0, _⟩ => ((Hop2.dat (E2 m) c).arrAt_in 0 rfl _).trans ((Hop2.A_eq (E2 m) c 0).trans ((V8_of m (outs m) c main_v0 (by decide)).trans (congrFun (V7_eq m c) _)).symm)
  | ⟨1, _⟩ => ((Hop2.dat (E2 m) c).arrAt_in 1 rfl _).trans ((Hop2.A_eq (E2 m) c 1).trans ((V8_of m (outs m) c main_v10_0 (by decide)).trans (congrFun (V7_eq m c) _)).symm)
  | ⟨2, _⟩ => ((Hop2.dat (E2 m) c).arrAt_in 2 rfl _).trans ((Hop2.A_eq (E2 m) c 2).trans ((V8_of m (outs m) c main_v12 (by decide)).trans (congrFun (V7_eq m c) _)).symm)
  | ⟨3, _⟩ => ((Hop2.dat (E2 m) c).arrAt_in 3 rfl _).trans ((Hop2.A_eq (E2 m) c 3).trans ((V8_of m (outs m) c main_v10_1 (by decide)).trans (congrFun (V7_eq m c) _)).symm)
  | ⟨4, _⟩ => by
    show x3 m c = Function.update (Function.update (V7 m (outs m) c) main_v13_0 (outs m 8 main_v13_0 c)) main_v13_1 (outs m 8 main_v13_1 c) main_v13_0
    rw [Function.update_of_ne (StableHlo.devRef_ne_of_ne (by decide : main_v13_0 ≠ main_v13_1)), Function.update_self, outs_x3]
  | ⟨5, _⟩ => by
    show a3 m c = Function.update (Function.update (V7 m (outs m) c) main_v13_0 (outs m 8 main_v13_0 c)) main_v13_1 (outs m 8 main_v13_1 c) main_v13_1
    rw [Function.update_self, outs_a3]

theorem hrest2 (c : Dev nD) : ∀ b, b ∉ Finset.univ.image (Pipeline.arrRef spec2) → V8 m (outs m) c b = E2 m c b :=
  fun b hb => (V8_of m (outs m) c b (fun hm => by
    rcases List.mem_cons.mp hm with rfl | hm
    · exact hb (Finset.mem_image.mpr ⟨4, Finset.mem_univ _, rfl⟩)
    · rcases List.mem_cons.mp hm with rfl | hm
      · exact hb (Finset.mem_image.mpr ⟨5, Finset.mem_univ _, rfl⟩)
      · exact absurd hm List.not_mem_nil)).trans (congrFun (V7_eq m c) _)

theorem hF3 (c : Dev nD) (w : Fin cfg3.W) :
    (Hop3.dat (E3 m) c).arrAt w cfg3.N = (fun b : Ref sig .tc => V10 m (outs m) c b) (Pipeline.arrRef spec3 w) :=
  match w with
  | ⟨0, _⟩ => ((Hop3.dat (E3 m) c).arrAt_in 0 rfl _).trans ((Hop3.A_eq (E3 m) c 0).trans ((V10_of m (outs m) c main_v0 (by decide)).trans (congrFun (V9_eq m c) _)).symm)
  | ⟨1, _⟩ => ((Hop3.dat (E3 m) c).arrAt_in 1 rfl _).trans ((Hop3.A_eq (E3 m) c 1).trans ((V10_of m (outs m) c main_v13_0 (by decide)).trans (congrFun (V9_eq m c) _)).symm)
  | ⟨2, _⟩ => ((Hop3.dat (E3 m) c).arrAt_in 2 rfl _).trans ((Hop3.A_eq (E3 m) c 2).trans ((V10_of m (outs m) c main_v15 (by decide)).trans (congrFun (V9_eq m c) _)).symm)
  | ⟨3, _⟩ => ((Hop3.dat (E3 m) c).arrAt_in 3 rfl _).trans ((Hop3.A_eq (E3 m) c 3).trans ((V10_of m (outs m) c main_v13_1 (by decide)).trans (congrFun (V9_eq m c) _)).symm)
  | ⟨4, _⟩ => by
    show x4 m c = Function.update (Function.update (V9 m (outs m) c) main_v16_0 (outs m 10 main_v16_0 c)) main_v16_1 (outs m 10 main_v16_1 c) main_v16_0
    rw [Function.update_of_ne (StableHlo.devRef_ne_of_ne (by decide : main_v16_0 ≠ main_v16_1)), Function.update_self, outs_x4]
  | ⟨5, _⟩ => by
    show a4 m c = Function.update (Function.update (V9 m (outs m) c) main_v16_0 (outs m 10 main_v16_0 c)) main_v16_1 (outs m 10 main_v16_1 c) main_v16_1
    rw [Function.update_self, outs_a4]

theorem hrest3 (c : Dev nD) : ∀ b, b ∉ Finset.univ.image (Pipeline.arrRef spec3) → V10 m (outs m) c b = E3 m c b :=
  fun b hb => (V10_of m (outs m) c b (fun hm => by
    rcases List.mem_cons.mp hm with rfl | hm
    · exact hb (Finset.mem_image.mpr ⟨4, Finset.mem_univ _, rfl⟩)
    · rcases List.mem_cons.mp hm with rfl | hm
      · exact hb (Finset.mem_image.mpr ⟨5, Finset.mem_univ _, rfl⟩)
      · exact absurd hm List.not_mem_nil)).trans (congrFun (V9_eq m c) _)

set_option backward.isDefEq.respectTransparency.types false in
/-- The second step: entered from the contents after the first step and the third weight slice. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Hop1.body_obligation (E1 m) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none, V5_eq]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Hop1.hin (E1 m) c)
    unfold Pipeline.ΦA
    iintro ⟨Hp, -, Hr⟩
    isplitl [Hr]; · iexact Hr
    iexact Hp
  hout c := by
    rw [Pipeline.ownSems0_none]
    refine (Hop1.hout (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b : Ref sig .tc => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third step: entered from the contents after the second step and the fourth weight slice. -/
def reg2 : RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (Hop2.body_obligation (E2 m) c).loose
  hwaits := Pipeline.hwaits_of_owed_zero _ _ _ _ L lv 2 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none, V7_eq]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Hop2.hin (E2 m) c)
    unfold Pipeline.ΦA
    iintro ⟨Hp, -, Hr⟩
    isplitl [Hr]; · iexact Hr
    iexact Hp
  hout c := by
    rw [Pipeline.ownSems0_none]
    refine (Hop2.hout (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (fun b : Ref sig .tc => V8 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fourth step: entered from the contents after the third step and the last weight slice. -/
def reg3 : RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (Hop3.body_obligation (E3 m) c).loose
  hwaits := Pipeline.hwaits_of_owed_zero _ _ _ _ L lv 3 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none, V9_eq]
    have hsplit := Pipeline.arrays_of_unscopedBufs (p := 3) (pcfgs (F := F)) adm (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Hop3.hin (E3 m) c)
    unfold Pipeline.ΦA
    iintro ⟨Hp, -, Hr⟩
    isplitl [Hr]; · iexact Hr
    iexact Hp
  hout c := by
    rw [Pipeline.ownSems0_none]
    refine (Hop3.hout (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E3 m c) (fun b : Ref sig .tc => V10 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- From any memory with zero counters every weakly fair execution of @main terminates, nothing faulting, and the
    three argument arrays end as launched: the conditional frame of the ten items, at the four records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond m (Ix := Unit) (U := UR sig nD τ) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE4 := fun c => by
      iintro ⟨-, HO⟩
      iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)

end Cert.KernelIdeal.Whole

end
-- ==== Proof.WholeRun.lean ====
import proofs.«155136_j78743930404901_2_alg».proof.Proof.Whole

/-!
# The whole program's run, with the result named

The same launch as for the frame, but the last thread state is read in full: when @main returns, every unscoped
buffer of a core holds the contents the ten items leave. In particular the program's result array holds what the
fourth propagation step's write-backs leave in the running output, and the three arguments are as launched.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg HostSeg)

variable {F : FTy → Type} [FloatOps F]

local notation "𝕄" => MT nD τ sig Unit (Elt F) ℕ (UR sig nD τ) ℕ

variable (m : (ℓ : Loc nD τ sig) → Buf (Elt F) ℓ)

/-- What the last step leaves, regrouped: the buffers and the generator register on one side, the core owing nothing
    on the other. -/
theorem last_link (c : Dev nD) :
    iprop(StableHlo.held (c : Thread nD τ) (Pipeline.ucRefs τ sig) (V10 m (outs m) c) ∗ R c)
      ⊢ (iprop(iprop(StableHlo.held (c : Thread nD τ) (Pipeline.ucRefs τ sig) (V10 m (outs m) c) ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

set_option backward.isDefEq.respectTransparency.types false in
/-- Every weakly fair execution of @main terminates, and in every final memory each unscoped buffer of each core
    holds the last valuation's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V10 m (outs m) c b) := by
  refine Pipeline.θ_run_regions_kit_dev (pcfgs (F := F)) adm (pdats m) () cellOf_inj emb₁ defs₀ Variants.none L lv m ρ main
    (segs m (outs m) Variants.none L lv (fun _ c => R c) () (pdats m) (reg0 m) (reg1 m) (reg2 m) (reg3 m))
    (fun c Q => by
      rewrite [main_chain c, Seg.run_eq_chain,
        show (segs m (outs m) Variants.none L lv (fun _ c => R c) () (pdats m) (reg0 m) (reg1 m) (reg2 m) (reg3 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) 0 (fun _ _ => rfl)
    (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V10 m (outs m) c) ∗ ∃ r, prngReg c r))
    (hch := fun c => ⟨.rfl, .rfl, .rfl, .rfl, .rfl, .rfl, .rfl, .rfl, .rfl, .rfl, last_link m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V10 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V10 m (outs m) c) s')
      isplitl [Hh] <;> iassumption)
    (hQ := fun _ h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run with the result array named: it ends at what the fourth step leaves in the running output, and the
    three arguments end as launched. -/
theorem run_value (ρ : Dev nD → PrngReg) :
    θ_run defs (onTc (τ := τ) (main (F := F))) ⟨m, fun _ => 0, ρ⟩ (fun r => ∀ c : Dev nD,
      r.2.mem ((c.tc : Thread nD τ).loc main_v16_1) = a4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v16_1 (by decide))).trans (by
        show Function.update (Function.update (V9 m (outs m) c) main_v16_0 (outs m 10 main_v16_0 c)) main_v16_1 (outs m 10 main_v16_1 c) main_v16_1 = _
        rw [Function.update_self, outs_a4]),
      (h c _ (mem_uc main_arg0 (by decide))).trans (V10_main_arg0 m (outs m) c),
      (h c _ (mem_uc main_arg1 (by decide))).trans (V10_main_arg1 m (outs m) c),
      (h c _ (mem_uc main_arg2 (by decide))).trans (V10_main_arg2 m (outs m) c)⟩)
    (run_all m ρ)

end Cert.KernelIdeal.Whole

end
-- ==== Proof.Entries.lean ====
import proofs.«155136_j78743930404901_2_alg».proof.Proof.Whole
import Idealize.ShloMosaic.Lib.StableHlo.Run

/-!
# What each propagation step is entered with

Each step reads four arrays: the Laplacian in its sixteen-bit format, the features propagated so far, one weight
matrix, and the running output so far. Read off the contents at the step's entry:

* the Laplacian's array is written once, by the first host stretch, and by nothing after: at every step it is the
  launch Laplacian with its format changed;
* the features are the launch features at the first step, and what the step before left in its first result array
  afterwards;
* the weight matrix is slice `k` of the launch weights, cut and re-laid by the host stretch right before the step
  (the weights' array itself is never written);
* the running output is `relu (x · W₀)` at the first step, computed by the host, and what the step before left in
  its second result array afterwards.
-/

set_option maxRecDepth 16384

noncomputable section

namespace Cert.KernelIdeal.Whole

open Cert.KernelIdeal Cert.KernelIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ)

/-! ## The first step -/

theorem e0_lap (c : Dev nD) :
    E0 m c main_v0 = (truncf .bf16 (m ((c.tc : Thread nD τ).loc main_arg1)) bitsLt_bf16_f32 : (⟨S8192x8192, .bf16⟩ : BufTy).Contents (Elt F)) := by
  show StableHlo.after hostOps0_2 (StableHlo.after hostOps0_1 (StableHlo.after hostOps0 (fun b => m (c, b)))) (Proc.devRef .tc main_v0) = _
  after_results_simp <;> rfl

theorem e0_feat (c : Dev nD) : E0 m c main_arg0 = m ((c.tc : Thread nD τ).loc main_arg0) := by
  show StableHlo.after hostOps0_2 (StableHlo.after hostOps0_1 (StableHlo.after hostOps0 (fun b => m (c, b)))) (Proc.devRef .tc main_arg0) = _
  after_results_simp <;> rfl

theorem e0_weight (c : Dev nD) :
    E0 m c main_v6 = shapeCast _ (extractStridedSlice S1x16x16 ![1, 0, 0] (m ((c.tc : Thread nD τ).loc main_arg2)) slices_S5x16x16_S1x16x16_1_0_0) shapeCasts_S1x16x16_S16x16 := by
  show StableHlo.after hostOps0_2 (StableHlo.after hostOps0_1 (StableHlo.after hostOps0 (fun b => m (c, b)))) (Proc.devRef .tc main_v6) = _
  after_results_simp <;> rfl

theorem e0_acc (c : Dev nD) :
    E0 m c main_v4 = maximumf (Host.dotGeneral dot_S8192x16_S16x16_S8192x16_1_0_0_1_n_n none (m ((c.tc : Thread nD τ).loc main_arg0))
        (shapeCast _ (extractStridedSlice S1x16x16 ![0, 0, 0] (m ((c.tc : Thread nD τ).loc main_arg2)) slices_S5x16x16_S1x16x16_0_0_0) shapeCasts_S1x16x16_S16x16))
      (broadcastInDim S8192x16 ![] bcast_S_S8192x16 (constant S_ .f32 0x00000000#32)) := by
  show StableHlo.after hostOps0_2 (StableHlo.after hostOps0_1 (StableHlo.after hostOps0 (fun b => m (c, b)))) (Proc.devRef .tc main_v4) = _
  after_results_simp <;> rfl

/-! ## The weights' array is never written -/

theorem weights_V4 (c : Dev nD) : V4 m (outs m) c main_arg2 = m ((c.tc : Thread nD τ).loc main_arg2) :=
  (V4_of m (outs m) c main_arg2 (by decide)).trans <| (V3_of m c main_arg2 (by decide)).trans <|
    (V2_of m c main_arg2 (by decide)).trans <| (V1_of m c main_arg2 (by decide)).trans rfl
theorem weights_V6 (c : Dev nD) : V6 m (outs m) c main_arg2 = m ((c.tc : Thread nD τ).loc main_arg2) :=
  (V6_of m (outs m) c main_arg2 (by decide)).trans <| (V5_of m (outs m) c main_arg2 (by decide)).trans (weights_V4 m c)
theorem weights_V8 (c : Dev nD) : V8 m (outs m) c main_arg2 = m ((c.tc : Thread nD τ).loc main_arg2) :=
  (V8_of m (outs m) c main_arg2 (by decide)).trans <| (V7_of m (outs m) c main_arg2 (by decide)).trans (weights_V6 m c)

/-! ## The Laplacian's array is written once -/

theorem lap_V5 (c : Dev nD) : V5 m (outs m) c main_v0 = E0 m c main_v0 :=
  (V5_of m (outs m) c main_v0 (by decide)).trans (V4_of m (outs m) c main_v0 (by decide))
theorem lap_V7 (c : Dev nD) : V7 m (outs m) c main_v0 = E0 m c main_v0 :=
  (V7_of m (outs m) c main_v0 (by decide)).trans <| (V6_of m (outs m) c main_v0 (by decide)).trans (lap_V5 m c)
theorem lap_V9 (c : Dev nD) : V9 m (outs m) c main_v0 = E0 m c main_v0 :=
  (V9_of m (outs m) c main_v0 (by decide)).trans <| (V8_of m (outs m) c main_v0 (by decide)).trans (lap_V7 m c)

/-! ## The second step -/

theorem e1_lap (c : Dev nD) : E1 m c main_v0 = E0 m c main_v0 := (congrFun (V5_eq m c) _).symm.trans (lap_V5 m c)

theorem e1_feat (c : Dev nD) : E1 m c main_v7_0 = x1 m c :=
  (congrFun (V5_eq m c) _).symm.trans <| (V5_of m (outs m) c main_v7_0 (by decide)).trans (by
    show Function.update (Function.update (V3 m c) main_v7_0 (outs m 4 main_v7_0 c)) main_v7_1 (outs m 4 main_v7_1 c) main_v7_0 = _
    rw [Function.update_of_ne (StableHlo.devRef_ne_of_ne (by decide : main_v7_0 ≠ main_v7_1)), Function.update_self, outs_x1])

theorem e1_acc (c : Dev nD) : E1 m c main_v7_1 = a1 m c :=
  (congrFun (V5_eq m c) _).symm.trans <| (V5_of m (outs m) c main_v7_1 (by decide)).trans (by
    show Function.update (Function.update (V3 m c) main_v7_0 (outs m 4 main_v7_0 c)) main_v7_1 (outs m 4 main_v7_1 c) main_v7_1 = _
    rw [Function.update_self, outs_a1])

theorem e1_weight (c : Dev nD) :
    E1 m c main_v9 = shapeCast _ (extractStridedSlice S1x16x16 ![2, 0, 0] (m ((c.tc : Thread nD τ).loc main_arg2)) slices_S5x16x16_S1x16x16_2_0_0) shapeCasts_S1x16x16_S16x16 := by
  refine (congrFun (V5_eq m c) _).symm.trans ?_
  rw [← weights_V4 m c]
  show StableHlo.after hostOps1 (V4 m (outs m) c) (Proc.devRef .tc main_v9) = _
  after_results_simp <;> rfl

/-! ## The third step -/

theorem e2_lap (c : Dev nD) : E2 m c main_v0 = E0 m c main_v0 := (congrFun (V7_eq m c) _).symm.trans (lap_V7 m c)

theorem e2_feat (c : Dev nD) : E2 m c main_v10_0 = x2 m c :=
  (congrFun (V7_eq m c) _).symm.trans <| (V7_of m (outs m) c main_v10_0 (by decide)).trans (by
    show Function.update (Function.update (V5 m (outs m) c) main_v10_0 (outs m 6 main_v10_0 c)) main_v10_1 (outs m 6 main_v10_1 c) main_v10_0 = _
    rw [Function.update_of_ne (StableHlo.devRef_ne_of_ne (by decide : main_v10_0 ≠ main_v10_1)), Function.update_self, outs_x2])

theorem e2_acc (c : Dev nD) : E2 m c main_v10_1 = a2 m c :=
  (congrFun (V7_eq m c) _).symm.trans <| (V7_of m (outs m) c main_v10_1 (by decide)).trans (by
    show Function.update (Function.update (V5 m (outs m) c) main_v10_0 (outs m 6 main_v10_0 c)) main_v10_1 (outs m 6 main_v10_1 c) main_v10_1 = _
    rw [Function.update_self, outs_a2])

theorem e2_weight (c : Dev nD) :
    E2 m c main_v12 = shapeCast _ (extractStridedSlice S1x16x16 ![3, 0, 0] (m ((c.tc : Thread nD τ).loc main_arg2)) slices_S5x16x16_S1x16x16_3_0_0) shapeCasts_S1x16x16_S16x16 := by
  refine (congrFun (V7_eq m c) _).symm.trans ?_
  rw [← weights_V6 m c]
  show StableHlo.after hostOps2 (V6 m (outs m) c) (Proc.devRef .tc main_v12) = _
  after_results_simp <;> rfl

/-! ## The fourth step -/

theorem e3_lap (c : Dev nD) : E3 m c main_v0 = E0 m c main_v0 := (congrFun (V9_eq m c) _).symm.trans (lap_V9 m c)

theorem e3_feat (c : Dev nD) : E3 m c main_v13_0 = x3 m c :=
  (congrFun (V9_eq m c) _).symm.trans <| (V9_of m (outs m) c main_v13_0 (by decide)).trans (by
    show Function.update (Function.update (V7 m (outs m) c) main_v13_0 (outs m 8 main_v13_0 c)) main_v13_1 (outs m 8 main_v13_1 c) main_v13_0 = _
    rw [Function.update_of_ne (StableHlo.devRef_ne_of_ne (by decide : main_v13_0 ≠ main_v13_1)), Function.update_self, outs_x3])

theorem e3_acc (c : Dev nD) : E3 m c main_v13_1 = a3 m c :=
  (congrFun (V9_eq m c) _).symm.trans <| (V9_of m (outs m) c main_v13_1 (by decide)).trans (by
    show Function.update (Function.update (V7 m (outs m) c) main_v13_0 (outs m 8 main_v13_0 c)) main_v13_1 (outs m 8 main_v13_1 c) main_v13_1 = _
    rw [Function.update_self, outs_a3])

theorem e3_weight (c : Dev nD) :
    E3 m c main_v15 = shapeCast _ (extractStridedSlice S1x16x16 ![4, 0, 0] (m ((c.tc : Thread nD τ).loc main_arg2)) slices_S5x16x16_S1x16x16_4_0_0) shapeCasts_S1x16x16_S16x16 := by
  refine (congrFun (V9_eq m c) _).symm.trans ?_
  rw [← weights_V8 m c]
  show StableHlo.after hostOps3 (V8 m (outs m) c) (Proc.devRef .tc main_v15) = _
  after_results_simp <;> rfl

end Cert.KernelIdeal.Whole

end
-- ==== Proof.Hop0Pieces.lean ====
import proofs.«155136_j78743930404901_2_alg».proof.Proof.Hop0Data
import Idealize.ShloMosaic.Lib.Pipeline.Value

/-!
# The first propagation step: what each point leaves, as the body's arithmetic

Each run of the body leaves its stores' pieces; every store covers its block whole, so what a block ends holding is
the last store's payload, and a load that follows a store reads what was stored. Read that way:

* at the first point of a row of tiles the scratch ends at (zero fill) + (tile product);
* at a middle point at (what it held) + (tile product);
* at the last point the same, the new features' block is that finished scratch, and the running output's block is
  the incoming block plus the rectified weight product of the finished scratch.
-/

set_option maxRecDepth 16384

noncomputable section

namespace Cert.KernelIdeal.Hop0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One lemma per run and block -/

/-- Zero offsets, however spelt. -/
theorem hz : (![0, 0] : Fin 2 → Nat) = fun _ => 0 := funext fun a => by fin_cases a <;> rfl

/-- At the first point of a row the scratch ends with the tile product added onto the zero fill: the accumulation's
    load reads what the reset's store left. -/
theorem scFirst_eq (c : Dev nD) (t : Fin cfg0.N) (hF : isFirst (grid0.coords t)) (hL : ¬isLast (grid0.coords t))
    (lt : Vec F S2048x2048 .bf16) (xt : Vec F S2048x16 .f32) :
    scFirst c t hF hL lt xt = k0_pay2 lt xt k0_pay1 := by
  unfold scFirst
  rw [View.read_writes_eq_canon _ _ _ (scFirst_cover c t hF hL lt xt)]
  unfold firstRun runFirst
  dsimp only
  sl_unfold_words
  rw [View.canon_cons_unit_zero (S := S2048x16) hz, View.readCov_unit_zero (S := S2048x16) _ hz]
  simp only [View.readAt_eq_ld, (hs0 t).read_unread, (hs1 t).read_unread,
    View.ld_unit_zero (S := S2048x2048) hz, View.ld_unit_zero (S := S2048x16) hz]

/-- At a middle point the scratch ends with the tile product added onto what it held. -/
theorem scMiddle_eq (c : Dev nD) (t : Fin cfg0.N) (hF : ¬isFirst (grid0.coords t)) (hL : ¬isLast (grid0.coords t))
    (lt : Vec F S2048x2048 .bf16) (xt : Vec F S2048x16 .f32) (sc : Vec F S2048x16 .f32) :
    scMiddle c t hF hL lt xt sc = k0_pay2 lt xt sc := by
  unfold scMiddle
  rw [View.read_writes_eq_canon _ _ _ (scMiddle_cover c t hF hL lt xt sc)]
  unfold middleRun runMiddle
  dsimp only
  rw [View.canon_unit_zero hz]
  simp only [View.readAt_eq_ld, (hs0 t).read_unread, (hs1 t).read_unread, (Memref.isWhole_whole cc0_scratch0).read_unread,
    View.ld_unit_zero (S := S2048x2048) hz, View.ld_unit_zero (S := S2048x16) hz]

/-- At the last point of a row the scratch ends the same way: the finishing stores do not touch it. -/
theorem scLast_eq (c : Dev nD) (t : Fin cfg0.N) (hF : ¬isFirst (grid0.coords t)) (hL : isLast (grid0.coords t))
    (lt : Vec F S2048x2048 .bf16) (xt : Vec F S2048x16 .f32) (w : Vec F S16x16 .f32) (acc : Vec F S2048x16 .f32) (sc : Vec F S2048x16 .f32) :
    scLast c t hF hL lt xt w acc sc = k0_pay2 lt xt sc := by
  unfold scLast
  rw [View.read_writes_eq_canon _ _ _ (scLast_cover c t hF hL lt xt w acc sc)]
  unfold lastRun runLast
  dsimp only
  sl_unfold_words
  rw [View.canon_unit_zero hz]
  simp only [View.readAt_eq_ld, (hs0 t).read_unread, (hs1 t).read_unread, (Memref.isWhole_whole cc0_scratch0).read_unread,
    View.ld_unit_zero (S := S2048x2048) hz, View.ld_unit_zero (S := S2048x16) hz]

/-- The new features' block is the finished scratch: the store's payload is the load of what the accumulation left. -/
theorem out4Last_eq (c : Dev nD) (t : Fin cfg0.N) (hF : ¬isFirst (grid0.coords t)) (hL : isLast (grid0.coords t))
    (lt : Vec F S2048x2048 .bf16) (xt : Vec F S2048x16 .f32) (w : Vec F S16x16 .f32) (acc : Vec F S2048x16 .f32) (sc : Vec F S2048x16 .f32) :
    out4Last c t hF hL lt xt w acc sc = k0_pay2 lt xt sc := by
  unfold out4Last
  rw [View.read_writes_eq_canon _ _ _ (out4Last_cover c t hF hL lt xt w acc sc)]
  unfold lastRun runLast
  dsimp only
  sl_unfold_words
  rw [View.canon_unit_zero hz, View.readCov_unit_zero (S := S2048x16) _ hz]
  simp only [View.readAt_eq_ld, (hs0 t).read_unread, (hs1 t).read_unread, (Memref.isWhole_whole cc0_scratch0).read_unread,
    View.ld_unit_zero (S := S2048x2048) hz, View.ld_unit_zero (S := S2048x16) hz]

/-- The running output's block is the incoming block plus the rectified weight product of the finished scratch. -/
theorem out5Last_eq (c : Dev nD) (t : Fin cfg0.N) (hF : ¬isFirst (grid0.coords t)) (hL : isLast (grid0.coords t))
    (lt : Vec F S2048x2048 .bf16) (xt : Vec F S2048x16 .f32) (w : Vec F S16x16 .f32) (acc : Vec F S2048x16 .f32) (sc : Vec F S2048x16 .f32) :
    out5Last c t hF hL lt xt w acc sc = k0_pay3 (k0_pay2 lt xt sc) w acc := by
  unfold out5Last
  rw [View.read_writes_eq_canon _ _ _ (out5Last_cover c t hF hL lt xt w acc sc)]
  unfold lastRun runLast
  dsimp only
  sl_unfold_words
  rw [View.canon_unit_zero hz, View.readCov_unit_zero (S := S2048x16) _ hz]
  simp only [View.readAt_eq_ld, (hs0 t).read_unread, (hs1 t).read_unread, (hs2 t).read_unread, (hs3 t).read_unread,
    (Memref.isWhole_whole cc0_scratch0).read_unread,
    View.ld_unit_zero (S := S2048x2048) hz, View.ld_unit_zero (S := S2048x16) hz, View.ld_unit_zero (S := S16x16) hz]

end Cert.KernelIdeal.Hop0

end
-- ==== Proof.Hop0Blocks.lean ====
import proofs.«155136_j78743930404901_2_alg».proof.Proof.Hop0Data
import Idealize.ShloMosaic.Lib.Pipeline.Value
import Idealize.ShloMosaic.Lib.ValueIdx

/-!
# The first propagation step: the windows' blocks, read off the arrays

At point `t = 4 i + k` of the 4 × 4 grid the Laplacian window holds block `(i, k)` of its array, the feature window
block `(k, 0)`, the weight window the whole 16 × 16 matrix, and the incoming-output window and both output windows
block `(i, 0)`. An entry of a block sits in the array, on each axis, at (block index) × (block size) + (its
coordinate inside the block). So entry `(r, s)` of the Laplacian tile at `t` is entry `(2048 i + r, 2048 k + s)` of the
Laplacian, and likewise for the others.

Each lemma takes the array coordinates as variables with their equations as hypotheses, so that it can be cited at
whatever spelling of the coordinates the caller has.
-/

set_option maxRecDepth 16384

noncomputable section

namespace Cert.KernelIdeal.Hop0

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

variable {F : FTy → Type} [FloatOps F]
variable (V : (c : Dev nD) → (b : Ref sig .tc) → Buf (Elt F) ((c : Thread nD τ).loc b))

/-- The printed index maps, decided once over the sixteen points: at point `t` the Laplacian tile is block
    `(t / 4, t mod 4)`, the feature tile block `(t mod 4, 0)`, the weight matrix block `(0, 0)`, and the incoming block
    and both output blocks are block `(t / 4, 0)`. -/
theorem index_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0
    ∧ win0_4.index t (0 : Fin 2) = t.val / 4 ∧ win0_4.index t (1 : Fin 2) = 0
    ∧ win0_5.index t (0 : Fin 2) = t.val / 4 ∧ win0_5.index t (1 : Fin 2) = 0 :=
  (by decide +kernel : ∀ t : Fin grid0.N, _)

/-- The Laplacian tile at point `t`: rows `2048 (t / 4) …`, columns `2048 (t mod 4) …` of the Laplacian. -/
theorem laplacian_block (c : Dev nD) (t : Fin cfg0.N) (r s : Fin 2048) (p u : Fin 8192)
    (hp : p.val = 2048 * (t.val / 4) + r.val) (hu : u.val = 2048 * (t.val % 4) + s.val) :
    (iblk V c 0 t : Vec F S2048x2048 .bf16) (ix2 r s) = (dat V c).A 0 (ix2 p u) := by
  obtain ⟨e0, e1, -⟩ := index_facts t
  unfold iblk
  rw [View.read_apply, A_eq]
  show V c (Pipeline.arrRef spec0 0) _ = V c (Pipeline.arrRef spec0 0) _
  refine congrArg (V c (Pipeline.arrRef spec0 0)) ?_
  funext a
  apply Fin.ext
  match a with
  | ⟨0, _⟩ => show win0_0.index t (0 : Fin 2) * 2048 + 1 * r.val = p.val; omega
  | ⟨1, _⟩ => show win0_0.index t (1 : Fin 2) * 2048 + 1 * s.val = u.val; omega

/-- The feature tile at point `t`: rows `2048 (t mod 4) …` of the features, all sixteen columns. -/
theorem features_block (c : Dev nD) (t : Fin cfg0.N) (s : Fin 2048) (q : Fin 16) (u : Fin 8192)
    (hu : u.val = 2048 * (t.val % 4) + s.val) :
    (iblk V c 1 t : Vec F S2048x16 .f32) (ix2 s q) = (dat V c).A 1 (ix2 u q) := by
  obtain ⟨-, -, e0, e1, -⟩ := index_facts t
  unfold iblk
  rw [View.read_apply, A_eq]
  show V c (Pipeline.arrRef spec0 1) _ = V c (Pipeline.arrRef spec0 1) _
  refine congrArg (V c (Pipeline.arrRef spec0 1)) ?_
  funext a
  apply Fin.ext
  match a with
  | ⟨0, _⟩ => show win0_1.index t (0 : Fin 2) * 2048 + 1 * s.val = u.val; omega
  | ⟨1, _⟩ => show win0_1.index t (1 : Fin 2) * 16 + 1 * q.val = q.val; omega

/-- The weight window's block is the weight matrix, at every point. -/
theorem weights_block (c : Dev nD) (t : Fin cfg0.N) (j q : Fin 16) :
    (iblk V c 2 t : Vec F S16x16 .f32) (ix2 j q) = (dat V c).A 2 (ix2 j q) := by
  obtain ⟨-, -, -, -, e0, e1, -⟩ := index_facts t
  unfold iblk
  rw [View.read_apply, A_eq]
  show V c (Pipeline.arrRef spec0 2) _ = V c (Pipeline.arrRef spec0 2) _
  refine congrArg (V c (Pipeline.arrRef spec0 2)) ?_
  funext a
  apply Fin.ext
  match a with
  | ⟨0, _⟩ => show win0_2.index t (0 : Fin 2) * 16 + 1 * j.val = j.val; omega
  | ⟨1, _⟩ => show win0_2.index t (1 : Fin 2) * 16 + 1 * q.val = q.val; omega

/-- The incoming running-output block at point `t`: rows `2048 (t / 4) …` of the incoming running output. -/
theorem incoming_block (c : Dev nD) (t : Fin cfg0.N) (r : Fin 2048) (q : Fin 16) (p : Fin 8192)
    (hp : p.val = 2048 * (t.val / 4) + r.val) :
    (iblk V c 3 t : Vec F S2048x16 .f32) (ix2 r q) = (dat V c).A 3 (ix2 p q) := by
  obtain ⟨-, -, -, -, -, -, e0, e1, -⟩ := index_facts t
  unfold iblk
  rw [View.read_apply, A_eq]
  show V c (Pipeline.arrRef spec0 3) _ = V c (Pipeline.arrRef spec0 3) _
  refine congrArg (V c (Pipeline.arrRef spec0 3)) ?_
  funext a
  apply Fin.ext
  match a with
  | ⟨0, _⟩ => show win0_3.index t (0 : Fin 2) * 2048 + 1 * r.val = p.val; omega
  | ⟨1, _⟩ => show win0_3.index t (1 : Fin 2) * 16 + 1 * q.val = q.val; omega

end Cert.KernelIdeal.Hop0

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.HopEntries.lean ====
import proofs.«155136_j78743930404901_2_alg».proof.Proof.Gen.KernelIdeal.Skeleton
import proofs.«155136_j78743930404901_2_alg».proof.Proof.LibPlainDot
import Idealize.ShloMosaic.Lib.Pipeline.Value

/-!
# What one grid point of the first propagation step computes, entry by entry

The step `xp ↦ L · xp` is tiled: grid point `(i, k)` holds rows `2048 i …` of the Laplacian restricted to
columns `2048 k …`, and rows `2048 k …` of the features. A scratch block `S` of 2048 × 16 partial sums lives across
the four points of a row of tiles:

* at `k = 0` it is first reset to zero;
* at every point it becomes `S + (Laplacian tile) · (feature tile)`: entry `(r, c)` grows by
  `∑ s < 2048, Ltile (r, s) * Xtile (s, c)`;
* at `k = 3` the finished block is the new features' row block, and the running output block becomes
  `acc (r, c) + max (∑ j < 16, S (r, j) * W (j, c)) 0`.

Exact arithmetic on the extended reals: the roundings to sixteen bits in front of both products are the identity
there, a shape cast to the same shape changes nothing, and a product into a zero start is the bare sum.
-/

noncomputable section

namespace Cert.KernelIdeal.HopEntries

open Cert.KernelIdeal Cert.KernelIdeal.Gen Idealize.ShloMosaic Idealize.ShloMosaic.ValueIdx

/-- The tile product contracts the Laplacian tile's columns against the feature tile's rows. -/
theorem tile_plain : Cert.PlainDot.IsPlain dot_S2048x2048_S2048x16_S2048x16_1_0_0_1_n_n := ⟨rfl, rfl, rfl, rfl, rfl, rfl⟩

/-- The weight product contracts the block's 16 channels against the weight matrix's rows. -/
theorem weight_plain : Cert.PlainDot.IsPlain dot_S2048x16_S16x16_S2048x16_1_0_0_1_n_n := ⟨rfl, rfl, rfl, rfl, rfl, rfl⟩

/-- The reset writes zero everywhere. -/
theorem reset_apply (j : S2048x16.Idx) : k0_pay1 (F := Ideal) j = 0 := by
  unfold k0_pay1
  rw [shapeCast_self]
  exact Ideal.ofBits_zero_f32

/-- One accumulation: the scratch entry plus the tile product's entry. -/
theorem accumulate_apply (lt : Vec Ideal S2048x2048 .bf16) (xt : Vec Ideal S2048x16 .f32) (sc : Vec Ideal S2048x16 .f32)
    (r : Fin 2048) (c : Fin 16) :
    k0_pay2 (F := Ideal) lt xt sc (ix2 r c) = sc (ix2 r c) + ∑ s : Fin 2048, lt (ix2 r s) * xt (ix2 s c) := by
  unfold k0_pay2
  rw [shapeCast_self, shapeCast_self, addf_apply]
  refine congrArg (sc (ix2 r c) + ·) ?_
  refine (Ideal.matmul_constant_zero_apply _ none lt (truncf (F := Ideal) .bf16 xt bitsLt_bf16_f32) (ix2 r c)).trans ?_
  exact Cert.PlainDot.sum_contr _ tile_plain lt (truncf (F := Ideal) .bf16 xt bitsLt_bf16_f32) r c

/-- The finishing store of the running output: the incoming entry plus the rectified weight product's entry. -/
theorem finish_apply (sc : Vec Ideal S2048x16 .f32) (w : Vec Ideal S16x16 .f32) (acc : Vec Ideal S2048x16 .f32)
    (r : Fin 2048) (c : Fin 16) :
    k0_pay3 (F := Ideal) sc w acc (ix2 r c) = acc (ix2 r c) + max (∑ j : Fin 16, sc (ix2 r j) * w (ix2 j c)) 0 := by
  unfold k0_pay3
  rw [shapeCast_self, shapeCast_self, addf_apply, maximumf_apply, broadcast_apply]
  refine congrArg (acc (ix2 r c) + ·) ?_
  refine congrArg₂ max ?_ Ideal.ofBits_zero_f32
  refine (Ideal.matmul_constant_zero_apply _ none (truncf (F := Ideal) .bf16 sc bitsLt_bf16_f32) (truncf (F := Ideal) .bf16 w bitsLt_bf16_f32) (ix2 r c)).trans ?_
  exact Cert.PlainDot.sum_contr _ weight_plain (truncf (F := Ideal) .bf16 sc bitsLt_bf16_f32) (truncf (F := Ideal) .bf16 w bitsLt_bf16_f32) r c

end Cert.KernelIdeal.HopEntries

end
-- ==== Proof.LibBlockSum.lean ====
import Mathlib.Algebra.BigOperators.Fin
import Mathlib.Logic.Equiv.Fin.Basic

/-!
# A sum over `Fin (k * n)`, taken block by block

A contraction over `k * n` terms may be computed as `k` partial sums of `n` consecutive terms each, added up in
any order: in a commutative monoid the total does not depend on the grouping. Cut `Fin (k * n)` into `k`
consecutive blocks of length `n`; term `s` of block `b` is the term at position `s + n * b`.

Nothing here needs the terms to be finite: only commutativity and associativity of `+` are used, so the lemmas
hold on the extended reals as they stand.
-/

namespace BlockSum

/-- Position `s` inside block `b`, as a position of the whole range: `s + n * b`. -/
def idx {k n : ℕ} (b : Fin k) (s : Fin n) : Fin (k * n) := finProdFinEquiv (b, s)

/-- The position's value. -/
theorem idx_val {k n : ℕ} (b : Fin k) (s : Fin n) : (idx b s).val = s.val + n * b.val := rfl

/-- The whole sum is the sum over the blocks of each block's own sum. -/
theorem sum_eq_sum_blocks {M : Type*} [AddCommMonoid M] {k n : ℕ} (f : Fin (k * n) → M) :
    ∑ t, f t = ∑ b : Fin k, ∑ s : Fin n, f (idx b s) :=
  calc ∑ t, f t = ∑ p : Fin k × Fin n, f (finProdFinEquiv p) := (Equiv.sum_comp finProdFinEquiv f).symm
    _ = ∑ b : Fin k, ∑ s : Fin n, f (idx b s) := Fintype.sum_prod_type _

/-- Four partial sums added one after the other onto a zero start are their total. -/
theorem acc_four {M : Type*} [AddCommMonoid M] (T : Fin 4 → M) : 0 + T 0 + T 1 + T 2 + T 3 = ∑ b, T b := by
  rw [Fin.sum_univ_four, zero_add]

end BlockSum
-- ==== Proof.Hop0Rows.lean ====
import proofs.«155136_j78743930404901_2_alg».proof.Proof.Hop0Pieces
import proofs.«155136_j78743930404901_2_alg».proof.Proof.Hop0Blocks
import proofs.«155136_j78743930404901_2_alg».proof.Proof.HopEntries
import proofs.«155136_j78743930404901_2_alg».proof.Proof.LibBlockSum
import Idealize.ShloMosaic.Lib.Pipeline.Value
import Idealize.ShloMosaic.Lib.ValueIdx

/-!
# The first propagation step: a row of tiles, entry by entry

The step's grid is 4 × 4, point `t = 4 i + k`. Along a row of tiles the scratch block is reset at `k = 0` and grows by
one tile product at every point, so after the row's last point its entry `(r, q)` is the sum over the four tiles
`k` of `∑ s < 2048, L (2048 i + r, 2048 k + s) * X (2048 k + s, q)`. The four partial sums are the four consecutive
blocks of the one sum over all 8192 columns of the Laplacian's row `2048 i + r`: the finished block's entry `(r, q)` is
entry `(2048 i + r, q)` of the Laplacian times the features.

First the recursion over the points is read through the body's arithmetic (for any float instance); then, over the
extended reals, where sums may be regrouped freely, the entries.
-/

set_option maxRecDepth 16384

noncomputable section

namespace Cert.KernelIdeal.Hop0

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

/-! ## Along the recursion over the points -/

section Along

variable {F : FTy → Type} [FloatOps F]
variable (V : (c : Dev nD) → (b : Ref sig .tc) → Buf (Elt F) ((c : Thread nD τ).loc b))

/-- After the first point of a row the scratch is the tile product added onto the zero fill. -/
theorem scratch_first (c : Dev nD) (n : ℕ) (hn : n < cfg0.N) (h0 : n % 4 = 0) :
    (outsAt V c n hn).2.2 = k0_pay2 (iblk V c 0 ⟨n, hn⟩) (iblk V c 1 ⟨n, hn⟩) k0_pay1 := by
  have hL : ¬isLast (grid0.coords (⟨n, hn⟩ : Fin cfg0.N)) := fun h => by
    have := (isLast_iff ⟨n, hn⟩).mp h; dsimp only at this; omega
  rw [show outsAt V c n hn = outsAt V c (⟨n, hn⟩ : Fin cfg0.N).val (⟨n, hn⟩ : Fin cfg0.N).isLt from rfl,
    outsAt_first V c ⟨n, hn⟩ h0 hL]
  dsimp only
  exact scFirst_eq c ⟨n, hn⟩ ((isFirst_iff ⟨n, hn⟩).mpr h0) hL (iblk V c 0 ⟨n, hn⟩) (iblk V c 1 ⟨n, hn⟩)

/-- After a middle point it is the tile product added onto what the point before left. -/
theorem scratch_middle (c : Dev nD) (n : ℕ) (hn : n + 1 < cfg0.N) (h0 : ¬(n + 1) % 4 = 0) (h3 : ¬(n + 1) % 4 = 3) :
    (outsAt V c (n + 1) hn).2.2
      = k0_pay2 (iblk V c 0 ⟨n + 1, hn⟩) (iblk V c 1 ⟨n + 1, hn⟩) (outsAt V c n (Nat.lt_of_succ_lt hn)).2.2 := by
  rw [outsAt_middle V c ⟨n + 1, hn⟩ h0 h3]
  dsimp only
  simp only [Nat.add_sub_cancel]
  exact scMiddle_eq c ⟨n + 1, hn⟩ (fun h => h0 ((isFirst_iff ⟨n + 1, hn⟩).mp h)) (fun h => h3 ((isLast_iff ⟨n + 1, hn⟩).mp h))
    (iblk V c 0 ⟨n + 1, hn⟩) (iblk V c 1 ⟨n + 1, hn⟩) (outsAt V c n (Nat.lt_of_succ_lt hn)).2.2

/-- After the last point of a row the new features' block is the finished scratch … -/
theorem features_last (c : Dev nD) (n : ℕ) (hn : n + 1 < cfg0.N) (h3 : (n + 1) % 4 = 3) :
    (outsAt V c (n + 1) hn).1
      = k0_pay2 (iblk V c 0 ⟨n + 1, hn⟩) (iblk V c 1 ⟨n + 1, hn⟩) (outsAt V c n (Nat.lt_of_succ_lt hn)).2.2 := by
  have h0 : ¬(n + 1) % 4 = 0 := by omega
  rw [outsAt_last V c ⟨n + 1, hn⟩ h0 h3]
  dsimp only
  simp only [Nat.add_sub_cancel]
  exact out4Last_eq c ⟨n + 1, hn⟩ (fun h => h0 ((isFirst_iff ⟨n + 1, hn⟩).mp h)) ((isLast_iff ⟨n + 1, hn⟩).mpr h3)
    (iblk V c 0 ⟨n + 1, hn⟩) (iblk V c 1 ⟨n + 1, hn⟩) (iblk V c 2 ⟨n + 1, hn⟩) (iblk V c 3 ⟨n + 1, hn⟩)
    (outsAt V c n (Nat.lt_of_succ_lt hn)).2.2

/-- … and the running output's block is the incoming block plus the rectified weight product of that finished scratch. -/
theorem running_last (c : Dev nD) (n : ℕ) (hn : n + 1 < cfg0.N) (h3 : (n + 1) % 4 = 3) :
    (outsAt V c (n + 1) hn).2.1
      = k0_pay3 (k0_pay2 (iblk V c 0 ⟨n + 1, hn⟩) (iblk V c 1 ⟨n + 1, hn⟩) (outsAt V c n (Nat.lt_of_succ_lt hn)).2.2)
          (iblk V c 2 ⟨n + 1, hn⟩) (iblk V c 3 ⟨n + 1, hn⟩) := by
  have h0 : ¬(n + 1) % 4 = 0 := by omega
  rw [outsAt_last V c ⟨n + 1, hn⟩ h0 h3]
  dsimp only
  simp only [Nat.add_sub_cancel]
  exact out5Last_eq c ⟨n + 1, hn⟩ (fun h => h0 ((isFirst_iff ⟨n + 1, hn⟩).mp h)) ((isLast_iff ⟨n + 1, hn⟩).mpr h3)
    (iblk V c 0 ⟨n + 1, hn⟩) (iblk V c 1 ⟨n + 1, hn⟩) (iblk V c 2 ⟨n + 1, hn⟩) (iblk V c 3 ⟨n + 1, hn⟩)
    (outsAt V c n (Nat.lt_of_succ_lt hn)).2.2

end Along

/-! ## The row of tiles, entry by entry -/

variable (V : (c : Dev nD) → (b : Ref sig .tc) → Buf (Elt Ideal) ((c : Thread nD τ).loc b))

/-- Entry `(r, q)` of a Laplacian tile times a feature tile. -/
def tileProd (lt : Vec Ideal S2048x2048 .bf16) (xt : Vec Ideal S2048x16 .f32) (r : Fin 2048) (q : Fin 16) : EReal :=
  ∑ s : Fin 2048, lt (ix2 r s) * xt (ix2 s q)

/-- The same for the two tiles of point `t`. -/
def tile (c : Dev nD) (t : Fin cfg0.N) (r : Fin 2048) (q : Fin 16) : EReal :=
  tileProd (iblk V c 0 t) (iblk V c 1 t) r q

/-- After the first point of a row a scratch entry is zero plus the tile product's entry. -/
theorem scratch_entry_first (c : Dev nD) (n : ℕ) (hn : n < cfg0.N) (h0 : n % 4 = 0) (r : Fin 2048) (q : Fin 16) :
    (outsAt V c n hn).2.2 (ix2 r q) = 0 + tile V c ⟨n, hn⟩ r q := by
  rw [scratch_first V c n hn h0]
  refine (HopEntries.accumulate_apply (iblk V c 0 ⟨n, hn⟩) (iblk V c 1 ⟨n, hn⟩) (k0_pay1 (F := Ideal)) r q).trans ?_
  rw [HopEntries.reset_apply]
  rfl

/-- After a middle point it is the entry the point before left plus the tile product's entry. -/
theorem scratch_entry_middle (c : Dev nD) (n : ℕ) (hn : n + 1 < cfg0.N) (h0 : ¬(n + 1) % 4 = 0) (h3 : ¬(n + 1) % 4 = 3)
    (r : Fin 2048) (q : Fin 16) :
    (outsAt V c (n + 1) hn).2.2 (ix2 r q)
      = (outsAt V c n (Nat.lt_of_succ_lt hn)).2.2 (ix2 r q) + tile V c ⟨n + 1, hn⟩ r q := by
  rw [scratch_middle V c n hn h0 h3]
  exact HopEntries.accumulate_apply (iblk V c 0 ⟨n + 1, hn⟩) (iblk V c 1 ⟨n + 1, hn⟩) (outsAt V c n (Nat.lt_of_succ_lt hn)).2.2 r q

/-- After the last point of a row an entry of the new features' block is the scratch entry the point before left plus
    the tile product's entry. -/
theorem features_entry_last (c : Dev nD) (n : ℕ) (hn : n + 1 < cfg0.N) (h3 : (n + 1) % 4 = 3) (r : Fin 2048) (q : Fin 16) :
    (outsAt V c (n + 1) hn).1 (ix2 r q)
      = (outsAt V c n (Nat.lt_of_succ_lt hn)).2.2 (ix2 r q) + tile V c ⟨n + 1, hn⟩ r q := by
  rw [features_last V c n hn h3]
  exact HopEntries.accumulate_apply (iblk V c 0 ⟨n + 1, hn⟩) (iblk V c 1 ⟨n + 1, hn⟩) (outsAt V c n (Nat.lt_of_succ_lt hn)).2.2 r q

/-- The `b`-th point of the row of tiles that starts at point `n`. -/
abbrev rowPoint (n : ℕ) (hn : n + 3 < cfg0.N) (b : Fin 4) : Fin cfg0.N :=
  ⟨n + b.val, Nat.lt_of_le_of_lt (Nat.add_le_add_left (Nat.le_of_lt_succ b.isLt) n) hn⟩

/-- After a whole row of tiles, starting at point `n`, an entry of the new features' block is the sum of the four tile
    products' entries. -/
theorem features_row (c : Dev nD) (n : ℕ) (hn : n + 3 < cfg0.N) (h : n % 4 = 0) (r : Fin 2048) (q : Fin 16) :
    (outsAt V c (n + 3) hn).1 (ix2 r q) = ∑ b : Fin 4, tile V c (rowPoint n hn b) r q := by
  have h2 : n + 2 < cfg0.N := Nat.lt_of_succ_lt hn
  have h1 : n + 1 < cfg0.N := Nat.lt_of_succ_lt h2
  have h0 : n < cfg0.N := Nat.lt_of_succ_lt h1
  refine Eq.trans ?_ (BlockSum.acc_four (fun b : Fin 4 => tile V c (rowPoint n hn b) r q))
  show (outsAt V c (n + 2 + 1) hn).1 (ix2 r q)
    = 0 + tile V c ⟨n, h0⟩ r q + tile V c ⟨n + 1, h1⟩ r q + tile V c ⟨n + 1 + 1, h2⟩ r q + tile V c ⟨n + 2 + 1, hn⟩ r q
  rw [features_entry_last V c (n + 2) hn (by omega) r q]
  show (outsAt V c (n + 1 + 1) h2).2.2 (ix2 r q) + _ = _
  rw [scratch_entry_middle V c (n + 1) h2 (by omega) (by omega) r q,
    scratch_entry_middle V c n h1 (by omega) (by omega) r q, scratch_entry_first V c n h0 h r q]

/-! ## The arrays at their literal types -/

/-- The step's four input arrays as it finds them — the Laplacian, the features, the weight matrix, the incoming running
    output — and its two output arrays after it, each at its literal type, so that entries can be multiplied and added as
    extended reals. -/
abbrev inL (c : Dev nD) : Vec Ideal S8192x8192 .bf16 := (dat V c).A 0
abbrev inX (c : Dev nD) : Vec Ideal S8192x16 .f32 := (dat V c).A 1
abbrev inW (c : Dev nD) : Vec Ideal S16x16 .f32 := (dat V c).A 2
abbrev inR (c : Dev nD) : Vec Ideal S8192x16 .f32 := (dat V c).A 3
abbrev outX (c : Dev nD) : Vec Ideal S8192x16 .f32 := (dat V c).arrAt 4 cfg0.N
abbrev outR (c : Dev nD) : Vec Ideal S8192x16 .f32 := (dat V c).arrAt 5 cfg0.N

/-! ## The four tile products are the four blocks of one contraction -/

/-- Entry `(p, q)` of the Laplacian times the features: the contraction over all 8192 columns of row `p`. -/
def feat (c : Dev nD) (p : Fin 8192) (q : Fin 16) : EReal :=
  ∑ u : Fin 8192, inL V c (ix2 p u) * inX V c (ix2 u q)

/-- A tile product's entry is one block of that contraction: at a point of tile `b` in its row, the columns
    `2048 b …`. -/
theorem tile_eq (c : Dev nD) (t : Fin cfg0.N) (b : Fin 4) (hb : t.val % 4 = b.val) (r : Fin 2048) (q : Fin 16)
    (p : Fin 8192) (hp : p.val = 2048 * (t.val / 4) + r.val) :
    tile V c t r q = ∑ s : Fin 2048, inL V c (ix2 p (BlockSum.idx b s)) * inX V c (ix2 (BlockSum.idx b s) q) := by
  unfold tile tileProd
  refine Finset.sum_congr rfl fun s _ => ?_
  have hu : (BlockSum.idx b s : Fin (4 * 2048)).val = 2048 * (t.val % 4) + s.val := by rw [BlockSum.idx_val, hb]; omega
  exact congrArg₂ (· * ·) (laplacian_block V c t r s p (BlockSum.idx b s) hp hu) (features_block V c t s q (BlockSum.idx b s) hu)

/-- The contraction, block by block. -/
theorem feat_blocks (c : Dev nD) (p : Fin 8192) (q : Fin 16) :
    feat V c p q = ∑ b : Fin 4, ∑ s : Fin 2048, inL V c (ix2 p (BlockSum.idx b s)) * inX V c (ix2 (BlockSum.idx b s) q) := by
  unfold feat
  exact BlockSum.sum_eq_sum_blocks (k := 4) (n := 2048) (fun u : Fin (4 * 2048) => inL V c (ix2 p u) * inX V c (ix2 u q))

/-- After the last point `t` of a row of tiles, entry `(r, q)` of the new features' block is entry `(2048 (t / 4) + r, q)`
    of the Laplacian times the features. -/
theorem features_block_entry (c : Dev nD) (t : Fin cfg0.N) (h3 : t.val % 4 = 3) (r : Fin 2048) (q : Fin 16)
    (p : Fin 8192) (hp : p.val = 2048 * (t.val / 4) + r.val) :
    (outsAt V c t.val t.isLt).1 (ix2 r q) = feat V c p q := by
  obtain ⟨n, hn, h0, rfl⟩ : ∃ (n : ℕ) (hn : n + 3 < cfg0.N), n % 4 = 0 ∧ t = ⟨n + 3, hn⟩ :=
    ⟨t.val - 3, by have := t.isLt; omega, by omega, Fin.ext (by show t.val = t.val - 3 + 3; omega)⟩
  dsimp only at hp h3
  show (outsAt V c (n + 3) hn).1 (ix2 r q) = _
  rw [features_row V c n hn h0 r q, feat_blocks V c p q]
  refine Finset.sum_congr rfl fun b _ => ?_
  exact tile_eq V c (rowPoint n hn b) b (by show (n + b.val) % 4 = b.val; have := b.isLt; omega) r q p
    (by show p.val = 2048 * ((n + b.val) / 4) + r.val; have := b.isLt; omega)

end Cert.KernelIdeal.Hop0

end
-- ==== Proof.Hop0Value.lean ====
import proofs.«155136_j78743930404901_2_alg».proof.Proof.Hop0Rows
import proofs.«155136_j78743930404901_2_alg».proof.Proof.Hop0Blocks
import proofs.«155136_j78743930404901_2_alg».proof.Proof.HopEntries
import Idealize.ShloMosaic.Lib.Pipeline.Value
import Idealize.ShloMosaic.Lib.ValueIdx

/-!
# The first propagation step: the two output arrays, entry by entry

At the last point of row-block `i` the finished scratch block — rows `2048 i …` of the Laplacian times the features —
is written back as rows `2048 i …` of the new features' array, and the running output's rows `2048 i …` are written
back as the incoming rows plus the rectified product of the finished block with the weight matrix. The four row
blocks cover both arrays, so after the step

* entry `(p, q)` of the new features is `∑ u < 8192, L (p, u) * X (u, q)`;
* entry `(p, q)` of the running output is the incoming entry plus `max (∑ j < 16, new (p, j) * W (j, q)) 0`.
-/

set_option maxRecDepth 16384

noncomputable section

namespace Cert.KernelIdeal.Hop0

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## What the write-backs write, that they cover, and the two arrays after the step -/

/-- The same with the column given by value. -/
theorem features_block_entry' (c : Dev nD) (t : Fin cfg0.N) (h3 : t.val % 4 = 3) (r : Fin 2048) (q : Fin 16)
    (p : Fin 8192) (q' : Fin 16) (hp : p.val = 2048 * (t.val / 4) + r.val) (hq : q'.val = q.val) :
    (outsAt V c t.val t.isLt).1 (ix2 r q) = feat V c p q' := by
  obtain rfl : q' = q := Fin.ext hq
  exact features_block_entry V c t h3 r q' p hp

/-- Entry `(p, q)` of the running output after the step: the incoming entry plus the rectified product of the new
    features' row `p` with the weight matrix's column `q`. -/
def run (c : Dev nD) (p : Fin 8192) (q : Fin 16) : EReal :=
  inR V c (ix2 p q) + max (∑ j : Fin 16, feat V c p j * inW V c (ix2 j q)) 0

/-- After the last point `t` of a row of tiles, entry `(r, q)` of the running output's block is that, at row
    `2048 (t / 4) + r`. -/
theorem running_block_entry (c : Dev nD) (t : Fin cfg0.N) (h3 : t.val % 4 = 3) (r : Fin 2048) (q : Fin 16)
    (p : Fin 8192) (q' : Fin 16) (hp : p.val = 2048 * (t.val / 4) + r.val) (hq : q'.val = q.val) :
    (outsAt V c t.val t.isLt).2.1 (ix2 r q) = run V c p q' := by
  obtain rfl : q' = q := Fin.ext hq
  obtain ⟨n, hn, h0, rfl⟩ : ∃ (n : ℕ) (hn : n + 3 < cfg0.N), n % 4 = 0 ∧ t = ⟨n + 3, hn⟩ :=
    ⟨t.val - 3, by have := t.isLt; omega, by omega, Fin.ext (by show t.val = t.val - 3 + 3; omega)⟩
  dsimp only at hp h3
  show (outsAt V c (n + 2 + 1) hn).2.1 (ix2 r q') = _
  rw [running_last V c (n + 2) hn (by omega), ← features_last V c (n + 2) hn (by omega)]
  refine (HopEntries.finish_apply (outsAt V c (n + 2 + 1) hn).1 (iblk V c 2 ⟨n + 2 + 1, hn⟩) (iblk V c 3 ⟨n + 2 + 1, hn⟩) r q').trans ?_
  unfold run
  refine congrArg₂ (· + ·) (incoming_block V c ⟨n + 2 + 1, hn⟩ r q' p hp) ?_
  refine congrArg (max · 0) ?_
  refine Finset.sum_congr rfl fun j _ => ?_
  exact congrArg₂ (· * ·) (features_block_entry V c ⟨n + 2 + 1, hn⟩ h3 r j p hp) (weights_block V c ⟨n + 2 + 1, hn⟩ j q')

/-- The new features' array and the running output's array after the step, each as one function of the inputs. -/
def featArr (c : Dev nD) : S8192x16.Idx → EReal := fun i => feat V c (i 0) (i 1)
def runArr (c : Dev nD) : S8192x16.Idx → EReal := fun i => run V c (i 0) (i 1)

/-- What the last point of a row writes back into the new features' array is its block of that function. -/
theorem flushed_features (c : Dev nD) (t : Fin cfg0.N) (hf : (cfg0.win 4).flush t = true) :
    (dat V c).flushed 4 t = ((cfg0.win 4).blk t).view.read (Elt Ideal) (featArr V c) := by
  have h3 : t.val % 4 = 3 := (flush0_4 t).mp hf
  obtain ⟨-, -, -, -, -, -, -, -, e0, e1, -⟩ := index_facts t
  show (cfg0.win 4).cut (grid0.coords t) ((dat V c).after 4 t) = _
  rw [after4]
  funext y
  rw [View.read_apply]
  show (outsAt V c t.val t.isLt).1 ((cfg0.win 4).xinj (grid0.coords t) y) = featArr V c (((cfg0.win 4).blk t).view.emb y)
  unfold featArr
  refine (congrArg (outsAt V c t.val t.isLt).1 (eq_ix2 (n0 := 2048) (n1 := 16) ((cfg0.win 4).xinj (grid0.coords t) y))).trans ?_
  exact features_block_entry' V c t h3 _ _ _ _
    (by show win0_4.index t (0 : Fin 2) * 2048 + 1 * (y 0).val = 2048 * (t.val / 4) + (y 0).val; omega)
    (by show win0_4.index t (1 : Fin 2) * 16 + 1 * (y 1).val = (y 1).val; omega)

/-- The same for the running output's array. -/
theorem flushed_running (c : Dev nD) (t : Fin cfg0.N) (hf : (cfg0.win 5).flush t = true) :
    (dat V c).flushed 5 t = ((cfg0.win 5).blk t).view.read (Elt Ideal) (runArr V c) := by
  have h3 : t.val % 4 = 3 := (flush0_5 t).mp hf
  obtain ⟨-, -, -, -, -, -, -, -, -, -, e0, e1⟩ := index_facts t
  show (cfg0.win 5).cut (grid0.coords t) ((dat V c).after 5 t) = _
  rw [after5]
  funext y
  rw [View.read_apply]
  show (outsAt V c t.val t.isLt).2.1 ((cfg0.win 5).xinj (grid0.coords t) y) = runArr V c (((cfg0.win 5).blk t).view.emb y)
  unfold runArr
  refine (congrArg (outsAt V c t.val t.isLt).2.1 (eq_ix2 (n0 := 2048) (n1 := 16) ((cfg0.win 5).xinj (grid0.coords t) y))).trans ?_
  exact running_block_entry V c t h3 _ _ _ _
    (by show win0_5.index t (0 : Fin 2) * 2048 + 1 * (y 0).val = 2048 * (t.val / 4) + (y 0).val; omega)
    (by show win0_5.index t (1 : Fin 2) * 16 + 1 * (y 1).val = (y 1).val; omega)

/-- Row `p` of either output array lies in the block written back at the last point of row-block `p / 2048`. -/
theorem cover_features (i : S8192x16.Idx) :
    ∃ t : Fin cfg0.N, (cfg0.win 4).flush t = true ∧ i ∈ ((cfg0.win 4).blk t).view.set := by
  have hi0 : (i 0).val < 8192 := (i 0).isLt
  have hi1 : (i 1).val < 16 := (i 1).isLt
  have hN : cfg0.N = 16 := N_0
  obtain ⟨t, ht⟩ : ∃ t : Fin cfg0.N, t.val = 4 * ((i 0).val / 2048) + 3 := ⟨⟨4 * ((i 0).val / 2048) + 3, by omega⟩, rfl⟩
  obtain ⟨-, -, -, -, -, -, -, -, e0, e1, -⟩ := index_facts t
  refine ⟨t, (flush0_4 t).mpr (by omega), ?_⟩
  show i ∈ ((View.whole (Pipeline.arrRef spec0 4)).slice (win0_4.rect t)).set
  rw [View.set_slice_whole, Rect.mem_set_unit]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 16 ≤ (i 1).val ∧ (i 1).val < win0_4.index t (1 : Fin 2) * 16 + 16
    omega

theorem cover_running (i : S8192x16.Idx) :
    ∃ t : Fin cfg0.N, (cfg0.win 5).flush t = true ∧ i ∈ ((cfg0.win 5).blk t).view.set := by
  have hi0 : (i 0).val < 8192 := (i 0).isLt
  have hi1 : (i 1).val < 16 := (i 1).isLt
  have hN : cfg0.N = 16 := N_0
  obtain ⟨t, ht⟩ : ∃ t : Fin cfg0.N, t.val = 4 * ((i 0).val / 2048) + 3 := ⟨⟨4 * ((i 0).val / 2048) + 3, by omega⟩, rfl⟩
  obtain ⟨-, -, -, -, -, -, -, -, -, -, e0, e1⟩ := index_facts t
  refine ⟨t, (flush0_5 t).mpr (by omega), ?_⟩
  show i ∈ ((View.whole (Pipeline.arrRef spec0 5)).slice (win0_5.rect t)).set
  rw [View.set_slice_whole, Rect.mem_set_unit]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 16 ≤ (i 1).val ∧ (i 1).val < win0_5.index t (1 : Fin 2) * 16 + 16
    omega

/-- The four row blocks cover each output array, so after the step each is its function of the inputs. -/
theorem features_final (c : Dev nD) : (dat V c).arrAt 4 cfg0.N = featArr V c :=
  (dat V c).arrAt_eq_of_cover 4 (featArr V c) (fun t hf => flushed_features V c t hf) cover_features

theorem running_final (c : Dev nD) : (dat V c).arrAt 5 cfg0.N = runArr V c :=
  (dat V c).arrAt_eq_of_cover 5 (runArr V c) (fun t hf => flushed_running V c t hf) cover_running

/-- After the step, entry `(p, q)` of the new features' array is the sum over all 8192 columns of the Laplacian row
    `p` times the features' column `q`. -/
theorem features_out_apply (c : Dev nD) (p : Fin 8192) (q : Fin 16) :
    outX V c (ix2 p q) = ∑ t : Fin 8192, inL V c (ix2 p t) * inX V c (ix2 t q) := by
  show (dat V c).arrAt 4 cfg0.N (ix2 p q) = _
  rw [features_final V c]
  rfl

/-- After the step, entry `(p, q)` of the running output's array is the incoming entry plus the rectified product of
    the NEW features' row `p` with the weight matrix's column `q`. -/
theorem running_out_apply (c : Dev nD) (p : Fin 8192) (q : Fin 16) :
    outR V c (ix2 p q)
      = inR V c (ix2 p q) + max (∑ j : Fin 16, outX V c (ix2 p j) * inW V c (ix2 j q)) 0 := by
  have e : ∀ j : Fin 16, feat V c p j = outX V c (ix2 p j) := fun j => (features_out_apply V c p j).symm
  show (dat V c).arrAt 5 cfg0.N (ix2 p q) = _
  rw [running_final V c]
  show run V c p q = _
  unfold run
  exact congrArg (inR V c (ix2 p q) + ·) (congrArg (max · 0)
    (Finset.sum_congr rfl fun j _ => congrArg (· * inW V c (ix2 j q)) (e j)))

end Cert.KernelIdeal.Hop0

end
-- ==== Proof.Hop1Pieces.lean ====
import proofs.«155136_j78743930404901_2_alg».proof.Proof.Hop1Data
import Idealize.ShloMosaic.Lib.Pipeline.Value

/-!
# The first propagation step: what each point leaves, as the body's arithmetic

Each run of the body leaves its stores' pieces; every store covers its block whole, so what a block ends holding is
the last store's payload, and a load that follows a store reads what was stored. Read that way:

* at the first point of a row of tiles the scratch ends at (zero fill) + (tile product);
* at a middle point at (what it held) + (tile product);
* at the last point the same, the new features' block is that finished scratch, and the running output's block is
  the incoming block plus the rectified weight product of the finished scratch.
-/

set_option maxRecDepth 16384

noncomputable section

namespace Cert.KernelIdeal.Hop1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One lemma per run and block -/

/-- Zero offsets, however spelt. -/
theorem hz : (![0, 0] : Fin 2 → Nat) = fun _ => 0 := funext fun a => by fin_cases a <;> rfl

/-- At the first point of a row the scratch ends with the tile product added onto the zero fill: the accumulation's
    load reads what the reset's store left. -/
theorem scFirst_eq (c : Dev nD) (t : Fin cfg1.N) (hF : isFirst (grid1.coords t)) (hL : ¬isLast (grid1.coords t))
    (lt : Vec F S2048x2048 .bf16) (xt : Vec F S2048x16 .f32) :
    scFirst c t hF hL lt xt = k1_pay2 lt xt k1_pay1 := by
  unfold scFirst
  rw [View.read_writes_eq_canon _ _ _ (scFirst_cover c t hF hL lt xt)]
  unfold firstRun runFirst
  dsimp only
  sl_unfold_words
  rw [View.canon_cons_unit_zero (S := S2048x16) hz, View.readCov_unit_zero (S := S2048x16) _ hz]
  simp only [View.readAt_eq_ld, (hs0 t).read_unread, (hs1 t).read_unread,
    View.ld_unit_zero (S := S2048x2048) hz, View.ld_unit_zero (S := S2048x16) hz]

/-- At a middle point the scratch ends with the tile product added onto what it held. -/
theorem scMiddle_eq (c : Dev nD) (t : Fin cfg1.N) (hF : ¬isFirst (grid1.coords t)) (hL : ¬isLast (grid1.coords t))
    (lt : Vec F S2048x2048 .bf16) (xt : Vec F S2048x16 .f32) (sc : Vec F S2048x16 .f32) :
    scMiddle c t hF hL lt xt sc = k1_pay2 lt xt sc := by
  unfold scMiddle
  rw [View.read_writes_eq_canon _ _ _ (scMiddle_cover c t hF hL lt xt sc)]
  unfold middleRun runMiddle
  dsimp only
  rw [View.canon_unit_zero hz]
  simp only [View.readAt_eq_ld, (hs0 t).read_unread, (hs1 t).read_unread, (Memref.isWhole_whole cc1_scratch0).read_unread,
    View.ld_unit_zero (S := S2048x2048) hz, View.ld_unit_zero (S := S2048x16) hz]

/-- At the last point of a row the scratch ends the same way: the finishing stores do not touch it. -/
theorem scLast_eq (c : Dev nD) (t : Fin cfg1.N) (hF : ¬isFirst (grid1.coords t)) (hL : isLast (grid1.coords t))
    (lt : Vec F S2048x2048 .bf16) (xt : Vec F S2048x16 .f32) (w : Vec F S16x16 .f32) (acc : Vec F S2048x16 .f32) (sc : Vec F S2048x16 .f32) :
    scLast c t hF hL lt xt w acc sc = k1_pay2 lt xt sc := by
  unfold scLast
  rw [View.read_writes_eq_canon _ _ _ (scLast_cover c t hF hL lt xt w acc sc)]
  unfold lastRun runLast
  dsimp only
  sl_unfold_words
  rw [View.canon_unit_zero hz]
  simp only [View.readAt_eq_ld, (hs0 t).read_unread, (hs1 t).read_unread, (Memref.isWhole_whole cc1_scratch0).read_unread,
    View.ld_unit_zero (S := S2048x2048) hz, View.ld_unit_zero (S := S2048x16) hz]

/-- The new features' block is the finished scratch: the store's payload is the load of what the accumulation left. -/
theorem out4Last_eq (c : Dev nD) (t : Fin cfg1.N) (hF : ¬isFirst (grid1.coords t)) (hL : isLast (grid1.coords t))
    (lt : Vec F S2048x2048 .bf16) (xt : Vec F S2048x16 .f32) (w : Vec F S16x16 .f32) (acc : Vec F S2048x16 .f32) (sc : Vec F S2048x16 .f32) :
    out4Last c t hF hL lt xt w acc sc = k1_pay2 lt xt sc := by
  unfold out4Last
  rw [View.read_writes_eq_canon _ _ _ (out4Last_cover c t hF hL lt xt w acc sc)]
  unfold lastRun runLast
  dsimp only
  sl_unfold_words
  rw [View.canon_unit_zero hz, View.readCov_unit_zero (S := S2048x16) _ hz]
  simp only [View.readAt_eq_ld, (hs0 t).read_unread, (hs1 t).read_unread, (Memref.isWhole_whole cc1_scratch0).read_unread,
    View.ld_unit_zero (S := S2048x2048) hz, View.ld_unit_zero (S := S2048x16) hz]

/-- The running output's block is the incoming block plus the rectified weight product of the finished scratch. -/
theorem out5Last_eq (c : Dev nD) (t : Fin cfg1.N) (hF : ¬isFirst (grid1.coords t)) (hL : isLast (grid1.coords t))
    (lt : Vec F S2048x2048 .bf16) (xt : Vec F S2048x16 .f32) (w : Vec F S16x16 .f32) (acc : Vec F S2048x16 .f32) (sc : Vec F S2048x16 .f32) :
    out5Last c t hF hL lt xt w acc sc = k1_pay3 (k1_pay2 lt xt sc) w acc := by
  unfold out5Last
  rw [View.read_writes_eq_canon _ _ _ (out5Last_cover c t hF hL lt xt w acc sc)]
  unfold lastRun runLast
  dsimp only
  sl_unfold_words
  rw [View.canon_unit_zero hz, View.readCov_unit_zero (S := S2048x16) _ hz]
  simp only [View.readAt_eq_ld, (hs0 t).read_unread, (hs1 t).read_unread, (hs2 t).read_unread, (hs3 t).read_unread,
    (Memref.isWhole_whole cc1_scratch0).read_unread,
    View.ld_unit_zero (S := S2048x2048) hz, View.ld_unit_zero (S := S2048x16) hz, View.ld_unit_zero (S := S16x16) hz]

end Cert.KernelIdeal.Hop1

end
-- ==== Proof.Hop1Blocks.lean ====
import proofs.«155136_j78743930404901_2_alg».proof.Proof.Hop1Data
import Idealize.ShloMosaic.Lib.Pipeline.Value
import Idealize.ShloMosaic.Lib.ValueIdx

/-!
# The first propagation step: the windows' blocks, read off the arrays

At point `t = 4 i + k` of the 4 × 4 grid the Laplacian window holds block `(i, k)` of its array, the feature window
block `(k, 0)`, the weight window the whole 16 × 16 matrix, and the incoming-output window and both output windows
block `(i, 0)`. An entry of a block sits in the array, on each axis, at (block index) × (block size) + (its
coordinate inside the block). So entry `(r, s)` of the Laplacian tile at `t` is entry `(2048 i + r, 2048 k + s)` of the
Laplacian, and likewise for the others.

Each lemma takes the array coordinates as variables with their equations as hypotheses, so that it can be cited at
whatever spelling of the coordinates the caller has.
-/

set_option maxRecDepth 16384

noncomputable section

namespace Cert.KernelIdeal.Hop1

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

variable {F : FTy → Type} [FloatOps F]
variable (V : (c : Dev nD) → (b : Ref sig .tc) → Buf (Elt F) ((c : Thread nD τ).loc b))

/-- The printed index maps, decided once over the sixteen points: at point `t` the Laplacian tile is block
    `(t / 4, t mod 4)`, the feature tile block `(t mod 4, 0)`, the weight matrix block `(0, 0)`, and the incoming block
    and both output blocks are block `(t / 4, 0)`. -/
theorem index_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0
    ∧ win1_4.index t (0 : Fin 2) = t.val / 4 ∧ win1_4.index t (1 : Fin 2) = 0
    ∧ win1_5.index t (0 : Fin 2) = t.val / 4 ∧ win1_5.index t (1 : Fin 2) = 0 :=
  (by decide +kernel : ∀ t : Fin grid1.N, _)

/-- The Laplacian tile at point `t`: rows `2048 (t / 4) …`, columns `2048 (t mod 4) …` of the Laplacian. -/
theorem laplacian_block (c : Dev nD) (t : Fin cfg1.N) (r s : Fin 2048) (p u : Fin 8192)
    (hp : p.val = 2048 * (t.val / 4) + r.val) (hu : u.val = 2048 * (t.val % 4) + s.val) :
    (iblk V c 0 t : Vec F S2048x2048 .bf16) (ix2 r s) = (dat V c).A 0 (ix2 p u) := by
  obtain ⟨e0, e1, -⟩ := index_facts t
  unfold iblk
  rw [View.read_apply, A_eq]
  show V c (Pipeline.arrRef spec1 0) _ = V c (Pipeline.arrRef spec1 0) _
  refine congrArg (V c (Pipeline.arrRef spec1 0)) ?_
  funext a
  apply Fin.ext
  match a with
  | ⟨0, _⟩ => show win1_0.index t (0 : Fin 2) * 2048 + 1 * r.val = p.val; omega
  | ⟨1, _⟩ => show win1_0.index t (1 : Fin 2) * 2048 + 1 * s.val = u.val; omega

/-- The feature tile at point `t`: rows `2048 (t mod 4) …` of the features, all sixteen columns. -/
theorem features_block (c : Dev nD) (t : Fin cfg1.N) (s : Fin 2048) (q : Fin 16) (u : Fin 8192)
    (hu : u.val = 2048 * (t.val % 4) + s.val) :
    (iblk V c 1 t : Vec F S2048x16 .f32) (ix2 s q) = (dat V c).A 1 (ix2 u q) := by
  obtain ⟨-, -, e0, e1, -⟩ := index_facts t
  unfold iblk
  rw [View.read_apply, A_eq]
  show V c (Pipeline.arrRef spec1 1) _ = V c (Pipeline.arrRef spec1 1) _
  refine congrArg (V c (Pipeline.arrRef spec1 1)) ?_
  funext a
  apply Fin.ext
  match a with
  | ⟨0, _⟩ => show win1_1.index t (0 : Fin 2) * 2048 + 1 * s.val = u.val; omega
  | ⟨1, _⟩ => show win1_1.index t (1 : Fin 2) * 16 + 1 * q.val = q.val; omega

/-- The weight window's block is the weight matrix, at every point. -/
theorem weights_block (c : Dev nD) (t : Fin cfg1.N) (j q : Fin 16) :
    (iblk V c 2 t : Vec F S16x16 .f32) (ix2 j q) = (dat V c).A 2 (ix2 j q) := by
  obtain ⟨-, -, -, -, e0, e1, -⟩ := index_facts t
  unfold iblk
  rw [View.read_apply, A_eq]
  show V c (Pipeline.arrRef spec1 2) _ = V c (Pipeline.arrRef spec1 2) _
  refine congrArg (V c (Pipeline.arrRef spec1 2)) ?_
  funext a
  apply Fin.ext
  match a with
  | ⟨0, _⟩ => show win1_2.index t (0 : Fin 2) * 16 + 1 * j.val = j.val; omega
  | ⟨1, _⟩ => show win1_2.index t (1 : Fin 2) * 16 + 1 * q.val = q.val; omega

/-- The incoming running-output block at point `t`: rows `2048 (t / 4) …` of the incoming running output. -/
theorem incoming_block (c : Dev nD) (t : Fin cfg1.N) (r : Fin 2048) (q : Fin 16) (p : Fin 8192)
    (hp : p.val = 2048 * (t.val / 4) + r.val) :
    (iblk V c 3 t : Vec F S2048x16 .f32) (ix2 r q) = (dat V c).A 3 (ix2 p q) := by
  obtain ⟨-, -, -, -, -, -, e0, e1, -⟩ := index_facts t
  unfold iblk
  rw [View.read_apply, A_eq]
  show V c (Pipeline.arrRef spec1 3) _ = V c (Pipeline.arrRef spec1 3) _
  refine congrArg (V c (Pipeline.arrRef spec1 3)) ?_
  funext a
  apply Fin.ext
  match a with
  | ⟨0, _⟩ => show win1_3.index t (0 : Fin 2) * 2048 + 1 * r.val = p.val; omega
  | ⟨1, _⟩ => show win1_3.index t (1 : Fin 2) * 16 + 1 * q.val = q.val; omega

end Cert.KernelIdeal.Hop1

end
-- ==== Proof.Hop1Entries.lean ====
import proofs.«155136_j78743930404901_2_alg».proof.Proof.Gen.KernelIdeal.Skeleton
import proofs.«155136_j78743930404901_2_alg».proof.Proof.HopEntries

/-!
# What one grid point of the second propagation step computes, entry by entry

The same three stores as in the first step — the reset, the accumulation of a tile product into the scratch block,
and at the end of a row of tiles the incoming output entry plus the rectified weight product — read at an entry over
the extended reals. (The feature tile goes through one more cast to its own shape here, which changes nothing.)
-/

noncomputable section

namespace Cert.KernelIdeal.Hop1Entries

open Cert.KernelIdeal Cert.KernelIdeal.Gen Cert.KernelIdeal.HopEntries Idealize.ShloMosaic Idealize.ShloMosaic.ValueIdx

/-- The reset writes zero everywhere. -/
theorem reset_apply (j : S2048x16.Idx) : k1_pay1 (F := Ideal) j = 0 := by
  unfold k1_pay1
  rw [shapeCast_self]
  exact Ideal.ofBits_zero_f32

/-- One accumulation: the scratch entry plus the tile product's entry. -/
theorem accumulate_apply (lt : Vec Ideal S2048x2048 .bf16) (xt : Vec Ideal S2048x16 .f32) (sc : Vec Ideal S2048x16 .f32)
    (r : Fin 2048) (c : Fin 16) :
    k1_pay2 (F := Ideal) lt xt sc (ix2 r c) = sc (ix2 r c) + ∑ s : Fin 2048, lt (ix2 r s) * xt (ix2 s c) := by
  unfold k1_pay2
  rw [shapeCast_self, shapeCast_self, shapeCast_self, addf_apply]
  refine congrArg (sc (ix2 r c) + ·) ?_
  refine (Ideal.matmul_constant_zero_apply _ none lt (truncf (F := Ideal) .bf16 xt bitsLt_bf16_f32) (ix2 r c)).trans ?_
  exact Cert.PlainDot.sum_contr _ tile_plain lt (truncf (F := Ideal) .bf16 xt bitsLt_bf16_f32) r c

/-- The finishing store of the running output: the incoming entry plus the rectified weight product's entry. -/
theorem finish_apply (sc : Vec Ideal S2048x16 .f32) (w : Vec Ideal S16x16 .f32) (acc : Vec Ideal S2048x16 .f32)
    (r : Fin 2048) (c : Fin 16) :
    k1_pay3 (F := Ideal) sc w acc (ix2 r c) = acc (ix2 r c) + max (∑ j : Fin 16, sc (ix2 r j) * w (ix2 j c)) 0 := by
  unfold k1_pay3
  rw [shapeCast_self, shapeCast_self, addf_apply, maximumf_apply, broadcast_apply]
  refine congrArg (acc (ix2 r c) + ·) ?_
  refine congrArg₂ max ?_ Ideal.ofBits_zero_f32
  refine (Ideal.matmul_constant_zero_apply _ none (truncf (F := Ideal) .bf16 sc bitsLt_bf16_f32) (truncf (F := Ideal) .bf16 w bitsLt_bf16_f32) (ix2 r c)).trans ?_
  exact Cert.PlainDot.sum_contr _ weight_plain (truncf (F := Ideal) .bf16 sc bitsLt_bf16_f32) (truncf (F := Ideal) .bf16 w bitsLt_bf16_f32) r c

end Cert.KernelIdeal.Hop1Entries

end
-- ==== Proof.Hop1Rows.lean ====
import proofs.«155136_j78743930404901_2_alg».proof.Proof.Hop1Pieces
import proofs.«155136_j78743930404901_2_alg».proof.Proof.Hop1Blocks
import proofs.«155136_j78743930404901_2_alg».proof.Proof.Hop1Entries
import proofs.«155136_j78743930404901_2_alg».proof.Proof.LibBlockSum
import Idealize.ShloMosaic.Lib.Pipeline.Value
import Idealize.ShloMosaic.Lib.ValueIdx

/-!
# The first propagation step: a row of tiles, entry by entry

The step's grid is 4 × 4, point `t = 4 i + k`. Along a row of tiles the scratch block is reset at `k = 0` and grows by
one tile product at every point, so after the row's last point its entry `(r, q)` is the sum over the four tiles
`k` of `∑ s < 2048, L (2048 i + r, 2048 k + s) * X (2048 k + s, q)`. The four partial sums are the four consecutive
blocks of the one sum over all 8192 columns of the Laplacian's row `2048 i + r`: the finished block's entry `(r, q)` is
entry `(2048 i + r, q)` of the Laplacian times the features.

First the recursion over the points is read through the body's arithmetic (for any float instance); then, over the
extended reals, where sums may be regrouped freely, the entries.
-/

set_option maxRecDepth 16384

noncomputable section

namespace Cert.KernelIdeal.Hop1

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

/-! ## Along the recursion over the points -/

section Along

variable {F : FTy → Type} [FloatOps F]
variable (V : (c : Dev nD) → (b : Ref sig .tc) → Buf (Elt F) ((c : Thread nD τ).loc b))

/-- After the first point of a row the scratch is the tile product added onto the zero fill. -/
theorem scratch_first (c : Dev nD) (n : ℕ) (hn : n < cfg1.N) (h0 : n % 4 = 0) :
    (outsAt V c n hn).2.2 = k1_pay2 (iblk V c 0 ⟨n, hn⟩) (iblk V c 1 ⟨n, hn⟩) k1_pay1 := by
  have hL : ¬isLast (grid1.coords (⟨n, hn⟩ : Fin cfg1.N)) := fun h => by
    have := (isLast_iff ⟨n, hn⟩).mp h; dsimp only at this; omega
  rw [show outsAt V c n hn = outsAt V c (⟨n, hn⟩ : Fin cfg1.N).val (⟨n, hn⟩ : Fin cfg1.N).isLt from rfl,
    outsAt_first V c ⟨n, hn⟩ h0 hL]
  dsimp only
  exact scFirst_eq c ⟨n, hn⟩ ((isFirst_iff ⟨n, hn⟩).mpr h0) hL (iblk V c 0 ⟨n, hn⟩) (iblk V c 1 ⟨n, hn⟩)

/-- After a middle point it is the tile product added onto what the point before left. -/
theorem scratch_middle (c : Dev nD) (n : ℕ) (hn : n + 1 < cfg1.N) (h0 : ¬(n + 1) % 4 = 0) (h3 : ¬(n + 1) % 4 = 3) :
    (outsAt V c (n + 1) hn).2.2
      = k1_pay2 (iblk V c 0 ⟨n + 1, hn⟩) (iblk V c 1 ⟨n + 1, hn⟩) (outsAt V c n (Nat.lt_of_succ_lt hn)).2.2 := by
  rw [outsAt_middle V c ⟨n + 1, hn⟩ h0 h3]
  dsimp only
  simp only [Nat.add_sub_cancel]
  exact scMiddle_eq c ⟨n + 1, hn⟩ (fun h => h0 ((isFirst_iff ⟨n + 1, hn⟩).mp h)) (fun h => h3 ((isLast_iff ⟨n + 1, hn⟩).mp h))
    (iblk V c 0 ⟨n + 1, hn⟩) (iblk V c 1 ⟨n + 1, hn⟩) (outsAt V c n (Nat.lt_of_succ_lt hn)).2.2

/-- After the last point of a row the new features' block is the finished scratch … -/
theorem features_last (c : Dev nD) (n : ℕ) (hn : n + 1 < cfg1.N) (h3 : (n + 1) % 4 = 3) :
    (outsAt V c (n + 1) hn).1
      = k1_pay2 (iblk V c 0 ⟨n + 1, hn⟩) (iblk V c 1 ⟨n + 1, hn⟩) (outsAt V c n (Nat.lt_of_succ_lt hn)).2.2 := by
  have h0 : ¬(n + 1) % 4 = 0 := by omega
  rw [outsAt_last V c ⟨n + 1, hn⟩ h0 h3]
  dsimp only
  simp only [Nat.add_sub_cancel]
  exact out4Last_eq c ⟨n + 1, hn⟩ (fun h => h0 ((isFirst_iff ⟨n + 1, hn⟩).mp h)) ((isLast_iff ⟨n + 1, hn⟩).mpr h3)
    (iblk V c 0 ⟨n + 1, hn⟩) (iblk V c 1 ⟨n + 1, hn⟩) (iblk V c 2 ⟨n + 1, hn⟩) (iblk V c 3 ⟨n + 1, hn⟩)
    (outsAt V c n (Nat.lt_of_succ_lt hn)).2.2

/-- … and the running output's block is the incoming block plus the rectified weight product of that finished scratch. -/
theorem running_last (c : Dev nD) (n : ℕ) (hn : n + 1 < cfg1.N) (h3 : (n + 1) % 4 = 3) :
    (outsAt V c (n + 1) hn).2.1
      = k1_pay3 (k1_pay2 (iblk V c 0 ⟨n + 1, hn⟩) (iblk V c 1 ⟨n + 1, hn⟩) (outsAt V c n (Nat.lt_of_succ_lt hn)).2.2)
          (iblk V c 2 ⟨n + 1, hn⟩) (iblk V c 3 ⟨n + 1, hn⟩) := by
  have h0 : ¬(n + 1) % 4 = 0 := by omega
  rw [outsAt_last V c ⟨n + 1, hn⟩ h0 h3]
  dsimp only
  simp only [Nat.add_sub_cancel]
  exact out5Last_eq c ⟨n + 1, hn⟩ (fun h => h0 ((isFirst_iff ⟨n + 1, hn⟩).mp h)) ((isLast_iff ⟨n + 1, hn⟩).mpr h3)
    (iblk V c 0 ⟨n + 1, hn⟩) (iblk V c 1 ⟨n + 1, hn⟩) (iblk V c 2 ⟨n + 1, hn⟩) (iblk V c 3 ⟨n + 1, hn⟩)
    (outsAt V c n (Nat.lt_of_succ_lt hn)).2.2

end Along

/-! ## The row of tiles, entry by entry -/

variable (V : (c : Dev nD) → (b : Ref sig .tc) → Buf (Elt Ideal) ((c : Thread nD τ).loc b))

/-- Entry `(r, q)` of a Laplacian tile times a feature tile. -/
def tileProd (lt : Vec Ideal S2048x2048 .bf16) (xt : Vec Ideal S2048x16 .f32) (r : Fin 2048) (q : Fin 16) : EReal :=
  ∑ s : Fin 2048, lt (ix2 r s) * xt (ix2 s q)

/-- The same for the two tiles of point `t`. -/
def tile (c : Dev nD) (t : Fin cfg1.N) (r : Fin 2048) (q : Fin 16) : EReal :=
  tileProd (iblk V c 0 t) (iblk V c 1 t) r q

/-- After the first point of a row a scratch entry is zero plus the tile product's entry. -/
theorem scratch_entry_first (c : Dev nD) (n : ℕ) (hn : n < cfg1.N) (h0 : n % 4 = 0) (r : Fin 2048) (q : Fin 16) :
    (outsAt V c n hn).2.2 (ix2 r q) = 0 + tile V c ⟨n, hn⟩ r q := by
  rw [scratch_first V c n hn h0]
  refine (Hop1Entries.accumulate_apply (iblk V c 0 ⟨n, hn⟩) (iblk V c 1 ⟨n, hn⟩) (k1_pay1 (F := Ideal)) r q).trans ?_
  rw [Hop1Entries.reset_apply]
  rfl

/-- After a middle point it is the entry the point before left plus the tile product's entry. -/
theorem scratch_entry_middle (c : Dev nD) (n : ℕ) (hn : n + 1 < cfg1.N) (h0 : ¬(n + 1) % 4 = 0) (h3 : ¬(n + 1) % 4 = 3)
    (r : Fin 2048) (q : Fin 16) :
    (outsAt V c (n + 1) hn).2.2 (ix2 r q)
      = (outsAt V c n (Nat.lt_of_succ_lt hn)).2.2 (ix2 r q) + tile V c ⟨n + 1, hn⟩ r q := by
  rw [scratch_middle V c n hn h0 h3]
  exact Hop1Entries.accumulate_apply (iblk V c 0 ⟨n + 1, hn⟩) (iblk V c 1 ⟨n + 1, hn⟩) (outsAt V c n (Nat.lt_of_succ_lt hn)).2.2 r q

/-- After the last point of a row an entry of the new features' block is the scratch entry the point before left plus
    the tile product's entry. -/
theorem features_entry_last (c : Dev nD) (n : ℕ) (hn : n + 1 < cfg1.N) (h3 : (n + 1) % 4 = 3) (r : Fin 2048) (q : Fin 16) :
    (outsAt V c (n + 1) hn).1 (ix2 r q)
      = (outsAt V c n (Nat.lt_of_succ_lt hn)).2.2 (ix2 r q) + tile V c ⟨n + 1, hn⟩ r q := by
  rw [features_last V c n hn h3]
  exact Hop1Entries.accumulate_apply (iblk V c 0 ⟨n + 1, hn⟩) (iblk V c 1 ⟨n + 1, hn⟩) (outsAt V c n (Nat.lt_of_succ_lt hn)).2.2 r q

/-- The `b`-th point of the row of tiles that starts at point `n`. -/
abbrev rowPoint (n : ℕ) (hn : n + 3 < cfg1.N) (b : Fin 4) : Fin cfg1.N :=
  ⟨n + b.val, Nat.lt_of_le_of_lt (Nat.add_le_add_left (Nat.le_of_lt_succ b.isLt) n) hn⟩

/-- After a whole row of tiles, starting at point `n`, an entry of the new features' block is the sum of the four tile
    products' entries. -/
theorem features_row (c : Dev nD) (n : ℕ) (hn : n + 3 < cfg1.N) (h : n % 4 = 0) (r : Fin 2048) (q : Fin 16) :
    (outsAt V c (n + 3) hn).1 (ix2 r q) = ∑ b : Fin 4, tile V c (rowPoint n hn b) r q := by
  have h2 : n + 2 < cfg1.N := Nat.lt_of_succ_lt hn
  have h1 : n + 1 < cfg1.N := Nat.lt_of_succ_lt h2
  have h0 : n < cfg1.N := Nat.lt_of_succ_lt h1
  refine Eq.trans ?_ (BlockSum.acc_four (fun b : Fin 4 => tile V c (rowPoint n hn b) r q))
  show (outsAt V c (n + 2 + 1) hn).1 (ix2 r q)
    = 0 + tile V c ⟨n, h0⟩ r q + tile V c ⟨n + 1, h1⟩ r q + tile V c ⟨n + 1 + 1, h2⟩ r q + tile V c ⟨n + 2 + 1, hn⟩ r q
  rw [features_entry_last V c (n + 2) hn (by omega) r q]
  show (outsAt V c (n + 1 + 1) h2).2.2 (ix2 r q) + _ = _
  rw [scratch_entry_middle V c (n + 1) h2 (by omega) (by omega) r q,
    scratch_entry_middle V c n h1 (by omega) (by omega) r q, scratch_entry_first V c n h0 h r q]

/-! ## The arrays at their literal types -/

/-- The step's four input arrays as it finds them — the Laplacian, the features, the weight matrix, the incoming running
    output — and its two output arrays after it, each at its literal type, so that entries can be multiplied and added as
    extended reals. -/
abbrev inL (c : Dev nD) : Vec Ideal S8192x8192 .bf16 := (dat V c).A 0
abbrev inX (c : Dev nD) : Vec Ideal S8192x16 .f32 := (dat V c).A 1
abbrev inW (c : Dev nD) : Vec Ideal S16x16 .f32 := (dat V c).A 2
abbrev inR (c : Dev nD) : Vec Ideal S8192x16 .f32 := (dat V c).A 3
abbrev outX (c : Dev nD) : Vec Ideal S8192x16 .f32 := (dat V c).arrAt 4 cfg1.N
abbrev outR (c : Dev nD) : Vec Ideal S8192x16 .f32 := (dat V c).arrAt 5 cfg1.N

/-! ## The four tile products are the four blocks of one contraction -/

/-- Entry `(p, q)` of the Laplacian times the features: the contraction over all 8192 columns of row `p`. -/
def feat (c : Dev nD) (p : Fin 8192) (q : Fin 16) : EReal :=
  ∑ u : Fin 8192, inL V c (ix2 p u) * inX V c (ix2 u q)

/-- A tile product's entry is one block of that contraction: at a point of tile `b` in its row, the columns
    `2048 b …`. -/
theorem tile_eq (c : Dev nD) (t : Fin cfg1.N) (b : Fin 4) (hb : t.val % 4 = b.val) (r : Fin 2048) (q : Fin 16)
    (p : Fin 8192) (hp : p.val = 2048 * (t.val / 4) + r.val) :
    tile V c t r q = ∑ s : Fin 2048, inL V c (ix2 p (BlockSum.idx b s)) * inX V c (ix2 (BlockSum.idx b s) q) := by
  unfold tile tileProd
  refine Finset.sum_congr rfl fun s _ => ?_
  have hu : (BlockSum.idx b s : Fin (4 * 2048)).val = 2048 * (t.val % 4) + s.val := by rw [BlockSum.idx_val, hb]; omega
  exact congrArg₂ (· * ·) (laplacian_block V c t r s p (BlockSum.idx b s) hp hu) (features_block V c t s q (BlockSum.idx b s) hu)

/-- The contraction, block by block. -/
theorem feat_blocks (c : Dev nD) (p : Fin 8192) (q : Fin 16) :
    feat V c p q = ∑ b : Fin 4, ∑ s : Fin 2048, inL V c (ix2 p (BlockSum.idx b s)) * inX V c (ix2 (BlockSum.idx b s) q) := by
  unfold feat
  exact BlockSum.sum_eq_sum_blocks (k := 4) (n := 2048) (fun u : Fin (4 * 2048) => inL V c (ix2 p u) * inX V c (ix2 u q))

/-- After the last point `t` of a row of tiles, entry `(r, q)` of the new features' block is entry `(2048 (t / 4) + r, q)`
    of the Laplacian times the features. -/
theorem features_block_entry (c : Dev nD) (t : Fin cfg1.N) (h3 : t.val % 4 = 3) (r : Fin 2048) (q : Fin 16)
    (p : Fin 8192) (hp : p.val = 2048 * (t.val / 4) + r.val) :
    (outsAt V c t.val t.isLt).1 (ix2 r q) = feat V c p q := by
  obtain ⟨n, hn, h0, rfl⟩ : ∃ (n : ℕ) (hn : n + 3 < cfg1.N), n % 4 = 0 ∧ t = ⟨n + 3, hn⟩ :=
    ⟨t.val - 3, by have := t.isLt; omega, by omega, Fin.ext (by show t.val = t.val - 3 + 3; omega)⟩
  dsimp only at hp h3
  show (outsAt V c (n + 3) hn).1 (ix2 r q) = _
  rw [features_row V c n hn h0 r q, feat_blocks V c p q]
  refine Finset.sum_congr rfl fun b _ => ?_
  exact tile_eq V c (rowPoint n hn b) b (by show (n + b.val) % 4 = b.val; have := b.isLt; omega) r q p
    (by show p.val = 2048 * ((n + b.val) / 4) + r.val; have := b.isLt; omega)

end Cert.KernelIdeal.Hop1

end
-- ==== Proof.Hop1Value.lean ====
import proofs.«155136_j78743930404901_2_alg».proof.Proof.Hop1Rows
import proofs.«155136_j78743930404901_2_alg».proof.Proof.Hop1Blocks
import proofs.«155136_j78743930404901_2_alg».proof.Proof.Hop1Entries
import Idealize.ShloMosaic.Lib.Pipeline.Value
import Idealize.ShloMosaic.Lib.ValueIdx

/-!
# The first propagation step: the two output arrays, entry by entry

At the last point of row-block `i` the finished scratch block — rows `2048 i …` of the Laplacian times the features —
is written back as rows `2048 i …` of the new features' array, and the running output's rows `2048 i …` are written
back as the incoming rows plus the rectified product of the finished block with the weight matrix. The four row
blocks cover both arrays, so after the step

* entry `(p, q)` of the new features is `∑ u < 8192, L (p, u) * X (u, q)`;
* entry `(p, q)` of the running output is the incoming entry plus `max (∑ j < 16, new (p, j) * W (j, q)) 0`.
-/

set_option maxRecDepth 16384

noncomputable section

namespace Cert.KernelIdeal.Hop1

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## What the write-backs write, that they cover, and the two arrays after the step -/

/-- The same with the column given by value. -/
theorem features_block_entry' (c : Dev nD) (t : Fin cfg1.N) (h3 : t.val % 4 = 3) (r : Fin 2048) (q : Fin 16)
    (p : Fin 8192) (q' : Fin 16) (hp : p.val = 2048 * (t.val / 4) + r.val) (hq : q'.val = q.val) :
    (outsAt V c t.val t.isLt).1 (ix2 r q) = feat V c p q' := by
  obtain rfl : q' = q := Fin.ext hq
  exact features_block_entry V c t h3 r q' p hp

/-- Entry `(p, q)` of the running output after the step: the incoming entry plus the rectified product of the new
    features' row `p` with the weight matrix's column `q`. -/
def run (c : Dev nD) (p : Fin 8192) (q : Fin 16) : EReal :=
  inR V c (ix2 p q) + max (∑ j : Fin 16, feat V c p j * inW V c (ix2 j q)) 0

/-- After the last point `t` of a row of tiles, entry `(r, q)` of the running output's block is that, at row
    `2048 (t / 4) + r`. -/
theorem running_block_entry (c : Dev nD) (t : Fin cfg1.N) (h3 : t.val % 4 = 3) (r : Fin 2048) (q : Fin 16)
    (p : Fin 8192) (q' : Fin 16) (hp : p.val = 2048 * (t.val / 4) + r.val) (hq : q'.val = q.val) :
    (outsAt V c t.val t.isLt).2.1 (ix2 r q) = run V c p q' := by
  obtain rfl : q' = q := Fin.ext hq
  obtain ⟨n, hn, h0, rfl⟩ : ∃ (n : ℕ) (hn : n + 3 < cfg1.N), n % 4 = 0 ∧ t = ⟨n + 3, hn⟩ :=
    ⟨t.val - 3, by have := t.isLt; omega, by omega, Fin.ext (by show t.val = t.val - 3 + 3; omega)⟩
  dsimp only at hp h3
  show (outsAt V c (n + 2 + 1) hn).2.1 (ix2 r q') = _
  rw [running_last V c (n + 2) hn (by omega), ← features_last V c (n + 2) hn (by omega)]
  refine (Hop1Entries.finish_apply (outsAt V c (n + 2 + 1) hn).1 (iblk V c 2 ⟨n + 2 + 1, hn⟩) (iblk V c 3 ⟨n + 2 + 1, hn⟩) r q').trans ?_
  unfold run
  refine congrArg₂ (· + ·) (incoming_block V c ⟨n + 2 + 1, hn⟩ r q' p hp) ?_
  refine congrArg (max · 0) ?_
  refine Finset.sum_congr rfl fun j _ => ?_
  exact congrArg₂ (· * ·) (features_block_entry V c ⟨n + 2 + 1, hn⟩ h3 r j p hp) (weights_block V c ⟨n + 2 + 1, hn⟩ j q')

/-- The new features' array and the running output's array after the step, each as one function of the inputs. -/
def featArr (c : Dev nD) : S8192x16.Idx → EReal := fun i => feat V c (i 0) (i 1)
def runArr (c : Dev nD) : S8192x16.Idx → EReal := fun i => run V c (i 0) (i 1)

/-- What the last point of a row writes back into the new features' array is its block of that function. -/
theorem flushed_features (c : Dev nD) (t : Fin cfg1.N) (hf : (cfg1.win 4).flush t = true) :
    (dat V c).flushed 4 t = ((cfg1.win 4).blk t).view.read (Elt Ideal) (featArr V c) := by
  have h3 : t.val % 4 = 3 := (flush1_4 t).mp hf
  obtain ⟨-, -, -, -, -, -, -, -, e0, e1, -⟩ := index_facts t
  show (cfg1.win 4).cut (grid1.coords t) ((dat V c).after 4 t) = _
  rw [after4]
  funext y
  rw [View.read_apply]
  show (outsAt V c t.val t.isLt).1 ((cfg1.win 4).xinj (grid1.coords t) y) = featArr V c (((cfg1.win 4).blk t).view.emb y)
  unfold featArr
  refine (congrArg (outsAt V c t.val t.isLt).1 (eq_ix2 (n0 := 2048) (n1 := 16) ((cfg1.win 4).xinj (grid1.coords t) y))).trans ?_
  exact features_block_entry' V c t h3 _ _ _ _
    (by show win1_4.index t (0 : Fin 2) * 2048 + 1 * (y 0).val = 2048 * (t.val / 4) + (y 0).val; omega)
    (by show win1_4.index t (1 : Fin 2) * 16 + 1 * (y 1).val = (y 1).val; omega)

/-- The same for the running output's array. -/
theorem flushed_running (c : Dev nD) (t : Fin cfg1.N) (hf : (cfg1.win 5).flush t = true) :
    (dat V c).flushed 5 t = ((cfg1.win 5).blk t).view.read (Elt Ideal) (runArr V c) := by
  have h3 : t.val % 4 = 3 := (flush1_5 t).mp hf
  obtain ⟨-, -, -, -, -, -, -, -, -, -, e0, e1⟩ := index_facts t
  show (cfg1.win 5).cut (grid1.coords t) ((dat V c).after 5 t) = _
  rw [after5]
  funext y
  rw [View.read_apply]
  show (outsAt V c t.val t.isLt).2.1 ((cfg1.win 5).xinj (grid1.coords t) y) = runArr V c (((cfg1.win 5).blk t).view.emb y)
  unfold runArr
  refine (congrArg (outsAt V c t.val t.isLt).2.1 (eq_ix2 (n0 := 2048) (n1 := 16) ((cfg1.win 5).xinj (grid1.coords t) y))).trans ?_
  exact running_block_entry V c t h3 _ _ _ _
    (by show win1_5.index t (0 : Fin 2) * 2048 + 1 * (y 0).val = 2048 * (t.val / 4) + (y 0).val; omega)
    (by show win1_5.index t (1 : Fin 2) * 16 + 1 * (y 1).val = (y 1).val; omega)

/-- Row `p` of either output array lies in the block written back at the last point of row-block `p / 2048`. -/
theorem cover_features (i : S8192x16.Idx) :
    ∃ t : Fin cfg1.N, (cfg1.win 4).flush t = true ∧ i ∈ ((cfg1.win 4).blk t).view.set := by
  have hi0 : (i 0).val < 8192 := (i 0).isLt
  have hi1 : (i 1).val < 16 := (i 1).isLt
  have hN : cfg1.N = 16 := N_1
  obtain ⟨t, ht⟩ : ∃ t : Fin cfg1.N, t.val = 4 * ((i 0).val / 2048) + 3 := ⟨⟨4 * ((i 0).val / 2048) + 3, by omega⟩, rfl⟩
  obtain ⟨-, -, -, -, -, -, -, -, e0, e1, -⟩ := index_facts t
  refine ⟨t, (flush1_4 t).mpr (by omega), ?_⟩
  show i ∈ ((View.whole (Pipeline.arrRef spec1 4)).slice (win1_4.rect t)).set
  rw [View.set_slice_whole, Rect.mem_set_unit]
  intro a
  match a with
  | ⟨0, _⟩ =>
    show win1_4.index t (0 : Fin 2) * 2048 ≤ (i 0).val ∧ (i 0).val < win1_4.index t (0 : Fin 2) * 2048 + 2048
    omega
  | ⟨1, _⟩ =>
    show win1_4.index t (1 : Fin 2) * 16 ≤ (i 1).val ∧ (i 1).val < win1_4.index t (1 : Fin 2) * 16 + 16
    omega

theorem cover_running (i : S8192x16.Idx) :
    ∃ t : Fin cfg1.N, (cfg1.win 5).flush t = true ∧ i ∈ ((cfg1.win 5).blk t).view.set := by
  have hi0 : (i 0).val < 8192 := (i 0).isLt
  have hi1 : (i 1).val < 16 := (i 1).isLt
  have hN : cfg1.N = 16 := N_1
  obtain ⟨t, ht⟩ : ∃ t : Fin cfg1.N, t.val = 4 * ((i 0).val / 2048) + 3 := ⟨⟨4 * ((i 0).val / 2048) + 3, by omega⟩, rfl⟩
  obtain ⟨-, -, -, -, -, -, -, -, -, -, e0, e1⟩ := index_facts t
  refine ⟨t, (flush1_5 t).mpr (by omega), ?_⟩
  show i ∈ ((View.whole (Pipeline.arrRef spec1 5)).slice (win1_5.rect t)).set
  rw [View.set_slice_whole, Rect.mem_set_unit]
  intro a
  match a with
  | ⟨0, _⟩ =>
    show win1_5.index t (0 : Fin 2) * 2048 ≤ (i 0).val ∧ (i 0).val < win1_5.index t (0 : Fin 2) * 2048 + 2048
    omega
  | ⟨1, _⟩ =>
    show win1_5.index t (1 : Fin 2) * 16 ≤ (i 1).val ∧ (i 1).val < win1_5.index t (1 : Fin 2) * 16 + 16
    omega

/-- The four row blocks cover each output array, so after the step each is its function of the inputs. -/
theorem features_final (c : Dev nD) : (dat V c).arrAt 4 cfg1.N = featArr V c :=
  (dat V c).arrAt_eq_of_cover 4 (featArr V c) (fun t hf => flushed_features V c t hf) cover_features

theorem running_final (c : Dev nD) : (dat V c).arrAt 5 cfg1.N = runArr V c :=
  (dat V c).arrAt_eq_of_cover 5 (runArr V c) (fun t hf => flushed_running V c t hf) cover_running

/-- After the step, entry `(p, q)` of the new features' array is the sum over all 8192 columns of the Laplacian row
    `p` times the features' column `q`. -/
theorem features_out_apply (c : Dev nD) (p : Fin 8192) (q : Fin 16) :
    outX V c (ix2 p q) = ∑ t : Fin 8192, inL V c (ix2 p t) * inX V c (ix2 t q) := by
  show (dat V c).arrAt 4 cfg1.N (ix2 p q) = _
  rw [features_final V c]
  rfl

/-- After the step, entry `(p, q)` of the running output's array is the incoming entry plus the rectified product of
    the NEW features' row `p` with the weight matrix's column `q`. -/
theorem running_out_apply (c : Dev nD) (p : Fin 8192) (q : Fin 16) :
    outR V c (ix2 p q)
      = inR V c (ix2 p q) + max (∑ j : Fin 16, outX V c (ix2 p j) * inW V c (ix2 j q)) 0 := by
  have e : ∀ j : Fin 16, feat V c p j = outX V c (ix2 p j) := fun j => (features_out_apply V c p j).symm
  show (dat V c).arrAt 5 cfg1.N (ix2 p q) = _
  rw [running_final V c]
  show run V c p q = _
  unfold run
  exact congrArg (inR V c (ix2 p q) + ·) (congrArg (max · 0)
    (Finset.sum_congr rfl fun j _ => congrArg (· * inW V c (ix2 j q)) (e j)))

end Cert.KernelIdeal.Hop1

end
-- ==== Proof.Hop2Pieces.lean ====
import proofs.«155136_j78743930404901_2_alg».proof.Proof.Hop2Data
import Idealize.ShloMosaic.Lib.Pipeline.Value

/-!
# The first propagation step: what each point leaves, as the body's arithmetic

Each run of the body leaves its stores' pieces; every store covers its block whole, so what a block ends holding is
the last store's payload, and a load that follows a store reads what was stored. Read that way:

* at the first point of a row of tiles the scratch ends at (zero fill) + (tile product);
* at a middle point at (what it held) + (tile product);
* at the last point the same, the new features' block is that finished scratch, and the running output's block is
  the incoming block plus the rectified weight product of the finished scratch.
-/

set_option maxRecDepth 16384

noncomputable section

namespace Cert.KernelIdeal.Hop2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One lemma per run and block -/

/-- Zero offsets, however spelt. -/
theorem hz : (![0, 0] : Fin 2 → Nat) = fun _ => 0 := funext fun a => by fin_cases a <;> rfl

/-- At the first point of a row the scratch ends with the tile product added onto the zero fill: the accumulation's
    load reads what the reset's store left. -/
theorem scFirst_eq (c : Dev nD) (t : Fin cfg2.N) (hF : isFirst (grid2.coords t)) (hL : ¬isLast (grid2.coords t))
    (lt : Vec F S2048x2048 .bf16) (xt : Vec F S2048x16 .f32) :
    scFirst c t hF hL lt xt = k2_pay2 lt xt k2_pay1 := by
  unfold scFirst
  rw [View.read_writes_eq_canon _ _ _ (scFirst_cover c t hF hL lt xt)]
  unfold firstRun runFirst
  dsimp only
  sl_unfold_words
  rw [View.canon_cons_unit_zero (S := S2048x16) hz, View.readCov_unit_zero (S := S2048x16) _ hz]
  simp only [View.readAt_eq_ld, (hs0 t).read_unread, (hs1 t).read_unread,
    View.ld_unit_zero (S := S2048x2048) hz, View.ld_unit_zero (S := S2048x16) hz]

/-- At a middle point the scratch ends with the tile product added onto what it held. -/
theorem scMiddle_eq (c : Dev nD) (t : Fin cfg2.N) (hF : ¬isFirst (grid2.coords t)) (hL : ¬isLast (grid2.coords t))
    (lt : Vec F S2048x2048 .bf16) (xt : Vec F S2048x16 .f32) (sc : Vec F S2048x16 .f32) :
    scMiddle c t hF hL lt xt sc = k2_pay2 lt xt sc := by
  unfold scMiddle
  rw [View.read_writes_eq_canon _ _ _ (scMiddle_cover c t hF hL lt xt sc)]
  unfold middleRun runMiddle
  dsimp only
  rw [View.canon_unit_zero hz]
  simp only [View.readAt_eq_ld, (hs0 t).read_unread, (hs1 t).read_unread, (Memref.isWhole_whole cc2_scratch0).read_unread,
    View.ld_unit_zero (S := S2048x2048) hz, View.ld_unit_zero (S := S2048x16) hz]

/-- At the last point of a row the scratch ends the same way: the finishing stores do not touch it. -/
theorem scLast_eq (c : Dev nD) (t : Fin cfg2.N) (hF : ¬isFirst (grid2.coords t)) (hL : isLast (grid2.coords t))
    (lt : Vec F S2048x2048 .bf16) (xt : Vec F S2048x16 .f32) (w : Vec F S16x16 .f32) (acc : Vec F S2048x16 .f32) (sc : Vec F S2048x16 .f32) :
    scLast c t hF hL lt xt w acc sc = k2_pay2 lt xt sc := by
  unfold scLast
  rw [View.read_writes_eq_canon _ _ _ (scLast_cover c t hF hL lt xt w acc sc)]
  unfold lastRun runLast
  dsimp only
  sl_unfold_words
  rw [View.canon_unit_zero hz]
  simp only [View.readAt_eq_ld, (hs0 t).read_unread, (hs1 t).read_unread, (Memref.isWhole_whole cc2_scratch0).read_unread,
    View.ld_unit_zero (S := S2048x2048) hz, View.ld_unit_zero (S := S2048x16) hz]

/-- The new features' block is the finished scratch: the store's payload is the load of what the accumulation left. -/
theorem out4Last_eq (c : Dev nD) (t : Fin cfg2.N) (hF : ¬isFirst (grid2.coords t)) (hL : isLast (grid2.coords t))
    (lt : Vec F S2048x2048 .bf16) (xt : Vec F S2048x16 .f32) (w : Vec F S16x16 .f32) (acc : Vec F S2048x16 .f32) (sc : Vec F S2048x16 .f32) :
    out4Last c t hF hL lt xt w acc sc = k2_pay2 lt xt sc := by
  unfold out4Last
  rw [View.read_writes_eq_canon _ _ _ (out4Last_cover c t hF hL lt xt w acc sc)]
  unfold lastRun runLast
  dsimp only
  sl_unfold_words
  rw [View.canon_unit_zero hz, View.readCov_unit_zero (S := S2048x16) _ hz]
  simp only [View.readAt_eq_ld, (hs0 t).read_unread, (hs1 t).read_unread, (Memref.isWhole_whole cc2_scratch0).read_unread,
    View.ld_unit_zero (S := S2048x2048) hz, View.ld_unit_zero (S := S2048x16) hz]

/-- The running output's block is the incoming block plus the rectified weight product of the finished scratch. -/
theorem out5Last_eq (c : Dev nD) (t : Fin cfg2.N) (hF : ¬isFirst (grid2.coords t)) (hL : isLast (grid2.coords t))
    (lt : Vec F S2048x2048 .bf16) (xt : Vec F S2048x16 .f32) (w : Vec F S16x16 .f32) (acc : Vec F S2048x16 .f32) (sc : Vec F S2048x16 .f32) :
    out5Last c t hF hL lt xt w acc sc = k2_pay3 (k2_pay2 lt xt sc) w acc := by
  unfold out5Last
  rw [View.read_writes_eq_canon _ _ _ (out5Last_cover c t hF hL lt xt w acc sc)]
  unfold lastRun runLast
  dsimp only
  sl_unfold_words
  rw [View.canon_unit_zero hz, View.readCov_unit_zero (S := S2048x16) _ hz]
  simp only [View.readAt_eq_ld, (hs0 t).read_unread, (hs1 t).read_unread, (hs2 t).read_unread, (hs3 t).read_unread,
    (Memref.isWhole_whole cc2_scratch0).read_unread,
    View.ld_unit_zero (S := S2048x2048) hz, View.ld_unit_zero (S := S2048x16) hz, View.ld_unit_zero (S := S16x16) hz]

end Cert.KernelIdeal.Hop2

end
-- ==== Proof.Hop2Blocks.lean ====
import proofs.«155136_j78743930404901_2_alg».proof.Proof.Hop2Data
import Idealize.ShloMosaic.Lib.Pipeline.Value
import Idealize.ShloMosaic.Lib.ValueIdx

/-!
# The first propagation step: the windows' blocks, read off the arrays

At point `t = 4 i + k` of the 4 × 4 grid the Laplacian window holds block `(i, k)` of its array, the feature window
block `(k, 0)`, the weight window the whole 16 × 16 matrix, and the incoming-output window and both output windows
block `(i, 0)`. An entry of a block sits in the array, on each axis, at (block index) × (block size) + (its
coordinate inside the block). So entry `(r, s)` of the Laplacian tile at `t` is entry `(2048 i + r, 2048 k + s)` of the
Laplacian, and likewise for the others.

Each lemma takes the array coordinates as variables with their equations as hypotheses, so that it can be cited at
whatever spelling of the coordinates the caller has.
-/

set_option maxRecDepth 16384

noncomputable section

namespace Cert.KernelIdeal.Hop2

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

variable {F : FTy → Type} [FloatOps F]
variable (V : (c : Dev nD) → (b : Ref sig .tc) → Buf (Elt F) ((c : Thread nD τ).loc b))

/-- The printed index maps, decided once over the sixteen points: at point `t` the Laplacian tile is block
    `(t / 4, t mod 4)`, the feature tile block `(t mod 4, 0)`, the weight matrix block `(0, 0)`, and the incoming block
    and both output blocks are block `(t / 4, 0)`. -/
theorem index_facts : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = 0 ∧ win2_2.index t (1 : Fin 2) = 0
    ∧ win2_3.index t (0 : Fin 2) = t.val / 4 ∧ win2_3.index t (1 : Fin 2) = 0
    ∧ win2_4.index t (0 : Fin 2) = t.val / 4 ∧ win2_4.index t (1 : Fin 2) = 0
    ∧ win2_5.index t (0 : Fin 2) = t.val / 4 ∧ win2_5.index t (1 : Fin 2) = 0 :=
  (by decide +kernel : ∀ t : Fin grid2.N, _)

/-- The Laplacian tile at point `t`: rows `2048 (t / 4) …`, columns `2048 (t mod 4) …` of the Laplacian. -/
theorem laplacian_block (c : Dev nD) (t : Fin cfg2.N) (r s : Fin 2048) (p u : Fin 8192)
    (hp : p.val = 2048 * (t.val / 4) + r.val) (hu : u.val = 2048 * (t.val % 4) + s.val) :
    (iblk V c 0 t : Vec F S2048x2048 .bf16) (ix2 r s) = (dat V c).A 0 (ix2 p u) := by
  obtain ⟨e0, e1, -⟩ := index_facts t
  unfold iblk
  rw [View.read_apply, A_eq]
  show V c (Pipeline.arrRef spec2 0) _ = V c (Pipeline.arrRef spec2 0) _
  refine congrArg (V c (Pipeline.arrRef spec2 0)) ?_
  funext a
  apply Fin.ext
  match a with
  | ⟨0, _⟩ => show win2_0.index t (0 : Fin 2) * 2048 + 1 * r.val = p.val; omega
  | ⟨1, _⟩ => show win2_0.index t (1 : Fin 2) * 2048 + 1 * s.val = u.val; omega

/-- The feature tile at point `t`: rows `2048 (t mod 4) …` of the features, all sixteen columns. -/
theorem features_block (c : Dev nD) (t : Fin cfg2.N) (s : Fin 2048) (q : Fin 16) (u : Fin 8192)
    (hu : u.val = 2048 * (t.val % 4) + s.val) :
    (iblk V c 1 t : Vec F S2048x16 .f32) (ix2 s q) = (dat V c).A 1 (ix2 u q) := by
  obtain ⟨-, -, e0, e1, -⟩ := index_facts t
  unfold iblk
  rw [View.read_apply, A_eq]
  show V c (Pipeline.arrRef spec2 1) _ = V c (Pipeline.arrRef spec2 1) _
  refine congrArg (V c (Pipeline.arrRef spec2 1)) ?_
  funext a
  apply Fin.ext
  match a with
  | ⟨0, _⟩ => show win2_1.index t (0 : Fin 2) * 2048 + 1 * s.val = u.val; omega
  | ⟨1, _⟩ => show win2_1.index t (1 : Fin 2) * 16 + 1 * q.val = q.val; omega

/-- The weight window's block is the weight matrix, at every point. -/
theorem weights_block (c : Dev nD) (t : Fin cfg2.N) (j q : Fin 16) :
    (iblk V c 2 t : Vec F S16x16 .f32) (ix2 j q) = (dat V c).A 2 (ix2 j q) := by
  obtain ⟨-, -, -, -, e0, e1, -⟩ := index_facts t
  unfold iblk
  rw [View.read_apply, A_eq]
  show V c (Pipeline.arrRef spec2 2) _ = V c (Pipeline.arrRef spec2 2) _
  refine congrArg (V c (Pipeline.arrRef spec2 2)) ?_
  funext a
  apply Fin.ext
  match a with
  | ⟨0, _⟩ => show win2_2.index t (0 : Fin 2) * 16 + 1 * j.val = j.val; omega
  | ⟨1, _⟩ => show win2_2.index t (1 : Fin 2) * 16 + 1 * q.val = q.val; omega

/-- The incoming running-output block at point `t`: rows `2048 (t / 4) …` of the incoming running output. -/
theorem incoming_block (c : Dev nD) (t : Fin cfg2.N) (r : Fin 2048) (q : Fin 16) (p : Fin 8192)
    (hp : p.val = 2048 * (t.val / 4) + r.val) :
    (iblk V c 3 t : Vec F S2048x16 .f32) (ix2 r q) = (dat V c).A 3 (ix2 p q) := by
  obtain ⟨-, -, -, -, -, -, e0, e1, -⟩ := index_facts t
  unfold iblk
  rw [View.read_apply, A_eq]
  show V c (Pipeline.arrRef spec2 3) _ = V c (Pipeline.arrRef spec2 3) _
  refine congrArg (V c (Pipeline.arrRef spec2 3)) ?_
  funext a
  apply Fin.ext
  match a with
  | ⟨0, _⟩ => show win2_3.index t (0 : Fin 2) * 2048 + 1 * r.val = p.val; omega
  | ⟨1, _⟩ => show win2_3.index t (1 : Fin 2) * 16 + 1 * q.val = q.val; omega

end Cert.KernelIdeal.Hop2

end
-- ==== Proof.Hop2Entries.lean ====
import proofs.«155136_j78743930404901_2_alg».proof.Proof.Gen.KernelIdeal.Skeleton
import proofs.«155136_j78743930404901_2_alg».proof.Proof.HopEntries

/-!
# What one grid point of the third propagation step computes, entry by entry

The same three stores as in the first step — the reset, the accumulation of a tile product into the scratch block,
and at the end of a row of tiles the incoming output entry plus the rectified weight product — read at an entry over
the extended reals. (The feature tile goes through one more cast to its own shape here, which changes nothing.)
-/

noncomputable section

namespace Cert.KernelIdeal.Hop2Entries

open Cert.KernelIdeal Cert.KernelIdeal.Gen Cert.KernelIdeal.HopEntries Idealize.ShloMosaic Idealize.ShloMosaic.ValueIdx

/-- The reset writes zero everywhere. -/
theorem reset_apply (j : S2048x16.Idx) : k2_pay1 (F := Ideal) j = 0 := by
  unfold k2_pay1
  rw [shapeCast_self]
  exact Ideal.ofBits_zero_f32

/-- One accumulation: the scratch entry plus the tile product's entry. -/
theorem accumulate_apply (lt : Vec Ideal S2048x2048 .bf16) (xt : Vec Ideal S2048x16 .f32) (sc : Vec Ideal S2048x16 .f32)
    (r : Fin 2048) (c : Fin 16) :
    k2_pay2 (F := Ideal) lt xt sc (ix2 r c) = sc (ix2 r c) + ∑ s : Fin 2048, lt (ix2 r s) * xt (ix2 s c) := by
  unfold k2_pay2
  rw [shapeCast_self, shapeCast_self, shapeCast_self, addf_apply]
  refine congrArg (sc (ix2 r c) + ·) ?_
  refine (Ideal.matmul_constant_zero_apply _ none lt (truncf (F := Ideal) .bf16 xt bitsLt_bf16_f32) (ix2 r c)).trans ?_
  exact Cert.PlainDot.sum_contr _ tile_plain lt (truncf (F := Ideal) .bf16 xt bitsLt_bf16_f32) r c

/-- The finishing store of the running output: the incoming entry plus the rectified weight product's entry. -/
theorem finish_apply (sc : Vec Ideal S2048x16 .f32) (w : Vec Ideal S16x16 .f32) (acc : Vec Ideal S2048x16 .f32)
    (r : Fin 2048) (c : Fin 16) :
    k2_pay3 (F := Ideal) sc w acc (ix2 r c) = acc (ix2 r c) + max (∑ j : Fin 16, sc (ix2 r j) * w (ix2 j c)) 0 := by
  unfold k2_pay3
  rw [shapeCast_self, shapeCast_self, addf_apply, maximumf_apply, broadcast_apply]
  refine congrArg (acc (ix2 r c) + ·) ?_
  refine congrArg₂ max ?_ Ideal.ofBits_zero_f32
  refine (Ideal.matmul_constant_zero_apply _ none (truncf (F := Ideal) .bf16 sc bitsLt_bf16_f32) (truncf (F := Ideal) .bf16 w bitsLt_bf16_f32) (ix2 r c)).trans ?_
  exact Cert.PlainDot.sum_contr _ weight_plain (truncf (F := Ideal) .bf16 sc bitsLt_bf16_f32) (truncf (F := Ideal) .bf16 w bitsLt_bf16_f32) r c

end Cert.KernelIdeal.Hop2Entries

end
-- ==== Proof.Hop2Rows.lean ====
import proofs.«155136_j78743930404901_2_alg».proof.Proof.Hop2Pieces
import proofs.«155136_j78743930404901_2_alg».proof.Proof.Hop2Blocks
import proofs.«155136_j78743930404901_2_alg».proof.Proof.Hop2Entries
import proofs.«155136_j78743930404901_2_alg».proof.Proof.LibBlockSum
import Idealize.ShloMosaic.Lib.Pipeline.Value
import Idealize.ShloMosaic.Lib.ValueIdx

/-!
# The first propagation step: a row of tiles, entry by entry

The step's grid is 4 × 4, point `t = 4 i + k`. Along a row of tiles the scratch block is reset at `k = 0` and grows by
one tile product at every point, so after the row's last point its entry `(r, q)` is the sum over the four tiles
`k` of `∑ s < 2048, L (2048 i + r, 2048 k + s) * X (2048 k + s, q)`. The four partial sums are the four consecutive
blocks of the one sum over all 8192 columns of the Laplacian's row `2048 i + r`: the finished block's entry `(r, q)` is
entry `(2048 i + r, q)` of the Laplacian times the features.

First the recursion over the points is read through the body's arithmetic (for any float instance); then, over the
extended reals, where sums may be regrouped freely, the entries.
-/

set_option maxRecDepth 16384

noncomputable section

namespace Cert.KernelIdeal.Hop2

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

/-! ## Along the recursion over the points -/

section Along

variable {F : FTy → Type} [FloatOps F]
variable (V : (c : Dev nD) → (b : Ref sig .tc) → Buf (Elt F) ((c : Thread nD τ).loc b))

/-- After the first point of a row the scratch is the tile product added onto the zero fill. -/
theorem scratch_first (c : Dev nD) (n : ℕ) (hn : n < cfg2.N) (h0 : n % 4 = 0) :
    (outsAt V c n hn).2.2 = k2_pay2 (iblk V c 0 ⟨n, hn⟩) (iblk V c 1 ⟨n, hn⟩) k2_pay1 := by
  have hL : ¬isLast (grid2.coords (⟨n, hn⟩ : Fin cfg2.N)) := fun h => by
    have := (isLast_iff ⟨n, hn⟩).mp h; dsimp only at this; omega
  rw [show outsAt V c n hn = outsAt V c (⟨n, hn⟩ : Fin cfg2.N).val (⟨n, hn⟩ : Fin cfg2.N).isLt from rfl,
    outsAt_first V c ⟨n, hn⟩ h0 hL]
  dsimp only
  exact scFirst_eq c ⟨n, hn⟩ ((isFirst_iff ⟨n, hn⟩).mpr h0) hL (iblk V c 0 ⟨n, hn⟩) (iblk V c 1 ⟨n, hn⟩)

/-- After a middle point it is the tile product added onto what the point before left. -/
theorem scratch_middle (c : Dev nD) (n : ℕ) (hn : n + 1 < cfg2.N) (h0 : ¬(n + 1) % 4 = 0) (h3 : ¬(n + 1) % 4 = 3) :
    (outsAt V c (n + 1) hn).2.2
      = k2_pay2 (iblk V c 0 ⟨n + 1, hn⟩) (iblk V c 1 ⟨n + 1, hn⟩) (outsAt V c n (Nat.lt_of_succ_lt hn)).2.2 := by
  rw [outsAt_middle V c ⟨n + 1, hn⟩ h0 h3]
  dsimp only
  simp only [Nat.add_sub_cancel]
  exact scMiddle_eq c ⟨n + 1, hn⟩ (fun h => h0 ((isFirst_iff ⟨n + 1, hn⟩).mp h)) (fun h => h3 ((isLast_iff ⟨n + 1, hn⟩).mp h))
    (iblk V c 0 ⟨n + 1, hn⟩) (iblk V c 1 ⟨n + 1, hn⟩) (outsAt V c n (Nat.lt_of_succ_lt hn)).2.2

/-- After the last point of a row the new features' block is the finished scratch … -/
theorem features_last (c : Dev nD) (n : ℕ) (hn : n + 1 < cfg2.N) (h3 : (n + 1) % 4 = 3) :
    (outsAt V c (n + 1) hn).1
      = k2_pay2 (iblk V c 0 ⟨n + 1, hn⟩) (iblk V c 1 ⟨n + 1, hn⟩) (outsAt V c n (Nat.lt_of_succ_lt hn)).2.2 := by
  have h0 : ¬(n + 1) % 4 = 0 := by omega
  rw [outsAt_last V c ⟨n + 1, hn⟩ h0 h3]
  dsimp only
  simp only [Nat.add_sub_cancel]
  exact out4Last_eq c ⟨n + 1, hn⟩ (fun h => h0 ((isFirst_iff ⟨n + 1, hn⟩).mp h)) ((isLast_iff ⟨n + 1, hn⟩).mpr h3)
    (iblk V c 0 ⟨n + 1, hn⟩) (iblk V c 1 ⟨n + 1, hn⟩) (iblk V c 2 ⟨n + 1, hn⟩) (iblk V c 3 ⟨n + 1, hn⟩)
    (outsAt V c n (Nat.lt_of_succ_lt hn)).2.2

/-- … and the running output's block is the incoming block plus the rectified weight product of that finished scratch. -/
theorem running_last (c : Dev nD) (n : ℕ) (hn : n + 1 < cfg2.N) (h3 : (n + 1) % 4 = 3) :
    (outsAt V c (n + 1) hn).2.1
      = k2_pay3 (k2_pay2 (iblk V c 0 ⟨n + 1, hn⟩) (iblk V c 1 ⟨n + 1, hn⟩) (outsAt V c n (Nat.lt_of_succ_lt hn)).2.2)
          (iblk V c 2 ⟨n + 1, hn⟩) (iblk V c 3 ⟨n + 1, hn⟩) := by
  have h0 : ¬(n + 1) % 4 = 0 := by omega
  rw [outsAt_last V c ⟨n + 1, hn⟩ h0 h3]
  dsimp only
  simp only [Nat.add_sub_cancel]
  exact out5Last_eq c ⟨n + 1, hn⟩ (fun h => h0 ((isFirst_iff ⟨n + 1, hn⟩).mp h)) ((isLast_iff ⟨n + 1, hn⟩).mpr h3)
    (iblk V c 0 ⟨n + 1, hn⟩) (iblk V c 1 ⟨n + 1, hn⟩) (iblk V c 2 ⟨n + 1, hn⟩) (iblk V c 3 ⟨n + 1, hn⟩)
    (outsAt V c n (Nat.lt_of_succ_lt hn)).2.2

end Along

/-! ## The row of tiles, entry by entry -/

variable (V : (c : Dev nD) → (b : Ref sig .tc) → Buf (Elt Ideal) ((c : Thread nD τ).loc b))

/-- Entry `(r, q)` of a Laplacian tile times a feature tile. -/
def tileProd (lt : Vec Ideal S2048x2048 .bf16) (xt : Vec Ideal S2048x16 .f32) (r : Fin 2048) (q : Fin 16) : EReal :=
  ∑ s : Fin 2048, lt (ix2 r s) * xt (ix2 s q)

/-- The same for the two tiles of point `t`. -/
def tile (c : Dev nD) (t : Fin cfg2.N) (r : Fin 2048) (q : Fin 16) : EReal :=
  tileProd (iblk V c 0 t) (iblk V c 1 t) r q

/-- After the first point of a row a scratch entry is zero plus the tile product's entry. -/
theorem scratch_entry_first (c : Dev nD) (n : ℕ) (hn : n < cfg2.N) (h0 : n % 4 = 0) (r : Fin 2048) (q : Fin 16) :
    (outsAt V c n hn).2.2 (ix2 r q) = 0 + tile V c ⟨n, hn⟩ r q := by
  rw [scratch_first V c n hn h0]
  refine (Hop2Entries.accumulate_apply (iblk V c 0 ⟨n, hn⟩) (iblk V c 1 ⟨n, hn⟩) (k2_pay1 (F := Ideal)) r q).trans ?_
  rw [Hop2Entries.reset_apply]
  rfl

/-- After a middle point it is the entry the point before left plus the tile product's entry. -/
theorem scratch_entry_middle (c : Dev nD) (n : ℕ) (hn : n + 1 < cfg2.N) (h0 : ¬(n + 1) % 4 = 0) (h3 : ¬(n + 1) % 4 = 3)
    (r : Fin 2048) (q : Fin 16) :
    (outsAt V c (n + 1) hn).2.2 (ix2 r q)
      = (outsAt V c n (Nat.lt_of_succ_lt hn)).2.2 (ix2 r q) + tile V c ⟨n + 1, hn⟩ r q := by
  rw [scratch_middle V c n hn h0 h3]
  exact Hop2Entries.accumulate_apply (iblk V c 0 ⟨n + 1, hn⟩) (iblk V c 1 ⟨n + 1, hn⟩) (outsAt V c n (Nat.lt_of_succ_lt hn)).2.2 r q

/-- After the last point of a row an entry of the new features' block is the scratch entry the point before left plus
    the tile product's entry. -/
theorem features_entry_last (c : Dev nD) (n : ℕ) (hn : n + 1 < cfg2.N) (h3 : (n + 1) % 4 = 3) (r : Fin 2048) (q : Fin 16) :
    (outsAt V c (n + 1) hn).1 (ix2 r q)
      = (outsAt V c n (Nat.lt_of_succ_lt hn)).2.2 (ix2 r q) + tile V c ⟨n + 1, hn⟩ r q := by
  rw [features_last V c n hn h3]
  exact Hop2Entries.accumulate_apply (iblk V c 0 ⟨n + 1, hn⟩) (iblk V c 1 ⟨n + 1, hn⟩) (outsAt V c n (Nat.lt_of_succ_lt hn)).2.2 r q

/-- The `b`-th point of the row of tiles that starts at point `n`. -/
abbrev rowPoint (n : ℕ) (hn : n + 3 < cfg2.N) (b : Fin 4) : Fin cfg2.N :=
  ⟨n + b.val, Nat.lt_of_le_of_lt (Nat.add_le_add_left (Nat.le_of_lt_succ b.isLt) n) hn⟩

/-- After a whole row of tiles, starting at point `n`, an entry of the new features' block is the sum of the four tile
    products' entries. -/
theorem features_row (c : Dev nD) (n : ℕ) (hn : n + 3 < cfg2.N) (h : n % 4 = 0) (r : Fin 2048) (q : Fin 16) :
    (outsAt V c (n + 3) hn).1 (ix2 r q) = ∑ b : Fin 4, tile V c (rowPoint n hn b) r q := by
  have h2 : n + 2 < cfg2.N := Nat.lt_of_succ_lt hn
  have h1 : n + 1 < cfg2.N := Nat.lt_of_succ_lt h2
  have h0 : n < cfg2.N := Nat.lt_of_succ_lt h1
  refine Eq.trans ?_ (BlockSum.acc_four (fun b : Fin 4 => tile V c (rowPoint n hn b) r q))
  show (outsAt V c (n + 2 + 1) hn).1 (ix2 r q)
    = 0 + tile V c ⟨n, h0⟩ r q + tile V c ⟨n + 1, h1⟩ r q + tile V c ⟨n + 1 + 1, h2⟩ r q + tile V c ⟨n + 2 + 1, hn⟩ r q
  rw [features_entry_last V c (n + 2) hn (by omega) r q]
  show (outsAt V c (n + 1 + 1) h2).2.2 (ix2 r q) + _ = _
  rw [scratch_entry_middle V c (n + 1) h2 (by omega) (by omega) r q,
    scratch_entry_middle V c n h1 (by omega) (by omega) r q, scratch_entry_first V c n h0 h r q]

/-! ## The arrays at their literal types -/

/-- The step's four input arrays as it finds them — the Laplacian, the features, the weight matrix, the incoming running
    output — and its two output arrays after it, each at its literal type, so that entries can be multiplied and added as
    extended reals. -/
abbrev inL (c : Dev nD) : Vec Ideal S8192x8192 .bf16 := (dat V c).A 0
abbrev inX (c : Dev nD) : Vec Ideal S8192x16 .f32 := (dat V c).A 1
abbrev inW (c : Dev nD) : Vec Ideal S16x16 .f32 := (dat V c).A 2
abbrev inR (c : Dev nD) : Vec Ideal S8192x16 .f32 := (dat V c).A 3
abbrev outX (c : Dev nD) : Vec Ideal S8192x16 .f32 := (dat V c).arrAt 4 cfg2.N
abbrev outR (c : Dev nD) : Vec Ideal S8192x16 .f32 := (dat V c).arrAt 5 cfg2.N

/-! ## The four tile products are the four blocks of one contraction -/

/-- Entry `(p, q)` of the Laplacian times the features: the contraction over all 8192 columns of row `p`. -/
def feat (c : Dev nD) (p : Fin 8192) (q : Fin 16) : EReal :=
  ∑ u : Fin 8192, inL V c (ix2 p u) * inX V c (ix2 u q)

/-- A tile product's entry is one block of that contraction: at a point of tile `b` in its row, the columns
    `2048 b …`. -/
theorem tile_eq (c : Dev nD) (t : Fin cfg2.N) (b : Fin 4) (hb : t.val % 4 = b.val) (r : Fin 2048) (q : Fin 16)
    (p : Fin 8192) (hp : p.val = 2048 * (t.val / 4) + r.val) :
    tile V c t r q = ∑ s : Fin 2048, inL V c (ix2 p (BlockSum.idx b s)) * inX V c (ix2 (BlockSum.idx b s) q) := by
  unfold tile tileProd
  refine Finset.sum_congr rfl fun s _ => ?_
  have hu : (BlockSum.idx b s : Fin (4 * 2048)).val = 2048 * (t.val % 4) + s.val := by rw [BlockSum.idx_val, hb]; omega
  exact congrArg₂ (· * ·) (laplacian_block V c t r s p (BlockSum.idx b s) hp hu) (features_block V c t s q (BlockSum.idx b s) hu)

/-- The contraction, block by block. -/
theorem feat_blocks (c : Dev nD) (p : Fin 8192) (q : Fin 16) :
    feat V c p q = ∑ b : Fin 4, ∑ s : Fin 2048, inL V c (ix2 p (BlockSum.idx b s)) * inX V c (ix2 (BlockSum.idx b s) q) := by
  unfold feat
  exact BlockSum.sum_eq_sum_blocks (k := 4) (n := 2048) (fun u : Fin (4 * 2048) => inL V c (ix2 p u) * inX V c (ix2 u q))

/-- After the last point `t` of a row of tiles, entry `(r, q)` of the new features' block is entry `(2048 (t / 4) + r, q)`
    of the Laplacian times the features. -/
theorem features_block_entry (c : Dev nD) (t : Fin cfg2.N) (h3 : t.val % 4 = 3) (r : Fin 2048) (q : Fin 16)
    (p : Fin 8192) (hp : p.val = 2048 * (t.val / 4) + r.val) :
    (outsAt V c t.val t.isLt).1 (ix2 r q) = feat V c p q := by
  obtain ⟨n, hn, h0, rfl⟩ : ∃ (n : ℕ) (hn : n + 3 < cfg2.N), n % 4 = 0 ∧ t = ⟨n + 3, hn⟩ :=
    ⟨t.val - 3, by have := t.isLt; omega, by omega, Fin.ext (by show t.val = t.val - 3 + 3; omega)⟩
  dsimp only at hp h3
  show (outsAt V c (n + 3) hn).1 (ix2 r q) = _
  rw [features_row V c n hn h0 r q, feat_blocks V c p q]
  refine Finset.sum_congr rfl fun b _ => ?_
  exact tile_eq V c (rowPoint n hn b) b (by show (n + b.val) % 4 = b.val; have := b.isLt; omega) r q p
    (by show p.val = 2048 * ((n + b.val) / 4) + r.val; have := b.isLt; omega)

end Cert.KernelIdeal.Hop2

end
-- ==== Proof.Hop2Value.lean ====
import proofs.«155136_j78743930404901_2_alg».proof.Proof.Hop2Rows
import proofs.«155136_j78743930404901_2_alg».proof.Proof.Hop2Blocks
import proofs.«155136_j78743930404901_2_alg».proof.Proof.Hop2Entries
import Idealize.ShloMosaic.Lib.Pipeline.Value
import Idealize.ShloMosaic.Lib.ValueIdx

/-!
# The first propagation step: the two output arrays, entry by entry

At the last point of row-block `i` the finished scratch block — rows `2048 i …` of the Laplacian times the features —
is written back as rows `2048 i …` of the new features' array, and the running output's rows `2048 i …` are written
back as the incoming rows plus the rectified product of the finished block with the weight matrix. The four row
blocks cover both arrays, so after the step

* entry `(p, q)` of the new features is `∑ u < 8192, L (p, u) * X (u, q)`;
* entry `(p, q)` of the running output is the incoming entry plus `max (∑ j < 16, new (p, j) * W (j, q)) 0`.
-/

set_option maxRecDepth 16384

noncomputable section

namespace Cert.KernelIdeal.Hop2

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## What the write-backs write, that they cover, and the two arrays after the step -/

/-- The same with the column given by value. -/
theorem features_block_entry' (c : Dev nD) (t : Fin cfg2.N) (h3 : t.val % 4 = 3) (r : Fin 2048) (q : Fin 16)
    (p : Fin 8192) (q' : Fin 16) (hp : p.val = 2048 * (t.val / 4) + r.val) (hq : q'.val = q.val) :
    (outsAt V c t.val t.isLt).1 (ix2 r q) = feat V c p q' := by
  obtain rfl : q' = q := Fin.ext hq
  exact features_block_entry V c t h3 r q' p hp

/-- Entry `(p, q)` of the running output after the step: the incoming entry plus the rectified product of the new
    features' row `p` with the weight matrix's column `q`. -/
def run (c : Dev nD) (p : Fin 8192) (q : Fin 16) : EReal :=
  inR V c (ix2 p q) + max (∑ j : Fin 16, feat V c p j * inW V c (ix2 j q)) 0

/-- After the last point `t` of a row of tiles, entry `(r, q)` of the running output's block is that, at row
    `2048 (t / 4) + r`. -/
theorem running_block_entry (c : Dev nD) (t : Fin cfg2.N) (h3 : t.val % 4 = 3) (r : Fin 2048) (q : Fin 16)
    (p : Fin 8192) (q' : Fin 16) (hp : p.val = 2048 * (t.val / 4) + r.val) (hq : q'.val = q.val) :
    (outsAt V c t.val t.isLt).2.1 (ix2 r q) = run V c p q' := by
  obtain rfl : q' = q := Fin.ext hq
  obtain ⟨n, hn, h0, rfl⟩ : ∃ (n : ℕ) (hn : n + 3 < cfg2.N), n % 4 = 0 ∧ t = ⟨n + 3, hn⟩ :=
    ⟨t.val - 3, by have := t.isLt; omega, by omega, Fin.ext (by show t.val = t.val - 3 + 3; omega)⟩
  dsimp only at hp h3
  show (outsAt V c (n + 2 + 1) hn).2.1 (ix2 r q') = _
  rw [running_last V c (n + 2) hn (by omega), ← features_last V c (n + 2) hn (by omega)]
  refine (Hop2Entries.finish_apply (outsAt V c (n + 2 + 1) hn).1 (iblk V c 2 ⟨n + 2 + 1, hn⟩) (iblk V c 3 ⟨n + 2 + 1, hn⟩) r q').trans ?_
  unfold run
  refine congrArg₂ (· + ·) (incoming_block V c ⟨n + 2 + 1, hn⟩ r q' p hp) ?_
  refine congrArg (max · 0) ?_
  refine Finset.sum_congr rfl fun j _ => ?_
  exact congrArg₂ (· * ·) (features_block_entry V c ⟨n + 2 + 1, hn⟩ h3 r j p hp) (weights_block V c ⟨n + 2 + 1, hn⟩ j q')

/-- The new features' array and the running output's array after the step, each as one function of the inputs. -/
def featArr (c : Dev nD) : S8192x16.Idx → EReal := fun i => feat V c (i 0) (i 1)
def runArr (c : Dev nD) : S8192x16.Idx → EReal := fun i => run V c (i 0) (i 1)

/-- What the last point of a row writes back into the new features' array is its block of that function. -/
theorem flushed_features (c : Dev nD) (t : Fin cfg2.N) (hf : (cfg2.win 4).flush t = true) :
    (dat V c).flushed 4 t = ((cfg2.win 4).blk t).view.read (Elt Ideal) (featArr V c) := by
  have h3 : t.val % 4 = 3 := (flush2_4 t).mp hf
  obtain ⟨-, -, -, -, -, -, -, -, e0, e1, -⟩ := index_facts t
  show (cfg2.win 4).cut (grid2.coords t) ((dat V c).after 4 t) = _
  rw [after4]
  funext y
  rw [View.read_apply]
  show (outsAt V c t.val t.isLt).1 ((cfg2.win 4).xinj (grid2.coords t) y) = featArr V c (((cfg2.win 4).blk t).view.emb y)
  unfold featArr
  refine (congrArg (outsAt V c t.val t.isLt).1 (eq_ix2 (n0 := 2048) (n1 := 16) ((cfg2.win 4).xinj (grid2.coords t) y))).trans ?_
  exact features_block_entry' V c t h3 _ _ _ _
    (by show win2_4.index t (0 : Fin 2) * 2048 + 1 * (y 0).val = 2048 * (t.val / 4) + (y 0).val; omega)
    (by show win2_4.index t (1 : Fin 2) * 16 + 1 * (y 1).val = (y 1).val; omega)

/-- The same for the running output's array. -/
theorem flushed_running (c : Dev nD) (t : Fin cfg2.N) (hf : (cfg2.win 5).flush t = true) :
    (dat V c).flushed 5 t = ((cfg2.win 5).blk t).view.read (Elt Ideal) (runArr V c) := by
  have h3 : t.val % 4 = 3 := (flush2_5 t).mp hf
  obtain ⟨-, -, -, -, -, -, -, -, -, -, e0, e1⟩ := index_facts t
  show (cfg2.win 5).cut (grid2.coords t) ((dat V c).after 5 t) = _
  rw [after5]
  funext y
  rw [View.read_apply]
  show (outsAt V c t.val t.isLt).2.1 ((cfg2.win 5).xinj (grid2.coords t) y) = runArr V c (((cfg2.win 5).blk t).view.emb y)
  unfold runArr
  refine (congrArg (outsAt V c t.val t.isLt).2.1 (eq_ix2 (n0 := 2048) (n1 := 16) ((cfg2.win 5).xinj (grid2.coords t) y))).trans ?_
  exact running_block_entry V c t h3 _ _ _ _
    (by show win2_5.index t (0 : Fin 2) * 2048 + 1 * (y 0).val = 2048 * (t.val / 4) + (y 0).val; omega)
    (by show win2_5.index t (1 : Fin 2) * 16 + 1 * (y 1).val = (y 1).val; omega)

/-- Row `p` of either output array lies in the block written back at the last point of row-block `p / 2048`. -/
theorem cover_features (i : S8192x16.Idx) :
    ∃ t : Fin cfg2.N, (cfg2.win 4).flush t = true ∧ i ∈ ((cfg2.win 4).blk t).view.set := by
  have hi0 : (i 0).val < 8192 := (i 0).isLt
  have hi1 : (i 1).val < 16 := (i 1).isLt
  have hN : cfg2.N = 16 := N_2
  obtain ⟨t, ht⟩ : ∃ t : Fin cfg2.N, t.val = 4 * ((i 0).val / 2048) + 3 := ⟨⟨4 * ((i 0).val / 2048) + 3, by omega⟩, rfl⟩
  obtain ⟨-, -, -, -, -, -, -, -, e0, e1, -⟩ := index_facts t
  refine ⟨t, (flush2_4 t).mpr (by omega), ?_⟩
  show i ∈ ((View.whole (Pipeline.arrRef spec2 4)).slice (win2_4.rect t)).set
  rw [View.set_slice_whole, Rect.mem_set_unit]
  intro a
  match a with
  | ⟨0, _⟩ =>
    show win2_4.index t (0 : Fin 2) * 2048 ≤ (i 0).val ∧ (i 0).val < win2_4.index t (0 : Fin 2) * 2048 + 2048
    omega
  | ⟨1, _⟩ =>
    show win2_4.index t (1 : Fin 2) * 16 ≤ (i 1).val ∧ (i 1).val < win2_4.index t (1 : Fin 2) * 16 + 16
    omega

theorem cover_running (i : S8192x16.Idx) :
    ∃ t : Fin cfg2.N, (cfg2.win 5).flush t = true ∧ i ∈ ((cfg2.win 5).blk t).view.set := by
  have hi0 : (i 0).val < 8192 := (i 0).isLt
  have hi1 : (i 1).val < 16 := (i 1).isLt
  have hN : cfg2.N = 16 := N_2
  obtain ⟨t, ht⟩ : ∃ t : Fin cfg2.N, t.val = 4 * ((i 0).val / 2048) + 3 := ⟨⟨4 * ((i 0).val / 2048) + 3, by omega⟩, rfl⟩
  obtain ⟨-, -, -, -, -, -, -, -, -, -, e0, e1⟩ := index_facts t
  refine ⟨t, (flush2_5 t).mpr (by omega), ?_⟩
  show i ∈ ((View.whole (Pipeline.arrRef spec2 5)).slice (win2_5.rect t)).set
  rw [View.set_slice_whole, Rect.mem_set_unit]
  intro a
  match a with
  | ⟨0, _⟩ =>
    show win2_5.index t (0 : Fin 2) * 2048 ≤ (i 0).val ∧ (i 0).val < win2_5.index t (0 : Fin 2) * 2048 + 2048
    omega
  | ⟨1, _⟩ =>
    show win2_5.index t (1 : Fin 2) * 16 ≤ (i 1).val ∧ (i 1).val < win2_5.index t (1 : Fin 2) * 16 + 16
    omega

/-- The four row blocks cover each output array, so after the step each is its function of the inputs. -/
theorem features_final (c : Dev nD) : (dat V c).arrAt 4 cfg2.N = featArr V c :=
  (dat V c).arrAt_eq_of_cover 4 (featArr V c) (fun t hf => flushed_features V c t hf) cover_features

theorem running_final (c : Dev nD) : (dat V c).arrAt 5 cfg2.N = runArr V c :=
  (dat V c).arrAt_eq_of_cover 5 (runArr V c) (fun t hf => flushed_running V c t hf) cover_running

/-- After the step, entry `(p, q)` of the new features' array is the sum over all 8192 columns of the Laplacian row
    `p` times the features' column `q`. -/
theorem features_out_apply (c : Dev nD) (p : Fin 8192) (q : Fin 16) :
    outX V c (ix2 p q) = ∑ t : Fin 8192, inL V c (ix2 p t) * inX V c (ix2 t q) := by
  show (dat V c).arrAt 4 cfg2.N (ix2 p q) = _
  rw [features_final V c]
  rfl

/-- After the step, entry `(p, q)` of the running output's array is the incoming entry plus the rectified product of
    the NEW features' row `p` with the weight matrix's column `q`. -/
theorem running_out_apply (c : Dev nD) (p : Fin 8192) (q : Fin 16) :
    outR V c (ix2 p q)
      = inR V c (ix2 p q) + max (∑ j : Fin 16, outX V c (ix2 p j) * inW V c (ix2 j q)) 0 := by
  have e : ∀ j : Fin 16, feat V c p j = outX V c (ix2 p j) := fun j => (features_out_apply V c p j).symm
  show (dat V c).arrAt 5 cfg2.N (ix2 p q) = _
  rw [running_final V c]
  show run V c p q = _
  unfold run
  exact congrArg (inR V c (ix2 p q) + ·) (congrArg (max · 0)
    (Finset.sum_congr rfl fun j _ => congrArg (· * inW V c (ix2 j q)) (e j)))

end Cert.KernelIdeal.Hop2

end
-- ==== Proof.Hop3Pieces.lean ====
import proofs.«155136_j78743930404901_2_alg».proof.Proof.Hop3Data
import Idealize.ShloMosaic.Lib.Pipeline.Value

/-!
# The first propagation step: what each point leaves, as the body's arithmetic

Each run of the body leaves its stores' pieces; every store covers its block whole, so what a block ends holding is
the last store's payload, and a load that follows a store reads what was stored. Read that way:

* at the first point of a row of tiles the scratch ends at (zero fill) + (tile product);
* at a middle point at (what it held) + (tile product);
* at the last point the same, the new features' block is that finished scratch, and the running output's block is
  the incoming block plus the rectified weight product of the finished scratch, rectified once more.
-/

set_option maxRecDepth 16384

noncomputable section

namespace Cert.KernelIdeal.Hop3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One lemma per run and block -/

/-- Zero offsets, however spelt. -/
theorem hz : (![0, 0] : Fin 2 → Nat) = fun _ => 0 := funext fun a => by fin_cases a <;> rfl

/-- At the first point of a row the scratch ends with the tile product added onto the zero fill: the accumulation's
    load reads what the reset's store left. -/
theorem scFirst_eq (c : Dev nD) (t : Fin cfg3.N) (hF : isFirst (grid3.coords t)) (hL : ¬isLast (grid3.coords t))
    (lt : Vec F S2048x2048 .bf16) (xt : Vec F S2048x16 .f32) :
    scFirst c t hF hL lt xt = k3_pay2 lt xt k3_pay1 := by
  unfold scFirst
  rw [View.read_writes_eq_canon _ _ _ (scFirst_cover c t hF hL lt xt)]
  unfold firstRun runFirst
  dsimp only
  sl_unfold_words
  rw [View.canon_cons_unit_zero (S := S2048x16) hz, View.readCov_unit_zero (S := S2048x16) _ hz]
  simp only [View.readAt_eq_ld, (hs0 t).read_unread, (hs1 t).read_unread,
    View.ld_unit_zero (S := S2048x2048) hz, View.ld_unit_zero (S := S2048x16) hz]

/-- At a middle point the scratch ends with the tile product added onto what it held. -/
theorem scMiddle_eq (c : Dev nD) (t : Fin cfg3.N) (hF : ¬isFirst (grid3.coords t)) (hL : ¬isLast (grid3.coords t))
    (lt : Vec F S2048x2048 .bf16) (xt : Vec F S2048x16 .f32) (sc : Vec F S2048x16 .f32) :
    scMiddle c t hF hL lt xt sc = k3_pay2 lt xt sc := by
  unfold scMiddle
  rw [View.read_writes_eq_canon _ _ _ (scMiddle_cover c t hF hL lt xt sc)]
  unfold middleRun runMiddle
  dsimp only
  rw [View.canon_unit_zero hz]
  simp only [View.readAt_eq_ld, (hs0 t).read_unread, (hs1 t).read_unread, (Memref.isWhole_whole cc3_scratch0).read_unread,
    View.ld_unit_zero (S := S2048x2048) hz, View.ld_unit_zero (S := S2048x16) hz]

/-- At the last point of a row the scratch ends the same way: the finishing stores do not touch it. -/
theorem scLast_eq (c : Dev nD) (t : Fin cfg3.N) (hF : ¬isFirst (grid3.coords t)) (hL : isLast (grid3.coords t))
    (lt : Vec F S2048x2048 .bf16) (xt : Vec F S2048x16 .f32) (w : Vec F S16x16 .f32) (acc : Vec F S2048x16 .f32) (sc : Vec F S2048x16 .f32) :
    scLast c t hF hL lt xt w acc sc = k3_pay2 lt xt sc := by
  unfold scLast
  rw [View.read_writes_eq_canon _ _ _ (scLast_cover c t hF hL lt xt w acc sc)]
  unfold lastRun runLast
  dsimp only
  sl_unfold_words
  rw [View.canon_unit_zero hz]
  simp only [View.readAt_eq_ld, (hs0 t).read_unread, (hs1 t).read_unread, (Memref.isWhole_whole cc3_scratch0).read_unread,
    View.ld_unit_zero (S := S2048x2048) hz, View.ld_unit_zero (S := S2048x16) hz]

/-- The new features' block is the finished scratch: the store's payload is the load of what the accumulation left. -/
theorem out4Last_eq (c : Dev nD) (t : Fin cfg3.N) (hF : ¬isFirst (grid3.coords t)) (hL : isLast (grid3.coords t))
    (lt : Vec F S2048x2048 .bf16) (xt : Vec F S2048x16 .f32) (w : Vec F S16x16 .f32) (acc : Vec F S2048x16 .f32) (sc : Vec F S2048x16 .f32) :
    out4Last c t hF hL lt xt w acc sc = k3_pay2 lt xt sc := by
  unfold out4Last
  rw [View.read_writes_eq_canon _ _ _ (out4Last_cover c t hF hL lt xt w acc sc)]
  unfold lastRun runLast
  dsimp only
  sl_unfold_words
  rw [View.canon_unit_zero hz, View.readCov_unit_zero (S := S2048x16) _ hz]
  simp only [View.readAt_eq_ld, (hs0 t).read_unread, (hs1 t).read_unread, (Memref.isWhole_whole cc3_scratch0).read_unread,
    View.ld_unit_zero (S := S2048x2048) hz, View.ld_unit_zero (S := S2048x16) hz]

/-- The running output's block is the incoming block plus the rectified weight product of the finished scratch,
    rectified once more. -/
theorem out5Last_eq (c : Dev nD) (t : Fin cfg3.N) (hF : ¬isFirst (grid3.coords t)) (hL : isLast (grid3.coords t))
    (lt : Vec F S2048x2048 .bf16) (xt : Vec F S2048x16 .f32) (w : Vec F S16x16 .f32) (acc : Vec F S2048x16 .f32) (sc : Vec F S2048x16 .f32) :
    out5Last c t hF hL lt xt w acc sc = k3_pay3 (k3_pay2 lt xt sc) w acc := by
  unfold out5Last
  rw [View.read_writes_eq_canon _ _ _ (out5Last_cover c t hF hL lt xt w acc sc)]
  unfold lastRun runLast
  dsimp only
  sl_unfold_words
  rw [View.canon_unit_zero hz, View.readCov_unit_zero (S := S2048x16) _ hz]
  simp only [View.readAt_eq_ld, (hs0 t).read_unread, (hs1 t).read_unread, (hs2 t).read_unread, (hs3 t).read_unread,
    (Memref.isWhole_whole cc3_scratch0).read_unread,
    View.ld_unit_zero (S := S2048x2048) hz, View.ld_unit_zero (S := S2048x16) hz, View.ld_unit_zero (S := S16x16) hz]

end Cert.KernelIdeal.Hop3

end
-- ==== Proof.Hop3Blocks.lean ====
import proofs.«155136_j78743930404901_2_alg».proof.Proof.Hop3Data
import Idealize.ShloMosaic.Lib.Pipeline.Value
import Idealize.ShloMosaic.Lib.ValueIdx

/-!
# The first propagation step: the windows' blocks, read off the arrays

At point `t = 4 i + k` of the 4 × 4 grid the Laplacian window holds block `(i, k)` of its array, the feature window
block `(k, 0)`, the weight window the whole 16 × 16 matrix, and the incoming-output window and both output windows
block `(i, 0)`. An entry of a block sits in the array, on each axis, at (block index) × (block size) + (its
coordinate inside the block). So entry `(r, s)` of the Laplacian tile at `t` is entry `(2048 i + r, 2048 k + s)` of the
Laplacian, and likewise for the others.

Each lemma takes the array coordinates as variables with their equations as hypotheses, so that it can be cited at
whatever spelling of the coordinates the caller has.
-/

set_option maxRecDepth 16384

noncomputable section

namespace Cert.KernelIdeal.Hop3

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

variable {F : FTy → Type} [FloatOps F]
variable (V : (c : Dev nD) → (b : Ref sig .tc) → Buf (Elt F) ((c : Thread nD τ).loc b))

/-- The printed index maps, decided once over the sixteen points: at point `t` the Laplacian tile is block
    `(t / 4, t mod 4)`, the feature tile block `(t mod 4, 0)`, the weight matrix block `(0, 0)`, and the incoming block
    and both output blocks are block `(t / 4, 0)`. -/
theorem index_facts : ∀ t : Fin cfg3.N,
    win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = 0 ∧ win3_2.index t (1 : Fin 2) = 0
    ∧ win3_3.index t (0 : Fin 2) = t.val / 4 ∧ win3_3.index t (1 : Fin 2) = 0
    ∧ win3_4.index t (0 : Fin 2) = t.val / 4 ∧ win3_4.index t (1 : Fin 2) = 0
    ∧ win3_5.index t (0 : Fin 2) = t.val / 4 ∧ win3_5.index t (1 : Fin 2) = 0 :=
  (by decide +kernel : ∀ t : Fin grid3.N, _)

/-- The Laplacian tile at point `t`: rows `2048 (t / 4) …`, columns `2048 (t mod 4) …` of the Laplacian. -/
theorem laplacian_block (c : Dev nD) (t : Fin cfg3.N) (r s : Fin 2048) (p u : Fin 8192)
    (hp : p.val = 2048 * (t.val / 4) + r.val) (hu : u.val = 2048 * (t.val % 4) + s.val) :
    (iblk V c 0 t : Vec F S2048x2048 .bf16) (ix2 r s) = (dat V c).A 0 (ix2 p u) := by
  obtain ⟨e0, e1, -⟩ := index_facts t
  unfold iblk
  rw [View.read_apply, A_eq]
  show V c (Pipeline.arrRef spec3 0) _ = V c (Pipeline.arrRef spec3 0) _
  refine congrArg (V c (Pipeline.arrRef spec3 0)) ?_
  funext a
  apply Fin.ext
  match a with
  | ⟨0, _⟩ => show win3_0.index t (0 : Fin 2) * 2048 + 1 * r.val = p.val; omega
  | ⟨1, _⟩ => show win3_0.index t (1 : Fin 2) * 2048 + 1 * s.val = u.val; omega

/-- The feature tile at point `t`: rows `2048 (t mod 4) …` of the features, all sixteen columns. -/
theorem features_block (c : Dev nD) (t : Fin cfg3.N) (s : Fin 2048) (q : Fin 16) (u : Fin 8192)
    (hu : u.val = 2048 * (t.val % 4) + s.val) :
    (iblk V c 1 t : Vec F S2048x16 .f32) (ix2 s q) = (dat V c).A 1 (ix2 u q) := by
  obtain ⟨-, -, e0, e1, -⟩ := index_facts t
  unfold iblk
  rw [View.read_apply, A_eq]
  show V c (Pipeline.arrRef spec3 1) _ = V c (Pipeline.arrRef spec3 1) _
  refine congrArg (V c (Pipeline.arrRef spec3 1)) ?_
  funext a
  apply Fin.ext
  match a with
  | ⟨0, _⟩ => show win3_1.index t (0 : Fin 2) * 2048 + 1 * s.val = u.val; omega
  | ⟨1, _⟩ => show win3_1.index t (1 : Fin 2) * 16 + 1 * q.val = q.val; omega

/-- The weight window's block is the weight matrix, at every point. -/
theorem weights_block (c : Dev nD) (t : Fin cfg3.N) (j q : Fin 16) :
    (iblk V c 2 t : Vec F S16x16 .f32) (ix2 j q) = (dat V c).A 2 (ix2 j q) := by
  obtain ⟨-, -, -, -, e0, e1, -⟩ := index_facts t
  unfold iblk
  rw [View.read_apply, A_eq]
  show V c (Pipeline.arrRef spec3 2) _ = V c (Pipeline.arrRef spec3 2) _
  refine congrArg (V c (Pipeline.arrRef spec3 2)) ?_
  funext a
  apply Fin.ext
  match a with
  | ⟨0, _⟩ => show win3_2.index t (0 : Fin 2) * 16 + 1 * j.val = j.val; omega
  | ⟨1, _⟩ => show win3_2.index t (1 : Fin 2) * 16 + 1 * q.val = q.val; omega

/-- The incoming running-output block at point `t`: rows `2048 (t / 4) …` of the incoming running output. -/
theorem incoming_block (c : Dev nD) (t : Fin cfg3.N) (r : Fin 2048) (q : Fin 16) (p : Fin 8192)
    (hp : p.val = 2048 * (t.val / 4) + r.val) :
    (iblk V c 3 t : Vec F S2048x16 .f32) (ix2 r q) = (dat V c).A 3 (ix2 p q) := by
  obtain ⟨-, -, -, -, -, -, e0, e1, -⟩ := index_facts t
  unfold iblk
  rw [View.read_apply, A_eq]
  show V c (Pipeline.arrRef spec3 3) _ = V c (Pipeline.arrRef spec3 3) _
  refine congrArg (V c (Pipeline.arrRef spec3 3)) ?_
  funext a
  apply Fin.ext
  match a with
  | ⟨0, _⟩ => show win3_3.index t (0 : Fin 2) * 2048 + 1 * r.val = p.val; omega
  | ⟨1, _⟩ => show win3_3.index t (1 : Fin 2) * 16 + 1 * q.val = q.val; omega

end Cert.KernelIdeal.Hop3

end
-- ==== Proof.Hop3Entries.lean ====
import proofs.«155136_j78743930404901_2_alg».proof.Proof.Gen.KernelIdeal.Skeleton
import proofs.«155136_j78743930404901_2_alg».proof.Proof.HopEntries

/-!
# What one grid point of the fourth propagation step computes, entry by entry

The reset and the accumulation are those of the earlier steps. The finishing store differs: this is the layer's
last step, and the layer's closing rectification is done here, so the running output's entry becomes
`max (incoming + max (weight product) 0) 0`.
-/

noncomputable section

namespace Cert.KernelIdeal.Hop3Entries

open Cert.KernelIdeal Cert.KernelIdeal.Gen Cert.KernelIdeal.HopEntries Idealize.ShloMosaic Idealize.ShloMosaic.ValueIdx

/-- The reset writes zero everywhere. -/
theorem reset_apply (j : S2048x16.Idx) : k3_pay1 (F := Ideal) j = 0 := by
  unfold k3_pay1
  rw [shapeCast_self]
  exact Ideal.ofBits_zero_f32

/-- One accumulation: the scratch entry plus the tile product's entry. -/
theorem accumulate_apply (lt : Vec Ideal S2048x2048 .bf16) (xt : Vec Ideal S2048x16 .f32) (sc : Vec Ideal S2048x16 .f32)
    (r : Fin 2048) (c : Fin 16) :
    k3_pay2 (F := Ideal) lt xt sc (ix2 r c) = sc (ix2 r c) + ∑ s : Fin 2048, lt (ix2 r s) * xt (ix2 s c) := by
  unfold k3_pay2
  rw [shapeCast_self, shapeCast_self, shapeCast_self, addf_apply]
  refine congrArg (sc (ix2 r c) + ·) ?_
  refine (Ideal.matmul_constant_zero_apply _ none lt (truncf (F := Ideal) .bf16 xt bitsLt_bf16_f32) (ix2 r c)).trans ?_
  exact Cert.PlainDot.sum_contr _ tile_plain lt (truncf (F := Ideal) .bf16 xt bitsLt_bf16_f32) r c

/-- The finishing store of the running output, rectified once more at the end. -/
theorem finish_apply (sc : Vec Ideal S2048x16 .f32) (w : Vec Ideal S16x16 .f32) (acc : Vec Ideal S2048x16 .f32)
    (r : Fin 2048) (c : Fin 16) :
    k3_pay3 (F := Ideal) sc w acc (ix2 r c) = max (acc (ix2 r c) + max (∑ j : Fin 16, sc (ix2 r j) * w (ix2 j c)) 0) 0 := by
  unfold k3_pay3
  rw [shapeCast_self, shapeCast_self, maximumf_apply, broadcast_apply, addf_apply, maximumf_apply, broadcast_apply]
  refine congrArg₂ max ?_ Ideal.ofBits_zero_f32
  refine congrArg (acc (ix2 r c) + ·) ?_
  refine congrArg₂ max ?_ Ideal.ofBits_zero_f32
  refine (Ideal.matmul_constant_zero_apply _ none (truncf (F := Ideal) .bf16 sc bitsLt_bf16_f32) (truncf (F := Ideal) .bf16 w bitsLt_bf16_f32) (ix2 r c)).trans ?_
  exact Cert.PlainDot.sum_contr _ weight_plain (truncf (F := Ideal) .bf16 sc bitsLt_bf16_f32) (truncf (F := Ideal) .bf16 w bitsLt_bf16_f32) r c

end Cert.KernelIdeal.Hop3Entries

end
-- ==== Proof.Hop3Rows.lean ====
import proofs.«155136_j78743930404901_2_alg».proof.Proof.Hop3Pieces
import proofs.«155136_j78743930404901_2_alg».proof.Proof.Hop3Blocks
import proofs.«155136_j78743930404901_2_alg».proof.Proof.Hop3Entries
import proofs.«155136_j78743930404901_2_alg».proof.Proof.LibBlockSum
import Idealize.ShloMosaic.Lib.Pipeline.Value
import Idealize.ShloMosaic.Lib.ValueIdx

/-!
# The first propagation step: a row of tiles, entry by entry

The step's grid is 4 × 4, point `t = 4 i + k`. Along a row of tiles the scratch block is reset at `k = 0` and grows by
one tile product at every point, so after the row's last point its entry `(r, q)` is the sum over the four tiles
`k` of `∑ s < 2048, L (2048 i + r, 2048 k + s) * X (2048 k + s, q)`. The four partial sums are the four consecutive
blocks of the one sum over all 8192 columns of the Laplacian's row `2048 i + r`: the finished block's entry `(r, q)` is
entry `(2048 i + r, q)` of the Laplacian times the features.

First the recursion over the points is read through the body's arithmetic (for any float instance); then, over the
extended reals, where sums may be regrouped freely, the entries.
-/

set_option maxRecDepth 16384

noncomputable section

namespace Cert.KernelIdeal.Hop3

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

/-! ## Along the recursion over the points -/

section Along

variable {F : FTy → Type} [FloatOps F]
variable (V : (c : Dev nD) → (b : Ref sig .tc) → Buf (Elt F) ((c : Thread nD τ).loc b))

/-- After the first point of a row the scratch is the tile product added onto the zero fill. -/
theorem scratch_first (c : Dev nD) (n : ℕ) (hn : n < cfg3.N) (h0 : n % 4 = 0) :
    (outsAt V c n hn).2.2 = k3_pay2 (iblk V c 0 ⟨n, hn⟩) (iblk V c 1 ⟨n, hn⟩) k3_pay1 := by
  have hL : ¬isLast (grid3.coords (⟨n, hn⟩ : Fin cfg3.N)) := fun h => by
    have := (isLast_iff ⟨n, hn⟩).mp h; dsimp only at this; omega
  rw [show outsAt V c n hn = outsAt V c (⟨n, hn⟩ : Fin cfg3.N).val (⟨n, hn⟩ : Fin cfg3.N).isLt from rfl,
    outsAt_first V c ⟨n, hn⟩ h0 hL]
  dsimp only
  exact scFirst_eq c ⟨n, hn⟩ ((isFirst_iff ⟨n, hn⟩).mpr h0) hL (iblk V c 0 ⟨n, hn⟩) (iblk V c 1 ⟨n, hn⟩)

/-- After a middle point it is the tile product added onto what the point before left. -/
theorem scratch_middle (c : Dev nD) (n : ℕ) (hn : n + 1 < cfg3.N) (h0 : ¬(n + 1) % 4 = 0) (h3 : ¬(n + 1) % 4 = 3) :
    (outsAt V c (n + 1) hn).2.2
      = k3_pay2 (iblk V c 0 ⟨n + 1, hn⟩) (iblk V c 1 ⟨n + 1, hn⟩) (outsAt V c n (Nat.lt_of_succ_lt hn)).2.2 := by
  rw [outsAt_middle V c ⟨n + 1, hn⟩ h0 h3]
  dsimp only
  simp only [Nat.add_sub_cancel]
  exact scMiddle_eq c ⟨n + 1, hn⟩ (fun h => h0 ((isFirst_iff ⟨n + 1, hn⟩).mp h)) (fun h => h3 ((isLast_iff ⟨n + 1, hn⟩).mp h))
    (iblk V c 0 ⟨n + 1, hn⟩) (iblk V c 1 ⟨n + 1, hn⟩) (outsAt V c n (Nat.lt_of_succ_lt hn)).2.2

/-- After the last point of a row the new features' block is the finished scratch … -/
theorem features_last (c : Dev nD) (n : ℕ) (hn : n + 1 < cfg3.N) (h3 : (n + 1) % 4 = 3) :
    (outsAt V c (n + 1) hn).1
      = k3_pay2 (iblk V c 0 ⟨n + 1, hn⟩) (iblk V c 1 ⟨n + 1, hn⟩) (outsAt V c n (Nat.lt_of_succ_lt hn)).2.2 := by
  have h0 : ¬(n + 1) % 4 = 0 := by omega
  rw [outsAt_last V c ⟨n + 1, hn⟩ h0 h3]
  dsimp only
  simp only [Nat.add_sub_cancel]
  exact out4Last_eq c ⟨n + 1, hn⟩ (fun h => h0 ((isFirst_iff ⟨n + 1, hn⟩).mp h)) ((isLast_iff ⟨n + 1, hn⟩).mpr h3)
    (iblk V c 0 ⟨n + 1, hn⟩) (iblk V c 1 ⟨n + 1, hn⟩) (iblk V c 2 ⟨n + 1, hn⟩) (iblk V c 3 ⟨n + 1, hn⟩)
    (outsAt V c n (Nat.lt_of_succ_lt hn)).2.2

/-- … and the running output's block is the incoming block plus the rectified weight product of that finished scratch,
    rectified once more (the layer's closing rectification, done in this last step). -/
theorem running_last (c : Dev nD) (n : ℕ) (hn : n + 1 < cfg3.N) (h3 : (n + 1) % 4 = 3) :
    (outsAt V c (n + 1) hn).2.1
      = k3_pay3 (k3_pay2 (iblk V c 0 ⟨n + 1, hn⟩) (iblk V c 1 ⟨n + 1, hn⟩) (outsAt V c n (Nat.lt_of_succ_lt hn)).2.2)
          (iblk V c 2 ⟨n + 1, hn⟩) (iblk V c 3 ⟨n + 1, hn⟩) := by
  have h0 : ¬(n + 1) % 4 = 0 := by omega
  rw [outsAt_last V c ⟨n + 1, hn⟩ h0 h3]
  dsimp only
  simp only [Nat.add_sub_cancel]
  exact out5Last_eq c ⟨n + 1, hn⟩ (fun h => h0 ((isFirst_iff ⟨n + 1, hn⟩).mp h)) ((isLast_iff ⟨n + 1, hn⟩).mpr h3)
    (iblk V c 0 ⟨n + 1, hn⟩) (iblk V c 1 ⟨n + 1, hn⟩) (iblk V c 2 ⟨n + 1, hn⟩) (iblk V c 3 ⟨n + 1, hn⟩)
    (outsAt V c n (Nat.lt_of_succ_lt hn)).2.2

end Along

/-! ## The row of tiles, entry by entry -/

variable (V : (c : Dev nD) → (b : Ref sig .tc) → Buf (Elt Ideal) ((c : Thread nD τ).loc b))

/-- Entry `(r, q)` of a Laplacian tile times a feature tile. -/
def tileProd (lt : Vec Ideal S2048x2048 .bf16) (xt : Vec Ideal S2048x16 .f32) (r : Fin 2048) (q : Fin 16) : EReal :=
  ∑ s : Fin 2048, lt (ix2 r s) * xt (ix2 s q)

/-- The same for the two tiles of point `t`. -/
def tile (c : Dev nD) (t : Fin cfg3.N) (r : Fin 2048) (q : Fin 16) : EReal :=
  tileProd (iblk V c 0 t) (iblk V c 1 t) r q

/-- After the first point of a row a scratch entry is zero plus the tile product's entry. -/
theorem scratch_entry_first (c : Dev nD) (n : ℕ) (hn : n < cfg3.N) (h0 : n % 4 = 0) (r : Fin 2048) (q : Fin 16) :
    (outsAt V c n hn).2.2 (ix2 r q) = 0 + tile V c ⟨n, hn⟩ r q := by
  rw [scratch_first V c n hn h0]
  refine (Hop3Entries.accumulate_apply (iblk V c 0 ⟨n, hn⟩) (iblk V c 1 ⟨n, hn⟩) (k3_pay1 (F := Ideal)) r q).trans ?_
  rw [Hop3Entries.reset_apply]
  rfl

/-- After a middle point it is the entry the point before left plus the tile product's entry. -/
theorem scratch_entry_middle (c : Dev nD) (n : ℕ) (hn : n + 1 < cfg3.N) (h0 : ¬(n + 1) % 4 = 0) (h3 : ¬(n + 1) % 4 = 3)
    (r : Fin 2048) (q : Fin 16) :
    (outsAt V c (n + 1) hn).2.2 (ix2 r q)
      = (outsAt V c n (Nat.lt_of_succ_lt hn)).2.2 (ix2 r q) + tile V c ⟨n + 1, hn⟩ r q := by
  rw [scratch_middle V c n hn h0 h3]
  exact Hop3Entries.accumulate_apply (iblk V c 0 ⟨n + 1, hn⟩) (iblk V c 1 ⟨n + 1, hn⟩) (outsAt V c n (Nat.lt_of_succ_lt hn)).2.2 r q

/-- After the last point of a row an entry of the new features' block is the scratch entry the point before left plus
    the tile product's entry. -/
theorem features_entry_last (c : Dev nD) (n : ℕ) (hn : n + 1 < cfg3.N) (h3 : (n + 1) % 4 = 3) (r : Fin 2048) (q : Fin 16) :
    (outsAt V c (n + 1) hn).1 (ix2 r q)
      = (outsAt V c n (Nat.lt_of_succ_lt hn)).2.2 (ix2 r q) + tile V c ⟨n + 1, hn⟩ r q := by
  rw [features_last V c n hn h3]
  exact Hop3Entries.accumulate_apply (iblk V c 0 ⟨n + 1, hn⟩) (iblk V c 1 ⟨n + 1, hn⟩) (outsAt V c n (Nat.lt_of_succ_lt hn)).2.2 r q

/-- The `b`-th point of the row of tiles that starts at point `n`. -/
abbrev rowPoint (n : ℕ) (hn : n + 3 < cfg3.N) (b : Fin 4) : Fin cfg3.N :=
  ⟨n + b.val, Nat.lt_of_le_of_lt (Nat.add_le_add_left (Nat.le_of_lt_succ b.isLt) n) hn⟩

/-- After a whole row of tiles, starting at point `n`, an entry of the new features' block is the sum of the four tile
    products' entries. -/
theorem features_row (c : Dev nD) (n : ℕ) (hn : n + 3 < cfg3.N) (h : n % 4 = 0) (r : Fin 2048) (q : Fin 16) :
    (outsAt V c (n + 3) hn).1 (ix2 r q) = ∑ b : Fin 4, tile V c (rowPoint n hn b) r q := by
  have h2 : n + 2 < cfg3.N := Nat.lt_of_succ_lt hn
  have h1 : n + 1 < cfg3.N := Nat.lt_of_succ_lt h2
  have h0 : n < cfg3.N := Nat.lt_of_succ_lt h1
  refine Eq.trans ?_ (BlockSum.acc_four (fun b : Fin 4 => tile V c (rowPoint n hn b) r q))
  show (outsAt V c (n + 2 + 1) hn).1 (ix2 r q)
    = 0 + tile V c ⟨n, h0⟩ r q + tile V c ⟨n + 1, h1⟩ r q + tile V c ⟨n + 1 + 1, h2⟩ r q + tile V c ⟨n + 2 + 1, hn⟩ r q
  rw [features_entry_last V c (n + 2) hn (by omega) r q]
  show (outsAt V c (n + 1 + 1) h2).2.2 (ix2 r q) + _ = _
  rw [scratch_entry_middle V c (n + 1) h2 (by omega) (by omega) r q,
    scratch_entry_middle V c n h1 (by omega) (by omega) r q, scratch_entry_first V c n h0 h r q]

/-! ## The arrays at their literal types -/

/-- The step's four input arrays as it finds them — the Laplacian, the features, the weight matrix, the incoming running
    output — and its two output arrays after it, each at its literal type, so that entries can be multiplied and added as
    extended reals. -/
abbrev inL (c : Dev nD) : Vec Ideal S8192x8192 .bf16 := (dat V c).A 0
abbrev inX (c : Dev nD) : Vec Ideal S8192x16 .f32 := (dat V c).A 1
abbrev inW (c : Dev nD) : Vec Ideal S16x16 .f32 := (dat V c).A 2
abbrev inR (c : Dev nD) : Vec Ideal S8192x16 .f32 := (dat V c).A 3
abbrev outX (c : Dev nD) : Vec Ideal S8192x16 .f32 := (dat V c).arrAt 4 cfg3.N
abbrev outR (c : Dev nD) : Vec Ideal S8192x16 .f32 := (dat V c).arrAt 5 cfg3.N

/-! ## The four tile products are the four blocks of one contraction -/

/-- Entry `(p, q)` of the Laplacian times the features: the contraction over all 8192 columns of row `p`. -/
def feat (c : Dev nD) (p : Fin 8192) (q : Fin 16) : EReal :=
  ∑ u : Fin 8192, inL V c (ix2 p u) * inX V c (ix2 u q)

/-- A tile product's entry is one block of that contraction: at a point of tile `b` in its row, the columns
    `2048 b …`. -/
theorem tile_eq (c : Dev nD) (t : Fin cfg3.N) (b : Fin 4) (hb : t.val % 4 = b.val) (r : Fin 2048) (q : Fin 16)
    (p : Fin 8192) (hp : p.val = 2048 * (t.val / 4) + r.val) :
    tile V c t r q = ∑ s : Fin 2048, inL V c (ix2 p (BlockSum.idx b s)) * inX V c (ix2 (BlockSum.idx b s) q) := by
  unfold tile tileProd
  refine Finset.sum_congr rfl fun s _ => ?_
  have hu : (BlockSum.idx b s : Fin (4 * 2048)).val = 2048 * (t.val % 4) + s.val := by rw [BlockSum.idx_val, hb]; omega
  exact congrArg₂ (· * ·) (laplacian_block V c t r s p (BlockSum.idx b s) hp hu) (features_block V c t s q (BlockSum.idx b s) hu)

/-- The contraction, block by block. -/
theorem feat_blocks (c : Dev nD) (p : Fin 8192) (q : Fin 16) :
    feat V c p q = ∑ b : Fin 4, ∑ s : Fin 2048, inL V c (ix2 p (BlockSum.idx b s)) * inX V c (ix2 (BlockSum.idx b s) q) := by
  unfold feat
  exact BlockSum.sum_eq_sum_blocks (k := 4) (n := 2048) (fun u : Fin (4 * 2048) => inL V c (ix2 p u) * inX V c (ix2 u q))

/-- After the last point `t` of a row of tiles, entry `(r, q)` of the new features' block is entry `(2048 (t / 4) + r, q)`
    of the Laplacian times the features. -/
theorem features_block_entry (c : Dev nD) (t : Fin cfg3.N) (h3 : t.val % 4 = 3) (r : Fin 2048) (q : Fin 16)
    (p : Fin 8192) (hp : p.val = 2048 * (t.val / 4) + r.val) :
    (outsAt V c t.val t.isLt).1 (ix2 r q) = feat V c p q := by
  obtain ⟨n, hn, h0, rfl⟩ : ∃ (n : ℕ) (hn : n + 3 < cfg3.N), n % 4 = 0 ∧ t = ⟨n + 3, hn⟩ :=
    ⟨t.val - 3, by have := t.isLt; omega, by omega, Fin.ext (by show t.val = t.val - 3 + 3; omega)⟩
  dsimp only at hp h3
  show (outsAt V c (n + 3) hn).1 (ix2 r q) = _
  rw [features_row V c n hn h0 r q, feat_blocks V c p q]
  refine Finset.sum_congr rfl fun b _ => ?_
  exact tile_eq V c (rowPoint n hn b) b (by show (n + b.val) % 4 = b.val; have := b.isLt; omega) r q p
    (by show p.val = 2048 * ((n + b.val) / 4) + r.val; have := b.isLt; omega)

end Cert.KernelIdeal.Hop3

end
-- ==== Proof.Hop3Value.lean ====
import proofs.«155136_j78743930404901_2_alg».proof.Proof.Hop3Rows
import proofs.«155136_j78743930404901_2_alg».proof.Proof.Hop3Blocks
import proofs.«155136_j78743930404901_2_alg».proof.Proof.Hop3Entries
import Idealize.ShloMosaic.Lib.Pipeline.Value
import Idealize.ShloMosaic.Lib.ValueIdx

/-!
# The first propagation step: the two output arrays, entry by entry

At the last point of row-block `i` the finished scratch block — rows `2048 i …` of the Laplacian times the features —
is written back as rows `2048 i …` of the new features' array, and the running output's rows `2048 i …` are written
back as the incoming rows plus the rectified product of the finished block with the weight matrix, rectified once
more (this is the layer's last step and its closing rectification is done here). The four row
blocks cover both arrays, so after the step

* entry `(p, q)` of the new features is `∑ u < 8192, L (p, u) * X (u, q)`;
* entry `(p, q)` of the running output is `max (incoming + max (∑ j < 16, new (p, j) * W (j, q)) 0) 0`.
-/

set_option maxRecDepth 16384

noncomputable section

namespace Cert.KernelIdeal.Hop3

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## What the write-backs write, that they cover, and the two arrays after the step -/

/-- The same with the column given by value. -/
theorem features_block_entry' (c : Dev nD) (t : Fin cfg3.N) (h3 : t.val % 4 = 3) (r : Fin 2048) (q : Fin 16)
    (p : Fin 8192) (q' : Fin 16) (hp : p.val = 2048 * (t.val / 4) + r.val) (hq : q'.val = q.val) :
    (outsAt V c t.val t.isLt).1 (ix2 r q) = feat V c p q' := by
  obtain rfl : q' = q := Fin.ext hq
  exact features_block_entry V c t h3 r q' p hp

/-- Entry `(p, q)` of the running output after the step: the incoming entry plus the rectified product of the new
    features' row `p` with the weight matrix's column `q`, the sum rectified once more. -/
def run (c : Dev nD) (p : Fin 8192) (q : Fin 16) : EReal :=
  max (inR V c (ix2 p q) + max (∑ j : Fin 16, feat V c p j * inW V c (ix2 j q)) 0) 0

/-- After the last point `t` of a row of tiles, entry `(r, q)` of the running output's block is that, at row
    `2048 (t / 4) + r`. -/
theorem running_block_entry (c : Dev nD) (t : Fin cfg3.N) (h3 : t.val % 4 = 3) (r : Fin 2048) (q : Fin 16)
    (p : Fin 8192) (q' : Fin 16) (hp : p.val = 2048 * (t.val / 4) + r.val) (hq : q'.val = q.val) :
    (outsAt V c t.val t.isLt).2.1 (ix2 r q) = run V c p q' := by
  obtain rfl : q' = q := Fin.ext hq
  obtain ⟨n, hn, h0, rfl⟩ : ∃ (n : ℕ) (hn : n + 3 < cfg3.N), n % 4 = 0 ∧ t = ⟨n + 3, hn⟩ :=
    ⟨t.val - 3, by have := t.isLt; omega, by omega, Fin.ext (by show t.val = t.val - 3 + 3; omega)⟩
  dsimp only at hp h3
  show (outsAt V c (n + 2 + 1) hn).2.1 (ix2 r q') = _
  rw [running_last V c (n + 2) hn (by omega), ← features_last V c (n + 2) hn (by omega)]
  refine (Hop3Entries.finish_apply (outsAt V c (n + 2 + 1) hn).1 (iblk V c 2 ⟨n + 2 + 1, hn⟩) (iblk V c 3 ⟨n + 2 + 1, hn⟩) r q').trans ?_
  unfold run
  refine congrArg (max · 0) ?_
  refine congrArg₂ (· + ·) (incoming_block V c ⟨n + 2 + 1, hn⟩ r q' p hp) ?_
  refine congrArg (max · 0) ?_
  refine Finset.sum_congr rfl fun j _ => ?_
  exact congrArg₂ (· * ·) (features_block_entry V c ⟨n + 2 + 1, hn⟩ h3 r j p hp) (weights_block V c ⟨n + 2 + 1, hn⟩ j q')

/-- The new features' array and the running output's array after the step, each as one function of the inputs. -/
def featArr (c : Dev nD) : S8192x16.Idx → EReal := fun i => feat V c (i 0) (i 1)
def runArr (c : Dev nD) : S8192x16.Idx → EReal := fun i => run V c (i 0) (i 1)

/-- What the last point of a row writes back into the new features' array is its block of that function. -/
theorem flushed_features (c : Dev nD) (t : Fin cfg3.N) (hf : (cfg3.win 4).flush t = true) :
    (dat V c).flushed 4 t = ((cfg3.win 4).blk t).view.read (Elt Ideal) (featArr V c) := by
  have h3 : t.val % 4 = 3 := (flush3_4 t).mp hf
  obtain ⟨-, -, -, -, -, -, -, -, e0, e1, -⟩ := index_facts t
  show (cfg3.win 4).cut (grid3.coords t) ((dat V c).after 4 t) = _
  rw [after4]
  funext y
  rw [View.read_apply]
  show (outsAt V c t.val t.isLt).1 ((cfg3.win 4).xinj (grid3.coords t) y) = featArr V c (((cfg3.win 4).blk t).view.emb y)
  unfold featArr
  refine (congrArg (outsAt V c t.val t.isLt).1 (eq_ix2 (n0 := 2048) (n1 := 16) ((cfg3.win 4).xinj (grid3.coords t) y))).trans ?_
  exact features_block_entry' V c t h3 _ _ _ _
    (by show win3_4.index t (0 : Fin 2) * 2048 + 1 * (y 0).val = 2048 * (t.val / 4) + (y 0).val; omega)
    (by show win3_4.index t (1 : Fin 2) * 16 + 1 * (y 1).val = (y 1).val; omega)

/-- The same for the running output's array. -/
theorem flushed_running (c : Dev nD) (t : Fin cfg3.N) (hf : (cfg3.win 5).flush t = true) :
    (dat V c).flushed 5 t = ((cfg3.win 5).blk t).view.read (Elt Ideal) (runArr V c) := by
  have h3 : t.val % 4 = 3 := (flush3_5 t).mp hf
  obtain ⟨-, -, -, -, -, -, -, -, -, -, e0, e1⟩ := index_facts t
  show (cfg3.win 5).cut (grid3.coords t) ((dat V c).after 5 t) = _
  rw [after5]
  funext y
  rw [View.read_apply]
  show (outsAt V c t.val t.isLt).2.1 ((cfg3.win 5).xinj (grid3.coords t) y) = runArr V c (((cfg3.win 5).blk t).view.emb y)
  unfold runArr
  refine (congrArg (outsAt V c t.val t.isLt).2.1 (eq_ix2 (n0 := 2048) (n1 := 16) ((cfg3.win 5).xinj (grid3.coords t) y))).trans ?_
  exact running_block_entry V c t h3 _ _ _ _
    (by show win3_5.index t (0 : Fin 2) * 2048 + 1 * (y 0).val = 2048 * (t.val / 4) + (y 0).val; omega)
    (by show win3_5.index t (1 : Fin 2) * 16 + 1 * (y 1).val = (y 1).val; omega)

/-- Row `p` of either output array lies in the block written back at the last point of row-block `p / 2048`. -/
theorem cover_features (i : S8192x16.Idx) :
    ∃ t : Fin cfg3.N, (cfg3.win 4).flush t = true ∧ i ∈ ((cfg3.win 4).blk t).view.set := by
  have hi0 : (i 0).val < 8192 := (i 0).isLt
  have hi1 : (i 1).val < 16 := (i 1).isLt
  have hN : cfg3.N = 16 := N_3
  obtain ⟨t, ht⟩ : ∃ t : Fin cfg3.N, t.val = 4 * ((i 0).val / 2048) + 3 := ⟨⟨4 * ((i 0).val / 2048) + 3, by omega⟩, rfl⟩
  obtain ⟨-, -, -, -, -, -, -, -, e0, e1, -⟩ := index_facts t
  refine ⟨t, (flush3_4 t).mpr (by omega), ?_⟩
  show i ∈ ((View.whole (Pipeline.arrRef spec3 4)).slice (win3_4.rect t)).set
  rw [View.set_slice_whole, Rect.mem_set_unit]
  intro a
  match a with
  | ⟨0, _⟩ =>
    show win3_4.index t (0 : Fin 2) * 2048 ≤ (i 0).val ∧ (i 0).val < win3_4.index t (0 : Fin 2) * 2048 + 2048
    omega
  | ⟨1, _⟩ =>
    show win3_4.index t (1 : Fin 2) * 16 ≤ (i 1).val ∧ (i 1).val < win3_4.index t (1 : Fin 2) * 16 + 16
    omega

theorem cover_running (i : S8192x16.Idx) :
    ∃ t : Fin cfg3.N, (cfg3.win 5).flush t = true ∧ i ∈ ((cfg3.win 5).blk t).view.set := by
  have hi0 : (i 0).val < 8192 := (i 0).isLt
  have hi1 : (i 1).val < 16 := (i 1).isLt
  have hN : cfg3.N = 16 := N_3
  obtain ⟨t, ht⟩ : ∃ t : Fin cfg3.N, t.val = 4 * ((i 0).val / 2048) + 3 := ⟨⟨4 * ((i 0).val / 2048) + 3, by omega⟩, rfl⟩
  obtain ⟨-, -, -, -, -, -, -, -, -, -, e0, e1⟩ := index_facts t
  refine ⟨t, (flush3_5 t).mpr (by omega), ?_⟩
  show i ∈ ((View.whole (Pipeline.arrRef spec3 5)).slice (win3_5.rect t)).set
  rw [View.set_slice_whole, Rect.mem_set_unit]
  intro a
  match a with
  | ⟨0, _⟩ =>
    show win3_5.index t (0 : Fin 2) * 2048 ≤ (i 0).val ∧ (i 0).val < win3_5.index t (0 : Fin 2) * 2048 + 2048
    omega
  | ⟨1, _⟩ =>
    show win3_5.index t (1 : Fin 2) * 16 ≤ (i 1).val ∧ (i 1).val < win3_5.index t (1 : Fin 2) * 16 + 16
    omega

/-- The four row blocks cover each output array, so after the step each is its function of the inputs. -/
theorem features_final (c : Dev nD) : (dat V c).arrAt 4 cfg3.N = featArr V c :=
  (dat V c).arrAt_eq_of_cover 4 (featArr V c) (fun t hf => flushed_features V c t hf) cover_features

theorem running_final (c : Dev nD) : (dat V c).arrAt 5 cfg3.N = runArr V c :=
  (dat V c).arrAt_eq_of_cover 5 (runArr V c) (fun t hf => flushed_running V c t hf) cover_running

/-- After the step, entry `(p, q)` of the new features' array is the sum over all 8192 columns of the Laplacian row
    `p` times the features' column `q`. -/
theorem features_out_apply (c : Dev nD) (p : Fin 8192) (q : Fin 16) :
    outX V c (ix2 p q) = ∑ t : Fin 8192, inL V c (ix2 p t) * inX V c (ix2 t q) := by
  show (dat V c).arrAt 4 cfg3.N (ix2 p q) = _
  rw [features_final V c]
  rfl

/-- After the step, entry `(p, q)` of the running output's array is the incoming entry plus the rectified product of
    the NEW features' row `p` with the weight matrix's column `q`, the sum rectified once more. -/
theorem running_out_apply (c : Dev nD) (p : Fin 8192) (q : Fin 16) :
    outR V c (ix2 p q)
      = max (inR V c (ix2 p q) + max (∑ j : Fin 16, outX V c (ix2 p j) * inW V c (ix2 j q)) 0) 0 := by
  have e : ∀ j : Fin 16, feat V c p j = outX V c (ix2 p j) := fun j => (features_out_apply V c p j).symm
  show (dat V c).arrAt 5 cfg3.N (ix2 p q) = _
  rw [running_final V c]
  show run V c p q = _
  unfold run
  exact congrArg (max · 0) (congrArg (inR V c (ix2 p q) + ·) (congrArg (max · 0)
    (Finset.sum_congr rfl fun j _ => congrArg (· * inW V c (ix2 j q)) (e j))))

end Cert.KernelIdeal.Hop3

end
-- ==== Proof.LayerSpec.lean ====
import proofs.«155136_j78743930404901_2_alg».proof.Proof.LibPlainDot
import Idealize.ShloMosaic.Lib.Pipeline.Value
import Idealize.ShloMosaic.Lib.ValueIdx

/-!
# The layer, entry by entry

For a Laplacian `L` (8192 × 8192), features `x` (8192 × 16) and five weight matrices `W₀ … W₄` (16 × 16 each):

* the features after `k` propagation steps are `L^k x`: `feat 0 = x`, `feat (k+1) (p, q) = ∑ t, L (p, t) * feat k (t, q)`;
* step `k` contributes `relu (feat k · W_k)`: at `(p, q)`, `max (∑ j, feat k (p, j) * W_k (j, q)) 0`;
* the layer's output is `relu` of the five contributions added up in order.

Both programs compute exactly this over the extended reals; they differ only in how the sum over `t` is grouped.
Beside the definition: the two readings both programs share on the host side — a rectified matrix product against a
zero broadcast, and a weight matrix cut out of the stack of five and re-laid as 16 × 16 — each at an entry.
-/

noncomputable section

namespace Cert.LayerSpec

open Idealize.ShloMosaic Idealize.ShloMosaic.ValueIdx

variable (L : Fin 8192 → Fin 8192 → EReal) (x : Fin 8192 → Fin 16 → EReal)

/-- The features after `k` propagation steps. -/
def feat : ℕ → Fin 8192 → Fin 16 → EReal
  | 0 => x
  | k + 1 => fun p q => ∑ t : Fin 8192, L p t * feat k t q

/-- Step `k`'s rectified contribution, with weight matrix `w`. -/
def contrib (w : Fin 16 → Fin 16 → EReal) (k : ℕ) (p : Fin 8192) (q : Fin 16) : EReal :=
  max (∑ j : Fin 16, feat L x k p j * w j q) 0

/-- The layer's output. -/
def layer (W : Fin 5 → Fin 16 → Fin 16 → EReal) (p : Fin 8192) (q : Fin 16) : EReal :=
  max (contrib L x (W 0) 0 p q + contrib L x (W 1) 1 p q + contrib L x (W 2) 2 p q + contrib L x (W 3) 3 p q
    + contrib L x (W 4) 4 p q) 0

/-! ## Two host-side readings -/

/-- A scalar zero broadcast to 8192 × 16 is zero at every entry. -/
theorem zeros_apply (h : (⟨0, ![]⟩ : Shape).BroadcastsInDim ⟨2, ![8192, 16]⟩ (![] : Fin 0 → Fin 2)) (i : (⟨2, ![8192, 16]⟩ : Shape).Idx) :
    broadcastInDim ⟨2, ![8192, 16]⟩ ![] h (constant (F := Ideal) ⟨0, ![]⟩ .f32 0x00000000#32) i = 0 :=
  (broadcastInDim_apply _ h _ i (fun a => a.elim0) (fun a => a.elim0)).trans Ideal.ofBits_zero_f32

/-- A host matrix product against a 16 × 16 matrix, rectified against the zero broadcast, at an entry. -/
theorem relu_dot_apply (d : DotDims ⟨2, ![8192, 16]⟩ ⟨2, ![16, 16]⟩ ⟨2, ![8192, 16]⟩) (hd : Cert.PlainDot.IsPlain d)
    (h : (⟨0, ![]⟩ : Shape).BroadcastsInDim ⟨2, ![8192, 16]⟩ (![] : Fin 0 → Fin 2))
    (X : FVec Ideal ⟨2, ![8192, 16]⟩ .f32) (w : FVec Ideal ⟨2, ![16, 16]⟩ .f32) (p : Fin 8192) (q : Fin 16) :
    maximumf (Host.dotGeneral d none X w) (broadcastInDim ⟨2, ![8192, 16]⟩ ![] h (constant (F := Ideal) ⟨0, ![]⟩ .f32 0x00000000#32)) (ix2 p q)
      = max (∑ j : Fin 16, X (ix2 p j) * w (ix2 j q)) 0 := by
  rw [maximumf_apply, zeros_apply, Cert.PlainDot.dotGeneral_apply d hd]

/-- A host product with the Laplacian, at an entry. -/
theorem lap_dot_apply (d : DotDims ⟨2, ![8192, 8192]⟩ ⟨2, ![8192, 16]⟩ ⟨2, ![8192, 16]⟩) (hd : Cert.PlainDot.IsPlain d)
    (Lm : FVec Ideal ⟨2, ![8192, 8192]⟩ .f32) (X : FVec Ideal ⟨2, ![8192, 16]⟩ .f32) (p : Fin 8192) (q : Fin 16) :
    Host.dotGeneral d none Lm X (ix2 p q) = ∑ t : Fin 8192, Lm (ix2 p t) * X (ix2 t q) :=
  Cert.PlainDot.dotGeneral_apply d hd none Lm X p q

/-- Weight matrix `k` cut out of the stack of five and re-laid as 16 × 16: entry `(j, q)` is the stack's `(k, j, q)`. -/
theorem weight_slice_apply {α : Type} (k : Fin 5) (w : (⟨3, ![5, 16, 16]⟩ : Shape).Idx → α)
    (hs : (⟨3, ![5, 16, 16]⟩ : Shape).Slices ![k.val, 0, 0] ⟨3, ![1, 16, 16]⟩)
    (hc : (⟨3, ![1, 16, 16]⟩ : Shape).ShapeCasts ⟨2, ![16, 16]⟩) (j q : Fin 16) :
    shapeCast ⟨2, ![16, 16]⟩ (extractStridedSlice ⟨3, ![1, 16, 16]⟩ ![k.val, 0, 0] w hs) hc (ix2 j q) = w (ix3 k j q) := by
  rw [shapeCast_apply _ hc (ix2 j q) (ix3 (0 : Fin 1) j q) (by
    rewrite [Shape.rowMajor_val_three, Shape.rowMajor_val_two]
    show (0 * 16 + j.val) * 16 + q.val = j.val * 16 + q.val
    omega)]
  exact extractStridedSlice_apply ![k.val, 0, 0] w hs (ix3 (0 : Fin 1) j q) (ix3 k j q) (fun a => by
    match a with
    | ⟨0, _⟩ => show k.val = k.val + 0; omega
    | ⟨1, _⟩ => show j.val = 0 + j.val; omega
    | ⟨2, _⟩ => show q.val = 0 + q.val; omega)

end Cert.LayerSpec

end
-- ==== Proof.KernelLayer.lean ====
import proofs.«155136_j78743930404901_2_alg».proof.Proof.Entries
import proofs.«155136_j78743930404901_2_alg».proof.Proof.Hop0Value
import proofs.«155136_j78743930404901_2_alg».proof.Proof.Hop1Value
import proofs.«155136_j78743930404901_2_alg».proof.Proof.Hop2Value
import proofs.«155136_j78743930404901_2_alg».proof.Proof.Hop3Value
import proofs.«155136_j78743930404901_2_alg».proof.Proof.LayerSpec

/-!
# The kernel computes the layer

Step by step. Each propagation step leaves, in its first result array, the Laplacian times the features it was
entered with, and in its second the running output it was entered with plus the rectified product of the NEW
features with its weight matrix (the fourth step rectifies that sum once more). Entered with
`L`, `feat k`, weight slice `k + 1` and `contrib 0 + … + contrib k`, a step therefore leaves `feat (k + 1)` and
`contrib 0 + … + contrib (k + 1)`; the first step is entered with the launch features and the host's `relu (x · W₀)`,
which is `contrib 0`. After the fourth step the running output is the layer.
-/

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL.Sem
open Cert.LayerSpec

variable (m : (ℓ : Loc nD τ sig) → Buf (Elt Ideal) ℓ)

/-- The three arguments as plain functions of their coordinates. -/
abbrev lapOf (c : Dev nD) : Fin 8192 → Fin 8192 → EReal :=
  fun p t => (m ((c.tc : Thread nD τ).loc main_arg1) : Vec Ideal S8192x8192 .f32) (ix2 p t)
abbrev featOf (c : Dev nD) : Fin 8192 → Fin 16 → EReal :=
  fun p j => (m ((c.tc : Thread nD τ).loc main_arg0) : Vec Ideal S8192x16 .f32) (ix2 p j)
abbrev weightOf (c : Dev nD) : Fin 5 → Fin 16 → Fin 16 → EReal :=
  fun k j q => (m ((c.tc : Thread nD τ).loc main_arg2) : Vec Ideal S5x16x16 .f32) (ix3 k j q)

/-- The host product's dimension numbers are plain. -/
theorem host_plain : Cert.PlainDot.IsPlain dot_S8192x16_S16x16_S8192x16_1_0_0_1_n_n := ⟨rfl, rfl, rfl, rfl, rfl, rfl⟩

/-! ## The first step -/

theorem inL0 (c : Dev nD) (p t : Fin 8192) : Hop0.inL (E0 m) c (ix2 p t) = lapOf m c p t := by
  show (E0 m c main_v0 : Vec Ideal S8192x8192 .bf16) (ix2 p t) = _
  rw [e0_lap]; rfl

theorem inX0 (c : Dev nD) (t : Fin 8192) (q : Fin 16) : Hop0.inX (E0 m) c (ix2 t q) = feat (lapOf m c) (featOf m c) 0 t q := by
  show (E0 m c main_arg0 : Vec Ideal S8192x16 .f32) (ix2 t q) = _
  rw [e0_feat]; rfl

theorem inW0 (c : Dev nD) (j q : Fin 16) : Hop0.inW (E0 m) c (ix2 j q) = weightOf m c 1 j q := by
  show (E0 m c main_v6 : Vec Ideal S16x16 .f32) (ix2 j q) = _
  rw [e0_weight]
  exact weight_slice_apply 1 _ slices_S5x16x16_S1x16x16_1_0_0 shapeCasts_S1x16x16_S16x16 j q

theorem inR0 (c : Dev nD) (p : Fin 8192) (q : Fin 16) :
    Hop0.inR (E0 m) c (ix2 p q) = contrib (lapOf m c) (featOf m c) (weightOf m c 0) 0 p q := by
  show (E0 m c main_v4 : Vec Ideal S8192x16 .f32) (ix2 p q) = _
  rw [e0_acc, relu_dot_apply _ host_plain]
  unfold contrib
  refine congrArg (fun s : EReal => max s 0) (Finset.sum_congr rfl fun j _ => ?_)
  exact congrArg (fun s : EReal => featOf m c p j * s)
    (weight_slice_apply 0 _ slices_S5x16x16_S1x16x16_0_0_0 shapeCasts_S1x16x16_S16x16 j q)

theorem x1_apply (c : Dev nD) (p : Fin 8192) (q : Fin 16) :
    (x1 m c : Vec Ideal S8192x16 .f32) (ix2 p q) = feat (lapOf m c) (featOf m c) 1 p q := by
  show Hop0.outX (E0 m) c (ix2 p q) = _
  rw [Hop0.features_out_apply]
  exact Finset.sum_congr rfl fun t _ => by rw [inL0, inX0]

theorem a1_apply (c : Dev nD) (p : Fin 8192) (q : Fin 16) :
    (a1 m c : Vec Ideal S8192x16 .f32) (ix2 p q)
      = contrib (lapOf m c) (featOf m c) (weightOf m c 0) 0 p q + contrib (lapOf m c) (featOf m c) (weightOf m c 1) 1 p q := by
  show Hop0.outR (E0 m) c (ix2 p q) = _
  rw [Hop0.running_out_apply, inR0]
  refine congrArg (fun s : EReal => contrib (lapOf m c) (featOf m c) (weightOf m c 0) 0 p q + s) ?_
  unfold contrib
  refine congrArg (fun s : EReal => max s 0) (Finset.sum_congr rfl fun j _ => ?_)
  rw [inW0]
  exact congrArg (fun s : EReal => s * _) (x1_apply m c p j)

/-! ## The second step -/

theorem inL1 (c : Dev nD) (p t : Fin 8192) : Hop1.inL (E1 m) c (ix2 p t) = lapOf m c p t := by
  show (E1 m c main_v0 : Vec Ideal S8192x8192 .bf16) (ix2 p t) = _
  rw [e1_lap, e0_lap]; rfl

theorem inX1 (c : Dev nD) (t : Fin 8192) (q : Fin 16) : Hop1.inX (E1 m) c (ix2 t q) = feat (lapOf m c) (featOf m c) 1 t q := by
  show (E1 m c main_v7_0 : Vec Ideal S8192x16 .f32) (ix2 t q) = _
  rw [e1_feat]; exact x1_apply m c t q

theorem inW1 (c : Dev nD) (j q : Fin 16) : Hop1.inW (E1 m) c (ix2 j q) = weightOf m c 2 j q := by
  show (E1 m c main_v9 : Vec Ideal S16x16 .f32) (ix2 j q) = _
  rw [e1_weight]
  exact weight_slice_apply 2 _ slices_S5x16x16_S1x16x16_2_0_0 shapeCasts_S1x16x16_S16x16 j q

theorem x2_apply (c : Dev nD) (p : Fin 8192) (q : Fin 16) :
    (x2 m c : Vec Ideal S8192x16 .f32) (ix2 p q) = feat (lapOf m c) (featOf m c) 2 p q := by
  show Hop1.outX (E1 m) c (ix2 p q) = _
  rw [Hop1.features_out_apply]
  exact Finset.sum_congr rfl fun t _ => by rw [inL1, inX1]

theorem a2_apply (c : Dev nD) (p : Fin 8192) (q : Fin 16) :
    (a2 m c : Vec Ideal S8192x16 .f32) (ix2 p q)
      = contrib (lapOf m c) (featOf m c) (weightOf m c 0) 0 p q + contrib (lapOf m c) (featOf m c) (weightOf m c 1) 1 p q
        + contrib (lapOf m c) (featOf m c) (weightOf m c 2) 2 p q := by
  show Hop1.outR (E1 m) c (ix2 p q) = _
  rw [Hop1.running_out_apply]
  refine congrArg₂ (fun a b : EReal => a + b) ?_ ?_
  · show (E1 m c main_v7_1 : Vec Ideal S8192x16 .f32) (ix2 p q) = _
    rw [e1_acc]; exact a1_apply m c p q
  · unfold contrib
    refine congrArg (fun s : EReal => max s 0) (Finset.sum_congr rfl fun j _ => ?_)
    rw [inW1]
    exact congrArg (fun s : EReal => s * _) (x2_apply m c p j)

/-! ## The third step -/

theorem inL2 (c : Dev nD) (p t : Fin 8192) : Hop2.inL (E2 m) c (ix2 p t) = lapOf m c p t := by
  show (E2 m c main_v0 : Vec Ideal S8192x8192 .bf16) (ix2 p t) = _
  rw [e2_lap, e0_lap]; rfl

theorem inX2 (c : Dev nD) (t : Fin 8192) (q : Fin 16) : Hop2.inX (E2 m) c (ix2 t q) = feat (lapOf m c) (featOf m c) 2 t q := by
  show (E2 m c main_v10_0 : Vec Ideal S8192x16 .f32) (ix2 t q) = _
  rw [e2_feat]; exact x2_apply m c t q

theorem inW2 (c : Dev nD) (j q : Fin 16) : Hop2.inW (E2 m) c (ix2 j q) = weightOf m c 3 j q := by
  show (E2 m c main_v12 : Vec Ideal S16x16 .f32) (ix2 j q) = _
  rw [e2_weight]
  exact weight_slice_apply 3 _ slices_S5x16x16_S1x16x16_3_0_0 shapeCasts_S1x16x16_S16x16 j q

theorem x3_apply (c : Dev nD) (p : Fin 8192) (q : Fin 16) :
    (x3 m c : Vec Ideal S8192x16 .f32) (ix2 p q) = feat (lapOf m c) (featOf m c) 3 p q := by
  show Hop2.outX (E2 m) c (ix2 p q) = _
  rw [Hop2.features_out_apply]
  exact Finset.sum_congr rfl fun t _ => by rw [inL2, inX2]

theorem a3_apply (c : Dev nD) (p : Fin 8192) (q : Fin 16) :
    (a3 m c : Vec Ideal S8192x16 .f32) (ix2 p q)
      = contrib (lapOf m c) (featOf m c) (weightOf m c 0) 0 p q + contrib (lapOf m c) (featOf m c) (weightOf m c 1) 1 p q
        + contrib (lapOf m c) (featOf m c) (weightOf m c 2) 2 p q + contrib (lapOf m c) (featOf m c) (weightOf m c 3) 3 p q := by
  show Hop2.outR (E2 m) c (ix2 p q) = _
  rw [Hop2.running_out_apply]
  refine congrArg₂ (fun a b : EReal => a + b) ?_ ?_
  · show (E2 m c main_v10_1 : Vec Ideal S8192x16 .f32) (ix2 p q) = _
    rw [e2_acc]; exact a2_apply m c p q
  · unfold contrib
    refine congrArg (fun s : EReal => max s 0) (Finset.sum_congr rfl fun j _ => ?_)
    rw [inW2]
    exact congrArg (fun s : EReal => s * _) (x3_apply m c p j)

/-! ## The fourth step -/

theorem inL3 (c : Dev nD) (p t : Fin 8192) : Hop3.inL (E3 m) c (ix2 p t) = lapOf m c p t := by
  show (E3 m c main_v0 : Vec Ideal S8192x8192 .bf16) (ix2 p t) = _
  rw [e3_lap, e0_lap]; rfl

theorem inX3 (c : Dev nD) (t : Fin 8192) (q : Fin 16) : Hop3.inX (E3 m) c (ix2 t q) = feat (lapOf m c) (featOf m c) 3 t q := by
  show (E3 m c main_v13_0 : Vec Ideal S8192x16 .f32) (ix2 t q) = _
  rw [e3_feat]; exact x3_apply m c t q

theorem inW3 (c : Dev nD) (j q : Fin 16) : Hop3.inW (E3 m) c (ix2 j q) = weightOf m c 4 j q := by
  show (E3 m c main_v15 : Vec Ideal S16x16 .f32) (ix2 j q) = _
  rw [e3_weight]
  exact weight_slice_apply 4 _ slices_S5x16x16_S1x16x16_4_0_0 shapeCasts_S1x16x16_S16x16 j q

theorem x4_apply (c : Dev nD) (p : Fin 8192) (q : Fin 16) :
    (x4 m c : Vec Ideal S8192x16 .f32) (ix2 p q) = feat (lapOf m c) (featOf m c) 4 p q := by
  show Hop3.outX (E3 m) c (ix2 p q) = _
  rw [Hop3.features_out_apply]
  exact Finset.sum_congr rfl fun t _ => by rw [inL3, inX3]

/-- THE KERNEL IS THE LAYER: after the fourth step the running output, at every entry. -/
theorem a4_apply (c : Dev nD) (p : Fin 8192) (q : Fin 16) :
    (a4 m c : Vec Ideal S8192x16 .f32) (ix2 p q) = layer (lapOf m c) (featOf m c) (weightOf m c) p q := by
  show Hop3.outR (E3 m) c (ix2 p q) = _
  rw [Hop3.running_out_apply]
  unfold layer
  refine congrArg (fun s : EReal => max s 0) (congrArg₂ (fun a b : EReal => a + b) ?_ ?_)
  · show (E3 m c main_v13_1 : Vec Ideal S8192x16 .f32) (ix2 p q) = _
    rw [e3_acc]; exact a3_apply m c p q
  · unfold contrib
    refine congrArg (fun s : EReal => max s 0) (Finset.sum_congr rfl fun j _ => ?_)
    rw [inW3]
    exact congrArg (fun s : EReal => s * _) (x4_apply m c p j)

end Cert.KernelIdeal.Whole

end
-- ==== Proof.RefRead.lean ====
import proofs.«155136_j78743930404901_2_alg».proof.Proof.Gen.ReferenceIdeal.Read
import proofs.«155136_j78743930404901_2_alg».proof.Proof.LayerSpec

/-!
# The reference computes the layer

The reference's result is one composed term of its three arguments: four host products with the Laplacian, one
inside the other; five host products with the weight slices, each rectified against a zero broadcast; four
additions, in order; a last rectification. Entry by entry this is the layer's definition: a product with the
Laplacian is the next features, a rectified weight product is a step's contribution.
-/

noncomputable section

namespace Cert.ReferenceIdeal.RefValue

open Cert.ReferenceIdeal Cert.ReferenceIdeal.Gen Idealize.ShloMosaic Idealize.ShloMosaic.ValueIdx Cert.LayerSpec

/-- Both of the reference's products are plain: rows by columns, one contracted axis, no batch. -/
theorem lap_plain : Cert.PlainDot.IsPlain dot_S8192x8192_S8192x16_S8192x16_1_0_0_1_n_n := ⟨rfl, rfl, rfl, rfl, rfl, rfl⟩
theorem weight_plain : Cert.PlainDot.IsPlain dot_S8192x16_S16x16_S8192x16_1_0_0_1_n_n := ⟨rfl, rfl, rfl, rfl, rfl, rfl⟩

section

variable (x0 : FVec Ideal S8192x16 .f32) (x1 : FVec Ideal S8192x8192 .f32) (x2 : FVec Ideal S5x16x16 .f32)

/-- The arguments as plain functions of their coordinates. -/
abbrev lapOf : Fin 8192 → Fin 8192 → EReal := fun p t => x1 (ix2 p t)
abbrev featOf : Fin 8192 → Fin 16 → EReal := fun p j => x0 (ix2 p j)
abbrev weightOf : Fin 5 → Fin 16 → Fin 16 → EReal := fun k j q => x2 (ix3 k j q)

/-- One more product with the Laplacian is one more propagation step. -/
theorem feat_step (X : FVec Ideal S8192x16 .f32) (k : ℕ) (hX : ∀ t q, X (ix2 t q) = feat (lapOf x1) (featOf x0) k t q)
    (p : Fin 8192) (q : Fin 16) :
    Host.dotGeneral dot_S8192x8192_S8192x16_S8192x16_1_0_0_1_n_n none x1 X (ix2 p q) = feat (lapOf x1) (featOf x0) (k + 1) p q := by
  rw [lap_dot_apply _ lap_plain]
  exact Finset.sum_congr rfl fun t _ => by rw [hX]

/-- A rectified product of the features after `k` steps with weight slice `kk` is that step's contribution. -/
theorem contrib_step (X : FVec Ideal S8192x16 .f32) (k : ℕ) (hX : ∀ p j, X (ix2 p j) = feat (lapOf x1) (featOf x0) k p j)
    (kk : Fin 5) (hs : S5x16x16.Slices ![kk.val, 0, 0] S1x16x16) (p : Fin 8192) (q : Fin 16) :
    maximumf (Host.dotGeneral dot_S8192x16_S16x16_S8192x16_1_0_0_1_n_n none X
        (shapeCast _ (extractStridedSlice S1x16x16 ![kk.val, 0, 0] x2 hs) shapeCasts_S1x16x16_S16x16))
      (broadcastInDim S8192x16 ![] bcast_S_S8192x16 (constant (F := Ideal) S_ .f32 0x00000000#32)) (ix2 p q)
      = contrib (lapOf x1) (featOf x0) (weightOf x2 kk) k p q := by
  rw [relu_dot_apply _ weight_plain]
  unfold contrib
  refine congrArg (max · 0) (Finset.sum_congr rfl fun j _ => ?_)
  rw [hX, weight_slice_apply kk x2 hs]

/-- THE REFERENCE IS THE LAYER: its composed result term, at every entry. -/
theorem result_apply (p : Fin 8192) (q : Fin 16) :
    Cert.ReferenceIdeal.Read.val_main_v28 (F := Ideal) x0 x1 x2 (ix2 p q) = layer (lapOf x1) (featOf x0) (weightOf x2) p q := by
  have h0 : ∀ t q, x0 (ix2 t q) = feat (lapOf x1) (featOf x0) 0 t q := fun _ _ => rfl
  have h1 := feat_step x0 x1 x0 0 h0
  have h2 := feat_step x0 x1 _ 1 h1
  have h3 := feat_step x0 x1 _ 2 h2
  have h4 := feat_step x0 x1 _ 3 h3
  rw [← Cert.ReferenceIdeal.Read.val_main_v28_eq]
  rw [maximumf_apply, zeros_apply, addf_apply, addf_apply, addf_apply, addf_apply]
  unfold layer
  refine congrArg (max · 0) ?_
  refine congrArg₂ (· + ·) (congrArg₂ (· + ·) (congrArg₂ (· + ·) (congrArg₂ (· + ·) ?_ ?_) ?_) ?_) ?_
  · exact contrib_step x0 x1 x2 x0 0 h0 0 slices_S5x16x16_S1x16x16_0_0_0 p q
  · exact contrib_step x0 x1 x2 _ 1 h1 1 slices_S5x16x16_S1x16x16_1_0_0 p q
  · exact contrib_step x0 x1 x2 _ 2 h2 2 slices_S5x16x16_S1x16x16_2_0_0 p q
  · exact contrib_step x0 x1 x2 _ 3 h3 3 slices_S5x16x16_S1x16x16_3_0_0 p q
  · exact contrib_step x0 x1 x2 _ 4 h4 4 slices_S5x16x16_S1x16x16_4_0_0 p q

end

end Cert.ReferenceIdeal.RefValue

end
-- ==== Proof.lean ====
/-
  A graph layer `out = relu (∑_{p < 5} relu (L^p x W_p))`: a tiled kernel against a plain reference, over the
  extended reals.

  THE KERNEL propagates the features recursively, `xp ← L · xp`, by four calls of one tiled step. A step's grid is
  4 × 4: point `(i, k)` multiplies the 2048 × 2048 tile `(i, k)` of the Laplacian by rows `2048 k …` of the features
  and adds the product into a scratch block that lives across the four points of row `i` (reset when `k = 0`); when
  `k = 3` the finished block is rows `2048 i …` of the new features, and the running output's rows `2048 i …` become
  the incoming rows plus `relu (new rows · W_p)` — rectified once more in the fourth call, which is where the layer's
  closing `relu` is done. The host computes `relu (x · W₀)`, the Laplacian's change of format and the weight slices.
  THE REFERENCE multiplies by the whole Laplacian four times and adds the five rectified products in order.

  WHY THEY AGREE. With exact arithmetic a change of float format is the identity, and a contraction over 8192
  columns is the sum of its four consecutive blocks of 2048, in whatever order they are added: only commutativity
  and associativity of `+` are used, so nothing is asked of the inputs and the precondition is never opened. Entry by
  entry both programs compute the function `Cert.LayerSpec.layer` of the three arguments.

  HOW THE PROOF IS LAID OUT.
  * One step, at any float instance (`Hop0Points … Hop0Body`, and the same for the other three calls): the grid's
    sixteen points are of three kinds (first, middle, last of a row); the body is run once per kind; what the scratch
    and the two output blocks hold after each point is a recursion on the point; the region's invariant carries the
    scratch from point to point; this gives the body obligation of the pipeline's launch rule.
  * The program (`Whole`, `WholeRun`): its ten items — host stretches and the four steps — chained through the
    contents of the unscoped buffers, each step a region record; this gives the frame (every execution terminates,
    nothing faults, the arguments are unchanged), and the run with the result array named. The same modules with
    the other program's names substituted (`WHop…`, `WWhole`) give the word-level program's frame.
  * One step's values over the extended reals (`Hop0Pieces`, `Hop0Blocks`, `Hop0Rows`, `Hop0Value`, `HopEntries`):
    the stores' pieces are the body's arithmetic; a block read off its array; the four tile products of a row are the
    four blocks of one contraction (`LibBlockSum`); the four row blocks written back cover the result arrays.
  * The chain (`Entries`, `KernelLayer`) and the reference (`RefRead`): each step entered with the features after
    `k` steps leaves the features after `k + 1`; both programs' results are `layer` at every entry.
-/
import proofs.«155136_j78743930404901_2_alg».proof.Defs
import proofs.«155136_j78743930404901_2_alg».proof.Proof.Gen.Kernel
import proofs.«155136_j78743930404901_2_alg».proof.Proof.Gen.KernelIdeal
import proofs.«155136_j78743930404901_2_alg».proof.Proof.Gen.ReferenceIdeal
import proofs.«155136_j78743930404901_2_alg».proof.Proof.Gen.Pre_finite_inputs
import proofs.«155136_j78743930404901_2_alg».proof.Proof.WWhole
import proofs.«155136_j78743930404901_2_alg».proof.Proof.WholeRun
import proofs.«155136_j78743930404901_2_alg».proof.Proof.KernelLayer
import proofs.«155136_j78743930404901_2_alg».proof.Proof.RefRead
import Idealize.ShloMosaic.Adequacy
import Idealize.ShloMosaic.Init

noncomputable section

namespace Cert.Proof

open Idealize.ShloMosaic Idealize.ShloMosaic.ValueIdx Idealize.SL.Sem

/-- The idealized kernel's result array and the reference's are one function of arguments that agree: at every
    entry both are the layer. -/
theorem results_agree (x0 : FVec Ideal Cert.ReferenceIdeal.S8192x16 .f32) (x1 : FVec Ideal Cert.ReferenceIdeal.S8192x8192 .f32)
    (x2 : FVec Ideal Cert.ReferenceIdeal.S5x16x16 .f32)
    (m : (ℓ : Loc Cert.KernelIdeal.nD Cert.KernelIdeal.τ Cert.KernelIdeal.sig) → Buf (Elt Ideal) ℓ) (c : Dev Cert.KernelIdeal.nD)
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2)) :
    Cert.ReferenceIdeal.Read.val_main_v28 (F := Ideal) x0 x1 x2 = Cert.KernelIdeal.Whole.a4 m c := by
  subst h0 h1 h2
  funext i
  obtain ⟨p, q, rfl⟩ : ∃ (p : Fin 8192) (q : Fin 16), i = ix2 p q := ⟨i 0, i 1, eq_ix2 i⟩
  exact (Cert.ReferenceIdeal.RefValue.result_apply _ _ _ p q).trans (Cert.KernelIdeal.Whole.a4_apply m c p q).symm

theorem claim : Cert.Claim :=
  ⟨Cert.Kernel.Gen.facts, Cert.KernelIdeal.Gen.facts, Cert.ReferenceIdeal.Gen.facts, Cert.Pre_finite_inputs.Gen.facts,
    -- the word-level kernel's frame
    fun m ρ _ => Cert.Kernel.Whole.frame (F := Bits) m ρ,
    -- the idealized kernel's frame
    fun m ρ _ => Cert.KernelIdeal.Whole.frame (F := Ideal) m ρ,
    -- the reference's frame: its run with the result dropped
    fun m ρ _ => (θ_run Cert.ReferenceIdeal.defs _ _).mono (fun _ h c => (h c).2) (Cert.ReferenceIdeal.Value.run (F := Ideal) m ρ),
    -- the idealization rewrote nothing
    trivial,
    -- the two idealized programs end with equal results
    fun m ρ m' ρ' _ hagree =>
      ⟨fun c => Cert.KernelIdeal.Whole.a4 m c, Cert.KernelIdeal.Whole.run_value (F := Ideal) m ρ,
        (θ_run Cert.ReferenceIdeal.defs _ _).mono
          (fun _ h c => ⟨(h c).1.trans (by
              rw [Cert.ReferenceIdeal.Read.val_main_v28_eq]
              exact results_agree _ _ _ m c (hagree c).1 (hagree c).2.1 (hagree c).2.2), (h c).2⟩)
          (Cert.ReferenceIdeal.Value.run (F := Ideal) m' ρ')⟩⟩

end Cert.Proof

end
